-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg1 : IVec S2x320000 32) (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S2x320000 32 := broadcastInDim S2x320000 ![] bcast_S_S2x320000 main_c_8
  let main_v25 : IVec S2x320000 1 := cmpi .sge main_arg1 main_v24
  let main_c_9 : IVec S_ 32 := constantI S_ 32 9999#32
  let main_v26 : IVec S2x320000 32 := broadcastInDim S2x320000 ![] bcast_S_S2x320000 main_c_9
  let main_v27 : IVec S2x320000 1 := cmpi .sle main_arg1 main_v26
  let main_v28 : IVec S2x320000 1 := andi main_v25 main_v27
  let main_c_10 : IVec S_ 1 := constantI S_ 1 1#1
  let main_v29 : IVec S_ 1 := (fun x v => Host.reduce IntOp.andi x v reducesTo_S2x320000_S_d0_1 h_S_) main_v28 main_c_10
  let main_v30 : IVec S_ 1 := andi main_v23 main_v29
  main_v30

def fn {F : FTy → Type} [FloatOps F] (main_arg0 : FVec F S10000x128 .f32) (main_arg1 : IVec S2x320000 32) (main_arg2 : FVec F S128x64 .f32) (main_arg3 : FVec F S64 .f32) (main_arg4 : FVec F S64x1 .f32) (main_arg5 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg1 main_arg5 main_v13 main_v16
-- ==== Kernel.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S640000 : Shape := ⟨1, ![640000]⟩
abbrev S320000x128 : Shape := ⟨2, ![320000, 128]⟩
abbrev S10000 : Shape := ⟨1, ![10000]⟩
abbrev S80x128 : Shape := ⟨2, ![80, 128]⟩
abbrev S_ : Shape := ⟨0, ![]⟩
abbrev S80 : Shape := ⟨1, ![80]⟩
abbrev S1x16 : Shape := ⟨2, ![1, 16]⟩
abbrev S16 : Shape := ⟨1, ![16]⟩
abbrev S1x64 : Shape := ⟨2, ![1, 64]⟩
abbrev S1x1 : Shape := ⟨2, ![1, 1]⟩
abbrev S320000x1 : Shape := ⟨2, ![320000, 1]⟩
abbrev S16000x128 : Shape := ⟨2, ![16000, 128]⟩
abbrev S16000x1 : Shape := ⟨2, ![16000, 1]⟩
abbrev S16000x64 : Shape := ⟨2, ![16000, 64]⟩
abbrev S16000 : Shape := ⟨1, ![16000]⟩

abbrev nBuf : Table → Nat
  | .hbm => 12
  | .local .tc .vmem => 8
  | .local .scVector .vmem => 8
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S640000, .i32⟩
  | .hbm, ⟨7, _⟩ => ⟨S320000x128, .f32⟩
  | .hbm, ⟨8, _⟩ => ⟨S1x64, .f32⟩
  | .hbm, ⟨9, _⟩ => ⟨S1x64, .f32⟩
  | .hbm, ⟨10, _⟩ => ⟨S1x1, .f32⟩
  | .hbm, ⟨11, _⟩ => ⟨S320000x1, .f32⟩
  | .local .tc .vmem, ⟨0, _⟩ => ⟨S16000x128, .f32⟩
  | .local .tc .vmem, ⟨1, _⟩ => ⟨S16000x128, .f32⟩
  | .local .tc .vmem, ⟨2, _⟩ => ⟨S128x64, .f32⟩
  | .local .tc .vmem, ⟨3, _⟩ => ⟨S1x64, .f32⟩
  | .local .tc .vmem, ⟨4, _⟩ => ⟨S1x64, .f32⟩
  | .local .tc .vmem, ⟨5, _⟩ => ⟨S1x1, .f32⟩
  | .local .tc .vmem, ⟨6, _⟩ => ⟨S16000x1, .f32⟩
  | .local .tc .vmem, ⟨7, _⟩ => ⟨S16000x1, .f32⟩
  | .local .scVector .vmem, ⟨0, _⟩ => ⟨S10000, .i32⟩
  | .local .scVector .vmem, ⟨1, _⟩ => ⟨S10000, .i32⟩
  | .local .scVector .vmem, ⟨2, _⟩ => ⟨S80x128, .f32⟩
  | .local .scVector .vmem, ⟨3, _⟩ => ⟨S80x128, .f32⟩
  | .local .scVector .vmem, ⟨4, _⟩ => ⟨S80x128, .f32⟩
  | .local .scVector .vmem, ⟨5, _⟩ => ⟨S80x128, .f32⟩
  | .local .scVector .vmem, ⟨6, _⟩ => ⟨S80x128, .f32⟩
  | .local .scVector .vmem, ⟨7, _⟩ => ⟨S80x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0_scv : Ref sig .scVector := ⟨.hbm, 0, rfl⟩
abbrev main_v0_scv : Ref sig .scVector := ⟨.hbm, 6, rfl⟩
abbrev main_v1_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
def k0_off2 (i : grid0.Coords) : Fin 1 → Nat :=
  let c320000_i32 : BitVec 32 := 320000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v3 : BitVec 32 := Scalar.addi c320000_i32 v2
  ![v3.toNat]
@[reducible] def k0_t1_loop : Scf.Loop 32 :=
  let c0_i32_11 : BitVec 32 := 0#32
  let c63_i32 : BitVec 32 := 63#32
  let v12 : BitVec 32 := Scalar.addi c0_i32_11 c63_i32
  let c1_i32 : BitVec 32 := 1#32
  ⟨c0_i32_11, v12, c1_i32⟩
def k0_off3 (k0_t1 : Fin k0_t1_loop.trips) : Fin 1 → Nat :=
  let c2_i32_17 : BitVec 32 := 2#32
  let c0_i32_11 : BitVec 32 := 0#32
  let c1_i32 : BitVec 32 := 1#32
  let arg19 : BitVec 32 := Scf.iv c0_i32_11 c1_i32 k0_t1
  let v20 : BitVec 32 := Scalar.muli c2_i32_17 arg19
  let c0_i32_18 : BitVec 32 := 0#32
  let v21 : BitVec 32 := Scalar.addi v20 c0_i32_18
  let c80_i32_19 : BitVec 32 := 80#32
  let v22 : BitVec 32 := Scalar.muli v21 c80_i32_19
  ![v22.toNat]
def k0_cond1 (k0_t1 : Fin k0_t1_loop.trips) : BitVec 1 :=
  let c0_i32_11 : BitVec 32 := 0#32
  let c1_i32 : BitVec 32 := 1#32
  let arg19 : BitVec 32 := Scf.iv c0_i32_11 c1_i32 k0_t1
  let c0_i32_25 : BitVec 32 := 0#32
  let v28 : BitVec 1 := Scalar.cmpi .sgt arg19 c0_i32_25
  let v29 : BitVec 32 := Scalar.extui v28
  let c0_i32_26 : BitVec 32 := 0#32
  let v30 : BitVec 1 := Scalar.cmpi .ne v29 c0_i32_26
  v30

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c2_i32_17 : BitVec 32 := 2#32
  let c0_i32_11 : BitVec 32 := 0#32
  let c1_i32 : BitVec 32 := 1#32
  let arg19 : BitVec 32 := Scf.iv c0_i32_11 c1_i32 k0_t1
  let v20 : BitVec 32 := Scalar.muli c2_i32_17 arg19
  let c0_i32_18 : BitVec 32 := 0#32
  let v21 : BitVec 32 := Scalar.addi v20 c0_i32_18
  let c2_i32_42 : BitVec 32 := 2#32
  let v46 : BitVec 32 := Scalar.subi v21 c2_i32_42
  let c80_i32_43 : BitVec 32 := 80#32
  let v47 : BitVec 32 := Scalar.muli v46 c80_i32_43
  let v48 : BitVec 32 := Scalar.addi v2 v47
  let c0_i32_44 : BitVec 32 := 0#32
  ![v48.toNat, 0]
@[reducible] def k0_t2_loop : Scf.Loop 32 :=
  let c0_i32_28 : BitVec 32 := 0#32
  let c80_i32_29 : BitVec 32 := 80#32
  let v31 : BitVec 32 := Scalar.addi c0_i32_28 c80_i32_29
  let c1_i32_30 : BitVec 32 := 1#32
  ⟨c0_i32_28, v31, c1_i32_30⟩
def k0_off5 (k0_t2 : Fin k0_t2_loop.trips) : Fin 2 → Nat :=
  let c0_i32_28 : BitVec 32 := 0#32
  let c1_i32_30 : BitVec 32 := 1#32
  let arg21 : BitVec 32 := Scf.iv c0_i32_28 c1_i32_30 k0_t2
  let v46 : Index := Scalar.indexCast arg21
  let c0 : Index := 0#32
  ![v46.toNat, 0]
def k0_off6 (k0_t2 : Fin k0_t2_loop.trips) : Fin 2 → Nat :=
  let c0_i32_28 : BitVec 32 := 0#32
  let c1_i32_30 : BitVec 32 := 1#32
  let arg21 : BitVec 32 := Scf.iv c0_i32_28 c1_i32_30 k0_t2
  let v57 : Index := Scalar.indexCast arg21
  let c16 : Index := 16#32
  ![v57.toNat, 16]
def k0_off7 (k0_t2 : Fin k0_t2_loop.trips) : Fin 2 → Nat :=
  let c0_i32_28 : BitVec 32 := 0#32
  let c1_i32_30 : BitVec 32 := 1#32
  let arg21 : BitVec 32 := Scf.iv c0_i32_28 c1_i32_30 k0_t2
  let v68 : Index := Scalar.indexCast arg21
  let c32 : Index := 32#32
  ![v68.toNat, 32]
def k0_off8 (k0_t2 : Fin k0_t2_loop.trips) : Fin 2 → Nat :=
  let c0_i32_28 : BitVec 32 := 0#32
  let c1_i32_30 : BitVec 32 := 1#32
  let arg21 : BitVec 32 := Scf.iv c0_i32_28 c1_i32_30 k0_t2
  let v79 : Index := Scalar.indexCast arg21
  let c48 : Index := 48#32
  ![v79.toNat, 48]
def k0_off9 (k0_t2 : Fin k0_t2_loop.trips) : Fin 2 → Nat :=
  let c0_i32_28 : BitVec 32 := 0#32
  let c1_i32_30 : BitVec 32 := 1#32
  let arg21 : BitVec 32 := Scf.iv c0_i32_28 c1_i32_30 k0_t2
  let v90 : Index := Scalar.indexCast arg21
  let c64 : Index := 64#32
  ![v90.toNat, 64]
def k0_off10 (k0_t2 : Fin k0_t2_loop.trips) : Fin 2 → Nat :=
  let c0_i32_28 : BitVec 32 := 0#32
  let c1_i32_30 : BitVec 32 := 1#32
  let arg21 : BitVec 32 := Scf.iv c0_i32_28 c1_i32_30 k0_t2
  let v101 : Index := Scalar.indexCast arg21
  let c80 : Index := 80#32
  ![v101.toNat, 80]
def k0_off11 (k0_t2 : Fin k0_t2_loop.trips) : Fin 2 → Nat :=
  let c0_i32_28 : BitVec 32 := 0#32
  let c1_i32_30 : BitVec 32 := 1#32
  let arg21 : BitVec 32 := Scf.iv c0_i32_28 c1_i32_30 k0_t2
  let v112 : Index := Scalar.indexCast arg21
  let c96 : Index := 96#32
  ![v112.toNat, 96]
def k0_off12 (k0_t2 : Fin k0_t2_loop.trips) : Fin 2 → Nat :=
  let c0_i32_28 : BitVec 32 := 0#32
  let c1_i32_30 : BitVec 32 := 1#32
  let arg21 : BitVec 32 := Scf.iv c0_i32_28 c1_i32_30 k0_t2
  let v123 : Index := Scalar.indexCast arg21
  let c112 : Index := 112#32
  ![v123.toNat, 112]
def k0_cond2 (k0_t1 : Fin k0_t1_loop.trips) : BitVec 1 :=
  let c2_i32_17 : BitVec 32 := 2#32
  let c0_i32_11 : BitVec 32 := 0#32
  let c1_i32 : BitVec 32 := 1#32
  let arg19 : BitVec 32 := Scf.iv c0_i32_11 c1_i32 k0_t1
  let v20 : BitVec 32 := Scalar.muli c2_i32_17 arg19
  let c0_i32_18 : BitVec 32 := 0#32
  let v21 : BitVec 32 := Scalar.addi v20 c0_i32_18
  let c2_i32_32 : BitVec 32 := 2#32
  let v33 : BitVec 32 := Scalar.addi v21 c2_i32_32
  let c125_i32 : BitVec 32 := 125#32
  let v34 : BitVec 1 := Scalar.cmpi .slt v33 c125_i32
  let v35 : BitVec 32 := Scalar.extui v34
  let c0_i32_33 : BitVec 32 := 0#32
  let v36 : BitVec 1 := Scalar.cmpi .ne v35 c0_i32_33
  v36

def k0_off13 (k0_t1 : Fin k0_t1_loop.trips) : Fin 1 → Nat :=
  let c2_i32_17 : BitVec 32 := 2#32
  let c0_i32_11 : BitVec 32 := 0#32
  let c1_i32 : BitVec 32 := 1#32
  let arg19 : BitVec 32 := Scf.iv c0_i32_11 c1_i32 k0_t1
  let v20 : BitVec 32 := Scalar.muli c2_i32_17 arg19
  let c0_i32_18 : BitVec 32 := 0#32
  let v21 : BitVec 32 := Scalar.addi v20 c0_i32_18
  let c2_i32_42 : BitVec 32 := 2#32
  let v46 : BitVec 32 := Scalar.addi v21 c2_i32_42
  let c80_i32_43 : BitVec 32 := 80#32
  let v47 : BitVec 32 := Scalar.muli v46 c80_i32_43
  ![v47.toNat]
def k0_off14 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c2_i32_17 : BitVec 32 := 2#32
  let c0_i32_11 : BitVec 32 := 0#32
  let c1_i32 : BitVec 32 := 1#32
  let arg19 : BitVec 32 := Scf.iv c0_i32_11 c1_i32 k0_t1
  let v20 : BitVec 32 := Scalar.muli c2_i32_17 arg19
  let c0_i32_18 : BitVec 32 := 0#32
  let v21 : BitVec 32 := Scalar.addi v20 c0_i32_18
  let c80_i32_34 : BitVec 32 := 80#32
  let v37 : BitVec 32 := Scalar.muli v21 c80_i32_34
  let v38 : BitVec 32 := Scalar.addi v2 v37
  let c0_i32_35 : BitVec 32 := 0#32
  ![v38.toNat, 0]
def k0_cond3 (k0_t1 : Fin k0_t1_loop.trips) : BitVec 1 :=
  let c2_i32_37 : BitVec 32 := 2#32
  let c0_i32_11 : BitVec 32 := 0#32
  let c1_i32 : BitVec 32 := 1#32
  let arg19 : BitVec 32 := Scf.iv c0_i32_11 c1_i32 k0_t1
  let v41 : BitVec 32 := Scalar.muli c2_i32_37 arg19
  let c1_i32_38 : BitVec 32 := 1#32
  let v42 : BitVec 32 := Scalar.addi v41 c1_i32_38
  let c125_i32_39 : BitVec 32 := 125#32
  let v43 : BitVec 1 := Scalar.cmpi .slt v42 c125_i32_39
  let v44 : BitVec 32 := Scalar.extui v43
  let c0_i32_40 : BitVec 32 := 0#32
  let v45 : BitVec 1 := Scalar.cmpi .ne v44 c0_i32_40
  v45

def k0_off15 (k0_t1 : Fin k0_t1_loop.trips) : Fin 1 → Nat :=
  let c2_i32_37 : BitVec 32 := 2#32
  let c0_i32_11 : BitVec 32 := 0#32
  let c1_i32 : BitVec 32 := 1#32
  let arg19 : BitVec 32 := Scf.iv c0_i32_11 c1_i32 k0_t1
  let v41 : BitVec 32 := Scalar.muli c2_i32_37 arg19
  let c1_i32_38 : BitVec 32 := 1#32
  let v42 : BitVec 32 := Scalar.addi v41 c1_i32_38
  let c80_i32_42 : BitVec 32 := 80#32
  let v46 : BitVec 32 := Scalar.muli v42 c80_i32_42
  ![v46.toNat]
def k0_cond4 (k0_t1 : Fin k0_t1_loop.trips) : BitVec 1 :=
  let c0_i32_11 : BitVec 32 := 0#32
  let c1_i32 : BitVec 32 := 1#32
  let arg19 : BitVec 32 := Scf.iv c0_i32_11 c1_i32 k0_t1
  let c0_i32_48 : BitVec 32 := 0#32
  let v52 : BitVec 1 := Scalar.cmpi .sgt arg19 c0_i32_48
  let v53 : BitVec 32 := Scalar.extui v52
  let c0_i32_49 : BitVec 32 := 0#32
  let v54 : BitVec 1 := Scalar.cmpi .ne v53 c0_i32_49
  v54

def k0_off16 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c2_i32_37 : BitVec 32 := 2#32
  let c0_i32_11 : BitVec 32 := 0#32
  let c1_i32 : BitVec 32 := 1#32
  let arg19 : BitVec 32 := Scf.iv c0_i32_11 c1_i32 k0_t1
  let v41 : BitVec 32 := Scalar.muli c2_i32_37 arg19
  let c1_i32_38 : BitVec 32 := 1#32
  let v42 : BitVec 32 := Scalar.addi v41 c1_i32_38
  let c2_i32_61 : BitVec 32 := 2#32
  let v65 : BitVec 32 := Scalar.subi v42 c2_i32_61
  let c80_i32_62 : BitVec 32 := 80#32
  let v66 : BitVec 32 := Scalar.muli v65 c80_i32_62
  let v67 : BitVec 32 := Scalar.addi v2 v66
  let c0_i32_63 : BitVec 32 := 0#32
  ![v67.toNat, 0]
@[reducible] def k0_t3_loop : Scf.Loop 32 :=
  let c0_i32_51 : BitVec 32 := 0#32
  let c80_i32_52 : BitVec 32 := 80#32
  let v55 : BitVec 32 := Scalar.addi c0_i32_51 c80_i32_52
  let c1_i32_53 : BitVec 32 := 1#32
  ⟨c0_i32_51, v55, c1_i32_53⟩
def k0_off17 (k0_t3 : Fin k0_t3_loop.trips) : Fin 2 → Nat :=
  let c0_i32_51 : BitVec 32 := 0#32
  let c1_i32_53 : BitVec 32 := 1#32
  let arg21 : BitVec 32 := Scf.iv c0_i32_51 c1_i32_53 k0_t3
  let v65 : Index := Scalar.indexCast arg21
  let c0 : Index := 0#32
  ![v65.toNat, 0]
def k0_off18 (k0_t3 : Fin k0_t3_loop.trips) : Fin 2 → Nat :=
  let c0_i32_51 : BitVec 32 := 0#32
  let c1_i32_53 : BitVec 32 := 1#32
  let arg21 : BitVec 32 := Scf.iv c0_i32_51 c1_i32_53 k0_t3
  let v76 : Index := Scalar.indexCast arg21
  let c16 : Index := 16#32
  ![v76.toNat, 16]
def k0_off19 (k0_t3 : Fin k0_t3_loop.trips) : Fin 2 → Nat :=
  let c0_i32_51 : BitVec 32 := 0#32
  let c1_i32_53 : BitVec 32 := 1#32
  let arg21 : BitVec 32 := Scf.iv c0_i32_51 c1_i32_53 k0_t3
  let v87 : Index := Scalar.indexCast arg21
  let c32 : Index := 32#32
  ![v87.toNat, 32]
def k0_off20 (k0_t3 : Fin k0_t3_loop.trips) : Fin 2 → Nat :=
  let c0_i32_51 : BitVec 32 := 0#32
  let c1_i32_53 : BitVec 32 := 1#32
  let arg21 : BitVec 32 := Scf.iv c0_i32_51 c1_i32_53 k0_t3
  let v98 : Index := Scalar.indexCast arg21
  let c48 : Index := 48#32
  ![v98.toNat, 48]
def k0_off21 (k0_t3 : Fin k0_t3_loop.trips) : Fin 2 → Nat :=
  let c0_i32_51 : BitVec 32 := 0#32
  let c1_i32_53 : BitVec 32 := 1#32
  let arg21 : BitVec 32 := Scf.iv c0_i32_51 c1_i32_53 k0_t3
  let v109 : Index := Scalar.indexCast arg21
  let c64 : Index := 64#32
  ![v109.toNat, 64]
def k0_off22 (k0_t3 : Fin k0_t3_loop.trips) : Fin 2 → Nat :=
  let c0_i32_51 : BitVec 32 := 0#32
  let c1_i32_53 : BitVec 32 := 1#32
  let arg21 : BitVec 32 := Scf.iv c0_i32_51 c1_i32_53 k0_t3
  let v120 : Index := Scalar.indexCast arg21
  let c80 : Index := 80#32
  ![v120.toNat, 80]
def k0_off23 (k0_t3 : Fin k0_t3_loop.trips) : Fin 2 → Nat :=
  let c0_i32_51 : BitVec 32 := 0#32
  let c1_i32_53 : BitVec 32 := 1#32
  let arg21 : BitVec 32 := Scf.iv c0_i32_51 c1_i32_53 k0_t3
  let v131 : Index := Scalar.indexCast arg21
  let c96 : Index := 96#32
  ![v131.toNat, 96]
def k0_off24 (k0_t3 : Fin k0_t3_loop.trips) : Fin 2 → Nat :=
  let c0_i32_51 : BitVec 32 := 0#32
  let c1_i32_53 : BitVec 32 := 1#32
  let arg21 : BitVec 32 := Scf.iv c0_i32_51 c1_i32_53 k0_t3
  let v142 : Index := Scalar.indexCast arg21
  let c112 : Index := 112#32
  ![v142.toNat, 112]
def k0_cond5 (k0_t1 : Fin k0_t1_loop.trips) : BitVec 1 :=
  let c2_i32_37 : BitVec 32 := 2#32
  let c0_i32_11 : BitVec 32 := 0#32
  let c1_i32 : BitVec 32 := 1#32
  let arg19 : BitVec 32 := Scf.iv c0_i32_11 c1_i32 k0_t1
  let v41 : BitVec 32 := Scalar.muli c2_i32_37 arg19
  let c1_i32_38 : BitVec 32 := 1#32
  let v42 : BitVec 32 := Scalar.addi v41 c1_i32_38
  let c2_i32_55 : BitVec 32 := 2#32
  let v57 : BitVec 32 := Scalar.addi v42 c2_i32_55
  let c125_i32_56 : BitVec 32 := 125#32
  let v58 : BitVec 1 := Scalar.cmpi .slt v57 c125_i32_56
  let v59 : BitVec 32 := Scalar.extui v58
  let c0_i32_57 : BitVec 32 := 0#32
  let v60 : BitVec 1 := Scalar.cmpi .ne v59 c0_i32_57
  v60

def k0_off25 (k0_t1 : Fin k0_t1_loop.trips) : Fin 1 → Nat :=
  let c2_i32_37 : BitVec 32 := 2#32
  let c0_i32_11 : BitVec 32 := 0#32
  let c1_i32 : BitVec 32 := 1#32
  let arg19 : BitVec 32 := Scf.iv c0_i32_11 c1_i32 k0_t1
  let v41 : BitVec 32 := Scalar.muli c2_i32_37 arg19
  let c1_i32_38 : BitVec 32 := 1#32
  let v42 : BitVec 32 := Scalar.addi v41 c1_i32_38
  let c2_i32_61 : BitVec 32 := 2#32
  let v65 : BitVec 32 := Scalar.addi v42 c2_i32_61
  let c80_i32_62 : BitVec 32 := 80#32
  let v66 : BitVec 32 := Scalar.muli v65 c80_i32_62
  ![v66.toNat]
def k0_off26 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c2_i32_37 : BitVec 32 := 2#32
  let c0_i32_11 : BitVec 32 := 0#32
  let c1_i32 : BitVec 32 := 1#32
  let arg19 : BitVec 32 := Scf.iv c0_i32_11 c1_i32 k0_t1
  let v41 : BitVec 32 := Scalar.muli c2_i32_37 arg19
  let c1_i32_38 : BitVec 32 := 1#32
  let v42 : BitVec 32 := Scalar.addi v41 c1_i32_38
  let c80_i32_58 : BitVec 32 := 80#32
  let v61 : BitVec 32 := Scalar.muli v42 c80_i32_58
  let v62 : BitVec 32 := Scalar.addi v2 v61
  let c0_i32_59 : BitVec 32 := 0#32
  ![v62.toNat, 0]
def k0_off27 (i : grid0.Coords) (c9920_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v14 : BitVec 32 := Scalar.addi v2 c9920_i32
  let c0_i32_13 : BitVec 32 := 0#32
  ![v14.toNat, 0]
abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S2x320000_S640000 : S2x320000.ShapeCasts S640000
  inb_S10000_S80_0 : ∀ a, (![0] : Fin 1 → Nat) a + S80.size a ≤ S10000.size a
  inb_S10000x128_S10000x128_0_0 : ∀ a, (![0, 0] : Fin 2 → Nat) a + S10000x128.size a ≤ S10000x128.size a
  gathers_S10000x128_S80x128 : S10000x128.Gathers 0 S80x128
  inb_S10000_S80_80 : ∀ a, (![80] : Fin 1 → Nat) a + S80.size a ≤ S10000.size a
  h_S1x16 : 0 < S1x16.numel
  shapeCasts_S1x16_S16 : S1x16.ShapeCasts S16
  shapeCasts_S16_S1x16 : S16.ShapeCasts S1x16
  shapeCasts_S64_S1x64 : S64.ShapeCasts S1x64
  shapeCasts_S64x1_S1x64 : S64x1.ShapeCasts S1x64
  shapeCasts_S1_S1x1 : S1.ShapeCasts S1x1
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  reduces_S16000x64_S16000 : S16000x64.Reduces [1] S16000
  shapeCasts_S16000_S16000x1 : S16000.ShapeCasts S16000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16000x1 : S1x1.Broadcasts S16000x1
  inb_S16000x1_S16000x1_0_0 : ∀ a, (![0, 0] : Fin 2 → Nat) a + S16000x1.size a ≤ S16000x1.size a
  h_S16000x1 : 0 < S16000x1.numel
  dot_S16000x128_S128x64_S16000x64_1_0_0_1_n_n_wf : DotDims.WF S16000x128 S128x64 S16000x64 [1] [0] [0] [1] [] []
  hcc0_scratch8 : 0 + S_.numel ≤ 16
  hcc0_scratch9 : 1 + S_.numel ≤ 16
  hcc0_scratch10 : 2 + S_.numel ≤ 16
  hcc0_scratch11 : 3 + S_.numel ≤ 16
  hcc0_scratch12 : 4 + S_.numel ≤ 16
  hcc0_scratch13 : 5 + S_.numel ≤ 16
  hcc0_scoped0 : 6 + S_.numel ≤ 16
  hcc0_scoped1 : 7 + S_.numel ≤ 16
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S10000.size a ≤ S640000.size a
  k0_off2_inb : ∀ i : grid0.Coords, ∀ a, (k0_off2 i) a + S10000.size a ≤ S640000.size a
  k0_t1_ok : k0_t1_loop.OK
  k0_off3_inb : ∀ k0_t1 : Fin k0_t1_loop.trips, ∀ a, (k0_off3 k0_t1) a + S80.size a ≤ S10000.size a
  k0_off4_inb : ∀ (i : grid0.Coords) (k0_t1 : Fin k0_t1_loop.trips), ∀ (k0_h1 : k0_cond1 k0_t1 = 1#1), ∀ a, (k0_off4 i k0_t1) a + S80x128.size a ≤ S320000x128.size a
  k0_t2_ok : k0_t2_loop.OK
  k0_off5_inb : ∀ k0_t2 : Fin k0_t2_loop.trips, ∀ a, (k0_off5 k0_t2) a + S1x16.size a ≤ S80x128.size a
  k0_off6_inb : ∀ k0_t2 : Fin k0_t2_loop.trips, ∀ a, (k0_off6 k0_t2) a + S1x16.size a ≤ S80x128.size a
  k0_off7_inb : ∀ k0_t2 : Fin k0_t2_loop.trips, ∀ a, (k0_off7 k0_t2) a + S1x16.size a ≤ S80x128.size a
  k0_off8_inb : ∀ k0_t2 : Fin k0_t2_loop.trips, ∀ a, (k0_off8 k0_t2) a + S1x16.size a ≤ S80x128.size a
  k0_off9_inb : ∀ k0_t2 : Fin k0_t2_loop.trips, ∀ a, (k0_off9 k0_t2) a + S1x16.size a ≤ S80x128.size a
  k0_off10_inb : ∀ k0_t2 : Fin k0_t2_loop.trips, ∀ a, (k0_off10 k0_t2) a + S1x16.size a ≤ S80x128.size a
  k0_off11_inb : ∀ k0_t2 : Fin k0_t2_loop.trips, ∀ a, (k0_off11 k0_t2) a + S1x16.size a ≤ S80x128.size a
  k0_off12_inb : ∀ k0_t2 : Fin k0_t2_loop.trips, ∀ a, (k0_off12 k0_t2) a + S1x16.size a ≤ S80x128.size a
  k0_off13_inb : ∀ k0_t1 : Fin k0_t1_loop.trips, ∀ (k0_h2 : k0_cond2 k0_t1 = 1#1), ∀ a, (k0_off13 k0_t1) a + S80.size a ≤ S10000.size a
  k0_off14_inb : ∀ (i : grid0.Coords) (k0_t1 : Fin k0_t1_loop.trips), ∀ a, (k0_off14 i k0_t1) a + S80x128.size a ≤ S320000x128.size a
  k0_off15_inb : ∀ k0_t1 : Fin k0_t1_loop.trips, ∀ (k0_h3 : k0_cond3 k0_t1 = 1#1), ∀ a, (k0_off15 k0_t1) a + S80.size a ≤ S10000.size a
  k0_off16_inb : ∀ (i : grid0.Coords) (k0_t1 : Fin k0_t1_loop.trips), ∀ (k0_h3 : k0_cond3 k0_t1 = 1#1), ∀ (k0_h4 : k0_cond4 k0_t1 = 1#1), ∀ a, (k0_off16 i k0_t1) a + S80x128.size a ≤ S320000x128.size a
  k0_t3_ok : ∀ k0_t1 : Fin k0_t1_loop.trips, ∀ (k0_h3 : k0_cond3 k0_t1 = 1#1), k0_t3_loop.OK
  k0_off17_inb : ∀ (k0_t1 : Fin k0_t1_loop.trips) (k0_t3 : Fin k0_t3_loop.trips), ∀ (k0_h3 : k0_cond3 k0_t1 = 1#1), ∀ a, (k0_off17 k0_t3) a + S1x16.size a ≤ S80x128.size a
  k0_off18_inb : ∀ (k0_t1 : Fin k0_t1_loop.trips) (k0_t3 : Fin k0_t3_loop.trips), ∀ (k0_h3 : k0_cond3 k0_t1 = 1#1), ∀ a, (k0_off18 k0_t3) a + S1x16.size a ≤ S80x128.size a
  k0_off19_inb : ∀ (k0_t1 : Fin k0_t1_loop.trips) (k0_t3 : Fin k0_t3_loop.trips), ∀ (k0_h3 : k0_cond3 k0_t1 = 1#1), ∀ a, (k0_off19 k0_t3) a + S1x16.size a ≤ S80x128.size a
  k0_off20_inb : ∀ (k0_t1 : Fin k0_t1_loop.trips) (k0_t3 : Fin k0_t3_loop.trips), ∀ (k0_h3 : k0_cond3 k0_t1 = 1#1), ∀ a, (k0_off20 k0_t3) a + S1x16.size a ≤ S80x128.size a
  k0_off21_inb : ∀ (k0_t1 : Fin k0_t1_loop.trips) (k0_t3 : Fin k0_t3_loop.trips), ∀ (k0_h3 : k0_cond3 k0_t1 = 1#1), ∀ a, (k0_off21 k0_t3) a + S1x16.size a ≤ S80x128.size a
  k0_off22_inb : ∀ (k0_t1 : Fin k0_t1_loop.trips) (k0_t3 : Fin k0_t3_loop.trips), ∀ (k0_h3 : k0_cond3 k0_t1 = 1#1), ∀ a, (k0_off22 k0_t3) a + S1x16.size a ≤ S80x128.size a
  k0_off23_inb : ∀ (k0_t1 : Fin k0_t1_loop.trips) (k0_t3 : Fin k0_t3_loop.trips), ∀ (k0_h3 : k0_cond3 k0_t1 = 1#1), ∀ a, (k0_off23 k0_t3) a + S1x16.size a ≤ S80x128.size a
  k0_off24_inb : ∀ (k0_t1 : Fin k0_t1_loop.trips) (k0_t3 : Fin k0_t3_loop.trips), ∀ (k0_h3 : k0_cond3 k0_t1 = 1#1), ∀ a, (k0_off24 k0_t3) a + S1x16.size a ≤ S80x128.size a
  k0_off25_inb : ∀ k0_t1 : Fin k0_t1_loop.trips, ∀ (k0_h3 : k0_cond3 k0_t1 = 1#1), ∀ (k0_h5 : k0_cond5 k0_t1 = 1#1), ∀ a, (k0_off25 k0_t1) a + S80.size a ≤ S10000.size a
  k0_off26_inb : ∀ (i : grid0.Coords) (k0_t1 : Fin k0_t1_loop.trips), ∀ (k0_h3 : k0_cond3 k0_t1 = 1#1), ∀ a, (k0_off26 i k0_t1) a + S80x128.size a ≤ S320000x128.size a
  k0_off27_inb : ∀ i : grid0.Coords, ∀ (r : Fin 2), ∀ a, (k0_off27 i (BitVec.ofNat 32 (9840 + 80 * r.val))) a + S80x128.size a ≤ S320000x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x128.size a ≤ S320000x128.size a
  hwx1_0 : ∀ i : grid1.Coords, EltTy.bits .f32 = 32 ∨ (Rect.block (s := S320000x128) S16000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16000x1.size a ≤ S320000x1.size a
  hwx1_5 : ∀ i : grid1.Coords, EltTy.bits .f32 = 32 ∨ (Rect.block (s := S320000x1) S16000x1.size (cc1_transform_5 i) (hinb1_5 i)).WholeWords (EltTy.packing .f32)

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scratch12 : DmaSems sig S_ := SemArray.consecutive 4 S_ hcc0_scratch12
abbrev cc0_scratch13 : DmaSems sig S_ := SemArray.consecutive 5 S_ hcc0_scratch13
abbrev cc0_scoped0 : DmaSems sig S_ := SemArray.consecutive 6 S_ hcc0_scoped0
abbrev cc0_scoped1 : DmaSems sig S_ := SemArray.consecutive 7 S_ hcc0_scoped1
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf

abbrev win1_0 : Pipeline.Window sig grid1 :=
  Pipeline.Window.ofSpec (Memref.whole main_v1) S16000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S16000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x1 : Shape := ⟨2, ![1, 1]⟩
abbrev S320000x128 : Shape := ⟨2, ![320000, 128]⟩
abbrev S320000x64 : Shape := ⟨2, ![320000, 64]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x320000, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S1, .i32⟩
  | .hbm, ⟨17, _⟩ => ⟨S_, .i32⟩
  | .hbm, ⟨18, _⟩ => ⟨S320000x1, .i32⟩
  | .hbm, ⟨19, _⟩ => ⟨S320000x1, .i1⟩
  | .hbm, ⟨20, _⟩ => ⟨S1x1, .i32⟩
  | .hbm, ⟨21, _⟩ => ⟨S320000x1, .i32⟩
  | .hbm, ⟨22, _⟩ => ⟨S320000x1, .i1⟩
  | .hbm, ⟨23, _⟩ => ⟨S320000x1, .i1⟩
  | .hbm, ⟨24, _⟩ => ⟨S_, .i1⟩
  | .hbm, ⟨25, _⟩ => ⟨S320000, .i1⟩
  | .hbm, ⟨26, _⟩ => ⟨S320000x128, .f32⟩
  | .hbm, ⟨27, _⟩ => ⟨S320000x128, .i1⟩
  | .hbm, ⟨28, _⟩ => ⟨S_, .f32⟩
  | .hbm, ⟨29, _⟩ => ⟨S320000x128, .f32⟩
  | .hbm, ⟨30, _⟩ => ⟨S320000x128, .f32⟩
  | .hbm, ⟨31, _⟩ => ⟨S1x320000, .i32⟩
  | .hbm, ⟨32, _⟩ => ⟨S320000, .i32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S1, .i32⟩
  | .hbm, ⟨42, _⟩ => ⟨S_, .i32⟩
  | .hbm, ⟨43, _⟩ => ⟨S320000x1, .i32⟩
  | .hbm, ⟨44, _⟩ => ⟨S320000x1, .i1⟩
  | .hbm, ⟨45, _⟩ => ⟨S1x1, .i32⟩
  | .hbm, ⟨46, _⟩ => ⟨S320000x1, .i32⟩
  | .hbm, ⟨47, _⟩ => ⟨S320000x1, .i1⟩
  | .hbm, ⟨48, _⟩ => ⟨S320000x1, .i1⟩
  | .hbm, ⟨49, _⟩ => ⟨S_, .i1⟩
  | .hbm, ⟨50, _⟩ => ⟨S320000, .i1⟩
  | .hbm, ⟨51, _⟩ => ⟨S320000x128, .f32⟩
  | .hbm, ⟨52, _⟩ => ⟨S320000x128, .i1⟩
  | .hbm, ⟨53, _⟩ => ⟨S_, .f32⟩
  | .hbm, ⟨54, _⟩ => ⟨S320000x128, .f32⟩
  | .hbm, ⟨55, _⟩ => ⟨S320000x128, .f32⟩
  | .hbm, ⟨56, _⟩ => ⟨S320000x128, .f32⟩
  | .hbm, ⟨57, _⟩ => ⟨S320000x64, .f32⟩
  | .hbm, ⟨58, _⟩ => ⟨S1x64, .f32⟩
  | .hbm, ⟨59, _⟩ => ⟨S320000x64, .f32⟩
  | .hbm, ⟨60, _⟩ => ⟨S320000x64, .f32⟩
  | .hbm, ⟨61, _⟩ => ⟨S_, .f32⟩
  | .hbm, ⟨62, _⟩ => ⟨S320000x64, .f32⟩
  | .hbm, ⟨63, _⟩ => ⟨S320000x64, .f32⟩
  | .hbm, ⟨64, _⟩ => ⟨S320000x1, .f32⟩
  | .hbm, ⟨65, _⟩ => ⟨S1x1, .f32⟩
  | .hbm, ⟨66, _⟩ => ⟨S320000x1, .f32⟩
  | .hbm, ⟨67, _⟩ => ⟨S320000x1, .f32⟩
  | .hbm, ⟨68, _⟩ => ⟨S320000x1, .f32⟩
  | .hbm, ⟨69, _⟩ => ⟨S320000x1, .f32⟩
  | .hbm, ⟨70, _⟩ => ⟨S_, .f32⟩
  | .hbm, ⟨71, _⟩ => ⟨S320000x1, .f32⟩
  | .hbm, ⟨72, _⟩ => ⟨S320000x1, .f32⟩
  | .hbm, ⟨73, _⟩ => ⟨S_, .f32⟩
  | .hbm, ⟨74, _⟩ => ⟨S320000x1, .f32⟩
  | .hbm, ⟨75, _⟩ => ⟨S320000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_call2_cst : Ref sig .tc := ⟨.hbm, 61, rfl⟩
abbrev main_call2_v0 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_cst : Ref sig .tc := ⟨.hbm, 70, rfl⟩
abbrev main_v18 : Ref sig .tc := ⟨.hbm, 71, rfl⟩
abbrev main_v19 : Ref sig .tc := ⟨.hbm, 72, rfl⟩
abbrev main_cst_0 : Ref sig .tc := ⟨.hbm, 73, rfl⟩
abbrev main_v20 : Ref sig .tc := ⟨.hbm, 74, rfl⟩
abbrev main_v21 : Ref sig .tc := ⟨.hbm, 75, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  slices_S2x320000_S1x320000_1_0 : S2x320000.Slices ![1, 0] S1x320000
  bcast_S64_S1x64_1 : S64.BroadcastsInDim S1x64 (![1] : Fin 1 → Fin S1x64.rank)
  bcast_S1x64_S320000x64_0_1 : S1x64.BroadcastsInDim S320000x64 (![0, 1] : Fin 2 → Fin S320000x64.rank)
  bcast_S_S320000x64 : S_.BroadcastsInDim S320000x64 (![] : Fin 0 → Fin S320000x64.rank)
  gather_S10000x128_S320000x1_S320000x128_1_0_n_n_0_1_1128_wf : GatherDims.WF S10000x128 S320000x1 S320000x128 [1] [0] [] [0] [] 1 ![1, 128]
  dot_S320000x128_S128x64_S320000x64_1_0_0_1_n_n_wf : DotDims.WF S320000x128 S128x64 S320000x64 [1] [0] [0] [1] [] []
  dot_S320000x64_S64x1_S320000x1_1_0_0_1_n_n_wf : DotDims.WF S320000x64 S64x1 S320000x1 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x128_S128x64_S320000x64_1_0_0_1_n_n : DotDims S320000x128 S128x64 S320000x64 where
  lhsContracting := [1]
  rhsContracting := [0]
  lhsNonContracting := [0]
  rhsNonContracting := [1]
  lhsBatch := []
  rhsBatch := []
  wf := dot_S320000x128_S128x64_S320000x64_1_0_0_1_n_n_wf
def dot_S320000x64_S64x1_S320000x1_1_0_0_1_n_n : DotDims S320000x64 S64x1 S320000x1 where
  lhsContracting := [1]
  rhsContracting := [0]
  lhsNonContracting := [0]
  rhsNonContracting := [1]
  lhsBatch := []
  rhsBatch := []
  wf := dot_S320000x64_S64x1_S320000x1_1_0_0_1_n_n_wf

class Facts : Prop extends Facts₀ where

variable [Facts]
-- ==== Proof.IdealSetup.lean ====
/-
  The idealized kernel as the SparseCore launch theorem sees it: the configuration, the ghost state (the launch
  handshakes' rounds beside the transfers' counters), the arrays as locations of a device, and a vector subcore's
  memrefs and thread. A vector subcore ("tile") with core coordinate c and subcore coordinate s has number
  w = 2·s + c and owns rows [10000·w, 10000·w + 10000) of the edge-feature array x, the two index slices
  edge_flat[10000·w, +10000) (sources) and edge_flat[320000 + 10000·w, +10000) (destinations), and reads z whole.
-/
import proofs.«202806_g74526272520516_cont_9to1_m_1211_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«202806_g74526272520516_cont_9to1_m_1211_39_alg».proof.Proof.Gen.KernelIdeal
import proofs.«202806_g74526272520516_cont_9to1_m_1211_39_alg».proof.Proof.Gen.KernelIdeal.Skeleton
import proofs.«202806_g74526272520516_cont_9to1_m_1211_39_alg».proof.Proof.Gen.KernelIdeal.Launch
import proofs.«202806_g74526272520516_cont_9to1_m_1211_39_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the TensorCore pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds: the left component. -/
abbrev EH : Emb UH (MT nD τ sig (HIx 1) (Elt F) ℕ UU ℕ) := embL
/-- The pipeline's rounds: the left of the right component. The counters are found by instance in its right. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-! ## The arrays -/

abbrev zLoc (d : Dev nD) : Loc nD τ sig := (SparseCore.T d).loc main_arg0
abbrev eLoc (d : Dev nD) : Loc nD τ sig := (SparseCore.T d).loc main_v0
abbrev xLoc (d : Dev nD) : Loc nD τ sig := (SparseCore.T d).loc main_v1

abbrev cV (L : grid0.Coords) : Fin τ.nSC := (L 0).castLE hcore0
abbrev jV (L : grid0.Coords) : Fin τ.nSub := (L 1).castLE hsub0

end Cert.Proof.KI

end
-- ==== Proof.Spec.lean ====
/-
  The function both programs compute, index by index, on the extended reals.

  For edge e in [0, 320000) with endpoints s = edge(0,e), d = edge(1,e) (rows of z, read as naturals and
  reduced into [0, 10000) so that the function is total; under the range hypothesis 0 ≤ edge ≤ 9999 the
  reduction is the identity):
    x(e,k)   = z(s,k) · z(d,k)                                   k < 128   (the edge feature)
    h(e,c)   = max (Σ_k x(e,k) · W1(k,c) + b1(c)) 0               c < 64    (hidden layer, relu)
    out(e,0) = logistic ((Σ_c h(e,c) · W2(c,0)) + b2(0))                     (output layer, sigmoid)
  No law beyond the order of these operations is used: both sides form the same sums of the same products.
-/
import Idealize.ShloMosaic.PureOps.Ideal
import Idealize.ShloMosaic.Lib.ValueIdx

noncomputable section

namespace Cert.Spec

open Idealize.ShloMosaic Idealize.ShloMosaic.ValueIdx

abbrev SZ : Shape := ⟨2, ![10000, 128]⟩
abbrev SE : Shape := ⟨2, ![2, 320000]⟩
abbrev SW1 : Shape := ⟨2, ![128, 64]⟩
abbrev SB1 : Shape := ⟨1, ![64]⟩
abbrev SW2 : Shape := ⟨2, ![64, 1]⟩
abbrev SB2 : Shape := ⟨1, ![1]⟩
abbrev SX : Shape := ⟨2, ![320000, 128]⟩
abbrev SO : Shape := ⟨2, ![320000, 1]⟩

/-- The row of z that endpoint t (0: source, 1: destination) of edge e names. -/
def node (edge : SE.Idx → BitVec 32) (t : Fin 2) (e : Fin 320000) : Fin 10000 :=
  Fin.ofNat 10000 (edge (ix2 t e)).toNat

/-- The edge feature: the product of the two endpoint rows, entry by entry. -/
def X (z : SZ.Idx → EReal) (edge : SE.Idx → BitVec 32) : SX.Idx → EReal :=
  fun j => z (ix2 (node edge 0 (j 0)) (j 1)) * z (ix2 (node edge 1 (j 0)) (j 1))

/-- The hidden layer of one edge from its feature row. -/
def hidden (x : SX.Idx → EReal) (W1 : SW1.Idx → EReal) (b1 : SB1.Idx → EReal) (e : Fin 320000) (c : Fin 64) : EReal :=
  max ((∑ k : Fin 128, x (ix2 e k) * W1 (ix2 k c)) + b1 (ix1 c)) 0

/-- The two-layer perceptron applied to a feature array, row by row. -/
def mlp (x : SX.Idx → EReal) (W1 : SW1.Idx → EReal) (b1 : SB1.Idx → EReal) (W2 : SW2.Idx → EReal) (b2 : SB2.Idx → EReal) :
    SO.Idx → EReal :=
  fun j => Ideal.logistic ((∑ c : Fin 64, hidden x W1 b1 (j 0) c * W2 (ix2 c 0)) + b2 (ix1 0))

/-- The whole result as one function of the six argument arrays. -/
def G (z : SZ.Idx → EReal) (edge : SE.Idx → BitVec 32) (W1 : SW1.Idx → EReal) (b1 : SB1.Idx → EReal)
    (W2 : SW2.Idx → EReal) (b2 : SB2.Idx → EReal) : SO.Idx → EReal :=
  mlp (X z edge) W1 b1 W2 b2

/-- Every endpoint names a row of z: read as a signed word it lies in [0, 9999]. -/
def InRange (edge : SE.Idx → BitVec 32) : Prop :=
  ∀ j : SE.Idx, 0 ≤ (edge j).toInt ∧ (edge j).toInt ≤ 9999

theorem node_val {edge : SE.Idx → BitVec 32} (h : InRange edge) (t : Fin 2) (e : Fin 320000) :
    (node edge t e).val = (edge (ix2 t e)).toNat := by
  have hj := h (ix2 t e)
  have hlt : (edge (ix2 t e)).toNat < 10000 := by
    rcases hb : (edge (ix2 t e)).msb with _ | _
    · have e1 := BitVec.toInt_eq_toNat_of_msb hb; omega
    · have e1 := BitVec.toInt_neg_of_msb_true hb; omega
  unfold node
  simp [Fin.ofNat, Nat.mod_eq_of_lt hlt]

end Cert.Spec

end
-- ==== Proof.FeatureArray.lean ====
/-
  The edge-feature array the first stage writes, as one function of the node features and the flattened edge list.

  The edge list edge : [2, 320000] is flattened row-major to eflat : [640000], so eflat(320000·a + e) = edge(a, e): the
  sources are words 0 … 319999 and the destinations words 320000 … 639999. A word names a row of z by its value as a
  natural number, reduced into [0, 10000) so that the function is total. The feature of edge e at lane k is the
  product of the two endpoint rows' entries,
      XF(e, k) = z(row(eflat(e)), k) · z(row(eflat(320000 + e)), k),
  the product being the float instance's own, the one a pointwise product of vectors takes at each index. Each tile
  of the first stage stores such products sixteen lanes at a time: a stored 1 × 16 piece at lane l is the product of
  the two loaded pieces' lane l. On the extended reals XF of the flattened edge list is the specification's feature
  array X.
-/
import proofs.«202806_g74526272520516_cont_9to1_m_1211_39_alg».proof.Proof.Gen.KernelIdeal.Skeleton
import proofs.«202806_g74526272520516_cont_9to1_m_1211_39_alg».proof.Proof.Spec
import Idealize.ShloMosaic.Lib.ValueLayout

noncomputable section

namespace Cert.Feature

open Idealize.ShloMosaic Idealize.ShloMosaic.ValueIdx

variable {F : FTy → Type} [FloatOps F]

/-! ## The feature array -/

/-- The row of z that word i of the flattened edge list names: its value as a natural number, reduced into [0, 10000). -/
def row (eflat : (⟨1, ![640000]⟩ : Shape).Idx → BitVec 32) (i : Fin 640000) : Fin 10000 :=
  Fin.ofNat 10000 (eflat (ix1 i)).toNat

/-- Edge e is word e of the flattened list (its source) … -/
theorem src_lt (e : Fin 320000) : e.val < 640000 := by have := e.isLt; omega
/-- … and word 320000 + e (its destination). -/
theorem dst_lt (e : Fin 320000) : 320000 + e.val < 640000 := by have := e.isLt; omega

/-- THE FEATURE ARRAY: at (e, k) the product of z at the source row and z at the destination row, lane k. -/
def XF (z : FVec F ⟨2, ![10000, 128]⟩ .f32) (eflat : (⟨1, ![640000]⟩ : Shape).Idx → BitVec 32) :
    FVec F ⟨2, ![320000, 128]⟩ .f32 :=
  fun j => FloatOps.mulf (z (ix2 (row eflat ⟨(j 0).val, src_lt (j 0)⟩) (j 1)))
    (z (ix2 (row eflat ⟨320000 + (j 0).val, dst_lt (j 0)⟩) (j 1)))

/-- The feature array at coordinates (e, k). -/
theorem XF_apply (z : FVec F ⟨2, ![10000, 128]⟩ .f32) (eflat : (⟨1, ![640000]⟩ : Shape).Idx → BitVec 32)
    (e : Fin 320000) (k : Fin 128) :
    XF z eflat (ix2 e k) = FloatOps.mulf (z (ix2 (row eflat ⟨e.val, src_lt e⟩) k))
      (z (ix2 (row eflat ⟨320000 + e.val, dst_lt e⟩) k)) := rfl

/-! ## A stored piece of a tile -/

open Cert.KernelIdeal Cert.KernelIdeal.Gen in
/-- Two 1 × 16 pieces, each read as a vector of 16, multiplied lane by lane, and the product laid back as 1 × 16: at lane l
    the product of the two pieces' lane l. -/
theorem piece_apply (v w : Vec F S1x16 .f32) (l : Fin 16) :
    shapeCast S1x16 (mulf (shapeCast S16 v shapeCasts_S1x16_S16) (shapeCast S16 w shapeCasts_S1x16_S16))
        shapeCasts_S16_S1x16 (ix2 (0 : Fin 1) l)
      = FloatOps.mulf (v (ix2 (0 : Fin 1) l)) (w (ix2 (0 : Fin 1) l)) := by
  rw [shapeCast_a_1a_apply]
  show FloatOps.mulf (shapeCast S16 v shapeCasts_S1x16_S16 (ix1 l)) (shapeCast S16 w shapeCasts_S1x16_S16 (ix1 l)) = _
  rw [shapeCast_1a_a_apply, shapeCast_1a_a_apply]

section Payloads
open Cert.KernelIdeal Cert.KernelIdeal.Gen
variable (v w : Vec F S1x16 .f32) (l : Fin 16)

/-- The tile body's sixteen stored pieces are that term, each of its own two loaded pieces. -/
theorem pay_apply : k0_pay1 (F := F) v w (ix2 (0 : Fin 1) l) = FloatOps.mulf (v (ix2 (0 : Fin 1) l)) (w (ix2 (0 : Fin 1) l)) :=
  piece_apply v w l
theorem pay2_apply : k0_pay2 (F := F) v w (ix2 (0 : Fin 1) l) = FloatOps.mulf (v (ix2 (0 : Fin 1) l)) (w (ix2 (0 : Fin 1) l)) :=
  piece_apply v w l
theorem pay3_apply : k0_pay3 (F := F) v w (ix2 (0 : Fin 1) l) = FloatOps.mulf (v (ix2 (0 : Fin 1) l)) (w (ix2 (0 : Fin 1) l)) :=
  piece_apply v w l
theorem pay4_apply : k0_pay4 (F := F) v w (ix2 (0 : Fin 1) l) = FloatOps.mulf (v (ix2 (0 : Fin 1) l)) (w (ix2 (0 : Fin 1) l)) :=
  piece_apply v w l
theorem pay5_apply : k0_pay5 (F := F) v w (ix2 (0 : Fin 1) l) = FloatOps.mulf (v (ix2 (0 : Fin 1) l)) (w (ix2 (0 : Fin 1) l)) :=
  piece_apply v w l
theorem pay6_apply : k0_pay6 (F := F) v w (ix2 (0 : Fin 1) l) = FloatOps.mulf (v (ix2 (0 : Fin 1) l)) (w (ix2 (0 : Fin 1) l)) :=
  piece_apply v w l
theorem pay7_apply : k0_pay7 (F := F) v w (ix2 (0 : Fin 1) l) = FloatOps.mulf (v (ix2 (0 : Fin 1) l)) (w (ix2 (0 : Fin 1) l)) :=
  piece_apply v w l
theorem pay8_apply : k0_pay8 (F := F) v w (ix2 (0 : Fin 1) l) = FloatOps.mulf (v (ix2 (0 : Fin 1) l)) (w (ix2 (0 : Fin 1) l)) :=
  piece_apply v w l
theorem pay9_apply : k0_pay9 (F := F) v w (ix2 (0 : Fin 1) l) = FloatOps.mulf (v (ix2 (0 : Fin 1) l)) (w (ix2 (0 : Fin 1) l)) :=
  piece_apply v w l
theorem pay10_apply : k0_pay10 (F := F) v w (ix2 (0 : Fin 1) l) = FloatOps.mulf (v (ix2 (0 : Fin 1) l)) (w (ix2 (0 : Fin 1) l)) :=
  piece_apply v w l
theorem pay11_apply : k0_pay11 (F := F) v w (ix2 (0 : Fin 1) l) = FloatOps.mulf (v (ix2 (0 : Fin 1) l)) (w (ix2 (0 : Fin 1) l)) :=
  piece_apply v w l
theorem pay12_apply : k0_pay12 (F := F) v w (ix2 (0 : Fin 1) l) = FloatOps.mulf (v (ix2 (0 : Fin 1) l)) (w (ix2 (0 : Fin 1) l)) :=
  piece_apply v w l
theorem pay13_apply : k0_pay13 (F := F) v w (ix2 (0 : Fin 1) l) = FloatOps.mulf (v (ix2 (0 : Fin 1) l)) (w (ix2 (0 : Fin 1) l)) :=
  piece_apply v w l
theorem pay14_apply : k0_pay14 (F := F) v w (ix2 (0 : Fin 1) l) = FloatOps.mulf (v (ix2 (0 : Fin 1) l)) (w (ix2 (0 : Fin 1) l)) :=
  piece_apply v w l
theorem pay15_apply : k0_pay15 (F := F) v w (ix2 (0 : Fin 1) l) = FloatOps.mulf (v (ix2 (0 : Fin 1) l)) (w (ix2 (0 : Fin 1) l)) :=
  piece_apply v w l
theorem pay16_apply : k0_pay16 (F := F) v w (ix2 (0 : Fin 1) l) = FloatOps.mulf (v (ix2 (0 : Fin 1) l)) (w (ix2 (0 : Fin 1) l)) :=
  piece_apply v w l

end Payloads

/-! ## On the extended reals the feature array is the specification's -/

/-- The flattened edge list at word i = 320000·a + e is the edge list at (a, e): the two have the same row-major position. -/
theorem flat_apply {α : Type} (edge : (⟨2, ![2, 320000]⟩ : Shape).Idx → α)
    (h : (⟨2, ![2, 320000]⟩ : Shape).ShapeCasts ⟨1, ![640000]⟩) (a : Fin 2) (e : Fin 320000) (i : Fin 640000)
    (hi : i.val = 320000 * a.val + e.val) : shapeCast ⟨1, ![640000]⟩ edge h (ix1 i) = edge (ix2 a e) :=
  shapeCast_apply edge h _ _ (by
    rw [Shape.rowMajor_val_two, Shape.rowMajor_val_one]
    show a.val * 320000 + e.val = i.val
    omega)

/-- The row a word of the flattened list names is the specification's endpoint row. -/
theorem row_flat (edge : Cert.Spec.SE.Idx → BitVec 32) (h : (⟨2, ![2, 320000]⟩ : Shape).ShapeCasts ⟨1, ![640000]⟩)
    (a : Fin 2) (e : Fin 320000) (i : Fin 640000) (hi : i.val = 320000 * a.val + e.val) :
    row (shapeCast ⟨1, ![640000]⟩ edge h) i = Cert.Spec.node edge a e := by
  unfold row Cert.Spec.node
  rw [flat_apply edge h a e i hi]

/-- ON THE EXTENDED REALS the feature array of the flattened edge list is the specification's X. -/
theorem XF_ideal (z : Cert.Spec.SZ.Idx → EReal) (edge : Cert.Spec.SE.Idx → BitVec 32)
    (h : (⟨2, ![2, 320000]⟩ : Shape).ShapeCasts ⟨1, ![640000]⟩) :
    XF (F := Ideal) z (shapeCast ⟨1, ![640000]⟩ edge h) = Cert.Spec.X z edge := by
  funext j
  obtain ⟨e, k, rfl⟩ : ∃ (e : Fin 320000) (k : Fin 128), j = ix2 e k := ⟨j 0, j 1, eq_ix2 j⟩
  rw [XF_apply, row_flat edge h 0 e ⟨e.val, src_lt e⟩ (by simp), row_flat edge h 1 e ⟨320000 + e.val, dst_lt e⟩ (by simp)]
  rfl

end Cert.Feature

end
-- ==== Proof.IdealTileIface.lean ====
/-
  One vector subcore's task as a contract: what a tile is handed at its start and what it hands back.

  Tile L = (core c, subcore s) has number w = 2·s + c and base row 10000·w. It is handed a read share of z
  (whole), its two slices of the flattened edge list outright (sources edge_flat[base, base + 10000), destinations
  edge_flat[320000 + base, +10000)), and its band of 10000 rows of the feature array x outright, at any contents.
  It hands back the same with the band holding the feature rows: x(e,k) = z(src e, k) · z(dst e, k).
-/
import proofs.«202806_g74526272520516_cont_9to1_m_1211_39_alg».proof.Proof.IdealSetup
import proofs.«202806_g74526272520516_cont_9to1_m_1211_39_alg».proof.Proof.FeatureArray

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
abbrev zW : Memref sig .scVector .hbm S10000x128 .f32 := Memref.whole main_arg0_scv
abbrev eW : Memref sig .scVector .hbm S640000 .i32 := Memref.whole main_v0_scv
abbrev xW : Memref sig .scVector .hbm S320000x128 .f32 := Memref.whole main_v1_scv
abbrev sIs : Memref sig .scVector .vmem S10000 .i32 := Memref.whole cc0_scratch0
abbrev sId : Memref sig .scVector .vmem S10000 .i32 := Memref.whole cc0_scratch1
abbrev sR0 : Memref sig .scVector .vmem S80x128 .f32 := Memref.whole cc0_scratch2
abbrev sD0 : Memref sig .scVector .vmem S80x128 .f32 := Memref.whole cc0_scratch3
abbrev sR1 : Memref sig .scVector .vmem S80x128 .f32 := Memref.whole cc0_scratch4
abbrev sD1 : Memref sig .scVector .vmem S80x128 .f32 := Memref.whole cc0_scratch5
abbrev sP0 : Memref sig .scVector .vmem S80x128 .f32 := Memref.whole cc0_scratch6
abbrev sP1 : Memref sig .scVector .vmem S80x128 .f32 := Memref.whole cc0_scratch7

abbrev thr (d : Dev nD) (L : grid0.Coords) : Thread nD τ := V d (cV L) (jV L)

/-- The tile's base row: 10000 times its number 2·s + c. -/
def base (L : grid0.Coords) : ℕ := 20000 * (L 1).val + 10000 * (L 0).val

theorem base_le (L : grid0.Coords) : base L + 10000 ≤ 320000 := by
  have h0 : (L 0).val < 2 := (L 0).isLt
  have h1 : (L 1).val < 16 := (L 1).isLt
  unfold base; omega

/-- The tile's slice of source indices and of destination indices, as the body slices them. -/
abbrev eSrc (L : grid0.Coords) : Memref sig .scVector .hbm S10000 .i32 :=
  (eW).slice (Rect.unit (s := S640000) (k0_off1 L) S10000.size (k0_off1_inb L)) (fun _ => rfl)
abbrev eDst (L : grid0.Coords) : Memref sig .scVector .hbm S10000 .i32 :=
  (eW).slice (Rect.unit (s := S640000) (k0_off2 L) S10000.size (k0_off2_inb L)) (fun _ => rfl)

theorem band_inb (L : grid0.Coords) : ∀ a, (![base L, 0] : Fin 2 → ℕ) a + (![10000, 128] : Fin 2 → ℕ) a ≤ S320000x128.size a := by
  have := base_le L
  intro a; fin_cases a <;> simp <;> omega

/-- The tile's band of the feature array: rows [base, base + 10000), every lane. -/
abbrev bandRect (L : grid0.Coords) : Rect S320000x128 := Rect.unit (s := S320000x128) ![base L, 0] ![10000, 128] (band_inb L)
abbrev bandSet (d : Dev nD) (L : grid0.Coords) : Finset (Idx ((xW).view.loc (thr d L))) := (xW).view.setOn (bandRect L).set

variable (m : (ℓ : Loc nD τ sig) → Buf (Elt F) ℓ) [FloatOps F]

/-- What a tile holds of the arrays, the band at contents fx. -/
def tileRes (d : Dev nD) (L : grid0.Coords) (qz : PosShare TreeShare) (fe : Buf (Elt F) (eLoc d)) (fx : Buf (Elt F) (xLoc d)) : sProp 𝕄 :=
  iprop(((zW).view.loc (thr d L) ↦{qz} m (zLoc d))
    ∗ ((eSrc L).view.loc (thr d L) ↦[(eSrc L).view.set]{fullShare} fe)
    ∗ ((eDst L).view.loc (thr d L) ↦[(eDst L).view.set]{fullShare} fe)
    ∗ ((xW).view.loc (thr d L) ↦[bandSet d L]{fullShare} fx))

/-- The task's contract: from its share of the arrays (the band at any contents), its own scratch and semaphores and
    what it owes the launch, the tile's body runs and hands the same back with the band at the feature rows. Every word
    of the flattened edge list is assumed a row number of z (below 10000). -/
def TileContract : Prop :=
  ∀ (_ : (K (F := F)).Facts) (d : Dev nD) (L : grid0.Coords) (qz : PosShare TreeShare) (fe : Buf (Elt F) (eLoc d))
    (_ : ∀ j, (fe j).toNat < 10000) (fx0 : Buf (Elt F) (xLoc d))
    (O : CellTallies nD τ sig (HIx 1)) (W : Waits sig (HIx 1)) (_ : ∀ g, O g none = 0),
    iprop(levAts (K (F := F)).L (K (F := F)).lev ∗ emp ∗ tileRes m d L qz fe fx0
        ∗ scopedBufs (thr d L) ∗ scopedSems0 (thr d L) ∗ owes (thr d L) O W)
      ⊢ wp frame (wpE (defs₀ (F := F)) 𝒱₀ (thr d L) none) Set.univ
          (cc0__sc_gather_mul L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1)
          fun _ => iprop(tileRes m d L qz fe (Cert.Feature.XF (m (zLoc d)) fe)
            ∗ scopedBufs (thr d L) ∗ scopedSems0 (thr d L)
            ∗ ∃ W', ⌜∀ p ∈ W', p ∈ W ∨ p.2 = none⌝ ∗ owes (thr d L) O W')

/-- The tile's own scratch, each buffer at some contents, and its eight DMA semaphores at zero. -/
def tileOwn (d : Dev nD) (L : grid0.Coords) : sProp 𝕄 :=
  iprop((∃ f, (sIs).view.loc (thr d L) ↦{fullShare} f) ∗ (∃ f, (sId).view.loc (thr d L) ↦{fullShare} f)
    ∗ (∃ f, (sR0).view.loc (thr d L) ↦{fullShare} f) ∗ (∃ f, (sD0).view.loc (thr d L) ↦{fullShare} f)
    ∗ (∃ f, (sR1).view.loc (thr d L) ↦{fullShare} f) ∗ (∃ f, (sD1).view.loc (thr d L) ↦{fullShare} f)
    ∗ (∃ f, (sP0).view.loc (thr d L) ↦{fullShare} f) ∗ (∃ f, (sP1).view.loc (thr d L) ↦{fullShare} f)
    ∗ semVal (thr d L, SemLoc.dma cc0_scratch8.sem) 0 ∗ semVal (thr d L, SemLoc.dma cc0_scratch9.sem) 0
    ∗ semVal (thr d L, SemLoc.dma cc0_scratch10.sem) 0 ∗ semVal (thr d L, SemLoc.dma cc0_scratch11.sem) 0
    ∗ semVal (thr d L, SemLoc.dma cc0_scratch12.sem) 0 ∗ semVal (thr d L, SemLoc.dma cc0_scratch13.sem) 0
    ∗ semVal (thr d L, SemLoc.dma cc0_scoped0.sem) 0 ∗ semVal (thr d L, SemLoc.dma cc0_scoped1.sem) 0)

/-- The contract with the tile's own scratch and semaphores spelt out: what the body's run is proved from. -/
def TileCore : Prop :=
  ∀ (d : Dev nD) (L : grid0.Coords) (qz : PosShare TreeShare) (fe : Buf (Elt F) (eLoc d))
    (_ : ∀ j, (fe j).toNat < 10000) (fx0 : Buf (Elt F) (xLoc d))
    (O : CellTallies nD τ sig (HIx 1)) (W : Waits sig (HIx 1)) (_ : ∀ g, O g none = 0),
    iprop(levAts (K (F := F)).L (K (F := F)).lev ∗ tileRes m d L qz fe fx0 ∗ tileOwn d L ∗ owes (thr d L) O W)
      ⊢ wp frame (wpE (defs₀ (F := F)) 𝒱₀ (thr d L) none) Set.univ
          (cc0__sc_gather_mul L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1)
          fun _ => iprop(tileRes m d L qz fe (Cert.Feature.XF (m (zLoc d)) fe) ∗ tileOwn d L
            ∗ ∃ W', ⌜∀ p ∈ W', p ∈ W ∨ p.2 = none⌝ ∗ owes (thr d L) O W')

end Cert.Proof.KI

end
-- ==== Proof.IdealLaunchPay.lean ====
/-
  The launch of the edge-feature stage, first part: what the launch handshakes carry, a tile's obligation from its
  contract, and how a SparseCore's operands split among its tiles.

  The call hands SparseCore c, for each of its sixteen tiles i, the tile's share of the arrays: a read share of z, the
  tile's two slices of the flattened edge list and its band of the feature array (the band at the launch contents), and
  takes the same back with the band at the feature rows. The payloads are indexed by tile, so a SparseCore's operands
  are the tiles' side by side and the split is the identity.
-/
import proofs.«202806_g74526272520516_cont_9to1_m_1211_39_alg».proof.Proof.IdealTileIface

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- Tile (c, s) of the grid as the body table numbers it. -/
def coordsV (c : Fin (grid0.bound 0)) (s : Fin (grid0.bound 1)) : grid0.Coords :=
  fun | 0 => c | 1 => s | ⟨_ + 2, h⟩ => absurd h (Nat.not_lt.2 (Nat.le_add_left _ _))

/-- The flattened edge list of device d: the edge list's words in row-major order, sources then destinations. -/
def eFlat (d : Dev nD) : Buf (Elt F) (eLoc d) :=
  shapeCast S640000 (m ((SparseCore.T d).loc main_arg1)) shapeCasts_S2x320000_S640000

/-- Tile (c, i)'s read share of z: the full share cut in two for the SparseCores, each half in sixteen for its tiles. -/
def qTile (c : Fin 2) (i : Fin 16) : PosShare TreeShare :=
  Transfers.shareTok (Transfers.shareTok fullShare 2 c) 16 i

variable [FloatOps F]

/-- What tile (c, i) is handed: its share of the arrays, the band at the launch contents; -/
def goT (d : Dev nD) (c : Fin 2) (i : Fin 16) : sProp 𝕄 :=
  tileRes m d (coordsV c i) (qTile c i) (eFlat m d) (m (xLoc d))
/-- and what it hands back: the same, the band at the feature rows. -/
def tdT (d : Dev nD) (c : Fin 2) (i : Fin 16) : sProp 𝕄 :=
  tileRes m d (coordsV c i) (qTile c i) (eFlat m d) (Cert.Feature.XF (m (zLoc d)) (eFlat m d))

instance goT_storable (d : Dev nD) (c : Fin 2) (i : Fin 16) : BI.Storable (upEmb : UEmb _ 𝕄) (goT m d c i) := by
  unfold goT tileRes; infer_instance
instance tdT_storable (d : Dev nD) (c : Fin 2) (i : Fin 16) : BI.Storable (upEmb : UEmb _ 𝕄) (tdT m d c i) := by
  unfold tdT tileRes; infer_instance

/-- The one call's payloads: a SparseCore's operands are its tiles' shares side by side. -/
def P : (K (F := F)).Pay (nD := nD) (Val := Elt F) (Name := ℕ) (U := UU) where
  st := fun q d c => match q with
    | 0 => bigSep Finset.univ fun i : Fin ((K (F := F)).nSub 0) => goT m d (Fin.cast nCore_zero c) (Fin.cast nSub_zero i)
  dn := fun q d c => match q with
    | 0 => bigSep Finset.univ fun i : Fin ((K (F := F)).nSub 0) => tdT m d (Fin.cast nCore_zero c) (Fin.cast nSub_zero i)
  go := fun q d c i => match q with
    | 0 => goT m d (Fin.cast nCore_zero c) (Fin.cast nSub_zero i)
  td := fun q d c i => match q with
    | 0 => tdT m d (Fin.cast nCore_zero c) (Fin.cast nSub_zero i)
  x := fun _ _ => iprop(emp)

theorem P_st (d : Dev nD) (c : Fin ((K (F := F)).nCore 0)) :
    (P m).st 0 d c = bigSep Finset.univ fun i : Fin ((K (F := F)).nSub 0) => goT m d (Fin.cast nCore_zero c) (Fin.cast nSub_zero i) := rfl
theorem P_dn (d : Dev nD) (c : Fin ((K (F := F)).nCore 0)) :
    (P m).dn 0 d c = bigSep Finset.univ fun i : Fin ((K (F := F)).nSub 0) => tdT m d (Fin.cast nCore_zero c) (Fin.cast nSub_zero i) := rfl
theorem P_go (d : Dev nD) (c : Fin ((K (F := F)).nCore 0)) (i : Fin ((K (F := F)).nSub 0)) :
    (P m).go 0 d c i = goT m d (Fin.cast nCore_zero c) (Fin.cast nSub_zero i) := rfl
theorem P_td (d : Dev nD) (c : Fin ((K (F := F)).nCore 0)) (i : Fin ((K (F := F)).nSub 0)) :
    (P m).td 0 d c i = tdT m d (Fin.cast nCore_zero c) (Fin.cast nSub_zero i) := rfl

instance P_storable : (P (F := F) m).IsStorable where
  st q d c := match q with
    | 0 => (inferInstance : BI.Storable (upEmb : UEmb _ 𝕄)
        (bigSep Finset.univ fun i : Fin ((K (F := F)).nSub 0) => goT m d (Fin.cast nCore_zero c) (Fin.cast nSub_zero i)))
  dn q d c := match q with
    | 0 => (inferInstance : BI.Storable (upEmb : UEmb _ 𝕄)
        (bigSep Finset.univ fun i : Fin ((K (F := F)).nSub 0) => tdT m d (Fin.cast nCore_zero c) (Fin.cast nSub_zero i)))
  go q d c i := match q with
    | 0 => (inferInstance : BI.Storable (upEmb : UEmb _ 𝕄) (goT m d (Fin.cast nCore_zero c) (Fin.cast nSub_zero i)))
  td q d c i := match q with
    | 0 => (inferInstance : BI.Storable (upEmb : UEmb _ 𝕄) (tdT m d (Fin.cast nCore_zero c) (Fin.cast nSub_zero i)))

/-! ## The launch theorem's obligations -/

theorem defs₀_vector (c : Fin τ.nSC) (s : Fin τ.nSub) :
    defs₀ (F := F) (.scVector c s) 0 ()
      = SparseCore.onTile hcore0 hsub0 (fun c s => cc0__sc_gather_mul (coordsV c s)
          zW (Memref.isWhole_whole _) eW (Memref.isWhole_whole _) xW (Memref.isWhole_whole _)
          sIs (Memref.isWhole_whole _) sId (Memref.isWhole_whole _) sR0 (Memref.isWhole_whole _) sD0 (Memref.isWhole_whole _)
          sR1 (Memref.isWhole_whole _) sD1 (Memref.isWhole_whole _) sP0 (Memref.isWhole_whole _) sP1 (Memref.isWhole_whole _)
          cc0_scratch8 cc0_scratch9 cc0_scratch10 cc0_scratch11 cc0_scratch12 cc0_scratch13 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's obligation at the one call, from the task's contract: every word of the flattened edge list a row number. -/
theorem tileObl (hF : (K (F := F)).Facts) (hbody : TileContract m) (hpre : ∀ (d : Dev nD) j, (eFlat m d j).toNat < 10000) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody hF d (coordsV ⟨_, hc.1⟩ ⟨_, hc.2⟩) (qTile (Fin.cast nCore_zero c) (Fin.cast nSub_zero i)) (eFlat m d) (hpre d) (m (xLoc d)) O W hO).trans
    (wp_mono frame _ _ fun _ => obl_post)

/-- A SparseCore's operands are its tiles' shares and its results theirs: nothing to split. -/
theorem vecSplit : (K (F := F)).VecSplit' (P m) 0 := by
  intro d c
  rw [P_st, P_dn]
  iintro H; imodintro
  isplitl [H]; · iexact H
  iintro H; iexact H

end Cert.Proof.KI

end
-- ==== Proof.IdealLaunchElem.lean ====
/-
  The launch of the edge-feature stage, second part: the launch element of the ghost state.

  The element is the launch handshakes' rounds at their cells and tokens, beside the multilayer-perceptron pipeline's
  rounds at its staging cells and its loop's tokens, beside the unit of the transfers' counters. It splits into the
  three; the handshakes' part is the launch theorem's own, the pipeline's part funds each device's staging cells'
  ghost state and duty tokens, which the TensorCore keeps until it enters the pipeline's region, and the counters'
  unit is dropped. No kernel's proof consumes anything of the launch's.
-/
import proofs.«202806_g74526272520516_cont_9to1_m_1211_39_alg».proof.Proof.IdealLaunchPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-- The launch element: the handshakes' rounds, the pipeline's rounds, the counters' unit. -/
def u₀ : UU :=
  (initOf (K (F := F)).hsCells (K (F := F)).hsToks,
    (initOf (Pipeline.cells (nD := nD) (τ := τ) cfgs Gen.cellOf_inj) (Pipeline.launchToks (nD := nD) (τ := τ) cfgs Gen.cellOf_inj), 1))

/-- What the launch deals device d's TensorCore beyond the arrays: the pipeline's staging cells' ghost state and its
    loop's duty tokens. -/
def GP (d : Dev nD) : sProp 𝕄 :=
  iprop(Pipeline.cellsGhost cfgs (EP (F := F)) (0 : Fin 1) d ∗ Pipeline.toksInit cfgs (EP (F := F)) (0 : Fin 1) d)

omit [FloatOps F] in
theorem bigSep_emp' {I : Type} (s : Finset I) : (bigSep s fun _ => iprop(emp)) = (iprop(emp) : sProp 𝕄) := bigSep_emp_const s

omit [FloatOps F] in
/-- The pipeline's component of the element, owned through its embedding. -/
theorem own_right (a : UP) (b : Counters) :
    (BI.own ((embR : Emb (UP × Counters) 𝕄) (a, b)) : sProp 𝕄) ⊢ BI.own ((EP (F := F)) a) := by
  unfold EP
  exact (own_pair_emb (embR : Emb (UP × Counters) 𝕄) a b).trans sep_elim_left

omit [FloatOps F] in
/-- Funding the pipeline's ghost state, per device (one pipeline). -/
theorem fund_ghost' :
    (BI.own ((EP (F := F)) (initOf (Pipeline.cells (nD := nD) (τ := τ) cfgs Gen.cellOf_inj) (Pipeline.launchToks (nD := nD) (τ := τ) cfgs Gen.cellOf_inj))) : sProp 𝕄)
      ⊢ iprop(|==> ((bigSep Finset.univ fun d : Dev nD => Pipeline.cellsGhost cfgs (EP (F := F)) (0 : Fin 1) d)
          ∗ (bigSep Finset.univ fun d : Dev nD => (Pipeline.toksInit cfgs (EP (F := F)) (0 : Fin 1) d : sProp 𝕄)))) := by
  have h := Pipeline.fund_ghost (nD := nD) (τ := τ) cfgs (EP (F := F)) Gen.cellOf_inj
  rw [show (bigSep Finset.univ fun c : Dev nD => bigSep Finset.univ fun p : Fin 1 => Pipeline.cellsGhost cfgs (EP (F := F)) p c)
        = bigSep Finset.univ fun d : Dev nD => Pipeline.cellsGhost cfgs (EP (F := F)) (0 : Fin 1) d from
      bigSep_congr fun d _ => bigSep_univ_of_subsingleton (0 : Fin 1),
    show (bigSep Finset.univ fun c : Dev nD => bigSep Finset.univ fun p : Fin 1 => (Pipeline.toksInit cfgs (EP (F := F)) p c : sProp 𝕄))
        = bigSep Finset.univ fun d : Dev nD => (Pipeline.toksInit cfgs (EP (F := F)) (0 : Fin 1) d : sProp 𝕄) from
      bigSep_congr fun d _ => bigSep_univ_of_subsingleton (0 : Fin 1)] at h
  exact h

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave Hpl := (own_right (F := F) _ _) $$ HR
  imod (fund_ghost' (F := F)) $$ Hpl with ⟨Hg, Ht⟩
  imodintro
  isplitl [HH]; · iexact HH
  isplitl [Hg Ht]
  · unfold GP
    rw [bigSep_sep']
    isplitl [Hg]
    · iexact Hg
    · iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.IdealLaunchSplit.lean ====
/-
  The launch of the edge-feature stage, third part: the TensorCore's arrays cut into the tiles' shares and put back.

  Tile (c, i) has base row b = 20000 i + 10000 c; the thirty-two bases are the multiples of 10000 below 320000. So the
  intervals [b, b + 10000) partition [0, 320000): the tiles' source slices partition the first half of the flattened
  edge list, their destination slices (the same intervals shifted by 320000) the second half, and their bands the rows of
  the feature array. The read shares of z are the full share cut in two and each half in sixteen; what the cuts leave
  stays with the TensorCore during the call.
-/
import proofs.«202806_g74526272520516_cont_9to1_m_1211_39_alg».proof.Proof.IdealLaunchPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Split

variable (d : Dev nD)

/-! ## The tiles' sets -/

theorem base_coordsV (c : Fin 2) (i : Fin 16) : base (coordsV c i) = 20000 * i.val + 10000 * c.val := rfl

/-- The tiles of the grid, as pairs. -/
abbrev Tl : Type := Fin 2 × Fin 16
abbrev LT (t : Tl) : grid0.Coords := coordsV t.1 t.2

/-- Tile t's source words, destination words and band, as sets of indices of the arrays. -/
def srcS (t : Tl) : Finset S640000.Idx := (eSrc (LT t)).view.set
def dstS (t : Tl) : Finset S640000.Idx := (eDst (LT t)).view.set
def bandS (t : Tl) : Finset S320000x128.Idx := bandSet d (LT t)

theorem mem_src (t : Tl) (j : S640000.Idx) :
    j ∈ srcS t ↔ base (LT t) ≤ (j 0).val ∧ (j 0).val < base (LT t) + 10000 := by
  unfold srcS
  rw [show (eSrc (LT t)).view.set = (Rect.unit (s := S640000) (k0_off1 (LT t)) S10000.size (k0_off1_inb (LT t))).set from View.set_slice_whole _ _,
    Rect.mem_set_unit, Fin.forall_fin_one, k0_off1_eq]
  simp [base]

theorem mem_dst (t : Tl) (j : S640000.Idx) :
    j ∈ dstS t ↔ base (LT t) + 320000 ≤ (j 0).val ∧ (j 0).val < base (LT t) + 320000 + 10000 := by
  unfold dstS
  rw [show (eDst (LT t)).view.set = (Rect.unit (s := S640000) (k0_off2 (LT t)) S10000.size (k0_off2_inb (LT t))).set from View.set_slice_whole _ _,
    Rect.mem_set_unit, Fin.forall_fin_one, k0_off2_eq]
  simp [base]

theorem mem_band (t : Tl) (j : S320000x128.Idx) :
    j ∈ bandS d t ↔ base (LT t) ≤ (j 0).val ∧ (j 0).val < base (LT t) + 10000 := by
  unfold bandS
  rw [show bandSet d (LT t) = (bandRect (LT t)).set from Finset.map_refl, Rect.mem_set_unit, Fin.forall_fin_two]
  have h1 : (j 1).val < 128 := (j 1).isLt
  simp
  omega

theorem base_inj {t t' : Tl} (h : t ≠ t') : base (LT t) + 10000 ≤ base (LT t') ∨ base (LT t') + 10000 ≤ base (LT t) := by
  rcases t with ⟨c, i⟩; rcases t' with ⟨c', i'⟩
  have hc : c.val < 2 := c.isLt
  have hc' : c'.val < 2 := c'.isLt
  simp only [LT, base_coordsV]
  by_contra hn
  apply h
  have h1 : i.val = i'.val := by omega
  have h2 : c.val = c'.val := by omega
  exact Prod.ext (Fin.ext h2) (Fin.ext h1)

theorem src_disjoint : ∀ t ∈ (Finset.univ : Finset Tl), ∀ t' ∈ (Finset.univ : Finset Tl), t ≠ t' →
    Disjoint (srcS t) (srcS t') := fun t _ t' _ h =>
  Finset.disjoint_left.mpr fun j h1 h2 => by
    rw [mem_src] at h1 h2; have := base_inj h; omega
theorem dst_disjoint : ∀ t ∈ (Finset.univ : Finset Tl), ∀ t' ∈ (Finset.univ : Finset Tl), t ≠ t' →
    Disjoint (dstS t) (dstS t') := fun t _ t' _ h =>
  Finset.disjoint_left.mpr fun j h1 h2 => by
    rw [mem_dst] at h1 h2; have := base_inj h; omega
theorem band_disjoint : ∀ t ∈ (Finset.univ : Finset Tl), ∀ t' ∈ (Finset.univ : Finset Tl), t ≠ t' →
    Disjoint (bandS d t) (bandS d t') := fun t _ t' _ h =>
  Finset.disjoint_left.mpr fun j h1 h2 => by
    rw [mem_band] at h1 h2; have := base_inj h; omega

/-- The tile whose interval holds row r < 320000. -/
def tileOf (r : ℕ) (h : r < 320000) : Tl := (⟨(r / 10000) % 2, Nat.mod_lt _ (by decide)⟩, ⟨(r / 10000) / 2, by omega⟩)

theorem tileOf_spec (r : ℕ) (h : r < 320000) : base (LT (tileOf r h)) ≤ r ∧ r < base (LT (tileOf r h)) + 10000 := by
  simp only [LT, tileOf, base_coordsV]; omega

theorem src_dst_disjoint :
    Disjoint ((Finset.univ : Finset Tl).biUnion srcS) ((Finset.univ : Finset Tl).biUnion dstS) :=
  Finset.disjoint_left.mpr fun j h1 h2 => by
    obtain ⟨t, -, h1⟩ := Finset.mem_biUnion.mp h1
    obtain ⟨t', -, h2⟩ := Finset.mem_biUnion.mp h2
    rw [mem_src] at h1; rw [mem_dst] at h2
    have := base_le (LT t)
    omega

theorem e_cover : ((Finset.univ : Finset Tl).biUnion srcS) ∪ ((Finset.univ : Finset Tl).biUnion dstS)
    = (Finset.univ : Finset S640000.Idx) := by
  ext j
  simp only [Finset.mem_union, Finset.mem_biUnion, Finset.mem_univ, true_and, iff_true, mem_src, mem_dst]
  have hj : (j 0).val < 640000 := (j 0).isLt
  by_cases h : (j 0).val < 320000
  · exact .inl ⟨tileOf _ h, tileOf_spec _ h⟩
  · have h' : (j 0).val - 320000 < 320000 := by omega
    have := tileOf_spec _ h'
    exact .inr ⟨tileOf _ h', by omega, by omega⟩

theorem band_cover : ((Finset.univ : Finset Tl).biUnion (bandS d)) = (Finset.univ : Finset S320000x128.Idx) := by
  ext j
  simp only [Finset.mem_biUnion, Finset.mem_univ, true_and, iff_true, mem_band]
  have hj : (j 0).val < 320000 := (j 0).isLt
  exact ⟨tileOf _ hj, tileOf_spec _ hj⟩

/-! ## The arrays as the tiles' pieces -/

/-- The flattened edge list whole is the tiles' source slices and destination slices. -/
theorem e_tiles (fe : Buf (Elt F) (eLoc d)) :
    (eLoc d ↦{fullShare} fe : sProp 𝕄) ⊣⊢ iprop((bigSep Finset.univ fun t : Tl => eLoc d ↦[srcS t]{fullShare} fe)
      ∗ bigSep Finset.univ fun t : Tl => eLoc d ↦[dstS t]{fullShare} fe) := by
  rw [← pointsTo_biUnion Finset.univ (ℓ := eLoc d) srcS src_disjoint,
    ← pointsTo_biUnion Finset.univ (ℓ := eLoc d) dstS dst_disjoint]
  have h : (eLoc d ↦[(Finset.univ : Finset Tl).biUnion srcS ∪ (Finset.univ : Finset Tl).biUnion dstS]{fullShare} fe : sProp 𝕄) ⊣⊢ _ :=
    pointsTo_union (ℓ := eLoc d) (q := fullShare) (f := fe) src_dst_disjoint
  rw [e_cover] at h
  exact h

/-- The feature array whole is the tiles' bands. -/
theorem x_tiles (fx : Buf (Elt F) (xLoc d)) :
    (xLoc d ↦{fullShare} fx : sProp 𝕄) = bigSep Finset.univ fun t : Tl => xLoc d ↦[bandS d t]{fullShare} fx := by
  rw [← pointsTo_biUnion Finset.univ (ℓ := xLoc d) (bandS d) (band_disjoint d), band_cover]

/-- What the TensorCore keeps of z during the call: what the two cuts leave. -/
def zRem : sProp 𝕄 :=
  iprop((zLoc d ↦{Transfers.shareDrop fullShare 2} m (zLoc d))
    ∗ bigSep Finset.univ fun c : Fin 2 => zLoc d ↦{Transfers.shareDrop (Transfers.shareTok fullShare 2 c) 16} m (zLoc d))

/-- z whole is what the cuts leave and the tiles' read shares. -/
theorem z_split : (zLoc d ↦{fullShare} m (zLoc d) : sProp 𝕄)
    ⊢ iprop(zRem m d ∗ bigSep Finset.univ fun c : Fin 2 => bigSep Finset.univ fun i : Fin 16 => zLoc d ↦{qTile c i} m (zLoc d)) := by
  have h2 : (bigSep Finset.univ fun c : Fin 2 => (zLoc d ↦{Transfers.shareTok fullShare 2 c} m (zLoc d) : sProp 𝕄))
      ⊢ bigSep Finset.univ fun c : Fin 2 => iprop((zLoc d ↦{Transfers.shareDrop (Transfers.shareTok fullShare 2 c) 16} m (zLoc d))
          ∗ bigSep Finset.univ fun i : Fin 16 => zLoc d ↦{qTile c i} m (zLoc d)) :=
    bigSep_mono fun c _ => Transfers.pointsTo_toks_split (Transfers.shareTok fullShare 2 c) 16
  rw [bigSep_sep'] at h2
  unfold zRem
  iintro H
  ihave H := (Transfers.pointsTo_toks_split fullShare 2) $$ H
  icases H with ⟨Hr, Ht⟩
  ihave Ht := h2 $$ Ht
  icases Ht with ⟨Hd, Hk⟩
  isplitl [Hr Hd]
  · isplitl [Hr]; · iexact Hr
    iexact Hd
  · iexact Hk
theorem z_join : iprop(zRem m d ∗ bigSep Finset.univ fun c : Fin 2 => bigSep Finset.univ fun i : Fin 16 => zLoc d ↦{qTile c i} m (zLoc d))
    ⊢ (zLoc d ↦{fullShare} m (zLoc d) : sProp 𝕄) := by
  have h2 : (bigSep Finset.univ fun c : Fin 2 => iprop((zLoc d ↦{Transfers.shareDrop (Transfers.shareTok fullShare 2 c) 16} m (zLoc d))
          ∗ bigSep Finset.univ fun i : Fin 16 => zLoc d ↦{qTile c i} m (zLoc d)))
      ⊢ bigSep Finset.univ fun c : Fin 2 => (zLoc d ↦{Transfers.shareTok fullShare 2 c} m (zLoc d) : sProp 𝕄) :=
    bigSep_mono fun c _ => Transfers.pointsTo_toks_join (Transfers.shareTok fullShare 2 c) 16
  rw [bigSep_sep'] at h2
  unfold zRem
  iintro ⟨⟨Hr, Hd⟩, Hk⟩
  iapply (Transfers.pointsTo_toks_join fullShare 2)
  isplitl [Hr]; · iexact Hr
  iapply h2
  isplitl [Hd]; · iexact Hd
  iexact Hk

end Split

end Cert.Proof.KI

end
-- ==== Proof.IdealLaunch.lean ====
/-
  The launch of the edge-feature stage, last part: the TensorCore's program, and the run of the whole kernel.

  The TensorCore flattens the edge list, hands the SparseCores their tiles' shares of z, of the flattened list and of the
  feature array, and takes them back with the feature array at the feature rows; it lays the first bias, the second
  layer's weights and the second bias out as rows, and runs the multilayer-perceptron call, which is taken here as one
  step with a stated contract: from the six arrays it reads and writes, whole, it leaves the five inputs as they were and
  the output at contents of which a property R holds. At the end the six arguments hold their launch contents and the
  output holds contents satisfying R.
-/
import proofs.«202806_g74526272520516_cont_9to1_m_1211_39_alg».proof.Proof.IdealLaunchElem
import proofs.«202806_g74526272520516_cont_9to1_m_1211_39_alg».proof.Proof.IdealLaunchSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg) [FloatOps F]

/-- An array of device d, as its TensorCore names it. -/
abbrev aLoc (d : Dev nD) (b : Ref sig .tc) : Loc nD τ sig := (SparseCore.T d).loc b

/-! ## The tiles' shares, at the TensorCore's locations -/

section Tiles

variable (d : Dev nD)

/-- A tile's share of the arrays, as the TensorCore holds the pieces. -/
theorem tileRes_eq (t : Tl) (qz : PosShare TreeShare) (fe : Buf (Elt F) (eLoc d)) (fx : Buf (Elt F) (xLoc d)) :
    tileRes m d (LT t) qz fe fx = iprop((zLoc d ↦{qz} m (zLoc d)) ∗ (eLoc d ↦[srcS t]{fullShare} fe)
      ∗ (eLoc d ↦[dstS t]{fullShare} fe) ∗ (xLoc d ↦[bandS d t]{fullShare} fx)) := rfl

/-- All the tiles' shares are the read shares of z, the source and destination slices and the bands. -/
theorem tiles_eq (fe : Buf (Elt F) (eLoc d)) (fx : Buf (Elt F) (xLoc d)) :
    (bigSep Finset.univ fun c : Fin 2 => bigSep Finset.univ fun i : Fin 16 => tileRes m d (coordsV c i) (qTile c i) fe fx)
      = iprop((bigSep Finset.univ fun c : Fin 2 => bigSep Finset.univ fun i : Fin 16 => zLoc d ↦{qTile c i} m (zLoc d))
        ∗ (bigSep Finset.univ fun t : Tl => eLoc d ↦[srcS t]{fullShare} fe)
        ∗ (bigSep Finset.univ fun t : Tl => eLoc d ↦[dstS t]{fullShare} fe)
        ∗ (bigSep Finset.univ fun t : Tl => xLoc d ↦[bandS d t]{fullShare} fx)) := by
  rw [← bigSep_univ_prod (fun t : Tl => tileRes m d (LT t) (qTile t.1 t.2) fe fx),
    ← bigSep_univ_prod (fun t : Tl => (zLoc d ↦{qTile t.1 t.2} m (zLoc d) : sProp 𝕄)),
    bigSep_congr fun t _ => tileRes_eq m d t (qTile t.1 t.2) fe fx, bigSep_sep', bigSep_sep', bigSep_sep']

/-- The three arrays whole are what the cuts of z leave and all the tiles' shares; -/
theorem arrays_split (fe : Buf (Elt F) (eLoc d)) (fx : Buf (Elt F) (xLoc d)) :
    iprop((zLoc d ↦{fullShare} m (zLoc d)) ∗ (eLoc d ↦{fullShare} fe) ∗ (xLoc d ↦{fullShare} fx))
      ⊢ iprop(zRem m d ∗ bigSep Finset.univ fun c : Fin 2 => bigSep Finset.univ fun i : Fin 16 => tileRes m d (coordsV c i) (qTile c i) fe fx) := by
  rw [tiles_eq, x_tiles]
  iintro ⟨Hz, He, Hx⟩
  ihave Hz := (z_split m d) $$ Hz
  icases Hz with ⟨Hr, Hz⟩
  ihave He := (e_tiles d fe).1 $$ He
  icases He with ⟨Hs, Hd⟩
  isplitl [Hr]; · iexact Hr
  isplitl [Hz]; · iexact Hz
  isplitl [Hs]; · iexact Hs
  isplitl [Hd]; · iexact Hd
  iexact Hx
/-- and back. -/
theorem arrays_join (fe : Buf (Elt F) (eLoc d)) (fx : Buf (Elt F) (xLoc d)) :
    iprop(zRem m d ∗ bigSep Finset.univ fun c : Fin 2 => bigSep Finset.univ fun i : Fin 16 => tileRes m d (coordsV c i) (qTile c i) fe fx)
      ⊢ iprop((zLoc d ↦{fullShare} m (zLoc d)) ∗ (eLoc d ↦{fullShare} fe) ∗ (xLoc d ↦{fullShare} fx)) := by
  rw [tiles_eq, x_tiles]
  iintro ⟨Hr, Hz, Hs, Hd, Hx⟩
  isplitl [Hr Hz]
  · iapply (z_join m d)
    isplitl [Hr]; · iexact Hr
    iexact Hz
  isplitl [Hs Hd]
  · iapply (e_tiles d fe).2
    isplitl [Hs]; · iexact Hs
    iexact Hd
  iexact Hx

/-- What the call takes for the two SparseCores, and what it hands back: all the tiles' shares. -/
theorem st0_eq : (bigSep Finset.univ fun c : Fin ((K (F := F)).nCore 0) => (P m).st 0 d c)
    = bigSep Finset.univ fun c : Fin 2 => bigSep Finset.univ fun i : Fin 16 => tileRes m d (coordsV c i) (qTile c i) (eFlat m d) (m (xLoc d)) := rfl
theorem dn0_eq : (bigSep Finset.univ fun c : Fin ((K (F := F)).nCore 0) => (P m).dn 0 d c)
    = bigSep Finset.univ fun c : Fin 2 => bigSep Finset.univ fun i : Fin 16 =>
        tileRes m d (coordsV c i) (qTile c i) (eFlat m d) (Cert.Feature.XF (m (zLoc d)) (eFlat m d)) := rfl

end Tiles

/-! ## The TensorCore's arrays and the host operations -/

omit [FloatOps F] in
theorem unscopedBufs_eq (d : Dev nD) (W : (b : Ref sig .tc) → Buf (Elt F) ((d.tc : Thread nD τ).loc b)) :
    (unscopedBufs d W : sProp 𝕄) = iprop((aLoc d main_arg0 ↦{fullShare} W main_arg0) ∗ (aLoc d main_arg1 ↦{fullShare} W main_arg1)
      ∗ (aLoc d main_arg2 ↦{fullShare} W main_arg2) ∗ (aLoc d main_arg3 ↦{fullShare} W main_arg3) ∗ (aLoc d main_arg4 ↦{fullShare} W main_arg4)
      ∗ (aLoc d main_arg5 ↦{fullShare} W main_arg5) ∗ (aLoc d main_v0 ↦{fullShare} W main_v0) ∗ (aLoc d main_v1 ↦{fullShare} W main_v1)
      ∗ (aLoc d main_v2 ↦{fullShare} W main_v2) ∗ (aLoc d main_v3 ↦{fullShare} W main_v3) ∗ (aLoc d main_v4 ↦{fullShare} W main_v4)
      ∗ (aLoc d main_v5 ↦{fullShare} W main_v5)) := by
  unfold unscopedBufs
  rw [show (Finset.univ.filter fun b : Ref sig .tc => ¬ b.isScoped)
      = {main_arg0, main_arg1, main_arg2, main_arg3, main_arg4, main_arg5, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation of device d's arrays. -/
def V0 (d : Dev nD) : Valuation τ sig (Elt F) := fun b => m (d, b)

/-- A reshape of @main, from its operand and its result both at their launch contents: the operand is kept and the
    result holds the operation's value. -/
theorem wp_reshape₀ (d : Dev nD) (x y : Ref sig .tc) (he : x.ty.elt = y.ty.elt) (hn : x.ty.shape.ShapeCasts y.ty.shape)
    (hx : x.space ≠ .host ∧ (Proc.devRef .tc x : DevRef τ sig).isScoped = false)
    (hy : y.space ≠ .host ∧ (Proc.devRef .tc y : DevRef τ sig).isScoped = false)
    (hne : (Proc.devRef .tc x : DevRef τ sig) ≠ Proc.devRef .tc y) {Q : PUnit → sProp 𝕄} :
    iprop(boundary (SparseCore.T d : Thread nD τ) ∗ (aLoc d x ↦{fullShare} m (aLoc d x)) ∗ (aLoc d y ↦{fullShare} m (aLoc d y)))
      ⊢ iprop(((boundary (SparseCore.T d : Thread nD τ) ∗ (aLoc d x ↦{fullShare} m (aLoc d x))
            ∗ (aLoc d y ↦{fullShare} (StableHlo.reshape x y he hn hx hy : HloOp τ sig (Elt F)).result (V0 m d) (Proc.devRef .tc y))) -∗ Q ⟨⟩)
          -∗ wp frame (wpE ((K (F := F)).defs (D (F := F))) 𝒱 (SparseCore.T d) none) Set.univ
              (hlo rfl (StableHlo.reshape x y he hn hx hy) (fun _ => .ret ⟨⟩)) Q) := by
  have hnm : (Proc.devRef .tc x : DevRef τ sig) ∉ ({Proc.devRef .tc y} : Finset (DevRef τ sig)) := by
    rw [Finset.mem_singleton]; exact hne
  iintro ⟨Hb, Hx, Hy⟩ Hk
  iapply (wp_hlo_within 𝒱 (SparseCore.T d) none Set.univ (op := StableHlo.reshape x y he hn hx hy)
      (S := {Proc.devRef .tc x, Proc.devRef .tc y}) (Finset.Subset.refl _) (V := V0 m d)) $$ [Hb Hx Hy]
  · isplitl [Hb]; · iexact Hb
    unfold held
    rw [SparseCore.bigSep_insert' hnm, bigSep_singleton]
    isplitl [Hx]; · iexact Hx
    iexact Hy
  iintro ⟨Hb, Hh⟩
  rw [wp_ret]; imodintro
  iapply Hk
  isplitl [Hb]; · iexact Hb
  unfold held
  rw [SparseCore.bigSep_insert' hnm, bigSep_singleton,
    (StableHlo.reshape x y he hn hx hy : HloOp τ sig (Elt F)).result_of_not_mem (V0 m d) (b := Proc.devRef .tc x) hnm]
  exact BI.Entails.refl _

/-- The first bias laid out as a row, the second layer's weights as a row, the second bias as a 1 × 1 array. -/
def b1Row (d : Dev nD) : Buf (Elt F) (aLoc d main_v2) := shapeCast S1x64 (m (aLoc d main_arg3)) shapeCasts_S64_S1x64
def w2Row (d : Dev nD) : Buf (Elt F) (aLoc d main_v3) := shapeCast S1x64 (m (aLoc d main_arg4)) shapeCasts_S64x1_S1x64
def b2One (d : Dev nD) : Buf (Elt F) (aLoc d main_v4) := shapeCast S1x1 (m (aLoc d main_arg5)) shapeCasts_S1_S1x1

omit [FloatOps F] in
theorem res_v0 (d : Dev nD) (hx hy) :
    (StableHlo.reshape main_arg1 main_v0 rfl shapeCasts_S2x320000_S640000 hx hy : HloOp τ sig (Elt F)).result (V0 m d) (Proc.devRef .tc main_v0) = eFlat m d :=
  (StableHlo.reshape_result main_arg1 main_v0 rfl shapeCasts_S2x320000_S640000 hx hy (V0 m d)).trans rfl
omit [FloatOps F] in
theorem res_v2 (d : Dev nD) (hx hy) :
    (StableHlo.reshape main_arg3 main_v2 rfl shapeCasts_S64_S1x64 hx hy : HloOp τ sig (Elt F)).result (V0 m d) (Proc.devRef .tc main_v2) = b1Row m d :=
  (StableHlo.reshape_result main_arg3 main_v2 rfl shapeCasts_S64_S1x64 hx hy (V0 m d)).trans rfl
omit [FloatOps F] in
theorem res_v3 (d : Dev nD) (hx hy) :
    (StableHlo.reshape main_arg4 main_v3 rfl shapeCasts_S64x1_S1x64 hx hy : HloOp τ sig (Elt F)).result (V0 m d) (Proc.devRef .tc main_v3) = w2Row m d :=
  (StableHlo.reshape_result main_arg4 main_v3 rfl shapeCasts_S64x1_S1x64 hx hy (V0 m d)).trans rfl
omit [FloatOps F] in
theorem res_v4 (d : Dev nD) (hx hy) :
    (StableHlo.reshape main_arg5 main_v4 rfl shapeCasts_S1_S1x1 hx hy : HloOp τ sig (Elt F)).result (V0 m d) (Proc.devRef .tc main_v4) = b2One m d :=
  (StableHlo.reshape_result main_arg5 main_v4 rfl shapeCasts_S1_S1x1 hx hy (V0 m d)).trans rfl

/-! ## The multilayer-perceptron call as one step -/

/-- The six arrays the call reads and writes, whole: the feature array at the feature rows, the first layer's weights, the
    three rows, and the output at o. -/
def regArrs (d : Dev nD) (o : Buf (Elt F) (aLoc d main_v5)) : sProp 𝕄 :=
  iprop((aLoc d main_v1 ↦{fullShare} Cert.Feature.XF (m (zLoc d)) (eFlat m d)) ∗ (aLoc d main_arg2 ↦{fullShare} m (aLoc d main_arg2))
    ∗ (aLoc d main_v2 ↦{fullShare} b1Row m d) ∗ (aLoc d main_v3 ↦{fullShare} w2Row m d) ∗ (aLoc d main_v4 ↦{fullShare} b2One m d)
    ∗ (aLoc d main_v5 ↦{fullShare} o))

omit [FloatOps F] in
/-- What the TensorCore owes after the one SparseCore call: nothing, its recorded pairs at levels at most 8. -/
def owesTC (d : Dev nD) : sProp 𝕄 :=
  iprop(∃ W, ⌜(K (F := F)).WBelow (SparseCore.T d) W (8 * 1)⌝ ∗ owes (SparseCore.T d) 0 W)

/-- The call's contract: from the records' levels, the region boundary, the six arrays (the output at its launch
    contents), what the TensorCore owes and the pipeline's funded ghost state, the call runs and hands back the boundary,
    the five inputs as they were with the output at contents of which R holds, and what the TensorCore owes. -/
def RegionStep (R : (d : Dev nD) → Buf (Elt F) (aLoc d main_v5) → Prop) : Prop :=
  ∀ (d : Dev nD) (Q : PUnit → sProp 𝕄),
    iprop(levAts (K (F := F)).L (K (F := F)).lev ∗ boundary (SparseCore.T d : Thread nD τ) ∗ regArrs m d (m (aLoc d main_v5)) ∗ owesTC (F := F) d
        ∗ Pipeline.cellsGhost cfgs (EP (F := F)) 0 d ∗ Pipeline.toksInit cfgs (EP (F := F)) 0 d
        ∗ (iprop(boundary (SparseCore.T d : Thread nD τ) ∗ (∃ o, ⌜R d o⌝ ∗ regArrs m d o) ∗ owesTC (F := F) d) -∗ Q ⟨⟩))
      ⊢ wp frame (wpE ((K (F := F)).defs (D (F := F))) 𝒱 (SparseCore.T d) none) Set.univ
          (Prog.lift (.customCall (SparseCore.inner (Pipeline.entry 0)) ())) Q

omit [FloatOps F] in
/-- The TensorCore's state after the call is what it owes beside the rest. -/
theorem tcSt_one (d : Dev nD) : ∃ Rst : sProp 𝕄, (K (F := F)).tcSt EH d 1 = iprop(owesTC (F := F) d ∗ Rst) := by
  unfold SparseCore.Cfg.tcSt owesTC
  rw [(K (F := F)).Otc_end d (le_refl 1)]
  exact ⟨_, rfl⟩

/-! ## @main on the TensorCore -/

variable (R : (d : Dev nD) → Buf (Elt F) (aLoc d main_v5) → Prop)

/-- What @main leaves the claim: the six arguments at their launch contents, the output at contents of which R holds. -/
def FIN (d : Dev nD) : sProp 𝕄 :=
  iprop((aLoc d main_arg0 ↦{fullShare} m (aLoc d main_arg0)) ∗ (aLoc d main_arg1 ↦{fullShare} m (aLoc d main_arg1))
    ∗ (aLoc d main_arg2 ↦{fullShare} m (aLoc d main_arg2)) ∗ (aLoc d main_arg3 ↦{fullShare} m (aLoc d main_arg3))
    ∗ (aLoc d main_arg4 ↦{fullShare} m (aLoc d main_arg4)) ∗ (aLoc d main_arg5 ↦{fullShare} m (aLoc d main_arg5))
    ∗ ∃ o, ⌜R d o⌝ ∗ aLoc d main_v5 ↦{fullShare} o)

theorem hmain (hreg : RegionStep m R) (κ : GSem nD τ sig → ℕ) (d : Dev nD) :
    iprop((K (F := F)).ctx EH (P m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m R d) := by
  obtain ⟨Rst, hRst⟩ := tcSt_one (F := F) d
  unfold SparseCore.Cfg.tcRes
  rw [unscopedBufs_eq]
  simp only [main, wp_bind, wp_pure]
  iintro ⟨#Hctx, Hst, ⟨Hb, ⟨Ha0, Ha1, Ha2, Ha3, Ha4, Ha5, Hv0, Hv1, Hv2, Hv3, Hv4, Hv5⟩, -, -⟩, Hgp⟩
  -- the edge list flattened
  iapply (wp_reshape₀ m d main_arg1 main_v0 rfl shapeCasts_S2x320000_S640000 ⟨by decide, rfl⟩ ⟨by decide, rfl⟩ (by decide)) $$ [Hb Ha1 Hv0]
  · isplitl [Hb]; · iexact Hb
    isplitl [Ha1]; · iexact Ha1
    iexact Hv0
  iintro ⟨Hb, Ha1, Hv0⟩
  ihave Hv0 := (Entails.of_eq (congrArg (fun f => (aLoc d main_v0 ↦{fullShare} f : sProp 𝕄)) (res_v0 m d _ _))) $$ Hv0
  -- the call: the tiles' shares out and back
  ihave Hsp := (arrays_split m d (eFlat m d) (m (xLoc d))) $$ [Ha0 Hv0 Hv1]
  · isplitl [Ha0]; · iexact Ha0
    isplitl [Hv0]; · iexact Hv0
    iexact Hv1
  icases Hsp with ⟨Hzr, Htiles⟩
  iapply ((K (F := F)).wp_run (D (F := F)) 𝒱 (EH := EH) (P := P m) κ d 0)
  isplitr; · iexact Hctx
  isplitl [Hst]; · iexact Hst
  isplitl [Htiles]
  · rw [st0_eq]; iexact Htiles
  iintro ⟨Hst, Hdn⟩
  ihave Hdn := (Entails.of_eq (dn0_eq m d)) $$ Hdn
  ihave Hj := (arrays_join m d (eFlat m d) (Cert.Feature.XF (m (zLoc d)) (eFlat m d))) $$ [Hzr Hdn]
  · isplitl [Hzr]; · iexact Hzr
    iexact Hdn
  icases Hj with ⟨Ha0, Hv0, Hv1⟩
  -- the three rows laid out
  iapply (wp_reshape₀ m d main_arg3 main_v2 rfl shapeCasts_S64_S1x64 ⟨by decide, rfl⟩ ⟨by decide, rfl⟩ (by decide)) $$ [Hb Ha3 Hv2]
  · isplitl [Hb]; · iexact Hb
    isplitl [Ha3]; · iexact Ha3
    iexact Hv2
  iintro ⟨Hb, Ha3, Hv2⟩
  ihave Hv2 := (Entails.of_eq (congrArg (fun f => (aLoc d main_v2 ↦{fullShare} f : sProp 𝕄)) (res_v2 m d _ _))) $$ Hv2
  iapply (wp_reshape₀ m d main_arg4 main_v3 rfl shapeCasts_S64x1_S1x64 ⟨by decide, rfl⟩ ⟨by decide, rfl⟩ (by decide)) $$ [Hb Ha4 Hv3]
  · isplitl [Hb]; · iexact Hb
    isplitl [Ha4]; · iexact Ha4
    iexact Hv3
  iintro ⟨Hb, Ha4, Hv3⟩
  ihave Hv3 := (Entails.of_eq (congrArg (fun f => (aLoc d main_v3 ↦{fullShare} f : sProp 𝕄)) (res_v3 m d _ _))) $$ Hv3
  iapply (wp_reshape₀ m d main_arg5 main_v4 rfl shapeCasts_S1_S1x1 ⟨by decide, rfl⟩ ⟨by decide, rfl⟩ (by decide)) $$ [Hb Ha5 Hv4]
  · isplitl [Hb]; · iexact Hb
    isplitl [Ha5]; · iexact Ha5
    iexact Hv4
  iintro ⟨Hb, Ha5, Hv4⟩
  ihave Hv4 := (Entails.of_eq (congrArg (fun f => (aLoc d main_v4 ↦{fullShare} f : sProp 𝕄)) (res_v4 m d _ _))) $$ Hv4
  -- the multilayer-perceptron call
  ihave Hst := (Entails.of_eq ((show (K (F := F)).tcSt EH d ((0 : Fin 1).val + 1) = (K (F := F)).tcSt EH d 1 from rfl).trans hRst)) $$ Hst
  icases Hst with ⟨Ho, Hrest⟩
  ihave #Hlev := (SparseCore.Cfg.ctx_levAts κ) $$ Hctx
  iapply (hreg d _)
  isplitr; · iexact Hlev
  isplitl [Hb]; · iexact Hb
  isplitl [Hv1 Ha2 Hv2 Hv3 Hv4 Hv5]
  · unfold regArrs
    isplitl [Hv1]; · iexact Hv1
    isplitl [Ha2]; · iexact Ha2
    isplitl [Hv2]; · iexact Hv2
    isplitl [Hv3]; · iexact Hv3
    isplitl [Hv4]; · iexact Hv4
    iexact Hv5
  isplitl [Ho]; · iexact Ho
  unfold GP
  icases Hgp with ⟨Hcg, Htk⟩
  isplitl [Hcg]; · iexact Hcg
  isplitl [Htk]; · iexact Htk
  iintro ⟨Hb, ⟨%o, %hR, Harr⟩, Ho⟩
  unfold regArrs
  icases Harr with ⟨Hv1, Ha2, Hv2, Hv3, Hv4, Hv5⟩
  imodintro
  isplitl [Ho Hrest]
  · iapply (Entails.of_eq hRst.symm)
    isplitl [Ho]; · iexact Ho
    iexact Hrest
  unfold FIN
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexists o
  isplitr; · ipureintro; exact hR
  iexact Hv5

/-! ## The final memory and the run -/

/-- What the final memory of device d shows: the six arguments unchanged, the output satisfying R. -/
def fq (d : Dev nD) (s' : Phys nD τ sig (Elt F)) : Prop :=
  (s'.mem.mem (aLoc d main_arg0) = m (aLoc d main_arg0) ∧ s'.mem.mem (aLoc d main_arg1) = m (aLoc d main_arg1)
    ∧ s'.mem.mem (aLoc d main_arg2) = m (aLoc d main_arg2) ∧ s'.mem.mem (aLoc d main_arg3) = m (aLoc d main_arg3)
    ∧ s'.mem.mem (aLoc d main_arg4) = m (aLoc d main_arg4) ∧ s'.mem.mem (aLoc d main_arg5) = m (aLoc d main_arg5))
  ∧ R d (s'.mem.mem (aLoc d main_v5))

omit [FloatOps F] in
theorem hfin (d : Dev nD) (s' : Phys nD τ sig (Elt F)) : iprop(FIN m R d ∗ SI s') ⊢ (⌜fq m R d s'⌝ : sProp 𝕄) := by
  unfold FIN
  iintro ⟨⟨Ha0, Ha1, Ha2, Ha3, Ha4, Ha5, %o, %hR, Hv5⟩, HSI⟩
  icombine HSI Ha0 gives %h0
  icombine HSI Ha1 gives %h1
  icombine HSI Ha2 gives %h2
  icombine HSI Ha3 gives %h3
  icombine HSI Ha4 gives %h4
  icombine HSI Ha5 gives %h5
  icombine HSI Hv5 gives %h6
  ipureintro
  have e6 : s'.mem.mem (aLoc d main_v5) = o := funext fun i => h6 i (Finset.mem_univ i)
  exact ⟨⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i)⟩, e6 ▸ hR⟩

/-- The claim the run proves: on every device the six arguments are unchanged and the output satisfies R. -/
def QC : PUnit × MemSt nD τ sig (Elt F) → Prop := fun r => ∀ d : Dev nD,
  (r.2.mem (aLoc d main_arg0) = m (aLoc d main_arg0) ∧ r.2.mem (aLoc d main_arg1) = m (aLoc d main_arg1)
    ∧ r.2.mem (aLoc d main_arg2) = m (aLoc d main_arg2) ∧ r.2.mem (aLoc d main_arg3) = m (aLoc d main_arg3)
    ∧ r.2.mem (aLoc d main_arg4) = m (aLoc d main_arg4) ∧ r.2.mem (aLoc d main_arg5) = m (aLoc d main_arg5))
  ∧ R d (r.2.mem (aLoc d main_v5))

/-- The run of the whole kernel, from the tile's contract, the flattened edge list's words being row numbers of z, and the
    multilayer-perceptron call's contract. -/
theorem run_main [∀ e, Nonempty (Elt F e)] (hbody : TileContract m) (hpre : ∀ (d : Dev nD) j, (eFlat m d j).toNat < 10000)
    (hreg : RegionStep m R) :
    θ_run (Cert.KernelIdeal.defs (F := F)) (Cert.KernelIdeal.threads (F := F)) ⟨m, fun _ => 0, ρ⟩ (QC m R) :=
  SparseCore.Cfg.θ_run_sc (K := K (F := F)) (D := D (F := F)) (𝒱 := 𝒱) (EH := EH) (P := P m) facts v₀
    (fun q hq => match q with | 0 => nomatch hq)
    (fun q _ => match q with | 0 => tileObl m facts hbody hpre)
    (fun q _ => match q with | 0 => SparseCore.Cfg.VecSplit.of_plain (vecSplit m))
    m ρ main (GP (F := F)) (FIN m R) (u₀ (F := F)) (sep_elim_left.trans (hu₀ m)) (hmain m ρ R hreg) (fq m R) (hfin m R) (QC m R) (fun _ h => h)

end Cert.Proof.KI

end
-- ==== Proof.IdealRegionBody.lean ====
/-
  The multilayer-perceptron block of the idealized kernel at one grid point: the body run on whole staging
  buffers. It loads the feature block, the two weight arrays and the two biases, and stores into the output
  block the logistic of the second layer's affine form of the rectified first layer: the generated payload
  of the five loaded blocks. The inputs' buffers are handed back as they were.
-/
import proofs.«202806_g74526272520516_cont_9to1_m_1211_39_alg».proof.Proof.IdealSetup
import Idealize.ShloMosaic.Lib.Pipeline.FrameBody
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (SparseCore.Cfg.HIx 1) (Elt F) ℕ UU ℕ

/-! ## The body's accesses: each the whole block -/

abbrev rX : Rect S16000x128 := Rect.unit (s := S16000x128) ![0, 0] S16000x128.size inb_S16000x128_S16000x128_0_0
abbrev rW1 : Rect S128x64 := Rect.unit (s := S128x64) ![0, 0] S128x64.size inb_S128x64_S128x64_0_0
abbrev rRow : Rect S1x64 := Rect.unit (s := S1x64) ![0, 0] S1x64.size inb_S1x64_S1x64_0_0
abbrev rOne : Rect S1x1 := Rect.unit (s := S1x1) ![0, 0] S1x1.size inb_S1x1_S1x1_0_0
abbrev rOut : Rect S16000x1 := Rect.unit (s := S16000x1) ![0, 0] S16000x1.size inb_S16000x1_S16000x1_0_0

/-- The zero offsets of a rank-two block, as the printed rectangles spell them. -/
theorem zero2 : (![0, 0] : Fin 2 → Nat) = fun _ => 0 := funext fun a => by fin_cases a <;> rfl

/-- The one store covers the output block. -/
theorem cover_out (p : Vec F S16000x1 .f32) (y : S16000x1.Idx) :
    ∃ pc ∈ ([⟨rOut, p⟩] : List (View.Piece (Elt F) S16000x1 .f32)), y ∈ pc.1.set :=
  ⟨⟨rOut, p⟩, List.mem_singleton_self _, View.mem_set_unit_zero (S := S16000x1) zero2 inb_S16000x1_S16000x1_0_0 y⟩

set_option maxHeartbeats 1000000 in
/-- The body on whole staging buffers: the five inputs at contents x, w1, b1r, w2r, b2r and the output's at anything
    run to the inputs as they were and the output's at the payload of the five. -/
theorem body_wp (c : Dev nD) (E : Set ℕ) (i : grid1.Coords)
    (arg1 : Memref sig .tc .vmem S16000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x1 .f32) (harg5 : arg5.IsWhole) (arg6 : Memref sig .tc .vmem S16000x1 .f32) (harg6 : arg6.IsWhole)
    (x : Vec F S16000x128 .f32) (w1 : Vec F S128x64 .f32) (b1r w2r : Vec F S1x64 .f32) (b2r : Vec F S1x1 .f32) (Q : PUnit → sProp 𝕄) :
    iprop(owns (c : Thread nD τ) arg1 fullShare x ∗ owns (c : Thread nD τ) arg2 fullShare w1 ∗ owns (c : Thread nD τ) arg3 fullShare b1r
        ∗ owns (c : Thread nD τ) arg4 fullShare w2r ∗ owns (c : Thread nD τ) arg5 fullShare b2r ∗ (∃ o, owns (c : Thread nD τ) arg6 fullShare o)
        ∗ (iprop(owns (c : Thread nD τ) arg1 fullShare x ∗ owns (c : Thread nD τ) arg2 fullShare w1 ∗ owns (c : Thread nD τ) arg3 fullShare b1r
            ∗ owns (c : Thread nD τ) arg4 fullShare w2r ∗ owns (c : Thread nD τ) arg5 fullShare b2r
            ∗ owns (c : Thread nD τ) arg6 fullShare (k1_pay1 (F := F) x w1 b1r w2r b2r)) -∗ Q ⟨⟩))
      ⊢ wp frame (wpE (defs₀ (F := F)) 𝒱₀ c none) E (cc1__mlp_body i arg1 harg1 arg2 harg2 arg3 harg3 arg4 harg4 arg5 harg5 arg6 harg6) Q := by
  rw [cc1__mlp_body_eq_skeleton]; unfold cc1__mlp_body_skel
  unfold owns
  iintro ⟨⟨%f1, %hf1, H1⟩, ⟨%f2, %hf2, H2⟩, ⟨%f3, %hf3, H3⟩, ⟨%f4, %hf4, H4⟩, ⟨%f5, %hf5, H5⟩, ⟨%o, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover_out _), View.canon_unit_zero (S := S16000x1) zero2]
  simp only [View.readAt_eq_ld, View.ld_unit_zero (S := S16000x128) zero2, View.ld_unit_zero (S := S128x64) zero2,
    View.ld_unit_zero (S := S1x64) zero2, View.ld_unit_zero (S := S1x1) zero2]

end Cert.Proof.KI

end
-- ==== Proof.IdealRegion.lean ====
/-
  The multilayer-perceptron call of the idealized kernel as a region of the TensorCore's program: twenty grid points,
  point t staging rows [16000 t, 16000 t + 16000) of the edge features, the weights and biases staged once, the
  output's rows [16000 t, 16000 t + 16000) written back from the block the body stores. The proof data names what each
  staging buffer holds after the body at each point; the array the region leaves is read back block by block.
-/
import proofs.«202806_g74526272520516_cont_9to1_m_1211_39_alg».proof.Proof.IdealRegionBody
import Idealize.ShloMosaic.Lib.Pipeline.Regions
import Idealize.ShloMosaic.Lib.ValueIdx

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The one admissible contents of the (absent) prefetched tables. -/
abbrev adm : (p : Fin 1) → (pcfgs (F := F) p).Adm := fun p => (cfgs p).toPCfg_adm

/-! ## The arrays at entry and the windows' blocks -/

section Data

variable (x : Vec F S320000x128 .f32) (w1 : Vec F S128x64 .f32) (b1r w2r : Vec F S1x64 .f32) (b2r : Vec F S1x1 .f32)
  (o₀ : Vec F S320000x1 .f32)
-- what the TensorCore owes across the region, and the bound on the levels of the pairs its waits have recorded
variable (O : CellTallies nD τ sig (HIx 1)) (bnd : ℕ)

/-- The six windowed arrays' contents at entry, in window order: the edge features, the first layer's weights and
    bias row, the second layer's weight row and bias, and the output array at whatever it holds. -/
def A₀ (c : Dev nD) : (w : Fin cfg1.W) → Buf (Elt F) ((cfg1.win w).arr.view.loc (c : Thread nD τ))
  | ⟨0, _⟩ => x
  | ⟨1, _⟩ => w1
  | ⟨2, _⟩ => b1r
  | ⟨3, _⟩ => w2r
  | ⟨4, _⟩ => b2r
  | ⟨5, _⟩ => o₀

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (A₀ x w1 b1r w2r b2r o₀ c w)

/-- The proof data on core c: the arrays at entry; after the body at point t each input's buffer at its block and the
    output's at the payload of the five input blocks; the invariant the scoped buffers no window stages; full shares;
    the same tallies owed throughout, the recorded pairs at levels within the bound. -/
def dat (c : Dev nD) : Dat τ (Elt F) (HIx 1) ℕ UU ℕ cfg1 c where
  A := A₀ x w1 b1r w2r b2r o₀ c
  after w t := match w with
    | ⟨0, _⟩ => iblk x w1 b1r w2r b2r o₀ c 0 t
    | ⟨1, _⟩ => iblk x w1 b1r w2r b2r o₀ c 1 t
    | ⟨2, _⟩ => iblk x w1 b1r w2r b2r o₀ c 2 t
    | ⟨3, _⟩ => iblk x w1 b1r w2r b2r o₀ c 3 t
    | ⟨4, _⟩ => iblk x w1 b1r w2r b2r o₀ c 4 t
    | ⟨5, _⟩ => k1_pay1 (F := F) (iblk x w1 b1r w2r b2r o₀ c 0 t) (iblk x w1 b1r w2r b2r o₀ c 1 t) (iblk x w1 b1r w2r b2r o₀ c 2 t)
        (iblk x w1 b1r w2r b2r o₀ c 3 t) (iblk x w1 b1r w2r b2r o₀ c 4 t)
  Φ _ := Pipeline.scopedRest (Ix := HIx 1) (Name := ℕ) (U := UU) (Lvl := ℕ) (Val := Elt F) spec1 c
  q _ := fullShare
  owed _ := O
  recorded _ := {p | (K (F := F)).lev ((c : Thread nD τ), p.1) p.2 ≤ bnd}

local notation "𝔡" => dat x w1 b1r w2r b2r o₀ O bnd
local notation "𝔟" => iblk x w1 b1r w2r b2r o₀

theorem A_eq (c : Dev nD) (w : Fin cfg1.W) : (𝔡 c).A w = A₀ x w1 b1r w2r b2r o₀ c w := by dsimp only [dat]
theorem after_0 (c : Dev nD) (t : Fin cfg1.N) : (𝔡 c).after 0 t = 𝔟 c 0 t := by dsimp only [dat]
theorem after_1 (c : Dev nD) (t : Fin cfg1.N) : (𝔡 c).after 1 t = 𝔟 c 1 t := by dsimp only [dat]
theorem after_2 (c : Dev nD) (t : Fin cfg1.N) : (𝔡 c).after 2 t = 𝔟 c 2 t := by dsimp only [dat]
theorem after_3 (c : Dev nD) (t : Fin cfg1.N) : (𝔡 c).after 3 t = 𝔟 c 3 t := by dsimp only [dat]
theorem after_4 (c : Dev nD) (t : Fin cfg1.N) : (𝔡 c).after 4 t = 𝔟 c 4 t := by dsimp only [dat]
theorem after_5 (c : Dev nD) (t : Fin cfg1.N) :
    (𝔡 c).after 5 t = k1_pay1 (F := F) (𝔟 c 0 t) (𝔟 c 1 t) (𝔟 c 2 t) (𝔟 c 3 t) (𝔟 c 4 t) := by dsimp only [dat]

/-- Each input's current staging buffer holds its block at every point, fetched there or not: the body leaves the
    block in place, and where the pipeline does not fetch, the block index has not moved. -/
theorem before_0 (c : Dev nD) (t : Fin cfg1.N) (d) : (𝔡 c).before 0 t d = 𝔟 c 0 t :=
  ((𝔡 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (𝔡 c).before 1 t d = 𝔟 c 1 t :=
  ((𝔡 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (𝔡 c).before 2 t d = 𝔟 c 2 t :=
  ((𝔡 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (𝔡 c).before 3 t d = 𝔟 c 3 t :=
  ((𝔡 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (𝔡 c).before 4 t d = 𝔟 c 4 t :=
  ((𝔡 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation, at a generic point -/

/-- What the body is called with at point t: the invariant, what the core owes, and each window's current staging
    buffer at what it then holds; -/
def bodyPre (c : Dev nD) (t : Fin cfg1.N) : sProp 𝕄 :=
  iprop((𝔡 c).Φ t.castSucc ∗ (𝔡 c).owesAt none t.castSucc
    ∗ (∃ d, owns (c : Thread nD τ) (st1_0 t) fullShare ((𝔡 c).before 0 t d))
    ∗ (∃ d, owns (c : Thread nD τ) (st1_1 t) fullShare ((𝔡 c).before 1 t d))
    ∗ (∃ d, owns (c : Thread nD τ) (st1_2 t) fullShare ((𝔡 c).before 2 t d))
    ∗ (∃ d, owns (c : Thread nD τ) (st1_3 t) fullShare ((𝔡 c).before 3 t d))
    ∗ (∃ d, owns (c : Thread nD τ) (st1_4 t) fullShare ((𝔡 c).before 4 t d))
    ∗ (∃ d, owns (c : Thread nD τ) (st1_5 t) fullShare ((𝔡 c).before 5 t d)))

/-- and what it returns. -/
def bodyPost (c : Dev nD) (t : Fin cfg1.N) : sProp 𝕄 :=
  iprop((𝔡 c).Φ t.succ ∗ (𝔡 c).owesAt none t.succ
    ∗ owns (c : Thread nD τ) (st1_0 t) fullShare ((𝔡 c).after 0 t)
    ∗ owns (c : Thread nD τ) (st1_1 t) fullShare ((𝔡 c).after 1 t)
    ∗ owns (c : Thread nD τ) (st1_2 t) fullShare ((𝔡 c).after 2 t)
    ∗ owns (c : Thread nD τ) (st1_3 t) fullShare ((𝔡 c).after 3 t)
    ∗ owns (c : Thread nD τ) (st1_4 t) fullShare ((𝔡 c).after 4 t)
    ∗ owns (c : Thread nD τ) (st1_5 t) fullShare ((𝔡 c).after 5 t))

/-- The body at any point: the inputs' buffers hold their blocks, so the run of the kernel function applies; the
    invariant and what the core owes pass through unread. -/
theorem sound_body (c : Dev nD) (t : Fin cfg1.N) :
    bodyPre x w1 b1r w2r b2r o₀ O bnd c t
      ⊢ wp frame (wpE (defs₀ (F := F)) 𝒱₀ c none) Set.univ (bodyAt1 t) (fun _ => bodyPost x w1 b1r w2r b2r o₀ O bnd c t) := by
  unfold bodyPre bodyPost bodyAt1
  simp only [before_0, before_1, before_2, before_3, before_4]
  rw [show (𝔡 c).Φ t.succ = (𝔡 c).Φ t.castSucc from rfl,
    show (𝔡 c).owesAt none t.succ = (𝔡 c).owesAt none t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_wp c Set.univ (grid1.coords t) _ _ _ _ _ _ _ _ _ _ _ _ (𝔟 c 0 t) (𝔟 c 1 t) (𝔟 c 2 t) (𝔟 c 3 t) (𝔟 c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (𝔡 c) (defs₀ (F := F)) 𝒱₀ none Set.univ := fun t => by
  rw [bigSep_W1, bigSep_W1]
  exact sound_body x w1 b1r w2r b2r o₀ O bnd c t

end Data

/-! ## The region over the thread's state -/

section Region

variable (x : Vec F S320000x128 .f32) (w1 : Vec F S128x64 .f32) (b1r w2r : Vec F S1x64 .f32) (b2r : Vec F S1x1 .f32)
  (o₀ : Vec F S320000x1 .f32)
variable (O : CellTallies nD τ sig (HIx 1)) (bnd : ℕ)

local notation "𝔡" => dat x w1 b1r w2r b2r o₀ O bnd

/-- The proof data family: one pipeline. -/
abbrev pdats : (p : Fin 1) → (c : Dev nD) → Dat τ (Elt F) (HIx 1) ℕ UU ℕ (Pipeline.pin (pcfgs (F := F)) adm p) c :=
  fun _ c => 𝔡 c

/-- The six windowed arrays of core c, each whole at the full share: the edge features, the first layer's weights and
    bias row, the second layer's weight row and bias, the output. -/
def arrs (c : Dev nD) (x : Vec F S320000x128 .f32) (w1 : Vec F S128x64 .f32) (b1r w2r : Vec F S1x64 .f32) (b2r : Vec F S1x1 .f32)
    (o : Vec F S320000x1 .f32) : sProp 𝕄 :=
  iprop((((c : Thread nD τ).loc main_v1) ↦{fullShare} x) ∗ (((c : Thread nD τ).loc main_arg2) ↦{fullShare} w1)
    ∗ (((c : Thread nD τ).loc main_v2) ↦{fullShare} b1r) ∗ (((c : Thread nD τ).loc main_v3) ↦{fullShare} w2r)
    ∗ (((c : Thread nD τ).loc main_v4) ↦{fullShare} b2r) ∗ (((c : Thread nD τ).loc main_v5) ↦{fullShare} o))

/-- What the core owes, its recorded pairs at levels within the bound. -/
def owesB (c : Dev nD) : sProp 𝕄 := iprop(∃ W, ⌜(K (F := F)).WBelow (c : Thread nD τ) W bnd⌝ ∗ owes (c : Thread nD τ) O W)

/-- In the launch theorem's spelling of the TensorCore's thread. -/
theorem owesB_eq (c : Dev nD) :
    (owesB (F := F) O bnd c : sProp 𝕄)
      = iprop(∃ W, ⌜(K (F := F)).WBelow (SparseCore.T c) W bnd⌝ ∗ owes (SparseCore.T c) O W) := rfl

/-- The output array as the region leaves it: the entry contents with every point's block written back. -/
def out (c : Dev nD) : Vec F S320000x1 .f32 := (𝔡 c).arrAt 5 cfg1.N

/-- The pipeline's arrays are the six, one by one. -/
theorem arrays_open (c : Dev nD) (Fn : (w : Fin cfg1.W) → Buf (Elt F) ((cfg1.win w).arr.view.loc (c : Thread nD τ))) :
    ((𝔡 c).arrays Fn : sProp 𝕄) = arrs c (Fn 0) (Fn 1) (Fn 2) (Fn 3) (Fn 4) (Fn 5) := by
  rw [Pipeline.arrays_eq (fun _ : Fin 1 => cfg1) (fun _ c => 𝔡 c) (0 : Fin 1) c launch1.arr_whole
    (fun w => (𝔡 c).share_full (fun _ => rfl) w) Fn, bigSep_W1]
  rfl

-- the region rule's statement over the pinned configuration unifies with the program's own only when unification may
-- unfold plain definitions in a metavariable's type
set_option backward.isDefEq.respectTransparency.types false in
/-- The region as the library's record: the layout decided, no semaphore of the kernel's own, the body obligation,
    the waits' evidence (the staging cells' index is the lowest level, below everything owed at a call's index), and
    the thread's state before and after: the six arrays and what the core owes. Nothing enters the invariant but the
    scoped buffers no window stages. -/
def reg (hO : ∀ g, O g none = 0) :
    Pipeline.RegionSeg (pcfgs (F := F)) adm (pdats x w1 b1r w2r b2r o₀ O bnd) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation x w1 b1r w2r b2r o₀ O bnd c).loose
  hwaits c := Pipeline.cellsWaits_intro (Pipeline.pin (pcfgs (F := F)) adm) (pdats x w1 b1r w2r b2r o₀ O bnd) none 0 c
    fun w s t => (K (F := F)).mayWait_none (.dma _) hO
  pre c := iprop(arrs c x w1 b1r w2r b2r o₀ ∗ owesB O bnd c)
  post c := iprop(arrs c x w1 b1r w2r b2r (out x w1 b1r w2r b2r o₀ O bnd c) ∗ owesB O bnd c)
  X _ := BI.emp
  Y _ := BI.emp
  Z _ := BI.emp
  hentry c := by
    rw [Pipeline.ownSems0_none]
    rw [show ((pdats x w1 b1r w2r b2r o₀ O bnd 0 c).arrays ((pdats x w1 b1r w2r b2r o₀ O bnd 0 c).arrAt · 0) : sProp 𝕄)
      = arrs c x w1 b1r w2r b2r o₀ from arrays_open x w1 b1r w2r b2r o₀ O bnd c _]
    unfold owesB
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitr <;> iempintro
  hin c := by
    rw [show (pdats x w1 b1r w2r b2r o₀ O bnd 0 c).Φ 0
      = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats x w1 b1r w2r b2r o₀ O bnd 0 c).Φ (Fin.last _)
      = Pipeline.scopedRest (Ix := HIx 1) (Name := ℕ) (U := UU) (Lvl := ℕ) (Val := Elt F) spec1 c from rfl]
    iintro Hr
    isplitr; · iempintro
    isplitr; · iempintro
    iexact Hr
  hexit c := by
    rw [show ((pdats x w1 b1r w2r b2r o₀ O bnd 0 c).arrays ((pdats x w1 b1r w2r b2r o₀ O bnd 0 c).arrAt · cfg1.N) : sProp 𝕄)
      = arrs c x w1 b1r w2r b2r (out x w1 b1r w2r b2r o₀ O bnd c) from
        (arrays_open x w1 b1r w2r b2r o₀ O bnd c _).trans (by
          rw [show (𝔡 c).arrAt 0 cfg1.N = x from ((𝔡 c).arrAt_in 0 rfl _).trans (A_eq x w1 b1r w2r b2r o₀ O bnd c 0),
            show (𝔡 c).arrAt 1 cfg1.N = w1 from ((𝔡 c).arrAt_in 1 rfl _).trans (A_eq x w1 b1r w2r b2r o₀ O bnd c 1),
            show (𝔡 c).arrAt 2 cfg1.N = b1r from ((𝔡 c).arrAt_in 2 rfl _).trans (A_eq x w1 b1r w2r b2r o₀ O bnd c 2),
            show (𝔡 c).arrAt 3 cfg1.N = w2r from ((𝔡 c).arrAt_in 3 rfl _).trans (A_eq x w1 b1r w2r b2r o₀ O bnd c 3),
            show (𝔡 c).arrAt 4 cfg1.N = b2r from ((𝔡 c).arrAt_in 4 rfl _).trans (A_eq x w1 b1r w2r b2r o₀ O bnd c 4)]
          rfl)]
    unfold owesB
    iintro ⟨Ha, HO, -, -⟩
    imodintro
    isplitl [Ha]; · iexact Ha
    unfold Pipeline.Dat.owesAt Pipeline.owesWithin
    icases HO with ⟨%W, %hW, HO⟩
    iexists W; isplitr; swap; (· iexact HO)
    ipureintro
    intro p hp
    rcases hW (Finset.mem_coe.mpr hp) with h | ⟨w, s, e⟩
    · exact h
    · subst e; exact Nat.zero_le _

/-- The region's call in the pipeline library's own signature. -/
abbrev regionCall : Prog (TpuEff nD τ sig (Elt F) (ΛP (F := F)) .tc) PUnit :=
  Prog.lift (.customCall (Pipeline.entry (0 : Fin 1)) ())

set_option maxHeartbeats 1000000 in
set_option backward.isDefEq.respectTransparency.types false in
/-- The region under the pipelines' body table: from the level facts, the region boundary, the six arrays whole, what the
    core owes (nothing at the kernels' own index) and the pipeline's funded cells and duty tokens, the call runs to the
    boundary, the five inputs unchanged, the output array at `out`, and the core owing what it did. -/
theorem region_wp₀ (hO : ∀ g, O g none = 0) (d : Dev nD) (Q : PUnit → sProp 𝕄) :
    iprop(levAts (K (F := F)).L (K (F := F)).lev ∗ boundary (d : Thread nD τ)
        ∗ arrs d x w1 b1r w2r b2r o₀ ∗ owesB O bnd d
        ∗ Pipeline.cellsGhost cfgs (EP (F := F)) 0 d ∗ Pipeline.toksInit cfgs (EP (F := F)) 0 d
        ∗ (iprop(boundary (d : Thread nD τ) ∗ arrs d x w1 b1r w2r b2r (out x w1 b1r w2r b2r o₀ O bnd d) ∗ owesB O bnd d) -∗ Q ⟨⟩))
      ⊢ wp frame (wpE (D (F := F)) 𝒱 (d : Thread nD τ) none) Set.univ (regionCall (F := F)) Q := by
  have h := Pipeline.RegionSeg.wp (pcfgs (F := F)) adm (pdats x w1 b1r w2r b2r o₀ O bnd) none
    (show Function.Injective (Pipeline.cellOf (nD := nD) (τ := τ) (Pipeline.pin (pcfgs (F := F)) adm)) from cellOf_inj)
    (EP (F := F)) defs₀ 𝒱₀ (K (F := F)).L (K (F := F)).lev (reg x w1 b1r w2r b2r o₀ O bnd hO) d none (fun _ h => nomatch h)
    (fun _ => .ret ⟨⟩) Q
  rw [show (reg x w1 b1r w2r b2r o₀ O bnd hO).post d
      = iprop(arrs d x w1 b1r w2r b2r (out x w1 b1r w2r b2r o₀ O bnd d) ∗ owesB O bnd d) from rfl,
    show (reg x w1 b1r w2r b2r o₀ O bnd hO).pre d = iprop(arrs d x w1 b1r w2r b2r o₀ ∗ owesB O bnd d) from rfl] at h
  iintro ⟨#Hla, Hbd, Ha, HO, Hg, Ht, Hk⟩
  iapply h
  isplitl [Hk]
  · iintro ⟨Hbd, Ha, HO⟩
    rw [wp_ret]; imodintro
    iapply Hk
    isplitl [Hbd]; · iexact Hbd
    isplitl [Ha]; · iexact Ha
    iexact HO
  isplitl [Hbd]; · iexact Hbd
  isplitl [Ha HO]
  · isplitl [Ha]; · iexact Ha
    iexact HO
  isplitr; · iexact Hla
  isplitl [Hg]; · iexact Hg
  iexact Ht

set_option maxHeartbeats 1000000 in
/-- THE REGION in the TensorCore's program of the whole chip: the same, under the body table extended with the
    SparseCore calls' dispatch labels. -/
theorem region_wp (hO : ∀ g, O g none = 0) (d : Dev nD) (Q : PUnit → sProp 𝕄) :
    iprop(levAts (K (F := F)).L (K (F := F)).lev ∗ boundary (SparseCore.T d : Thread nD τ)
        ∗ arrs d x w1 b1r w2r b2r o₀ ∗ owesB O bnd d
        ∗ Pipeline.cellsGhost cfgs (EP (F := F)) 0 d ∗ Pipeline.toksInit cfgs (EP (F := F)) 0 d
        ∗ (iprop(boundary (SparseCore.T d : Thread nD τ) ∗ arrs d x w1 b1r w2r b2r (out x w1 b1r w2r b2r o₀ O bnd d) ∗ owesB O bnd d) -∗ Q ⟨⟩))
      ⊢ wp frame (wpE ((K (F := F)).defs (D (F := F))) 𝒱 (SparseCore.T d) none) Set.univ
          (Prog.lift (.customCall (SparseCore.inner (Pipeline.entry 0)) ())) Q :=
  (region_wp₀ x w1 b1r w2r b2r o₀ O bnd hO d Q).trans
    ((K (F := F)).wp_liftProg (D (F := F)) 𝒱 (SparseCore.T d) Set.univ none (regionCall (F := F)) Q)

end Region

/-! ## The array the region leaves, read block by block -/

section Value

variable (x : Vec F S320000x128 .f32) (w1 : Vec F S128x64 .f32) (b1r w2r : Vec F S1x64 .f32) (b2r : Vec F S1x1 .f32)
  (o₀ : Vec F S320000x1 .f32)
variable (O : CellTallies nD τ sig (HIx 1)) (bnd : ℕ)

local notation "𝔡" => dat x w1 b1r w2r b2r o₀ O bnd
local notation "𝔟" => iblk x w1 b1r w2r b2r o₀

/-- The output's index map sends distinct grid points to distinct blocks (decided over the twenty points). -/
theorem out_index_inj : ∀ t t' : Fin cfg1.N, win1_5.index t = win1_5.index t' → t = t' :=
  (by decide +kernel : ∀ t t' : Fin grid1.N, win1_5.index t = win1_5.index t' → t = t')

/-- So two points' output blocks share no row. -/
theorem out_blocks_disjoint : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (out_index_inj t t' h)

/-- The printed index maps over the grid: the feature block and the output block of point t are block t along the rows
    and block 0 along the columns; the weights' and biases' blocks are block 0 on both axes. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Rows [16000 t, 16000 t + 16000) of the edge features: the block point t stages. -/
def rowsOf (x : Vec F S320000x128 .f32) (t : Fin cfg1.N) : Vec F S16000x128 .f32 :=
  fun y => x (ValueIdx.ix2 ⟨16000 * t.val + (y 0).val, by
    have h0 : (y 0).val < 16000 := ValueIdx.idx2_lt0 y
    have ht : t.val < 20 := lt_of_lt_of_eq t.isLt N_1
    omega⟩ (y 1))

/-- BLOCK t OF THE OUTPUT ARRAY, read back through the window, is the payload of the five input blocks at t: no other
    point's block meets it. -/
theorem out_blk (c : Dev nD) (t : Fin cfg1.N) :
    ((cfg1.win 5).blk t).view.read (Elt F) (out x w1 b1r w2r b2r o₀ O bnd c)
      = k1_pay1 (F := F) (𝔟 c 0 t) (𝔟 c 1 t) (𝔟 c 2 t) (𝔟 c 3 t) (𝔟 c 4 t) := by
  unfold out
  rw [(𝔡 c).read_blk_arrAt_eq_flushed 5 out_blocks_disjoint cfg1.N t t.isLt (flush1_5 t)]
  show (cfg1.win 5).cut (grid1.coords t) ((𝔡 c).after 5 t) = _
  rw [after_5]
  rfl

/-- The feature block of point t is rows [16000 t, 16000 t + 16000) of the edge features. -/
theorem blk_0 (c : Dev nD) (t : Fin cfg1.N) : 𝔟 c 0 t = rowsOf x t := by
  obtain ⟨e0, e1, -⟩ := index_facts t
  funext j
  show x (((cfg1.win 0).blk t).view.emb j) = x _
  refine congrArg x (funext fun a => Fin.ext ?_)
  match a with
  | ⟨0, _⟩ => show win1_0.index t (0 : Fin 2) * 16000 + 1 * (j 0).val = 16000 * t.val + (j 0).val; omega
  | ⟨1, _⟩ => show win1_0.index t (1 : Fin 2) * 128 + 1 * (j 1).val = (j 1).val; omega

/-- The weights and biases are staged whole: each one's block at any point is the array. -/
theorem blk_1 (c : Dev nD) (t : Fin cfg1.N) : 𝔟 c 1 t = w1 := by
  obtain ⟨-, -, e0, e1, -⟩ := index_facts t
  funext j
  show w1 (((cfg1.win 1).blk t).view.emb j) = w1 j
  refine congrArg w1 (funext fun a => Fin.ext ?_)
  match a with
  | ⟨0, _⟩ => show win1_1.index t (0 : Fin 2) * 128 + 1 * (j 0).val = (j 0).val; omega
  | ⟨1, _⟩ => show win1_1.index t (1 : Fin 2) * 64 + 1 * (j 1).val = (j 1).val; omega
theorem blk_2 (c : Dev nD) (t : Fin cfg1.N) : 𝔟 c 2 t = b1r := by
  obtain ⟨-, -, -, -, e0, e1, -⟩ := index_facts t
  funext j
  show b1r (((cfg1.win 2).blk t).view.emb j) = b1r j
  refine congrArg b1r (funext fun a => Fin.ext ?_)
  match a with
  | ⟨0, _⟩ => show win1_2.index t (0 : Fin 2) * 1 + 1 * (j 0).val = (j 0).val; omega
  | ⟨1, _⟩ => show win1_2.index t (1 : Fin 2) * 64 + 1 * (j 1).val = (j 1).val; omega
theorem blk_3 (c : Dev nD) (t : Fin cfg1.N) : 𝔟 c 3 t = w2r := by
  obtain ⟨-, -, -, -, -, -, e0, e1, -⟩ := index_facts t
  funext j
  show w2r (((cfg1.win 3).blk t).view.emb j) = w2r j
  refine congrArg w2r (funext fun a => Fin.ext ?_)
  match a with
  | ⟨0, _⟩ => show win1_3.index t (0 : Fin 2) * 1 + 1 * (j 0).val = (j 0).val; omega
  | ⟨1, _⟩ => show win1_3.index t (1 : Fin 2) * 64 + 1 * (j 1).val = (j 1).val; omega
theorem blk_4 (c : Dev nD) (t : Fin cfg1.N) : 𝔟 c 4 t = b2r := by
  obtain ⟨-, -, -, -, -, -, -, -, e0, e1, -⟩ := index_facts t
  funext j
  show b2r (((cfg1.win 4).blk t).view.emb j) = b2r j
  refine congrArg b2r (funext fun a => Fin.ext ?_)
  match a with
  | ⟨0, _⟩ => show win1_4.index t (0 : Fin 2) * 1 + 1 * (j 0).val = (j 0).val; omega
  | ⟨1, _⟩ => show win1_4.index t (1 : Fin 2) * 1 + 1 * (j 1).val = (j 1).val; omega

/-- ROW 16000 t + r OF THE OUTPUT ARRAY is row r of the payload of the feature rows [16000 t, 16000 t + 16000), the weights
    and the biases. -/
theorem out_row (c : Dev nD) (t : Fin cfg1.N) (r : Fin 16000) :
    out x w1 b1r w2r b2r o₀ O bnd c (ValueIdx.ix2 ⟨16000 * t.val + r.val, by
        have ht : t.val < 20 := lt_of_lt_of_eq t.isLt N_1
        have hr := r.isLt
        omega⟩ (0 : Fin 1))
      = k1_pay1 (F := F) (rowsOf x t) w1 b1r w2r b2r (ValueIdx.ix2 r (0 : Fin 1)) := by
  have h := congrFun (out_blk x w1 b1r w2r b2r o₀ O bnd c t) (ValueIdx.ix2 r (0 : Fin 1))
  rw [blk_0, blk_1, blk_2, blk_3, blk_4] at h
  rw [← h]
  obtain ⟨-, -, -, -, -, -, -, -, -, -, e0, e1⟩ := index_facts t
  show out x w1 b1r w2r b2r o₀ O bnd c _ = out x w1 b1r w2r b2r o₀ O bnd c (((cfg1.win 5).blk t).view.emb (ValueIdx.ix2 r (0 : Fin 1)))
  refine congrArg _ (funext fun a => Fin.ext ?_)
  match a with
  | ⟨0, _⟩ => show 16000 * t.val + r.val = win1_5.index t (0 : Fin 2) * 16000 + 1 * r.val; omega
  | ⟨1, _⟩ => show 0 = win1_5.index t (1 : Fin 2) * 1 + 1 * 0; omega

/-- The same with the grid point as a number below twenty and the feature rows written out. -/
theorem out_row20 (c : Dev nD) (t : Fin 20) (r : Fin 16000) :
    out x w1 b1r w2r b2r o₀ O bnd c (ValueIdx.ix2 ⟨16000 * t.val + r.val, by have := t.isLt; have := r.isLt; omega⟩ (0 : Fin 1))
      = k1_pay1 (F := F) (fun y => x (ValueIdx.ix2 ⟨16000 * t.val + (y 0).val, by
          have h0 : (y 0).val < 16000 := ValueIdx.idx2_lt0 y
          have := t.isLt
          omega⟩ (y 1))) w1 b1r w2r b2r (ValueIdx.ix2 r (0 : Fin 1)) :=
  out_row x w1 b1r w2r b2r o₀ O bnd c (Fin.cast N_1.symm t) r

end Value

end Cert.Proof.KI

end
-- ==== Proof.IdealLaunchRun.lean ====
/-
  The run of the idealized kernel with the multilayer-perceptron call's contract discharged: the call leaves the output
  array at the contents its region computes from the feature array, the first layer's weights and the three rows, so at
  the end of the run the six arguments hold their launch contents and the output holds that array.
-/
import proofs.«202806_g74526272520516_cont_9to1_m_1211_39_alg».proof.Proof.IdealLaunch
import proofs.«202806_g74526272520516_cont_9to1_m_1211_39_alg».proof.Proof.IdealRegion

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-- The output array the multilayer-perceptron call leaves on device d, from the feature rows and the launch contents. -/
abbrev outOf (d : Dev nD) : Vec F S320000x1 .f32 :=
  out (Cert.Feature.XF (m (zLoc d)) (eFlat m d)) (m (aLoc d main_arg2)) (b1Row m d) (w2Row m d) (b2One m d) (m (aLoc d main_v5)) 0 (8 * 1) d

/-- The output's final contents are that array. -/
def ROut (d : Dev nD) (o : Buf (Elt F) (aLoc d main_v5)) : Prop := o = outOf m d

theorem regArrs_eq (d : Dev nD) (o : Buf (Elt F) (aLoc d main_v5)) :
    (regArrs m d o : sProp 𝕄) = arrs d (Cert.Feature.XF (m (zLoc d)) (eFlat m d)) (m (aLoc d main_arg2)) (b1Row m d) (w2Row m d) (b2One m d) o := rfl
omit [FloatOps F] in
theorem owesTC_eq (d : Dev nD) : (owesTC (F := F) d : sProp 𝕄) = owesB (F := F) 0 (8 * 1) d := rfl

/-- The call's contract, from its region's proof. -/
theorem regionStep : RegionStep m (ROut m) := fun d Q => by
  iintro ⟨Hlev, Hb, Harr, Ho, Hcg, Htk, Hk⟩
  ihave Harr := (Entails.of_eq (regArrs_eq m d _)) $$ Harr
  ihave Ho := (Entails.of_eq (owesTC_eq (F := F) d)) $$ Ho
  iapply (region_wp (Cert.Feature.XF (m (zLoc d)) (eFlat m d)) (m (aLoc d main_arg2)) (b1Row m d) (w2Row m d) (b2One m d)
    (m (aLoc d main_v5)) 0 (8 * 1) (fun _ => rfl) d Q)
  isplitl [Hlev]; · iexact Hlev
  isplitl [Hb]; · iexact Hb
  isplitl [Harr]; · iexact Harr
  isplitl [Ho]; · iexact Ho
  isplitl [Hcg]; · iexact Hcg
  isplitl [Htk]; · iexact Htk
  iintro ⟨Hb, Harr, Ho⟩
  ihave Harr := (Entails.of_eq (regArrs_eq m d (outOf m d)).symm) $$ Harr
  ihave Ho := (Entails.of_eq (owesTC_eq (F := F) d).symm) $$ Ho
  iapply Hk
  isplitl [Hb]; · iexact Hb
  isplitl [Harr]
  · iexists (outOf m d)
    isplitr; · ipureintro; exact rfl
    iexact Harr
  iexact Ho

/-- The run of the whole kernel: the six arguments unchanged, the output at the array the call computes. -/
theorem run_ideal [∀ e, Nonempty (Elt F e)] (hbody : TileContract m) (hpre : ∀ (d : Dev nD) j, (eFlat m d j).toNat < 10000) :
    θ_run (Cert.KernelIdeal.defs (F := F)) (Cert.KernelIdeal.threads (F := F)) ⟨m, fun _ => 0, ρ⟩ (QC m (ROut m)) :=
  run_main m ρ (ROut m) hbody hpre (regionStep m)

end Cert.Proof.KI

end
-- ==== Proof.FlatRange.lean ====
/-
  Every word of the flattened edge list is a row number of z.

  The flattened list's word i is the edge list's entry (a, e) with a = i / 320000 and e = i % 320000, since
  i = 320000·a + e. When every entry of the edge list, read as a signed word, lies in [0, 9999], the entry is
  not negative, so its value as a natural number is its signed value, and is below 10000.
-/
import proofs.«202806_g74526272520516_cont_9to1_m_1211_39_alg».proof.Proof.Spec
import proofs.«202806_g74526272520516_cont_9to1_m_1211_39_alg».proof.Proof.FeatureArray

noncomputable section

namespace Cert.Feature

open Idealize.ShloMosaic Idealize.ShloMosaic.ValueIdx

/-- A word in [0, 9999] as a signed integer is below 10000 as a natural number. -/
theorem toNat_lt_of_range (x : BitVec 32) (h : 0 ≤ x.toInt ∧ x.toInt ≤ 9999) : x.toNat < 10000 := by
  rcases hb : x.msb with _ | _
  · have e1 := BitVec.toInt_eq_toNat_of_msb hb; omega
  · have e1 := BitVec.toInt_neg_of_msb_true hb; omega

/-- EVERY WORD OF THE FLATTENED EDGE LIST IS BELOW 10000 when every entry of the edge list is in range. -/
theorem flat_lt (edge : Cert.Spec.SE.Idx → BitVec 32) (hr : Cert.Spec.InRange edge)
    (h : (⟨2, ![2, 320000]⟩ : Shape).ShapeCasts ⟨1, ![640000]⟩) :
    ∀ j, (shapeCast ⟨1, ![640000]⟩ edge h j).toNat < 10000 := by
  intro j
  obtain ⟨i, rfl⟩ : ∃ i : Fin 640000, j = ix1 i := ⟨j 0, eq_ix1 j⟩
  have hi := i.isLt
  rw [flat_apply edge h ⟨i.val / 320000, by omega⟩ ⟨i.val % 320000, Nat.mod_lt _ (by decide)⟩ i (by
    show i.val = 320000 * (i.val / 320000) + i.val % 320000
    omega)]
  exact toNat_lt_of_range _ (hr _)

end Cert.Feature

end
-- ==== Proof.IdealFlatRange.lean ====
/-
  The launch's range hypothesis from the edge list's: when on every device the edge list's entries lie in [0, 9999],
  every word of the device's flattened edge list is below 10000.
-/
import proofs.«202806_g74526272520516_cont_9to1_m_1211_39_alg».proof.Proof.IdealLaunchPay
import proofs.«202806_g74526272520516_cont_9to1_m_1211_39_alg».proof.Proof.FlatRange

noncomputable section

namespace Cert.Proof.KI

open Cert.KernelIdeal Cert.KernelIdeal.Gen
open Idealize.ShloMosaic

variable {F : FTy → Type}
variable (m : (ℓ : Loc nD τ sig) → Buf (Elt F) ℓ)

/-- Every word of a device's flattened edge list is a row number of z. -/
theorem eFlat_lt (hr : ∀ d : Dev nD, Cert.Spec.InRange (m ((SparseCore.T d).loc main_arg1))) :
    ∀ (d : Dev nD) j, (eFlat m d j).toNat < 10000 :=
  fun d j => Cert.Feature.flat_lt (m ((SparseCore.T d).loc main_arg1)) (hr d) shapeCasts_S2x320000_S640000 j

end Cert.Proof.KI

end
-- ==== Proof.PreRange.lean ====
/-
  The precondition's last conjunct, read back: every endpoint word of the edge list, read as a signed
  32-bit integer, lies in [0, 9999].

  The printed predicate is a conjunction of six all-quantified tests folded to one bit; the last of
  them is  all ((edge ≥ 0) ∧ (edge ≤ 9999)).  From "the conjunction is 1" the last conjunct is 1; a
  conjunction of bits over every index that is 1 is 1 at every index; and the two signed comparisons
  against the literals 0 and 9999 say 0 ≤ edge j and edge j ≤ 9999.  Nothing here depends on how the
  float entries are read, so the statement holds for every reading of floats.
-/
import proofs.«202806_g74526272520516_cont_9to1_m_1211_39_alg».proof.Pre_input_domain
import proofs.«202806_g74526272520516_cont_9to1_m_1211_39_alg».proof.Proof.Gen.Pre_input_domain
import proofs.«202806_g74526272520516_cont_9to1_m_1211_39_alg».proof.Proof.Spec
import Idealize.ShloMosaic.Lib.ReduceAll

noncomputable section

namespace Cert.PreRange

open Idealize.ShloMosaic Idealize.ShloMosaic.ValueIdx
open Cert.Pre_input_domain

/-- The rank-0 shape has one index. -/
instance subsingleton_S_ : Subsingleton S_.Idx := ⟨fun a b => funext fun d => d.elim0⟩

/-- Under the precondition every endpoint word is a row number of z. -/
theorem inRange_of_pre {F : FTy → Type} [FloatOps F] [Cert.Pre_input_domain.Facts]
    (z : FVec F S10000x128 .f32) (edge : IVec S2x320000 32) (W1 : FVec F S128x64 .f32) (b1 : FVec F S64 .f32)
    (W2 : FVec F S64x1 .f32) (b2 : FVec F S1 .f32)
    (h : Cert.Pre_input_domain.fn (F := F) z edge W1 b1 W2 b2 = (fun _ => 1#1)) : Cert.Spec.InRange edge := by
  intro j
  have e := congrFun h ValueIdx.ix0
  dsimp only [fn, fn_part1] at e
  -- the outermost conjunction: (everything before) ∧ all ((edge ≥ 0) ∧ (edge ≤ 9999))
  have e29 := (IntOp.andi_eq_one.1 e).2
  have ej := Host.reduce_andi_all _ _ _ _ _ e29 j
  obtain ⟨h0, h1⟩ := IntOp.andi_eq_one.1 ej
  have h0' := IntOp.cmpi_sge.1 h0
  have h1' := IntOp.cmpi_sle.1 h1
  refine ⟨?_, ?_⟩
  · have : (0#32 : BitVec 32).toInt = 0 := by decide
    simpa [broadcastInDim, constantI, this] using h0'
  · have : (9999#32 : BitVec 32).toInt = 9999 := by decide
    simpa [broadcastInDim, constantI, this] using h1'

end Cert.PreRange

end
-- ==== Proof.MlpBlock.lean ====
/-
  The value one block of the two-layer perceptron stores, read at a row.

  The body takes a block x of 16000 feature rows (128 columns each), the first layer's weights w1 (128 × 64), the first
  layer's bias and the second layer's weights each laid as one row of 64, and the second layer's bias as a 1 × 1 array.
  At row r it stores, in the block's one column,
      logistic ( Σ_c  max ( Σ_k x(r,k) · w1(k,c) + b1(0,c) ) 0 · w2(0,c)  +  b2(0,0) ),
  with c over the 64 hidden units and k over the 128 features. Each lemma below reads one operation of that chain at an
  index: the product of the block with w1 as a sum over the contracted axis, the sum along a row, a column of length a
  re-laid as a × 1, and the logistic of a vector as the logistic of its element. `pay_apply` composes them; the order
  of every product and sum is the body's own.
-/
import proofs.«202806_g74526272520516_cont_9to1_m_1211_39_alg».proof.Proof.Gen.KernelIdeal.Skeleton
import Idealize.ShloMosaic.Lib.ValueLayout
import Idealize.ShloMosaic.PureOps.Ideal.Laws

noncomputable section

namespace Cert.MlpBlock

open Idealize.ShloMosaic Idealize.ShloMosaic.ValueIdx
open Cert.KernelIdeal Cert.KernelIdeal.Gen

/-- The product of the feature block with the first layer's weights, accumulated from zero, at (r, c): the sum over the
    128 features k of x(r,k) · w1(k,c). The contraction runs over one axis, so its index set is identified with
    `Fin 128`; on the contracted axis each operand's index is that coordinate, on the other axis it is the result's. -/
theorem matmul_at (x : FVec Ideal S16000x128 .f32) (w1 : FVec Ideal S128x64 .f32) (r : Fin 16000) (c : Fin 64) :
    matmul dot_S16000x128_S128x64_S16000x64_1_0_0_1_n_n none x w1 (constant (F := Ideal) S16000x64 .f32 0x00000000#32) (ix2 r c)
      = ∑ k : Fin 128, x (ix2 r k) * w1 (ix2 k c) := by
  show FloatOps.matmul _ _ _ _ _ _ = _
  rw [Ideal.matmul_constant_zero_apply,
    ← Equiv.sum_comp (contrEquiv1 dot_S16000x128_S128x64_S16000x64_1_0_0_1_n_n 128 rfl rfl).symm]
  refine Finset.sum_congr rfl fun k _ => ?_
  congr 1
  · refine congrArg x (funext fun a => Fin.ext ?_)
    match a with
    | ⟨0, _⟩ => rfl
    | ⟨1, _⟩ =>
      exact (DotDims.lhsIdx_val_of_single dot_S16000x128_S128x64_S16000x64_1_0_0_1_n_n (cl := 1) rfl _ _).trans
        (contrEquiv1_symm_val dot_S16000x128_S128x64_S16000x64_1_0_0_1_n_n 128 rfl rfl k)
  · refine congrArg w1 (funext fun a => Fin.ext ?_)
    match a with
    | ⟨0, _⟩ =>
      exact (DotDims.rhsIdx_val_of_single dot_S16000x128_S128x64_S16000x64_1_0_0_1_n_n (cr := 0) rfl _ _).trans
        (contrEquiv1_symm_val dot_S16000x128_S128x64_S16000x64_1_0_0_1_n_n 128 rfl rfl k)
    | ⟨1, _⟩ => rfl

/-- The sum along row r of a 16000 × 64 array, started from the zero word: the sum over the 64 columns c of v(r,c). The
    row index with the column c put back on the summed axis is (r, c). -/
theorem laneSum_at (v : FVec Ideal S16000x64 .f32) (hφ : FKind.Formats .f32)
    (hacc : (0x00000000#32 : BitVec 32) = 0x00000000#32) (r : Fin 16000) :
    multiReduction (F := Ideal) .add [1] S16000 v 0x00000000#32 reduces_S16000x64_S16000 hφ hacc (ix1 r)
      = ∑ c : Fin 64, v (ix2 r c) := by
  refine (Ideal.multiReduction_add_single v 0x00000000#32 reduces_S16000x64_S16000 hφ hacc (ix1 r)).trans ?_
  refine Finset.sum_congr rfl fun c _ => congrArg v (funext fun a => Fin.ext ?_)
  match a with
  | ⟨0, _⟩ => rfl
  | ⟨1, _⟩ => rfl

/-- A vector of length a re-laid as a column a × 1 reads, at (i, u), the vector at i: both have row-major position i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The logistic of a vector at an index is the logistic of the element there. -/
theorem logistic_apply {s : Shape} {φ : FTy} (v : FVec Ideal s φ) (i : s.Idx) :
    logistic v i = Ideal.logistic (v i) := rfl

/-- THE STORED BLOCK AT ROW r. The one column of the block the body stores holds, at row r, the logistic of the second
    layer's affine form of the hidden units, each hidden unit the positive part of the first layer's affine form of row r
    of the feature block. The three casts of an array to its own shape are identities; the two biases and the second
    layer's weights are one row repeated over the 16000 rows, so each reads its row 0. -/
theorem pay_apply (x : Vec Ideal S16000x128 .f32) (w1 : Vec Ideal S128x64 .f32) (b1r w2r : Vec Ideal S1x64 .f32)
    (b2r : Vec Ideal S1x1 .f32) (r : Fin 16000) :
    k1_pay1 (F := Ideal) x w1 b1r w2r b2r (ix2 r (0 : Fin 1))
      = Ideal.logistic ((∑ c : Fin 64, max ((∑ k : Fin 128, x (ix2 r k) * w1 (ix2 k c)) + b1r (ix2 (0 : Fin 1) c)) 0
          * w2r (ix2 (0 : Fin 1) c)) + b2r (ix2 (0 : Fin 1) (0 : Fin 1))) := by
  unfold k1_pay1
  simp only [shapeCast_self]
  rw [logistic_apply, addf_apply, shapeCast_a_a1_apply, laneSum_at, broadcastTo_1b_ab_apply]
  refine congrArg Ideal.logistic (congrArg (· + b2r (ix2 (0 : Fin 1) (0 : Fin 1))) (Finset.sum_congr rfl fun c _ => ?_))
  rw [mulf_apply, maximumf_apply, addf_apply, matmul_at, broadcastTo_1b_ab_apply, broadcastTo_1b_ab_apply, broadcast_apply]
  rw [show FloatOps.ofBits (F := Ideal) FTy.f32 0x00000000#32 = 0 from Ideal.ofBits_zero_f32]

end Cert.MlpBlock

end
-- ==== Proof.MlpSpec.lean ====
/-
  The stored block joined to the specification.

  Before the call the host re-lays three small arrays without moving an element: the first layer's bias (64 entries) and
  the second layer's weights (a 64 × 1 column) each as one row of 64, and the second layer's bias (1 entry) as a 1 × 1
  array. Read at an index each is the original array at the index with the same row-major position. With those readings,
  and with the feature block of grid point t holding rows 16000·t … 16000·t + 15999 of the feature array, the value the
  body stores at row r of its block is the specification's perceptron at row 16000·t + r: the same sums of the same
  products in the same order.
-/
import proofs.«202806_g74526272520516_cont_9to1_m_1211_39_alg».proof.Proof.MlpBlock
import proofs.«202806_g74526272520516_cont_9to1_m_1211_39_alg».proof.Proof.Spec

noncomputable section

namespace Cert.MlpBlock

open Idealize.ShloMosaic Idealize.ShloMosaic.ValueIdx
open Cert.KernelIdeal Cert.KernelIdeal.Gen

/-! ## The three re-layings, read at an index -/

/-- A column a × 1 re-laid as a row 1 × a reads, at (u, i), the column at (i, v): both have row-major position i. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) (v : Fin 1) :
    shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.mul_one, Nat.add_zero, Nat.zero_mul, Nat.zero_add])

/-- The first layer's bias as one row: entry (0, c) is the bias at c. -/
theorem relay_b1_apply (a : Vec Ideal S64 .f32) (c : Fin 64) :
    shapeCast S1x64 a shapeCasts_S64_S1x64 (ix2 (0 : Fin 1) c) = a (ix1 c) :=
  shapeCast_a_1a_apply a shapeCasts_S64_S1x64 0 c

/-- The second layer's weights, a column, as one row: entry (0, c) is the column's entry (c, 0). -/
theorem relay_w2_apply (a : Vec Ideal S64x1 .f32) (c : Fin 64) :
    shapeCast S1x64 a shapeCasts_S64x1_S1x64 (ix2 (0 : Fin 1) c) = a (ix2 c (0 : Fin 1)) :=
  shapeCast_a1_1a_apply a shapeCasts_S64x1_S1x64 0 c 0

/-- The second layer's bias as a 1 × 1 array: its one entry. -/
theorem relay_b2_apply (a : Vec Ideal S1 .f32) :
    shapeCast S1x1 a shapeCasts_S1_S1x1 (ix2 (0 : Fin 1) (0 : Fin 1)) = a (ix1 (0 : Fin 1)) :=
  shapeCast_a_1a_apply a shapeCasts_S1_S1x1 0 0

/-! ## The block of grid point t against the specification -/

/-- Row r of the block of grid point t is a row of the whole array: 16000·t + r < 320000. -/
theorem row_lt (t : Fin 20) (r : Fin 16000) : 16000 * t.val + r.val < 320000 := by
  have := t.isLt; have := r.isLt; omega

/-- THE BLOCK IS THE PERCEPTRON ON ITS ROWS, with every operand described entry by entry: if the feature block holds rows
    16000·t + r of the feature array X, the weight block is W1, and the three re-laid rows read b1, W2 and b2 as above,
    then the stored value at row r is the specification's perceptron of X at row 16000·t + r. -/
theorem pay_eq_mlp_of (X : Cert.Spec.SX.Idx → EReal) (W1 : Cert.Spec.SW1.Idx → EReal) (b1 : Cert.Spec.SB1.Idx → EReal)
    (W2 : Cert.Spec.SW2.Idx → EReal) (b2 : Cert.Spec.SB2.Idx → EReal) (t : Fin 20)
    (x : Vec Ideal S16000x128 .f32) (w1 : Vec Ideal S128x64 .f32) (b1r w2r : Vec Ideal S1x64 .f32) (b2r : Vec Ideal S1x1 .f32)
    (hx : ∀ (r : Fin 16000) (k : Fin 128), x (ix2 r k) = X (ix2 (⟨16000 * t.val + r.val, row_lt t r⟩ : Fin 320000) k))
    (hw1 : ∀ (k : Fin 128) (c : Fin 64), w1 (ix2 k c) = W1 (ix2 k c))
    (hb1 : ∀ c : Fin 64, b1r (ix2 (0 : Fin 1) c) = b1 (ix1 c))
    (hw2 : ∀ c : Fin 64, w2r (ix2 (0 : Fin 1) c) = W2 (ix2 c (0 : Fin 1)))
    (hb2 : b2r (ix2 (0 : Fin 1) (0 : Fin 1)) = b2 (ix1 (0 : Fin 1)))
    (r : Fin 16000) :
    k1_pay1 (F := Ideal) x w1 b1r w2r b2r (ix2 r (0 : Fin 1))
      = Cert.Spec.mlp X W1 b1 W2 b2 (ix2 (⟨16000 * t.val + r.val, row_lt t r⟩ : Fin 320000) (0 : Fin 1)) := by
  rw [pay_apply]
  unfold Cert.Spec.mlp Cert.Spec.hidden
  simp only [hx, hw1, hb1, hw2, hb2]

/-- THE SAME WITH THE HOST'S OPERANDS IN PLACE: the weight block is W1 itself and the three rows are the re-layings of b1,
    W2 and b2; only the feature block is described by a hypothesis. -/
theorem pay_eq_mlp (X : Cert.Spec.SX.Idx → EReal) (W1 : Cert.Spec.SW1.Idx → EReal) (b1 : Cert.Spec.SB1.Idx → EReal)
    (W2 : Cert.Spec.SW2.Idx → EReal) (b2 : Cert.Spec.SB2.Idx → EReal) (t : Fin 20) (x : Vec Ideal S16000x128 .f32)
    (hx : ∀ (r : Fin 16000) (k : Fin 128), x (ix2 r k) = X (ix2 (⟨16000 * t.val + r.val, row_lt t r⟩ : Fin 320000) k))
    (r : Fin 16000) :
    k1_pay1 (F := Ideal) x W1 (shapeCast S1x64 b1 shapeCasts_S64_S1x64) (shapeCast S1x64 W2 shapeCasts_S64x1_S1x64)
        (shapeCast S1x1 b2 shapeCasts_S1_S1x1) (ix2 r (0 : Fin 1))
      = Cert.Spec.mlp X W1 b1 W2 b2 (ix2 (⟨16000 * t.val + r.val, row_lt t r⟩ : Fin 320000) (0 : Fin 1)) :=
  pay_eq_mlp_of X W1 b1 W2 b2 t x W1 _ _ _ hx (fun _ _ => rfl) (relay_b1_apply b1) (relay_w2_apply W2) (relay_b2_apply b2) r

end Cert.MlpBlock

end
-- ==== Proof.ResultJoin.lean ====
/-
  The result array, given block by block, is the specification's.

  The second stage covers the 320000 rows by 20 blocks of 16000: row e lies in block e / 16000 at place e % 16000, and
  e = 16000·(e / 16000) + e % 16000. If at every block t and place r the result at row 16000·t + r is the value the
  block's body stores there — the body being run on rows 16000·t … 16000·t + 15999 of the specification's feature array,
  on the first layer's weights, and on the re-laid bias, second-layer weights and second-layer bias — then the result
  is the specification's function G at every index.
-/
import proofs.«202806_g74526272520516_cont_9to1_m_1211_39_alg».proof.Proof.MlpSpec

noncomputable section

namespace Cert.Feature

open Idealize.ShloMosaic Idealize.ShloMosaic.ValueIdx
open Cert.KernelIdeal Cert.KernelIdeal.Gen

/-- Every row is a place in a block: e = 16000·t + r with t < 20 and r < 16000. -/
theorem row_split (e : Fin 320000) :
    ∃ (t : Fin 20) (r : Fin 16000), e = ⟨16000 * t.val + r.val, Cert.MlpBlock.row_lt t r⟩ :=
  ⟨⟨e.val / 16000, by have := e.isLt; omega⟩, ⟨e.val % 16000, Nat.mod_lt _ (by decide)⟩, Fin.ext (by
    show e.val = 16000 * (e.val / 16000) + e.val % 16000
    omega)⟩

/-- THE RESULT IS G. -/
theorem result_eq_G (z : Cert.Spec.SZ.Idx → EReal) (edge : Cert.Spec.SE.Idx → BitVec 32) (W1 : Cert.Spec.SW1.Idx → EReal)
    (b1 : Cert.Spec.SB1.Idx → EReal) (W2 : Cert.Spec.SW2.Idx → EReal) (b2 : Cert.Spec.SB2.Idx → EReal)
    (out : Cert.Spec.SO.Idx → EReal)
    (hout : ∀ (t : Fin 20) (r : Fin 16000),
      out (ix2 (⟨16000 * t.val + r.val, Cert.MlpBlock.row_lt t r⟩ : Fin 320000) (0 : Fin 1))
        = k1_pay1 (F := Ideal)
            (fun y : S16000x128.Idx =>
              Cert.Spec.X z edge (ix2 (⟨16000 * t.val + (y 0).val, Cert.MlpBlock.row_lt t (y 0)⟩ : Fin 320000) (y 1)))
            W1 (shapeCast S1x64 b1 shapeCasts_S64_S1x64) (shapeCast S1x64 W2 shapeCasts_S64x1_S1x64)
            (shapeCast S1x1 b2 shapeCasts_S1_S1x1) (ix2 r (0 : Fin 1))) :
    out = Cert.Spec.G z edge W1 b1 W2 b2 := by
  funext j
  obtain ⟨e, u, rfl⟩ : ∃ (e : Fin 320000) (u : Fin 1), j = ix2 e u := ⟨j 0, j 1, eq_ix2 j⟩
  obtain rfl : u = 0 := Subsingleton.elim _ _
  obtain ⟨t, r, rfl⟩ := row_split e
  rw [hout t r]
  exact Cert.MlpBlock.pay_eq_mlp (Cert.Spec.X z edge) W1 b1 W2 b2 t _ (fun _ _ => rfl) r

end Cert.Feature

end
-- ==== Proof.RefOps.lean ====
/-
  The reference program's @main as the list of its seventy host operations, in order, with the three
  functions it calls written out at their call sites: each row lookup (the take function, twice:
  for the source endpoints and for the destination endpoints) is twenty-three operations — the index
  normalised (a negative index has 10000 added: a compare, an add and a select, the select being the
  where function's one operation), made a column, tested against [0, 9999], the rows gathered, and the
  rows of out-of-range indices replaced by a fill value —, and the rectifier is three (the zero, its
  broadcast, the maximum).  Around them @main's own twenty-one: the two slices of the edge list and their
  reshapes, the product of the looked-up rows, the two matrix products each followed by the addition of
  its broadcast bias, and the logistic function spelt negate, exponential, add one, divide into one.

  A program of host operations only is a straight line, and its run is the fold of the operations'
  results over the launch memory: every buffer ends at that fold, for any reading of floats.
-/
import proofs.«202806_g74526272520516_cont_9to1_m_1211_39_alg».proof.Proof.Gen.ReferenceIdeal
import Idealize.ShloMosaic.Lib.StableHlo.Run

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- @main's seventy operations, in order, the calls written out. -/
abbrev ops : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    TRef.nullary main_call0.c (constantI S_ 32 0#32),
    TRef.unary main_call0.c main_call0.v0 (broadcastInDim S320000 ![] bcast_S_S320000),
    TRef.binary (.of main_v1) main_call0.v0 main_call0.v1 (cmpi .slt),
    TRef.nullary main_call0.c_0 (constantI S_ 32 10000#32),
    TRef.unary main_call0.c_0 main_call0.v2 (broadcastInDim S320000 ![] bcast_S_S320000),
    TRef.binary (.of main_v1) main_call0.v2 main_call0.v3 addi,
    TRef.ternary main_call0.v1 main_call0.v3 (.of main_v1) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg0) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    unary main_arg1 main_v3 ((extractStridedSlice S1x320000 ![1, 0] · slices_S2x320000_S1x320000_1_0) : (⟨S2x320000, .i32⟩ : BufTy).Contents (Elt F) → (⟨S1x320000, .i32⟩ : BufTy).Contents (Elt F)),
    reshape main_v3 main_v4 rfl shapeCasts_S1x320000_S320000,
    TRef.nullary main_call1.c (constantI S_ 32 0#32),
    TRef.unary main_call1.c main_call1.v0 (broadcastInDim S320000 ![] bcast_S_S320000),
    TRef.binary (.of main_v4) main_call1.v0 main_call1.v1 (cmpi .slt),
    TRef.nullary main_call1.c_0 (constantI S_ 32 10000#32),
    TRef.unary main_call1.c_0 main_call1.v2 (broadcastInDim S320000 ![] bcast_S_S320000),
    TRef.binary (.of main_v4) main_call1.v2 main_call1.v3 addi,
    TRef.ternary main_call1.v1 main_call1.v3 (.of main_v4) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg0) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select,
    binary main_v2 main_v5 main_v6 (mulf : (⟨S320000x128, .f32⟩ : BufTy).Contents (Elt F) → (⟨S320000x128, .f32⟩ : BufTy).Contents (Elt F) → (⟨S320000x128, .f32⟩ : BufTy).Contents (Elt F)),
    binary main_v6 main_arg2 main_v7 ((fun l r => Host.dotGeneral dot_S320000x128_S128x64_S320000x64_1_0_0_1_n_n none l r) : (⟨S320000x128, .f32⟩ : BufTy).Contents (Elt F) → (⟨S128x64, .f32⟩ : BufTy).Contents (Elt F) → (⟨S320000x64, .f32⟩ : BufTy).Contents (Elt F)),
    unary main_arg3 main_v8 (broadcastInDim S1x64 ![1] bcast_S64_S1x64_1 : (⟨S64, .f32⟩ : BufTy).Contents (Elt F) → (⟨S1x64, .f32⟩ : BufTy).Contents (Elt F)),
    unary main_v8 main_v9 (broadcastInDim S320000x64 ![0, 1] bcast_S1x64_S320000x64_0_1 : (⟨S1x64, .f32⟩ : BufTy).Contents (Elt F) → (⟨S320000x64, .f32⟩ : BufTy).Contents (Elt F)),
    binary main_v7 main_v9 main_v10 (addf : (⟨S320000x64, .f32⟩ : BufTy).Contents (Elt F) → (⟨S320000x64, .f32⟩ : BufTy).Contents (Elt F) → (⟨S320000x64, .f32⟩ : BufTy).Contents (Elt F)),
    TRef.nullary main_call2.cst (constant S_ .f32 0x00000000#32),
    TRef.unary main_call2.cst main_call2.v0 (broadcastInDim S320000x64 ![] bcast_S_S320000x64),
    TRef.binary (.of main_v10) main_call2.v0 main_call2.v1 maximumf,
    binary main_v11 main_arg4 main_v12 ((fun l r => Host.dotGeneral dot_S320000x64_S64x1_S320000x1_1_0_0_1_n_n none l r) : (⟨S320000x64, .f32⟩ : BufTy).Contents (Elt F) → (⟨S64x1, .f32⟩ : BufTy).Contents (Elt F) → (⟨S320000x1, .f32⟩ : BufTy).Contents (Elt F)),
    unary main_arg5 main_v13 (broadcastInDim S1x1 ![1] bcast_S1_S1x1_1 : (⟨S1, .f32⟩ : BufTy).Contents (Elt F) → (⟨S1x1, .f32⟩ : BufTy).Contents (Elt F)),
    unary main_v13 main_v14 (broadcastInDim S320000x1 ![0, 1] bcast_S1x1_S320000x1_0_1 : (⟨S1x1, .f32⟩ : BufTy).Contents (Elt F) → (⟨S320000x1, .f32⟩ : BufTy).Contents (Elt F)),
    binary main_v12 main_v14 main_v15 (addf : (⟨S320000x1, .f32⟩ : BufTy).Contents (Elt F) → (⟨S320000x1, .f32⟩ : BufTy).Contents (Elt F) → (⟨S320000x1, .f32⟩ : BufTy).Contents (Elt F)),
    unary main_v15 main_v16 (Host.negf : (⟨S320000x1, .f32⟩ : BufTy).Contents (Elt F) → (⟨S320000x1, .f32⟩ : BufTy).Contents (Elt F)),
    unary main_v16 main_v17 (Host.exp : (⟨S320000x1, .f32⟩ : BufTy).Contents (Elt F) → (⟨S320000x1, .f32⟩ : BufTy).Contents (Elt F)),
    nullary main_cst (constant S_ .f32 0x3F800000#32),
    unary main_cst main_v18 (broadcastInDim S320000x1 ![] bcast_S_S320000x1 : (⟨S_, .f32⟩ : BufTy).Contents (Elt F) → (⟨S320000x1, .f32⟩ : BufTy).Contents (Elt F)),
    binary main_v18 main_v17 main_v19 (addf : (⟨S320000x1, .f32⟩ : BufTy).Contents (Elt F) → (⟨S320000x1, .f32⟩ : BufTy).Contents (Elt F) → (⟨S320000x1, .f32⟩ : BufTy).Contents (Elt F)),
    nullary main_cst_0 (constant S_ .f32 0x3F800000#32),
    unary main_cst_0 main_v20 (broadcastInDim S320000x1 ![] bcast_S_S320000x1 : (⟨S_, .f32⟩ : BufTy).Contents (Elt F) → (⟨S320000x1, .f32⟩ : BufTy).Contents (Elt F)),
    binary main_v20 main_v19 main_v21 (Host.divf : (⟨S320000x1, .f32⟩ : BufTy).Contents (Elt F) → (⟨S320000x1, .f32⟩ : BufTy).Contents (Elt F) → (⟨S320000x1, .f32⟩ : BufTy).Contents (Elt F)) ]

-- seventy steps deep: the comparison recurses once per statement
set_option maxRecDepth 8192 in
/-- @main is that straight line: with the called functions' definitions unfolded at their calls and the calls' buffer
    records at their fields, sequencing a called function's steps before the rest is, by computation, the one chain of
    host steps. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- For any float values, from any memory with zero counters: every weakly fair execution of @main terminates,
    and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefHand

end
-- ==== Proof.RefTerm.lean ====
/-
  What the reference computes, as one term of its six arguments — the seventy host operations composed in
  the order they run, for any reading of floats — and its run stated at that term.

  The term, stage by stage.  An endpoint row of the edge list (a slice of one row, reshaped to a vector) is
  an index vector idx.  The row lookup of z at idx first wraps a negative index (idx + 10000 where idx < 0),
  makes the wrapped vector a column, tests each entry of the column against [0, 9999] and folds the test
  along the column's one-entry axis, gathers the rows of z at the column, and keeps a gathered row where the
  test holds, a fill value elsewhere.  The edge feature is the entrywise product of the two lookups; the
  hidden layer is the maximum of (feature · W1 + b1 broadcast along the rows) and the zero array; the output
  is one over (one plus the exponential of minus (hidden · W2 + b2 broadcast along the rows)).
-/
import proofs.«202806_g74526272520516_cont_9to1_m_1211_39_alg».proof.Proof.RefOps

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- The source endpoints: row 0 of the edge list, as a vector. -/
def endpoint0 (edge : IVec S2x320000 32) : IVec S320000 32 :=
  shapeCast S320000 (extractStridedSlice S1x320000 ![0, 0] edge slices_S2x320000_S1x320000_0_0) shapeCasts_S1x320000_S320000

/-- The destination endpoints: row 1 of the edge list, as a vector. -/
def endpoint1 (edge : IVec S2x320000 32) : IVec S320000 32 :=
  shapeCast S320000 (extractStridedSlice S1x320000 ![1, 0] edge slices_S2x320000_S1x320000_1_0) shapeCasts_S1x320000_S320000

/-- A negative index wrapped once: idx + 10000 where idx < 0, else idx. -/
def wrapIdx (idx : IVec S320000 32) : IVec S320000 32 :=
  select (cmpi .slt idx (broadcastInDim S320000 ![] bcast_S_S320000 (constantI S_ 32 0#32)))
    (addi idx (broadcastInDim S320000 ![] bcast_S_S320000 (constantI S_ 32 10000#32))) idx

/-- The wrapped indices as a one-entry-wide column: the gather's start indices. -/
def colIdx (idx : IVec S320000 32) : IVec S320000x1 32 :=
  broadcastInDim S320000x1 ![0] bcast_S320000_S320000x1_0 (wrapIdx idx)

/-- Per row: is the wrapped index in [0, 9999]? (The conjunction of the two tests, folded along the column's
    one-entry axis from the constant 1.) -/
def okRow (idx : IVec S320000 32) : IVec S320000 1 :=
  Host.reduce IntOp.andi
    (andi (cmpi .sge (colIdx idx) (broadcastInDim S320000x1 ![] bcast_S_S320000x1 (constantI S_ 32 0#32)))
      (cmpi .sle (colIdx idx)
        (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- The row lookup: the rows of z gathered at the wrapped indices, a fill value in the rows whose index is out of range. -/
def takeRows (z : FVec F S10000x128 .f32) (idx : IVec S320000 32) : FVec F S320000x128 .f32 :=
  select (broadcastInDim S320000x128 ![0] bcast_S320000_S320000x128_0 (okRow idx))
    (Host.gather gather_S10000x128_S320000x1_S320000x128_1_0_n_n_0_1_1128 z (colIdx idx))
    (broadcastInDim S320000x128 ![] bcast_S_S320000x128 (constant S_ .f32 0x7FC00000#32))

/-- The edge feature: source rows times destination rows, entry by entry. -/
def feat (z : FVec F S10000x128 .f32) (edge : IVec S2x320000 32) : FVec F S320000x128 .f32 :=
  mulf (takeRows z (endpoint0 edge)) (takeRows z (endpoint1 edge))

/-- The hidden layer: max (feature · W1 + b1, 0). -/
def hid (z : FVec F S10000x128 .f32) (edge : IVec S2x320000 32) (W1 : FVec F S128x64 .f32) (b1 : FVec F S64 .f32) :
    FVec F S320000x64 .f32 :=
  maximumf
    (addf (Host.dotGeneral dot_S320000x128_S128x64_S320000x64_1_0_0_1_n_n none (feat z edge) W1)
      (broadcastInDim S320000x64 ![0, 1] bcast_S1x64_S320000x64_0_1 (broadcastInDim S1x64 ![1] bcast_S64_S1x64_1 b1)))
    (broadcastInDim S320000x64 ![] bcast_S_S320000x64 (constant S_ .f32 0x00000000#32))

/-- The output layer before the logistic function: hidden · W2 + b2. -/
def pre (z : FVec F S10000x128 .f32) (edge : IVec S2x320000 32) (W1 : FVec F S128x64 .f32) (b1 : FVec F S64 .f32)
    (W2 : FVec F S64x1 .f32) (b2 : FVec F S1 .f32) : FVec F S320000x1 .f32 :=
  addf (Host.dotGeneral dot_S320000x64_S64x1_S320000x1_1_0_0_1_n_n none (hid z edge W1 b1) W2)
    (broadcastInDim S320000x1 ![0, 1] bcast_S1x1_S320000x1_0_1 (broadcastInDim S1x1 ![1] bcast_S1_S1x1_1 b2))

/-- The result: 1 / (1 + exp (−pre)). -/
def refOut (z : FVec F S10000x128 .f32) (edge : IVec S2x320000 32) (W1 : FVec F S128x64 .f32) (b1 : FVec F S64 .f32)
    (W2 : FVec F S64x1 .f32) (b2 : FVec F S1 .f32) : FVec F S320000x1 .f32 :=
  Host.divf (broadcastInDim S320000x1 ![] bcast_S_S320000x1 (constant S_ .f32 0x3F800000#32))
    (addf (broadcastInDim S320000x1 ![] bcast_S_S320000x1 (constant S_ .f32 0x3F800000#32))
      (Host.exp (Host.negf (pre z edge W1 b1 W2 b2))))

attribute [local irreducible] Host.reduce Host.gather in
set_option maxRecDepth 8192 in
set_option maxHeartbeats 800000 in
/-- The fold at the result buffer is that term of the argument buffers' contents: the fold unrolled, each operation's
    result rewritten at its own buffer to its function's value and passed over at every other (one pass, each shared
    intermediate visited once); what is left differs from the term only by the called functions' typed references, whose
    transports are identities at these literal buffers, so it closes by computation. The fold over a column and the
    gather are kept closed meanwhile: the equation never looks inside them. -/
theorem out_eq (V : Valuation τ sig (Elt F)) :
    after ops V (main_v21 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 8192 in
/-- No operation writes argument 0. -/
theorem arg0_eq (V : Valuation τ sig (Elt F)) :
    after ops V (main_arg0 : DevRef τ sig) = V (main_arg0 : DevRef τ sig) := by
  simp only [after_cons, after_nil]
  rfl

set_option maxRecDepth 8192 in
/-- No operation writes argument 1. -/
theorem arg1_eq (V : Valuation τ sig (Elt F)) :
    after ops V (main_arg1 : DevRef τ sig) = V (main_arg1 : DevRef τ sig) := by
  simp only [after_cons, after_nil]
  rfl

set_option maxRecDepth 8192 in
/-- No operation writes argument 2. -/
theorem arg2_eq (V : Valuation τ sig (Elt F)) :
    after ops V (main_arg2 : DevRef τ sig) = V (main_arg2 : DevRef τ sig) := by
  simp only [after_cons, after_nil]
  rfl

set_option maxRecDepth 8192 in
/-- No operation writes argument 3. -/
theorem arg3_eq (V : Valuation τ sig (Elt F)) :
    after ops V (main_arg3 : DevRef τ sig) = V (main_arg3 : DevRef τ sig) := by
  simp only [after_cons, after_nil]
  rfl

set_option maxRecDepth 8192 in
/-- No operation writes argument 4. -/
theorem arg4_eq (V : Valuation τ sig (Elt F)) :
    after ops V (main_arg4 : DevRef τ sig) = V (main_arg4 : DevRef τ sig) := by
  simp only [after_cons, after_nil]
  rfl

set_option maxRecDepth 8192 in
/-- No operation writes argument 5. -/
theorem arg5_eq (V : Valuation τ sig (Elt F)) :
    after ops V (main_arg5 : DevRef τ sig) = V (main_arg5 : DevRef τ sig) := by
  simp only [after_cons, after_nil]
  rfl

/-- For any float values, from any memory with zero counters: every weakly fair execution of @main terminates with the
    result buffer at the composed term of the arguments' launch contents, and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v21).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m ρ)

end Cert.RefHand

end
-- ==== Proof.RefRead.lean ====
/-
  The reference's composed term, read index by index on the extended reals, is the specified function G —
  provided every endpoint word of the edge list is a row number of z (0 ≤ edge ≤ 9999 as a signed word).

  Under that range hypothesis: a wrapped index is the index (it is not negative); its range test holds in
  every row, so the fold of the tests along the one-entry axis is 1 and the lookup keeps every gathered row;
  the gather reads row  min (index, 9999) = index  of z.  So the lookup of z at an endpoint row of the edge
  list is  z (edge (t, e), k)  at (e, k), and the feature is the product of the two.  A matrix product read at
  an index is the sum over its one contracted axis of the operands' products; a bias broadcast along the rows
  reads the bias at the column; the rectifier's zero array reads 0; and  1 / (1 + exp (−x))  with both ones
  the float one is the logistic function of x.
-/
import proofs.«202806_g74526272520516_cont_9to1_m_1211_39_alg».proof.Proof.RefTerm
import proofs.«202806_g74526272520516_cont_9to1_m_1211_39_alg».proof.Proof.Spec
import Idealize.ShloMosaic.Lib.Pipeline.Value
import Idealize.ShloMosaic.Lib.IdealHost
import Idealize.ShloMosaic.PureOps.Ideal.Laws

noncomputable section

namespace Cert.RefHand

open Cert.ReferenceIdeal Cert.ReferenceIdeal.Gen Idealize.ShloMosaic Idealize.ShloMosaic.ValueIdx
open scoped BigOperators

/-! ## Words -/

/-- A conjunction of bits folded from 1 over bits that are all 1 is 1. -/
theorem foldl_andi_one {ι : Type} (g : ι → BitVec 1) :
    ∀ (l : List ι) (init : BitVec 1), init = 1#1 → (∀ n ∈ l, g n = 1#1) → l.foldl (fun r n => IntOp.andi r (g n)) init = 1#1
  | [], _, h, _ => h
  | a :: l, init, h, hg => by
    rw [List.foldl_cons]
    exact foldl_andi_one g l _ (by rw [h, hg a List.mem_cons_self]; rfl) (fun n hn => hg n (List.mem_cons_of_mem _ hn))

/-- A reduction by conjunction, from 1, of an array of bits that are all 1 is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  unfold Host.reduce
  exact foldl_andi_one (fun n => x (s.rowMajor.symm n)) _ _ hinit (fun n _ => hx _)

/-- A signed word in [0, 9999], clamped into [0, 9999] as the gather clamps it, is its unsigned reading. -/
theorem clamp_eq (w : BitVec 32) (h0 : 0 ≤ w.toInt) (h1 : w.toInt ≤ 9999) : min w.toInt.toNat 9999 = w.toNat := by
  have e : w.toInt = (w.toNat : Int) := by
    rcases hb : w.msb with _ | _
    · exact BitVec.toInt_eq_toNat_of_msb hb
    · have := BitVec.toInt_neg_of_msb_true hb; omega
  omega

/-! ## The index vectors -/

/-- Entry e of the source endpoints is the edge list at (0, e). -/
theorem endpoint0_apply (edge : IVec S2x320000 32) (e : Fin 320000) : endpoint0 edge (ix1 e) = edge (ix2 0 e) := by
  unfold endpoint0
  rw [shapeCast_apply _ _ (ix1 e) (ix2 (0 : Fin 1) e) (by
    rw [Shape.rowMajor_val_two, Shape.rowMajor_val_one]; show 0 * 320000 + e.val = e.val; omega)]
  exact extractStridedSlice_apply _ _ _ _ (ix2 (0 : Fin 2) e) (fun a => by
    match a with
    | ⟨0, _⟩ => rfl
    | ⟨1, _⟩ => show e.val = 0 + e.val; omega)

/-- Entry e of the destination endpoints is the edge list at (1, e). -/
theorem endpoint1_apply (edge : IVec S2x320000 32) (e : Fin 320000) : endpoint1 edge (ix1 e) = edge (ix2 1 e) := by
  unfold endpoint1
  rw [shapeCast_apply _ _ (ix1 e) (ix2 (0 : Fin 1) e) (by
    rw [Shape.rowMajor_val_two, Shape.rowMajor_val_one]; show 0 * 320000 + e.val = e.val; omega)]
  exact extractStridedSlice_apply _ _ _ _ (ix2 (1 : Fin 2) e) (fun a => by
    match a with
    | ⟨0, _⟩ => rfl
    | ⟨1, _⟩ => show e.val = 0 + e.val; omega)

/-- An index that is not negative is not wrapped. -/
theorem wrapIdx_apply (idx : IVec S320000 32) (i : S320000.Idx) (h0 : 0 ≤ (idx i).toInt) : wrapIdx idx i = idx i := by
  unfold wrapIdx
  rw [select_apply]
  have hc : ¬ cmpi .slt idx (broadcastInDim S320000 ![] bcast_S_S320000 (constantI S_ 32 0#32)) i = 1#1 := by
    intro hc
    have hlt : (idx i).toInt < (0#32 : BitVec 32).toInt := IntOp.cmpi_slt.1 hc
    have hz : (0#32 : BitVec 32).toInt = 0 := by decide
    omega
  exact if_neg hc

/-- The index column at row e is the wrapped index e. -/
theorem colIdx_apply (idx : IVec S320000 32) (e : Fin 320000) (o : Fin 1) : colIdx idx (ix2 e o) = wrapIdx idx (ix1 e) := by
  unfold colIdx
  exact broadcastInDim_apply _ _ _ (ix2 e o) (ix1 e) (fun a => by match a with | ⟨0, _⟩ => rfl)

/-- With every index in [0, 9999] the range test holds in every row. -/
theorem okRow_apply (idx : IVec S320000 32) (h : ∀ i, 0 ≤ (idx i).toInt ∧ (idx i).toInt ≤ 9999) (j : S320000.Idx) :
    okRow idx j = 1#1 := by
  unfold okRow
  refine reduce_andi_one _ _ _ _ rfl (fun i => ?_) j
  obtain ⟨e, o, rfl⟩ : ∃ (e : Fin 320000) (o : Fin 1), i = ix2 e o := ⟨i 0, i 1, eq_ix2 i⟩
  have hc : colIdx idx (ix2 e o) = idx (ix1 e) := by rw [colIdx_apply, wrapIdx_apply _ _ (h _).1]
  have h0 : (0#32 : BitVec 32).toInt = 0 := by decide
  have h9 : (9999#32 : BitVec 32).toInt = 9999 := by decide
  have hr := h (ix1 e)
  refine IntOp.andi_eq_one.2 ⟨IntOp.cmpi_sge.2 ?_, IntOp.cmpi_sle.2 ?_⟩
  · show (0#32 : BitVec 32).toInt ≤ (colIdx idx (ix2 e o)).toInt
    rw [hc]; omega
  · show (colIdx idx (ix2 e o)).toInt ≤ (9999#32 : BitVec 32).toInt
    rw [hc]; omega

/-! ## The gather -/

/-- The gather of rows read at (e, k): z at (the start index of row e, read signed and clamped into [0, 9999]; k). -/
theorem gather_apply {α : Type} (z : S10000x128.Idx → α) (col : IVec S320000x1 32) (e : Fin 320000) (k : Fin 128)
    (r : Fin 10000) (hr : r.val = min (col (ix2 e 0)).toInt.toNat 9999) :
    Host.gather gather_S10000x128_S320000x1_S320000x128_1_0_n_n_0_1_1128 z col (ix2 e k) = z (ix2 r k) := by
  unfold Host.gather
  refine congrArg z (funext fun a => Fin.ext ?_)
  match a with
  | ⟨0, _⟩ =>
    show gather_S10000x128_S320000x1_S320000x128_1_0_n_n_0_1_1128.start (ix2 e k) col 0 + gather_S10000x128_S320000x1_S320000x128_1_0_n_n_0_1_1128.batchCoord (ix2 e k) 0 + gather_S10000x128_S320000x1_S320000x128_1_0_n_n_0_1_1128.offCoord (ix2 e k) 0 = r.val
    rw [GatherDims.batchCoord_eq_zero _ _ _ (show (0 : Fin S10000x128.rank) ∉ gather_S10000x128_S320000x1_S320000x128_1_0_n_n_0_1_1128.operandBatchingDims by decide),
      GatherDims.offCoord_eq_zero _ _ _ (show (0 : Fin S10000x128.rank) ∉ gather_S10000x128_S320000x1_S320000x128_1_0_n_n_0_1_1128.sKept by decide), hr]
    simp only [Nat.add_zero]
    unfold GatherDims.start
    rw [dif_pos (show (0 : Fin S10000x128.rank) ∈ gather_S10000x128_S320000x1_S320000x128_1_0_n_n_0_1_1128.startIndexMap by decide)]
    have hsi : ∀ hlt, gather_S10000x128_S320000x1_S320000x128_1_0_n_n_0_1_1128.siIdx (ix2 e k) ⟨List.idxOf (0 : Fin S10000x128.rank) gather_S10000x128_S320000x1_S320000x128_1_0_n_n_0_1_1128.startIndexMap, hlt⟩ = ix2 e 0 := by
      intro hlt
      funext b; refine Fin.ext ?_
      match b with
      | ⟨0, _⟩ => rfl
      | ⟨1, _⟩ => rfl
    rw [hsi]
    rfl
  | ⟨1, _⟩ =>
    show gather_S10000x128_S320000x1_S320000x128_1_0_n_n_0_1_1128.start (ix2 e k) col 1 + gather_S10000x128_S320000x1_S320000x128_1_0_n_n_0_1_1128.batchCoord (ix2 e k) 1 + gather_S10000x128_S320000x1_S320000x128_1_0_n_n_0_1_1128.offCoord (ix2 e k) 1 = k.val
    have hs : gather_S10000x128_S320000x1_S320000x128_1_0_n_n_0_1_1128.start (ix2 e k) col 1 = 0 := by
      unfold GatherDims.start
      rw [dif_neg (show (1 : Fin S10000x128.rank) ∉ gather_S10000x128_S320000x1_S320000x128_1_0_n_n_0_1_1128.startIndexMap by decide)]
    have ho : gather_S10000x128_S320000x1_S320000x128_1_0_n_n_0_1_1128.offCoord (ix2 e k) 1 = k.val := by
      unfold GatherDims.offCoord
      rw [dif_pos (show (1 : Fin S10000x128.rank) ∈ gather_S10000x128_S320000x1_S320000x128_1_0_n_n_0_1_1128.sKept by decide)]
      rfl
    rw [hs, ho, GatherDims.batchCoord_eq_zero _ _ _ (show (1 : Fin S10000x128.rank) ∉ gather_S10000x128_S320000x1_S320000x128_1_0_n_n_0_1_1128.operandBatchingDims by decide)]
    omega

/-! ## The row lookup and the feature -/

variable {F : FTy → Type} [FloatOps F]

/-- With every index in [0, 9999], the lookup at (e, k) is z at (index e, k). -/
theorem takeRows_apply (z : FVec F S10000x128 .f32) (idx : IVec S320000 32)
    (h : ∀ i, 0 ≤ (idx i).toInt ∧ (idx i).toInt ≤ 9999) (e : Fin 320000) (k : Fin 128) (r : Fin 10000)
    (hr : r.val = (idx (ix1 e)).toNat) : takeRows z idx (ix2 e k) = z (ix2 r k) := by
  unfold takeRows
  rw [select_apply]
  have hm : broadcastInDim S320000x128 ![0] bcast_S320000_S320000x128_0 (okRow idx) (ix2 e k) = 1#1 :=
    (broadcastInDim_apply _ _ _ (ix2 e k) (ix1 e) (fun a => by match a with | ⟨0, _⟩ => rfl)).trans (okRow_apply idx h _)
  rw [hm, select_one]
  exact gather_apply z _ e k r (by rw [colIdx_apply, wrapIdx_apply _ _ (h _).1, clamp_eq _ (h _).1 (h _).2, hr])

end Cert.RefHand

end
-- ==== Proof.RefRun.lean ====
/-
  The reference's result is the specified function G, and its run stated at G.

  On the extended reals the host's matrix product read at (e, c) is the sum over the one contracted axis of
  the left operand at (e, k) times the right at (k, c): its contraction index set has one axis, identified
  with its coordinate.  A bias broadcast first to one row and then along all rows reads the bias at the
  column; a scalar broadcast reads the scalar.  With the row lookups read under the range hypothesis (the
  feature is the product of the two endpoint rows of z), the hidden layer at (e, c) is
  max (Σ_k x(e,k) · W1(k,c) + b1(c), 0), the output layer before the last step is Σ_c h(e,c) · W2(c,0) + b2(0),
  and the last step 1 / (1 + exp (−·)), both ones being the float 1, is the logistic function.
-/
import proofs.«202806_g74526272520516_cont_9to1_m_1211_39_alg».proof.Proof.RefRead

noncomputable section

namespace Cert.RefHand

open Cert.ReferenceIdeal Cert.ReferenceIdeal.Gen Idealize.ShloMosaic Idealize.ShloMosaic.ValueIdx Idealize.ShloMosaic.TcCoe
  Idealize.SL.Sem
open scoped BigOperators

/-! ## The matrix products at an index -/

/-- The first product, [320000,128] · [128,64], at (e, c): the sum over the 128 feature entries. -/
theorem dot1_apply (l : FVec Ideal S320000x128 .f32) (r : FVec Ideal S128x64 .f32) (e : Fin 320000) (c : Fin 64) :
    Host.dotGeneral dot_S320000x128_S128x64_S320000x64_1_0_0_1_n_n none l r (ix2 e c) = ∑ k : Fin 128, l (ix2 e k) * r (ix2 k c) := by
  -- the operands' indices at result index (e, c) and contraction index q: the left reads (e, q), the right (q, c)
  have l0 : ∀ q, (dot_S320000x128_S128x64_S320000x64_1_0_0_1_n_n.lhsIdx (ix2 e c) q 0).val = e.val := fun q => by
    unfold DotDims.lhsIdx
    rw [dif_neg (show ¬(0 : Fin S320000x128.rank) ∈ dot_S320000x128_S128x64_S320000x64_1_0_0_1_n_n.lhsBatch by decide),
      dif_pos (show (0 : Fin S320000x128.rank) ∈ dot_S320000x128_S128x64_S320000x64_1_0_0_1_n_n.lhsNonContracting by decide)]
    rfl
  have l1 : ∀ q, (dot_S320000x128_S128x64_S320000x64_1_0_0_1_n_n.lhsIdx (ix2 e c) q 1).val = (q ⟨0, by decide⟩).val := fun q =>
    dot_S320000x128_S128x64_S320000x64_1_0_0_1_n_n.lhsIdx_val_of_single rfl _ q
  have r0 : ∀ q, (dot_S320000x128_S128x64_S320000x64_1_0_0_1_n_n.rhsIdx (ix2 e c) q 0).val = (q ⟨0, by decide⟩).val := fun q =>
    dot_S320000x128_S128x64_S320000x64_1_0_0_1_n_n.rhsIdx_val_of_single rfl _ q
  have r1 : ∀ q, (dot_S320000x128_S128x64_S320000x64_1_0_0_1_n_n.rhsIdx (ix2 e c) q 1).val = c.val := fun q => by
    unfold DotDims.rhsIdx
    rw [dif_neg (show ¬(1 : Fin S128x64.rank) ∈ dot_S320000x128_S128x64_S320000x64_1_0_0_1_n_n.rhsBatch by decide),
      dif_pos (show (1 : Fin S128x64.rank) ∈ dot_S320000x128_S128x64_S320000x64_1_0_0_1_n_n.rhsNonContracting by decide)]
    rfl
  simp only [Host.dotGeneral]
  rw [Ideal.dotGeneral_apply, ← Equiv.sum_comp (contrEquiv1 dot_S320000x128_S128x64_S320000x64_1_0_0_1_n_n 128 rfl rfl).symm]
  refine Finset.sum_congr rfl fun k _ => ?_
  have hk := contrEquiv1_symm_val dot_S320000x128_S128x64_S320000x64_1_0_0_1_n_n 128 rfl rfl k
  have el : dot_S320000x128_S128x64_S320000x64_1_0_0_1_n_n.lhsIdx (ix2 e c) ((contrEquiv1 dot_S320000x128_S128x64_S320000x64_1_0_0_1_n_n 128 rfl rfl).symm k) = ix2 e k := funext fun a => Fin.ext (by
    match a with
    | ⟨0, _⟩ => exact l0 _
    | ⟨1, _⟩ => exact (l1 _).trans hk)
  have er : dot_S320000x128_S128x64_S320000x64_1_0_0_1_n_n.rhsIdx (ix2 e c) ((contrEquiv1 dot_S320000x128_S128x64_S320000x64_1_0_0_1_n_n 128 rfl rfl).symm k) = ix2 k c := funext fun a => Fin.ext (by
    match a with
    | ⟨0, _⟩ => exact (r0 _).trans hk
    | ⟨1, _⟩ => exact r1 _)
  rw [el, er]

/-- The second product, [320000,64] · [64,1], at (e, c): the sum over the 64 hidden units. -/
theorem dot2_apply (l : FVec Ideal S320000x64 .f32) (r : FVec Ideal S64x1 .f32) (e : Fin 320000) (c : Fin 1) :
    Host.dotGeneral dot_S320000x64_S64x1_S320000x1_1_0_0_1_n_n none l r (ix2 e c) = ∑ k : Fin 64, l (ix2 e k) * r (ix2 k c) := by
  -- the operands' indices at result index (e, c) and contraction index q: the left reads (e, q), the right (q, c)
  have l0 : ∀ q, (dot_S320000x64_S64x1_S320000x1_1_0_0_1_n_n.lhsIdx (ix2 e c) q 0).val = e.val := fun q => by
    unfold DotDims.lhsIdx
    rw [dif_neg (show ¬(0 : Fin S320000x64.rank) ∈ dot_S320000x64_S64x1_S320000x1_1_0_0_1_n_n.lhsBatch by decide),
      dif_pos (show (0 : Fin S320000x64.rank) ∈ dot_S320000x64_S64x1_S320000x1_1_0_0_1_n_n.lhsNonContracting by decide)]
    rfl
  have l1 : ∀ q, (dot_S320000x64_S64x1_S320000x1_1_0_0_1_n_n.lhsIdx (ix2 e c) q 1).val = (q ⟨0, by decide⟩).val := fun q =>
    dot_S320000x64_S64x1_S320000x1_1_0_0_1_n_n.lhsIdx_val_of_single rfl _ q
  have r0 : ∀ q, (dot_S320000x64_S64x1_S320000x1_1_0_0_1_n_n.rhsIdx (ix2 e c) q 0).val = (q ⟨0, by decide⟩).val := fun q =>
    dot_S320000x64_S64x1_S320000x1_1_0_0_1_n_n.rhsIdx_val_of_single rfl _ q
  have r1 : ∀ q, (dot_S320000x64_S64x1_S320000x1_1_0_0_1_n_n.rhsIdx (ix2 e c) q 1).val = c.val := fun q => by
    unfold DotDims.rhsIdx
    rw [dif_neg (show ¬(1 : Fin S64x1.rank) ∈ dot_S320000x64_S64x1_S320000x1_1_0_0_1_n_n.rhsBatch by decide),
      dif_pos (show (1 : Fin S64x1.rank) ∈ dot_S320000x64_S64x1_S320000x1_1_0_0_1_n_n.rhsNonContracting by decide)]
    rfl
  simp only [Host.dotGeneral]
  rw [Ideal.dotGeneral_apply, ← Equiv.sum_comp (contrEquiv1 dot_S320000x64_S64x1_S320000x1_1_0_0_1_n_n 64 rfl rfl).symm]
  refine Finset.sum_congr rfl fun k _ => ?_
  have hk := contrEquiv1_symm_val dot_S320000x64_S64x1_S320000x1_1_0_0_1_n_n 64 rfl rfl k
  have el : dot_S320000x64_S64x1_S320000x1_1_0_0_1_n_n.lhsIdx (ix2 e c) ((contrEquiv1 dot_S320000x64_S64x1_S320000x1_1_0_0_1_n_n 64 rfl rfl).symm k) = ix2 e k := funext fun a => Fin.ext (by
    match a with
    | ⟨0, _⟩ => exact l0 _
    | ⟨1, _⟩ => exact (l1 _).trans hk)
  have er : dot_S320000x64_S64x1_S320000x1_1_0_0_1_n_n.rhsIdx (ix2 e c) ((contrEquiv1 dot_S320000x64_S64x1_S320000x1_1_0_0_1_n_n 64 rfl rfl).symm k) = ix2 k c := funext fun a => Fin.ext (by
    match a with
    | ⟨0, _⟩ => exact (r0 _).trans hk
    | ⟨1, _⟩ => exact r1 _)
  rw [el, er]

/-! ## The broadcasts at an index -/

/-- The first bias, made one row and repeated along all rows, reads b1 at the column. -/
theorem bias1_apply {α : Type} (b1 : S64.Idx → α) (e : Fin 320000) (c : Fin 64) :
    broadcastInDim S320000x64 ![0, 1] bcast_S1x64_S320000x64_0_1 (broadcastInDim S1x64 ![1] bcast_S64_S1x64_1 b1) (ix2 e c)
      = b1 (ix1 c) := by
  rw [broadcastInDim_apply _ _ _ (ix2 e c) (ix2 (0 : Fin 1) c) (fun a => by
    match a with
    | ⟨0, _⟩ => rfl
    | ⟨1, _⟩ => rfl)]
  exact broadcastInDim_apply _ _ _ (ix2 (0 : Fin 1) c) (ix1 c) (fun a => by match a with | ⟨0, _⟩ => rfl)

/-- The second bias, made a one-by-one array and repeated along all rows, reads its one entry. -/
theorem bias2_apply {α : Type} (b2 : S1.Idx → α) (e : Fin 320000) (o : Fin 1) :
    broadcastInDim S320000x1 ![0, 1] bcast_S1x1_S320000x1_0_1 (broadcastInDim S1x1 ![1] bcast_S1_S1x1_1 b2) (ix2 e o)
      = b2 (ix1 0) := by
  rw [broadcastInDim_apply _ _ _ (ix2 e o) (ix2 (0 : Fin 1) (0 : Fin 1)) (fun a => by
    match a with
    | ⟨0, _⟩ => rfl
    | ⟨1, _⟩ => rfl)]
  exact broadcastInDim_apply _ _ _ (ix2 (0 : Fin 1) (0 : Fin 1)) (ix1 (0 : Fin 1)) (fun a => by match a with | ⟨0, _⟩ => rfl)

/-! ## The host's division, exponential and negation at an index, on the extended reals -/

theorem hostDivf_apply {s : Shape} {φ : FTy} (a b : FVec Ideal s φ) (i : s.Idx) : Host.divf a b i = Ideal.div (a i) (b i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-! ## The stages -/

variable (z : FVec Ideal S10000x128 .f32) (edge : IVec S2x320000 32) (W1 : FVec Ideal S128x64 .f32) (b1 : FVec Ideal S64 .f32)
  (W2 : FVec Ideal S64x1 .f32) (b2 : FVec Ideal S1 .f32)

/-- The feature at (e, k): the product of the two endpoint rows of z at k. -/
theorem feat_apply (h : Cert.Spec.InRange edge) (e : Fin 320000) (k : Fin 128) :
    feat z edge (ix2 e k) = Cert.Spec.X z edge (ix2 e k) := by
  have h0 : ∀ i, 0 ≤ (endpoint0 edge i).toInt ∧ (endpoint0 edge i).toInt ≤ 9999 := fun i => by
    obtain ⟨a, rfl⟩ : ∃ a : Fin 320000, i = ix1 a := ⟨i 0, eq_ix1 i⟩
    rw [endpoint0_apply]; exact h _
  have h1 : ∀ i, 0 ≤ (endpoint1 edge i).toInt ∧ (endpoint1 edge i).toInt ≤ 9999 := fun i => by
    obtain ⟨a, rfl⟩ : ∃ a : Fin 320000, i = ix1 a := ⟨i 0, eq_ix1 i⟩
    rw [endpoint1_apply]; exact h _
  show mulf (takeRows z (endpoint0 edge)) (takeRows z (endpoint1 edge)) (ix2 e k)
    = z (ix2 (Cert.Spec.node edge 0 e) k) * z (ix2 (Cert.Spec.node edge 1 e) k)
  rw [mulf_apply,
    takeRows_apply z _ h0 e k (Cert.Spec.node edge 0 e) (by rw [Cert.Spec.node_val h, endpoint0_apply]),
    takeRows_apply z _ h1 e k (Cert.Spec.node edge 1 e) (by rw [Cert.Spec.node_val h, endpoint1_apply])]

/-- The hidden layer at (e, c). -/
theorem hid_apply (h : Cert.Spec.InRange edge) (e : Fin 320000) (c : Fin 64) :
    hid z edge W1 b1 (ix2 e c) = Cert.Spec.hidden (Cert.Spec.X z edge) W1 b1 e c := by
  unfold hid Cert.Spec.hidden
  rw [maximumf_apply, addf_apply, dot1_apply, bias1_apply, broadcastInDim_scalar_apply, constant_apply, Ideal.ofBits_zero_f32]
  simp only [feat_apply z edge h]

/-- The output layer before the logistic function, at (e, 0). -/
theorem pre_apply (h : Cert.Spec.InRange edge) (e : Fin 320000) :
    pre z edge W1 b1 W2 b2 (ix2 e 0)
      = (∑ c : Fin 64, Cert.Spec.hidden (Cert.Spec.X z edge) W1 b1 e c * W2 (ix2 c 0)) + b2 (ix1 0) := by
  unfold pre
  rw [addf_apply, dot2_apply, bias2_apply]
  simp only [hid_apply z edge W1 b1 h]

/-- THE REFERENCE IS G: under the range hypothesis the composed term, at the extended reals, is the specified function. -/
theorem refOut_eq_G (h : Cert.Spec.InRange edge) :
    refOut (F := Ideal) z edge W1 b1 W2 b2 = Cert.Spec.G z edge W1 b1 W2 b2 := by
  funext j
  obtain ⟨e, o, rfl⟩ : ∃ (e : Fin 320000) (o : Fin 1), j = ix2 e o := ⟨j 0, j 1, eq_ix2 j⟩
  obtain rfl : o = 0 := Subsingleton.elim _ _
  have hone : broadcastInDim S320000x1 ![] bcast_S_S320000x1 (constant (F := Ideal) S_ .f32 0x3F800000#32) (ix2 e (0 : Fin 1)) = 1 := by
    rw [broadcastInDim_scalar_apply, constant_apply, Ideal.ofBits_one_f32]
  unfold refOut
  rw [hostDivf_apply, addf_apply, hostExp_apply, hostNegf_apply, hone, pre_apply z edge W1 b1 W2 b2 h]
  unfold Cert.Spec.G Cert.Spec.mlp Ideal.logistic
  rfl

/-! ## The run -/

/-- From any memory with zero counters whose edge list names rows of z: every weakly fair execution of the reference
    terminates with the result buffer at G of the arguments' launch contents, and the arguments unchanged. -/
theorem run (m : (ℓ : Loc nD τ sig) → Buf (Elt Ideal) ℓ) (ρ : Dev nD → PrngReg)
    (hr : ∀ c : Dev nD, Cert.Spec.InRange (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v21)
        = Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (refOut_eq_G _ _ _ _ _ _ (hr c)), (h c).2⟩) (run_term m ρ)

end Cert.RefHand

end
-- ==== Proof.Assemble.lean ====
/-
  The claim's conjuncts for the idealized kernel and the reference, assembled from the runs.

  The idealized kernel's run ends with the six arguments unchanged and the output at the array its second stage computes
  block by block from the feature rows; on the extended reals the feature rows are the specification's X and the blocks'
  values join to the specification's G. The reference's run ends with its result at G of its own arguments, which agree
  with the kernel's. So both results are G of the kernel's arguments. The frames are the runs with the values dropped.
  Under the precondition every endpoint word of the edge list is a row number of z, which both runs need.
-/
import proofs.«202806_g74526272520516_cont_9to1_m_1211_39_alg».proof.Proof.IdealLaunchRun
import proofs.«202806_g74526272520516_cont_9to1_m_1211_39_alg».proof.Proof.IdealFlatRange
import proofs.«202806_g74526272520516_cont_9to1_m_1211_39_alg».proof.Proof.PreRange
import proofs.«202806_g74526272520516_cont_9to1_m_1211_39_alg».proof.Proof.ResultJoin
import proofs.«202806_g74526272520516_cont_9to1_m_1211_39_alg».proof.Proof.RefRun
import proofs.«202806_g74526272520516_cont_9to1_m_1211_39_alg».proof.Proof.Gen.Kernel

noncomputable section

namespace Cert.Proof.Asm

open Idealize.ShloMosaic Idealize.SL.Sem

/-! ## The idealized kernel -/

section Kernel

open Cert.KernelIdeal Cert.KernelIdeal.Gen Cert.Proof.KI

variable (m : (ℓ : Loc nD τ sig) → Buf (Elt Ideal) ℓ)

/-- Under the precondition the edge list of every device names rows of z. -/
theorem inRange_of_pre (hpre : Cert.Pre_KernelIdeal m) (d : Dev nD) : Cert.Spec.InRange (m ((SparseCore.T d).loc main_arg1)) :=
  Cert.PreRange.inRange_of_pre _ _ _ _ _ _ (hpre d)

/-- On the extended reals the output array the second stage leaves is the specification's G of the arguments. -/
theorem outOf_eq_G (d : Dev nD) :
    outOf m d = Cert.Spec.G (m (aLoc d main_arg0)) (m (aLoc d main_arg1)) (m (aLoc d main_arg2)) (m (aLoc d main_arg3))
      (m (aLoc d main_arg4)) (m (aLoc d main_arg5)) := by
  have hX : Cert.Feature.XF (F := Ideal) (m (zLoc d)) (eFlat m d) = Cert.Spec.X (m (aLoc d main_arg0)) (m (aLoc d main_arg1)) :=
    Cert.Feature.XF_ideal (m (aLoc d main_arg0)) (m (aLoc d main_arg1)) shapeCasts_S2x320000_S640000
  show out (Cert.Feature.XF (m (zLoc d)) (eFlat m d)) (m (aLoc d main_arg2)) (b1Row m d) (w2Row m d) (b2One m d) (m (aLoc d main_v5)) 0 (8 * 1) d = _
  rw [hX]
  exact Cert.Feature.result_eq_G _ _ _ _ _ _ _ fun t r => out_row20 _ _ _ _ _ _ _ _ d t r

/-- The idealized kernel's run at the specification: the output at G of the arguments, the arguments unchanged. -/
theorem run_G (ρ : Dev nD → PrngReg) (hbody : TileContract m) (hpre : Cert.Pre_KernelIdeal m) :
    θ_run (Cert.KernelIdeal.defs (F := Ideal)) (Cert.KernelIdeal.threads (F := Ideal)) ⟨m, fun _ => 0, ρ⟩ fun r => ∀ d : Dev nD,
      r.2.mem (aLoc d main_v5) = Cert.Spec.G (m (aLoc d main_arg0)) (m (aLoc d main_arg1)) (m (aLoc d main_arg2)) (m (aLoc d main_arg3))
          (m (aLoc d main_arg4)) (m (aLoc d main_arg5))
      ∧ r.2.mem (aLoc d main_arg0) = m (aLoc d main_arg0) ∧ r.2.mem (aLoc d main_arg1) = m (aLoc d main_arg1)
      ∧ r.2.mem (aLoc d main_arg2) = m (aLoc d main_arg2) ∧ r.2.mem (aLoc d main_arg3) = m (aLoc d main_arg3)
      ∧ r.2.mem (aLoc d main_arg4) = m (aLoc d main_arg4) ∧ r.2.mem (aLoc d main_arg5) = m (aLoc d main_arg5) :=
  (θ_run _ _ _).mono (fun _ h d => ⟨((h d).2 : _ = outOf m d).trans (outOf_eq_G m d), (h d).1⟩)
    (run_ideal m ρ hbody (eFlat_lt m (inRange_of_pre m hpre)))

end Kernel

/-- The idealized kernel's frame, from the tile's contract. -/
theorem frame_KernelIdeal_of (hbody : ∀ m, Cert.Proof.KI.TileContract (F := Ideal) m) : Cert.frame_KernelIdeal := fun m g hpre =>
  (θ_run _ _ _).mono (fun _ h c => (h c).2) (run_G m g (hbody m) hpre)

/-- The reference's frame. -/
theorem frame_ReferenceIdeal : Cert.frame_ReferenceIdeal := fun m g _ =>
  (θ_run _ _ _).mono (fun _ h c => (h c).2) (Cert.RefHand.run_term (F := Ideal) m g)

/-- The idealized kernel and the reference end with equal results, both G of the kernel's arguments. -/
theorem algebraic_of (hbody : ∀ m, Cert.Proof.KI.TileContract (F := Ideal) m) : Cert.algebraic_KernelIdeal_ReferenceIdeal :=
  fun m g m' g' hpre hag =>
    ⟨fun c => Cert.Spec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)),
      run_G m g (hbody m) hpre,
      (θ_run _ _ _).mono (fun _ h c => by
          obtain ⟨e0, e1, e2, e3, e4, e5⟩ := hag c
          have hc := h c
          rw [e0, e1, e2, e3, e4, e5] at hc
          exact ⟨hc.1, by rw [e0, e1, e2, e3, e4, e5]; exact hc.2⟩)
        (Cert.RefHand.run m' g' fun c => by
          rw [(hag c).2.1]; exact inRange_of_pre m hpre c)⟩

/-- The whole claim, from the word-level kernel's frame and the idealized tile's contract. -/
theorem claim_of (hK : Cert.frame_Kernel) (hbody : ∀ m, Cert.Proof.KI.TileContract (F := Ideal) m) : Cert.Claim :=
  ⟨Cert.Kernel.Gen.facts, Cert.KernelIdeal.Gen.facts, Cert.ReferenceIdeal.Gen.facts, Cert.Pre_input_domain.Gen.facts,
    hK, frame_KernelIdeal_of hbody, frame_ReferenceIdeal, trivial, algebraic_of hbody⟩

end Cert.Proof.Asm

end
-- ==== Proof.BitsSetup.lean ====
/-
  The idealized kernel as the SparseCore launch theorem sees it: the configuration, the ghost state (the launch
  handshakes' rounds beside the transfers' counters), the arrays as locations of a device, and a vector subcore's
  memrefs and thread. A vector subcore ("tile") with core coordinate c and subcore coordinate s has number
  w = 2·s + c and owns rows [10000·w, 10000·w + 10000) of the edge-feature array x, the two index slices
  edge_flat[10000·w, +10000) (sources) and edge_flat[320000 + 10000·w, +10000) (destinations), and reads z whole.
-/
import proofs.«202806_g74526272520516_cont_9to1_m_1211_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«202806_g74526272520516_cont_9to1_m_1211_39_alg».proof.Proof.Gen.Kernel
import proofs.«202806_g74526272520516_cont_9to1_m_1211_39_alg».proof.Proof.Gen.Kernel.Skeleton
import proofs.«202806_g74526272520516_cont_9to1_m_1211_39_alg».proof.Proof.Gen.Kernel.Launch
import proofs.«202806_g74526272520516_cont_9to1_m_1211_39_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the TensorCore pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds: the left component. -/
abbrev EH : Emb UH (MT nD τ sig (HIx 1) (Elt F) ℕ UU ℕ) := embL
/-- The pipeline's rounds: the left of the right component. The counters are found by instance in its right. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-! ## The arrays -/

abbrev zLoc (d : Dev nD) : Loc nD τ sig := (SparseCore.T d).loc main_arg0
abbrev eLoc (d : Dev nD) : Loc nD τ sig := (SparseCore.T d).loc main_v0
abbrev xLoc (d : Dev nD) : Loc nD τ sig := (SparseCore.T d).loc main_v1

abbrev cV (L : grid0.Coords) : Fin τ.nSC := (L 0).castLE hcore0
abbrev jV (L : grid0.Coords) : Fin τ.nSub := (L 1).castLE hsub0

end Cert.Proof.KB

end
-- ==== Proof.BitsTileIface.lean ====
/-
  One vector subcore's task as a contract: what a tile is handed at its start and what it hands back.

  Tile L = (core c, subcore s) has number w = 2·s + c and base row 10000·w. It is handed a read share of z
  (whole), its two slices of the flattened edge list outright (sources edge_flat[base, base + 10000), destinations
  edge_flat[320000 + base, +10000)), and its band of 10000 rows of the feature array x outright, at any contents.
  It hands back the same with the band holding the feature rows: x(e,k) = z(src e, k) · z(dst e, k).
-/
import proofs.«202806_g74526272520516_cont_9to1_m_1211_39_alg».proof.Proof.BitsSetup
import proofs.«202806_g74526272520516_cont_9to1_m_1211_39_alg».proof.Proof.FeatureArray

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
abbrev zW : Memref sig .scVector .hbm S10000x128 .f32 := Memref.whole main_arg0_scv
abbrev eW : Memref sig .scVector .hbm S640000 .i32 := Memref.whole main_v0_scv
abbrev xW : Memref sig .scVector .hbm S320000x128 .f32 := Memref.whole main_v1_scv
abbrev sIs : Memref sig .scVector .vmem S10000 .i32 := Memref.whole cc0_scratch0
abbrev sId : Memref sig .scVector .vmem S10000 .i32 := Memref.whole cc0_scratch1
abbrev sR0 : Memref sig .scVector .vmem S80x128 .f32 := Memref.whole cc0_scratch2
abbrev sD0 : Memref sig .scVector .vmem S80x128 .f32 := Memref.whole cc0_scratch3
abbrev sR1 : Memref sig .scVector .vmem S80x128 .f32 := Memref.whole cc0_scratch4
abbrev sD1 : Memref sig .scVector .vmem S80x128 .f32 := Memref.whole cc0_scratch5
abbrev sP0 : Memref sig .scVector .vmem S80x128 .f32 := Memref.whole cc0_scratch6
abbrev sP1 : Memref sig .scVector .vmem S80x128 .f32 := Memref.whole cc0_scratch7

abbrev thr (d : Dev nD) (L : grid0.Coords) : Thread nD τ := V d (cV L) (jV L)

/-- The tile's base row: 10000 times its number 2·s + c. -/
def base (L : grid0.Coords) : ℕ := 20000 * (L 1).val + 10000 * (L 0).val

theorem base_le (L : grid0.Coords) : base L + 10000 ≤ 320000 := by
  have h0 : (L 0).val < 2 := (L 0).isLt
  have h1 : (L 1).val < 16 := (L 1).isLt
  unfold base; omega

/-- The tile's slice of source indices and of destination indices, as the body slices them. -/
abbrev eSrc (L : grid0.Coords) : Memref sig .scVector .hbm S10000 .i32 :=
  (eW).slice (Rect.unit (s := S640000) (k0_off1 L) S10000.size (k0_off1_inb L)) (fun _ => rfl)
abbrev eDst (L : grid0.Coords) : Memref sig .scVector .hbm S10000 .i32 :=
  (eW).slice (Rect.unit (s := S640000) (k0_off2 L) S10000.size (k0_off2_inb L)) (fun _ => rfl)

theorem band_inb (L : grid0.Coords) : ∀ a, (![base L, 0] : Fin 2 → ℕ) a + (![10000, 128] : Fin 2 → ℕ) a ≤ S320000x128.size a := by
  have := base_le L
  intro a; fin_cases a <;> simp <;> omega

/-- The tile's band of the feature array: rows [base, base + 10000), every lane. -/
abbrev bandRect (L : grid0.Coords) : Rect S320000x128 := Rect.unit (s := S320000x128) ![base L, 0] ![10000, 128] (band_inb L)
abbrev bandSet (d : Dev nD) (L : grid0.Coords) : Finset (Idx ((xW).view.loc (thr d L))) := (xW).view.setOn (bandRect L).set

variable (m : (ℓ : Loc nD τ sig) → Buf (Elt F) ℓ) [FloatOps F]

/-- What a tile holds of the arrays, the band at contents fx. -/
def tileRes (d : Dev nD) (L : grid0.Coords) (qz : PosShare TreeShare) (fe : Buf (Elt F) (eLoc d)) (fx : Buf (Elt F) (xLoc d)) : sProp 𝕄 :=
  iprop(((zW).view.loc (thr d L) ↦{qz} m (zLoc d))
    ∗ ((eSrc L).view.loc (thr d L) ↦[(eSrc L).view.set]{fullShare} fe)
    ∗ ((eDst L).view.loc (thr d L) ↦[(eDst L).view.set]{fullShare} fe)
    ∗ ((xW).view.loc (thr d L) ↦[bandSet d L]{fullShare} fx))

/-- The task's contract: from its share of the arrays (the band at any contents), its own scratch and semaphores and
    what it owes the launch, the tile's body runs and hands the same back with the band at the feature rows. Every word
    of the flattened edge list is assumed a row number of z (below 10000). -/
def TileContract : Prop :=
  ∀ (_ : (K (F := F)).Facts) (d : Dev nD) (L : grid0.Coords) (qz : PosShare TreeShare) (fe : Buf (Elt F) (eLoc d))
    (_ : ∀ j, (fe j).toNat < 10000) (fx0 : Buf (Elt F) (xLoc d))
    (O : CellTallies nD τ sig (HIx 1)) (W : Waits sig (HIx 1)) (_ : ∀ g, O g none = 0),
    iprop(levAts (K (F := F)).L (K (F := F)).lev ∗ emp ∗ tileRes m d L qz fe fx0
        ∗ scopedBufs (thr d L) ∗ scopedSems0 (thr d L) ∗ owes (thr d L) O W)
      ⊢ wp frame (wpE (defs₀ (F := F)) 𝒱₀ (thr d L) none) Set.univ
          (cc0__sc_gather_mul L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1)
          fun _ => iprop(tileRes m d L qz fe (Cert.Feature.XF (m (zLoc d)) fe)
            ∗ scopedBufs (thr d L) ∗ scopedSems0 (thr d L)
            ∗ ∃ W', ⌜∀ p ∈ W', p ∈ W ∨ p.2 = none⌝ ∗ owes (thr d L) O W')

/-- The tile's own scratch, each buffer at some contents, and its eight DMA semaphores at zero. -/
def tileOwn (d : Dev nD) (L : grid0.Coords) : sProp 𝕄 :=
  iprop((∃ f, (sIs).view.loc (thr d L) ↦{fullShare} f) ∗ (∃ f, (sId).view.loc (thr d L) ↦{fullShare} f)
    ∗ (∃ f, (sR0).view.loc (thr d L) ↦{fullShare} f) ∗ (∃ f, (sD0).view.loc (thr d L) ↦{fullShare} f)
    ∗ (∃ f, (sR1).view.loc (thr d L) ↦{fullShare} f) ∗ (∃ f, (sD1).view.loc (thr d L) ↦{fullShare} f)
    ∗ (∃ f, (sP0).view.loc (thr d L) ↦{fullShare} f) ∗ (∃ f, (sP1).view.loc (thr d L) ↦{fullShare} f)
    ∗ semVal (thr d L, SemLoc.dma cc0_scratch8.sem) 0 ∗ semVal (thr d L, SemLoc.dma cc0_scratch9.sem) 0
    ∗ semVal (thr d L, SemLoc.dma cc0_scratch10.sem) 0 ∗ semVal (thr d L, SemLoc.dma cc0_scratch11.sem) 0
    ∗ semVal (thr d L, SemLoc.dma cc0_scratch12.sem) 0 ∗ semVal (thr d L, SemLoc.dma cc0_scratch13.sem) 0
    ∗ semVal (thr d L, SemLoc.dma cc0_scoped0.sem) 0 ∗ semVal (thr d L, SemLoc.dma cc0_scoped1.sem) 0)

/-- The contract with the tile's own scratch and semaphores spelt out: what the body's run is proved from. -/
def TileCore : Prop :=
  ∀ (d : Dev nD) (L : grid0.Coords) (qz : PosShare TreeShare) (fe : Buf (Elt F) (eLoc d))
    (_ : ∀ j, (fe j).toNat < 10000) (fx0 : Buf (Elt F) (xLoc d))
    (O : CellTallies nD τ sig (HIx 1)) (W : Waits sig (HIx 1)) (_ : ∀ g, O g none = 0),
    iprop(levAts (K (F := F)).L (K (F := F)).lev ∗ tileRes m d L qz fe fx0 ∗ tileOwn d L ∗ owes (thr d L) O W)
      ⊢ wp frame (wpE (defs₀ (F := F)) 𝒱₀ (thr d L) none) Set.univ
          (cc0__sc_gather_mul L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1)
          fun _ => iprop(tileRes m d L qz fe (Cert.Feature.XF (m (zLoc d)) fe) ∗ tileOwn d L
            ∗ ∃ W', ⌜∀ p ∈ W', p ∈ W ∨ p.2 = none⌝ ∗ owes (thr d L) O W')

end Cert.Proof.KB

end
-- ==== Proof.BitsLaunchPay.lean ====
/-
  The launch of the edge-feature stage, first part: what the launch handshakes carry, a tile's obligation from its
  contract, and how a SparseCore's operands split among its tiles.

  The call hands SparseCore c, for each of its sixteen tiles i, the tile's share of the arrays: a read share of z, the
  tile's two slices of the flattened edge list and its band of the feature array (the band at the launch contents), and
  takes the same back with the band at the feature rows. The payloads are indexed by tile, so a SparseCore's operands
  are the tiles' side by side and the split is the identity.
-/
import proofs.«202806_g74526272520516_cont_9to1_m_1211_39_alg».proof.Proof.BitsTileIface

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- Tile (c, s) of the grid as the body table numbers it. -/
def coordsV (c : Fin (grid0.bound 0)) (s : Fin (grid0.bound 1)) : grid0.Coords :=
  fun | 0 => c | 1 => s | ⟨_ + 2, h⟩ => absurd h (Nat.not_lt.2 (Nat.le_add_left _ _))

/-- The flattened edge list of device d: the edge list's words in row-major order, sources then destinations. -/
def eFlat (d : Dev nD) : Buf (Elt F) (eLoc d) :=
  shapeCast S640000 (m ((SparseCore.T d).loc main_arg1)) shapeCasts_S2x320000_S640000

/-- Tile (c, i)'s read share of z: the full share cut in two for the SparseCores, each half in sixteen for its tiles. -/
def qTile (c : Fin 2) (i : Fin 16) : PosShare TreeShare :=
  Transfers.shareTok (Transfers.shareTok fullShare 2 c) 16 i

variable [FloatOps F]

/-- What tile (c, i) is handed: its share of the arrays, the band at the launch contents; -/
def goT (d : Dev nD) (c : Fin 2) (i : Fin 16) : sProp 𝕄 :=
  tileRes m d (coordsV c i) (qTile c i) (eFlat m d) (m (xLoc d))
/-- and what it hands back: the same, the band at the feature rows. -/
def tdT (d : Dev nD) (c : Fin 2) (i : Fin 16) : sProp 𝕄 :=
  tileRes m d (coordsV c i) (qTile c i) (eFlat m d) (Cert.Feature.XF (m (zLoc d)) (eFlat m d))

instance goT_storable (d : Dev nD) (c : Fin 2) (i : Fin 16) : BI.Storable (upEmb : UEmb _ 𝕄) (goT m d c i) := by
  unfold goT tileRes; infer_instance
instance tdT_storable (d : Dev nD) (c : Fin 2) (i : Fin 16) : BI.Storable (upEmb : UEmb _ 𝕄) (tdT m d c i) := by
  unfold tdT tileRes; infer_instance

/-- The one call's payloads: a SparseCore's operands are its tiles' shares side by side. -/
def P : (K (F := F)).Pay (nD := nD) (Val := Elt F) (Name := ℕ) (U := UU) where
  st := fun q d c => match q with
    | 0 => bigSep Finset.univ fun i : Fin ((K (F := F)).nSub 0) => goT m d (Fin.cast nCore_zero c) (Fin.cast nSub_zero i)
  dn := fun q d c => match q with
    | 0 => bigSep Finset.univ fun i : Fin ((K (F := F)).nSub 0) => tdT m d (Fin.cast nCore_zero c) (Fin.cast nSub_zero i)
  go := fun q d c i => match q with
    | 0 => goT m d (Fin.cast nCore_zero c) (Fin.cast nSub_zero i)
  td := fun q d c i => match q with
    | 0 => tdT m d (Fin.cast nCore_zero c) (Fin.cast nSub_zero i)
  x := fun _ _ => iprop(emp)

theorem P_st (d : Dev nD) (c : Fin ((K (F := F)).nCore 0)) :
    (P m).st 0 d c = bigSep Finset.univ fun i : Fin ((K (F := F)).nSub 0) => goT m d (Fin.cast nCore_zero c) (Fin.cast nSub_zero i) := rfl
theorem P_dn (d : Dev nD) (c : Fin ((K (F := F)).nCore 0)) :
    (P m).dn 0 d c = bigSep Finset.univ fun i : Fin ((K (F := F)).nSub 0) => tdT m d (Fin.cast nCore_zero c) (Fin.cast nSub_zero i) := rfl
theorem P_go (d : Dev nD) (c : Fin ((K (F := F)).nCore 0)) (i : Fin ((K (F := F)).nSub 0)) :
    (P m).go 0 d c i = goT m d (Fin.cast nCore_zero c) (Fin.cast nSub_zero i) := rfl
theorem P_td (d : Dev nD) (c : Fin ((K (F := F)).nCore 0)) (i : Fin ((K (F := F)).nSub 0)) :
    (P m).td 0 d c i = tdT m d (Fin.cast nCore_zero c) (Fin.cast nSub_zero i) := rfl

instance P_storable : (P (F := F) m).IsStorable where
  st q d c := match q with
    | 0 => (inferInstance : BI.Storable (upEmb : UEmb _ 𝕄)
        (bigSep Finset.univ fun i : Fin ((K (F := F)).nSub 0) => goT m d (Fin.cast nCore_zero c) (Fin.cast nSub_zero i)))
  dn q d c := match q with
    | 0 => (inferInstance : BI.Storable (upEmb : UEmb _ 𝕄)
        (bigSep Finset.univ fun i : Fin ((K (F := F)).nSub 0) => tdT m d (Fin.cast nCore_zero c) (Fin.cast nSub_zero i)))
  go q d c i := match q with
    | 0 => (inferInstance : BI.Storable (upEmb : UEmb _ 𝕄) (goT m d (Fin.cast nCore_zero c) (Fin.cast nSub_zero i)))
  td q d c i := match q with
    | 0 => (inferInstance : BI.Storable (upEmb : UEmb _ 𝕄) (tdT m d (Fin.cast nCore_zero c) (Fin.cast nSub_zero i)))

/-! ## The launch theorem's obligations -/

theorem defs₀_vector (c : Fin τ.nSC) (s : Fin τ.nSub) :
    defs₀ (F := F) (.scVector c s) 0 ()
      = SparseCore.onTile hcore0 hsub0 (fun c s => cc0__sc_gather_mul (coordsV c s)
          zW (Memref.isWhole_whole _) eW (Memref.isWhole_whole _) xW (Memref.isWhole_whole _)
          sIs (Memref.isWhole_whole _) sId (Memref.isWhole_whole _) sR0 (Memref.isWhole_whole _) sD0 (Memref.isWhole_whole _)
          sR1 (Memref.isWhole_whole _) sD1 (Memref.isWhole_whole _) sP0 (Memref.isWhole_whole _) sP1 (Memref.isWhole_whole _)
          cc0_scratch8 cc0_scratch9 cc0_scratch10 cc0_scratch11 cc0_scratch12 cc0_scratch13 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's obligation at the one call, from the task's contract: every word of the flattened edge list a row number. -/
theorem tileObl (hF : (K (F := F)).Facts) (hbody : TileContract m) (hpre : ∀ (d : Dev nD) j, (eFlat m d j).toNat < 10000) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody hF d (coordsV ⟨_, hc.1⟩ ⟨_, hc.2⟩) (qTile (Fin.cast nCore_zero c) (Fin.cast nSub_zero i)) (eFlat m d) (hpre d) (m (xLoc d)) O W hO).trans
    (wp_mono frame _ _ fun _ => obl_post)

/-- A SparseCore's operands are its tiles' shares and its results theirs: nothing to split. -/
theorem vecSplit : (K (F := F)).VecSplit' (P m) 0 := by
  intro d c
  rw [P_st, P_dn]
  iintro H; imodintro
  isplitl [H]; · iexact H
  iintro H; iexact H

end Cert.Proof.KB

end
-- ==== Proof.BitsLaunchElem.lean ====
/-
  The launch of the edge-feature stage, second part: the launch element of the ghost state.

  The element is the launch handshakes' rounds at their cells and tokens, beside the multilayer-perceptron pipeline's
  rounds at its staging cells and its loop's tokens, beside the unit of the transfers' counters. It splits into the
  three; the handshakes' part is the launch theorem's own, the pipeline's part funds each device's staging cells'
  ghost state and duty tokens, which the TensorCore keeps until it enters the pipeline's region, and the counters'
  unit is dropped. No kernel's proof consumes anything of the launch's.
-/
import proofs.«202806_g74526272520516_cont_9to1_m_1211_39_alg».proof.Proof.BitsLaunchPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-- The launch element: the handshakes' rounds, the pipeline's rounds, the counters' unit. -/
def u₀ : UU :=
  (initOf (K (F := F)).hsCells (K (F := F)).hsToks,
    (initOf (Pipeline.cells (nD := nD) (τ := τ) cfgs Gen.cellOf_inj) (Pipeline.launchToks (nD := nD) (τ := τ) cfgs Gen.cellOf_inj), 1))

/-- What the launch deals device d's TensorCore beyond the arrays: the pipeline's staging cells' ghost state and its
    loop's duty tokens. -/
def GP (d : Dev nD) : sProp 𝕄 :=
  iprop(Pipeline.cellsGhost cfgs (EP (F := F)) (0 : Fin 1) d ∗ Pipeline.toksInit cfgs (EP (F := F)) (0 : Fin 1) d)

omit [FloatOps F] in
theorem bigSep_emp' {I : Type} (s : Finset I) : (bigSep s fun _ => iprop(emp)) = (iprop(emp) : sProp 𝕄) := bigSep_emp_const s

omit [FloatOps F] in
/-- The pipeline's component of the element, owned through its embedding. -/
theorem own_right (a : UP) (b : Counters) :
    (BI.own ((embR : Emb (UP × Counters) 𝕄) (a, b)) : sProp 𝕄) ⊢ BI.own ((EP (F := F)) a) := by
  unfold EP
  exact (own_pair_emb (embR : Emb (UP × Counters) 𝕄) a b).trans sep_elim_left

omit [FloatOps F] in
/-- Funding the pipeline's ghost state, per device (one pipeline). -/
theorem fund_ghost' :
    (BI.own ((EP (F := F)) (initOf (Pipeline.cells (nD := nD) (τ := τ) cfgs Gen.cellOf_inj) (Pipeline.launchToks (nD := nD) (τ := τ) cfgs Gen.cellOf_inj))) : sProp 𝕄)
      ⊢ iprop(|==> ((bigSep Finset.univ fun d : Dev nD => Pipeline.cellsGhost cfgs (EP (F := F)) (0 : Fin 1) d)
          ∗ (bigSep Finset.univ fun d : Dev nD => (Pipeline.toksInit cfgs (EP (F := F)) (0 : Fin 1) d : sProp 𝕄)))) := by
  have h := Pipeline.fund_ghost (nD := nD) (τ := τ) cfgs (EP (F := F)) Gen.cellOf_inj
  rw [show (bigSep Finset.univ fun c : Dev nD => bigSep Finset.univ fun p : Fin 1 => Pipeline.cellsGhost cfgs (EP (F := F)) p c)
        = bigSep Finset.univ fun d : Dev nD => Pipeline.cellsGhost cfgs (EP (F := F)) (0 : Fin 1) d from
      bigSep_congr fun d _ => bigSep_univ_of_subsingleton (0 : Fin 1),
    show (bigSep Finset.univ fun c : Dev nD => bigSep Finset.univ fun p : Fin 1 => (Pipeline.toksInit cfgs (EP (F := F)) p c : sProp 𝕄))
        = bigSep Finset.univ fun d : Dev nD => (Pipeline.toksInit cfgs (EP (F := F)) (0 : Fin 1) d : sProp 𝕄) from
      bigSep_congr fun d _ => bigSep_univ_of_subsingleton (0 : Fin 1)] at h
  exact h

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave Hpl := (own_right (F := F) _ _) $$ HR
  imod (fund_ghost' (F := F)) $$ Hpl with ⟨Hg, Ht⟩
  imodintro
  isplitl [HH]; · iexact HH
  isplitl [Hg Ht]
  · unfold GP
    rw [bigSep_sep']
    isplitl [Hg]
    · iexact Hg
    · iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.BitsLaunchSplit.lean ====
/-
  The launch of the edge-feature stage, third part: the TensorCore's arrays cut into the tiles' shares and put back.

  Tile (c, i) has base row b = 20000 i + 10000 c; the thirty-two bases are the multiples of 10000 below 320000. So the
  intervals [b, b + 10000) partition [0, 320000): the tiles' source slices partition the first half of the flattened
  edge list, their destination slices (the same intervals shifted by 320000) the second half, and their bands the rows of
  the feature array. The read shares of z are the full share cut in two and each half in sixteen; what the cuts leave
  stays with the TensorCore during the call.
-/
import proofs.«202806_g74526272520516_cont_9to1_m_1211_39_alg».proof.Proof.BitsLaunchPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Split

variable (d : Dev nD)

/-! ## The tiles' sets -/

theorem base_coordsV (c : Fin 2) (i : Fin 16) : base (coordsV c i) = 20000 * i.val + 10000 * c.val := rfl

/-- The tiles of the grid, as pairs. -/
abbrev Tl : Type := Fin 2 × Fin 16
abbrev LT (t : Tl) : grid0.Coords := coordsV t.1 t.2

/-- Tile t's source words, destination words and band, as sets of indices of the arrays. -/
def srcS (t : Tl) : Finset S640000.Idx := (eSrc (LT t)).view.set
def dstS (t : Tl) : Finset S640000.Idx := (eDst (LT t)).view.set
def bandS (t : Tl) : Finset S320000x128.Idx := bandSet d (LT t)

theorem mem_src (t : Tl) (j : S640000.Idx) :
    j ∈ srcS t ↔ base (LT t) ≤ (j 0).val ∧ (j 0).val < base (LT t) + 10000 := by
  unfold srcS
  rw [show (eSrc (LT t)).view.set = (Rect.unit (s := S640000) (k0_off1 (LT t)) S10000.size (k0_off1_inb (LT t))).set from View.set_slice_whole _ _,
    Rect.mem_set_unit, Fin.forall_fin_one, k0_off1_eq]
  simp [base]

theorem mem_dst (t : Tl) (j : S640000.Idx) :
    j ∈ dstS t ↔ base (LT t) + 320000 ≤ (j 0).val ∧ (j 0).val < base (LT t) + 320000 + 10000 := by
  unfold dstS
  rw [show (eDst (LT t)).view.set = (Rect.unit (s := S640000) (k0_off2 (LT t)) S10000.size (k0_off2_inb (LT t))).set from View.set_slice_whole _ _,
    Rect.mem_set_unit, Fin.forall_fin_one, k0_off2_eq]
  simp [base]

theorem mem_band (t : Tl) (j : S320000x128.Idx) :
    j ∈ bandS d t ↔ base (LT t) ≤ (j 0).val ∧ (j 0).val < base (LT t) + 10000 := by
  unfold bandS
  rw [show bandSet d (LT t) = (bandRect (LT t)).set from Finset.map_refl, Rect.mem_set_unit, Fin.forall_fin_two]
  have h1 : (j 1).val < 128 := (j 1).isLt
  simp
  omega

theorem base_inj {t t' : Tl} (h : t ≠ t') : base (LT t) + 10000 ≤ base (LT t') ∨ base (LT t') + 10000 ≤ base (LT t) := by
  rcases t with ⟨c, i⟩; rcases t' with ⟨c', i'⟩
  have hc : c.val < 2 := c.isLt
  have hc' : c'.val < 2 := c'.isLt
  simp only [LT, base_coordsV]
  by_contra hn
  apply h
  have h1 : i.val = i'.val := by omega
  have h2 : c.val = c'.val := by omega
  exact Prod.ext (Fin.ext h2) (Fin.ext h1)

theorem src_disjoint : ∀ t ∈ (Finset.univ : Finset Tl), ∀ t' ∈ (Finset.univ : Finset Tl), t ≠ t' →
    Disjoint (srcS t) (srcS t') := fun t _ t' _ h =>
  Finset.disjoint_left.mpr fun j h1 h2 => by
    rw [mem_src] at h1 h2; have := base_inj h; omega
theorem dst_disjoint : ∀ t ∈ (Finset.univ : Finset Tl), ∀ t' ∈ (Finset.univ : Finset Tl), t ≠ t' →
    Disjoint (dstS t) (dstS t') := fun t _ t' _ h =>
  Finset.disjoint_left.mpr fun j h1 h2 => by
    rw [mem_dst] at h1 h2; have := base_inj h; omega
theorem band_disjoint : ∀ t ∈ (Finset.univ : Finset Tl), ∀ t' ∈ (Finset.univ : Finset Tl), t ≠ t' →
    Disjoint (bandS d t) (bandS d t') := fun t _ t' _ h =>
  Finset.disjoint_left.mpr fun j h1 h2 => by
    rw [mem_band] at h1 h2; have := base_inj h; omega

/-- The tile whose interval holds row r < 320000. -/
def tileOf (r : ℕ) (h : r < 320000) : Tl := (⟨(r / 10000) % 2, Nat.mod_lt _ (by decide)⟩, ⟨(r / 10000) / 2, by omega⟩)

theorem tileOf_spec (r : ℕ) (h : r < 320000) : base (LT (tileOf r h)) ≤ r ∧ r < base (LT (tileOf r h)) + 10000 := by
  simp only [LT, tileOf, base_coordsV]; omega

theorem src_dst_disjoint :
    Disjoint ((Finset.univ : Finset Tl).biUnion srcS) ((Finset.univ : Finset Tl).biUnion dstS) :=
  Finset.disjoint_left.mpr fun j h1 h2 => by
    obtain ⟨t, -, h1⟩ := Finset.mem_biUnion.mp h1
    obtain ⟨t', -, h2⟩ := Finset.mem_biUnion.mp h2
    rw [mem_src] at h1; rw [mem_dst] at h2
    have := base_le (LT t)
    omega

theorem e_cover : ((Finset.univ : Finset Tl).biUnion srcS) ∪ ((Finset.univ : Finset Tl).biUnion dstS)
    = (Finset.univ : Finset S640000.Idx) := by
  ext j
  simp only [Finset.mem_union, Finset.mem_biUnion, Finset.mem_univ, true_and, iff_true, mem_src, mem_dst]
  have hj : (j 0).val < 640000 := (j 0).isLt
  by_cases h : (j 0).val < 320000
  · exact .inl ⟨tileOf _ h, tileOf_spec _ h⟩
  · have h' : (j 0).val - 320000 < 320000 := by omega
    have := tileOf_spec _ h'
    exact .inr ⟨tileOf _ h', by omega, by omega⟩

theorem band_cover : ((Finset.univ : Finset Tl).biUnion (bandS d)) = (Finset.univ : Finset S320000x128.Idx) := by
  ext j
  simp only [Finset.mem_biUnion, Finset.mem_univ, true_and, iff_true, mem_band]
  have hj : (j 0).val < 320000 := (j 0).isLt
  exact ⟨tileOf _ hj, tileOf_spec _ hj⟩

/-! ## The arrays as the tiles' pieces -/

/-- The flattened edge list whole is the tiles' source slices and destination slices. -/
theorem e_tiles (fe : Buf (Elt F) (eLoc d)) :
    (eLoc d ↦{fullShare} fe : sProp 𝕄) ⊣⊢ iprop((bigSep Finset.univ fun t : Tl => eLoc d ↦[srcS t]{fullShare} fe)
      ∗ bigSep Finset.univ fun t : Tl => eLoc d ↦[dstS t]{fullShare} fe) := by
  rw [← pointsTo_biUnion Finset.univ (ℓ := eLoc d) srcS src_disjoint,
    ← pointsTo_biUnion Finset.univ (ℓ := eLoc d) dstS dst_disjoint]
  have h : (eLoc d ↦[(Finset.univ : Finset Tl).biUnion srcS ∪ (Finset.univ : Finset Tl).biUnion dstS]{fullShare} fe : sProp 𝕄) ⊣⊢ _ :=
    pointsTo_union (ℓ := eLoc d) (q := fullShare) (f := fe) src_dst_disjoint
  rw [e_cover] at h
  exact h

/-- The feature array whole is the tiles' bands. -/
theorem x_tiles (fx : Buf (Elt F) (xLoc d)) :
    (xLoc d ↦{fullShare} fx : sProp 𝕄) = bigSep Finset.univ fun t : Tl => xLoc d ↦[bandS d t]{fullShare} fx := by
  rw [← pointsTo_biUnion Finset.univ (ℓ := xLoc d) (bandS d) (band_disjoint d), band_cover]

/-- What the TensorCore keeps of z during the call: what the two cuts leave. -/
def zRem : sProp 𝕄 :=
  iprop((zLoc d ↦{Transfers.shareDrop fullShare 2} m (zLoc d))
    ∗ bigSep Finset.univ fun c : Fin 2 => zLoc d ↦{Transfers.shareDrop (Transfers.shareTok fullShare 2 c) 16} m (zLoc d))

/-- z whole is what the cuts leave and the tiles' read shares. -/
theorem z_split : (zLoc d ↦{fullShare} m (zLoc d) : sProp 𝕄)
    ⊢ iprop(zRem m d ∗ bigSep Finset.univ fun c : Fin 2 => bigSep Finset.univ fun i : Fin 16 => zLoc d ↦{qTile c i} m (zLoc d)) := by
  have h2 : (bigSep Finset.univ fun c : Fin 2 => (zLoc d ↦{Transfers.shareTok fullShare 2 c} m (zLoc d) : sProp 𝕄))
      ⊢ bigSep Finset.univ fun c : Fin 2 => iprop((zLoc d ↦{Transfers.shareDrop (Transfers.shareTok fullShare 2 c) 16} m (zLoc d))
          ∗ bigSep Finset.univ fun i : Fin 16 => zLoc d ↦{qTile c i} m (zLoc d)) :=
    bigSep_mono fun c _ => Transfers.pointsTo_toks_split (Transfers.shareTok fullShare 2 c) 16
  rw [bigSep_sep'] at h2
  unfold zRem
  iintro H
  ihave H := (Transfers.pointsTo_toks_split fullShare 2) $$ H
  icases H with ⟨Hr, Ht⟩
  ihave Ht := h2 $$ Ht
  icases Ht with ⟨Hd, Hk⟩
  isplitl [Hr Hd]
  · isplitl [Hr]; · iexact Hr
    iexact Hd
  · iexact Hk
theorem z_join : iprop(zRem m d ∗ bigSep Finset.univ fun c : Fin 2 => bigSep Finset.univ fun i : Fin 16 => zLoc d ↦{qTile c i} m (zLoc d))
    ⊢ (zLoc d ↦{fullShare} m (zLoc d) : sProp 𝕄) := by
  have h2 : (bigSep Finset.univ fun c : Fin 2 => iprop((zLoc d ↦{Transfers.shareDrop (Transfers.shareTok fullShare 2 c) 16} m (zLoc d))
          ∗ bigSep Finset.univ fun i : Fin 16 => zLoc d ↦{qTile c i} m (zLoc d)))
      ⊢ bigSep Finset.univ fun c : Fin 2 => (zLoc d ↦{Transfers.shareTok fullShare 2 c} m (zLoc d) : sProp 𝕄) :=
    bigSep_mono fun c _ => Transfers.pointsTo_toks_join (Transfers.shareTok fullShare 2 c) 16
  rw [bigSep_sep'] at h2
  unfold zRem
  iintro ⟨⟨Hr, Hd⟩, Hk⟩
  iapply (Transfers.pointsTo_toks_join fullShare 2)
  isplitl [Hr]; · iexact Hr
  iapply h2
  isplitl [Hd]; · iexact Hd
  iexact Hk

end Split

end Cert.Proof.KB

end
-- ==== Proof.BitsLaunch.lean ====
/-
  The launch of the edge-feature stage, last part: the TensorCore's program, and the run of the whole kernel.

  The TensorCore flattens the edge list, hands the SparseCores their tiles' shares of z, of the flattened list and of the
  feature array, and takes them back with the feature array at the feature rows; it lays the first bias, the second
  layer's weights and the second bias out as rows, and runs the multilayer-perceptron call, which is taken here as one
  step with a stated contract: from the six arrays it reads and writes, whole, it leaves the five inputs as they were and
  the output at contents of which a property R holds. At the end the six arguments hold their launch contents and the
  output holds contents satisfying R.
-/
import proofs.«202806_g74526272520516_cont_9to1_m_1211_39_alg».proof.Proof.BitsLaunchElem
import proofs.«202806_g74526272520516_cont_9to1_m_1211_39_alg».proof.Proof.BitsLaunchSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg) [FloatOps F]

/-- An array of device d, as its TensorCore names it. -/
abbrev aLoc (d : Dev nD) (b : Ref sig .tc) : Loc nD τ sig := (SparseCore.T d).loc b

/-! ## The tiles' shares, at the TensorCore's locations -/

section Tiles

variable (d : Dev nD)

/-- A tile's share of the arrays, as the TensorCore holds the pieces. -/
theorem tileRes_eq (t : Tl) (qz : PosShare TreeShare) (fe : Buf (Elt F) (eLoc d)) (fx : Buf (Elt F) (xLoc d)) :
    tileRes m d (LT t) qz fe fx = iprop((zLoc d ↦{qz} m (zLoc d)) ∗ (eLoc d ↦[srcS t]{fullShare} fe)
      ∗ (eLoc d ↦[dstS t]{fullShare} fe) ∗ (xLoc d ↦[bandS d t]{fullShare} fx)) := rfl

/-- All the tiles' shares are the read shares of z, the source and destination slices and the bands. -/
theorem tiles_eq (fe : Buf (Elt F) (eLoc d)) (fx : Buf (Elt F) (xLoc d)) :
    (bigSep Finset.univ fun c : Fin 2 => bigSep Finset.univ fun i : Fin 16 => tileRes m d (coordsV c i) (qTile c i) fe fx)
      = iprop((bigSep Finset.univ fun c : Fin 2 => bigSep Finset.univ fun i : Fin 16 => zLoc d ↦{qTile c i} m (zLoc d))
        ∗ (bigSep Finset.univ fun t : Tl => eLoc d ↦[srcS t]{fullShare} fe)
        ∗ (bigSep Finset.univ fun t : Tl => eLoc d ↦[dstS t]{fullShare} fe)
        ∗ (bigSep Finset.univ fun t : Tl => xLoc d ↦[bandS d t]{fullShare} fx)) := by
  rw [← bigSep_univ_prod (fun t : Tl => tileRes m d (LT t) (qTile t.1 t.2) fe fx),
    ← bigSep_univ_prod (fun t : Tl => (zLoc d ↦{qTile t.1 t.2} m (zLoc d) : sProp 𝕄)),
    bigSep_congr fun t _ => tileRes_eq m d t (qTile t.1 t.2) fe fx, bigSep_sep', bigSep_sep', bigSep_sep']

/-- The three arrays whole are what the cuts of z leave and all the tiles' shares; -/
theorem arrays_split (fe : Buf (Elt F) (eLoc d)) (fx : Buf (Elt F) (xLoc d)) :
    iprop((zLoc d ↦{fullShare} m (zLoc d)) ∗ (eLoc d ↦{fullShare} fe) ∗ (xLoc d ↦{fullShare} fx))
      ⊢ iprop(zRem m d ∗ bigSep Finset.univ fun c : Fin 2 => bigSep Finset.univ fun i : Fin 16 => tileRes m d (coordsV c i) (qTile c i) fe fx) := by
  rw [tiles_eq, x_tiles]
  iintro ⟨Hz, He, Hx⟩
  ihave Hz := (z_split m d) $$ Hz
  icases Hz with ⟨Hr, Hz⟩
  ihave He := (e_tiles d fe).1 $$ He
  icases He with ⟨Hs, Hd⟩
  isplitl [Hr]; · iexact Hr
  isplitl [Hz]; · iexact Hz
  isplitl [Hs]; · iexact Hs
  isplitl [Hd]; · iexact Hd
  iexact Hx
/-- and back. -/
theorem arrays_join (fe : Buf (Elt F) (eLoc d)) (fx : Buf (Elt F) (xLoc d)) :
    iprop(zRem m d ∗ bigSep Finset.univ fun c : Fin 2 => bigSep Finset.univ fun i : Fin 16 => tileRes m d (coordsV c i) (qTile c i) fe fx)
      ⊢ iprop((zLoc d ↦{fullShare} m (zLoc d)) ∗ (eLoc d ↦{fullShare} fe) ∗ (xLoc d ↦{fullShare} fx)) := by
  rw [tiles_eq, x_tiles]
  iintro ⟨Hr, Hz, Hs, Hd, Hx⟩
  isplitl [Hr Hz]
  · iapply (z_join m d)
    isplitl [Hr]; · iexact Hr
    iexact Hz
  isplitl [Hs Hd]
  · iapply (e_tiles d fe).2
    isplitl [Hs]; · iexact Hs
    iexact Hd
  iexact Hx

/-- What the call takes for the two SparseCores, and what it hands back: all the tiles' shares. -/
theorem st0_eq : (bigSep Finset.univ fun c : Fin ((K (F := F)).nCore 0) => (P m).st 0 d c)
    = bigSep Finset.univ fun c : Fin 2 => bigSep Finset.univ fun i : Fin 16 => tileRes m d (coordsV c i) (qTile c i) (eFlat m d) (m (xLoc d)) := rfl
theorem dn0_eq : (bigSep Finset.univ fun c : Fin ((K (F := F)).nCore 0) => (P m).dn 0 d c)
    = bigSep Finset.univ fun c : Fin 2 => bigSep Finset.univ fun i : Fin 16 =>
        tileRes m d (coordsV c i) (qTile c i) (eFlat m d) (Cert.Feature.XF (m (zLoc d)) (eFlat m d)) := rfl

end Tiles

/-! ## The TensorCore's arrays and the host operations -/

omit [FloatOps F] in
theorem unscopedBufs_eq (d : Dev nD) (W : (b : Ref sig .tc) → Buf (Elt F) ((d.tc : Thread nD τ).loc b)) :
    (unscopedBufs d W : sProp 𝕄) = iprop((aLoc d main_arg0 ↦{fullShare} W main_arg0) ∗ (aLoc d main_arg1 ↦{fullShare} W main_arg1)
      ∗ (aLoc d main_arg2 ↦{fullShare} W main_arg2) ∗ (aLoc d main_arg3 ↦{fullShare} W main_arg3) ∗ (aLoc d main_arg4 ↦{fullShare} W main_arg4)
      ∗ (aLoc d main_arg5 ↦{fullShare} W main_arg5) ∗ (aLoc d main_v0 ↦{fullShare} W main_v0) ∗ (aLoc d main_v1 ↦{fullShare} W main_v1)
      ∗ (aLoc d main_v2 ↦{fullShare} W main_v2) ∗ (aLoc d main_v3 ↦{fullShare} W main_v3) ∗ (aLoc d main_v4 ↦{fullShare} W main_v4)
      ∗ (aLoc d main_v5 ↦{fullShare} W main_v5)) := by
  unfold unscopedBufs
  rw [show (Finset.univ.filter fun b : Ref sig .tc => ¬ b.isScoped)
      = {main_arg0, main_arg1, main_arg2, main_arg3, main_arg4, main_arg5, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation of device d's arrays. -/
def V0 (d : Dev nD) : Valuation τ sig (Elt F) := fun b => m (d, b)

/-- A reshape of @main, from its operand and its result both at their launch contents: the operand is kept and the
    result holds the operation's value. -/
theorem wp_reshape₀ (d : Dev nD) (x y : Ref sig .tc) (he : x.ty.elt = y.ty.elt) (hn : x.ty.shape.ShapeCasts y.ty.shape)
    (hx : x.space ≠ .host ∧ (Proc.devRef .tc x : DevRef τ sig).isScoped = false)
    (hy : y.space ≠ .host ∧ (Proc.devRef .tc y : DevRef τ sig).isScoped = false)
    (hne : (Proc.devRef .tc x : DevRef τ sig) ≠ Proc.devRef .tc y) {Q : PUnit → sProp 𝕄} :
    iprop(boundary (SparseCore.T d : Thread nD τ) ∗ (aLoc d x ↦{fullShare} m (aLoc d x)) ∗ (aLoc d y ↦{fullShare} m (aLoc d y)))
      ⊢ iprop(((boundary (SparseCore.T d : Thread nD τ) ∗ (aLoc d x ↦{fullShare} m (aLoc d x))
            ∗ (aLoc d y ↦{fullShare} (StableHlo.reshape x y he hn hx hy : HloOp τ sig (Elt F)).result (V0 m d) (Proc.devRef .tc y))) -∗ Q ⟨⟩)
          -∗ wp frame (wpE ((K (F := F)).defs (D (F := F))) 𝒱 (SparseCore.T d) none) Set.univ
              (hlo rfl (StableHlo.reshape x y he hn hx hy) (fun _ => .ret ⟨⟩)) Q) := by
  have hnm : (Proc.devRef .tc x : DevRef τ sig) ∉ ({Proc.devRef .tc y} : Finset (DevRef τ sig)) := by
    rw [Finset.mem_singleton]; exact hne
  iintro ⟨Hb, Hx, Hy⟩ Hk
  iapply (wp_hlo_within 𝒱 (SparseCore.T d) none Set.univ (op := StableHlo.reshape x y he hn hx hy)
      (S := {Proc.devRef .tc x, Proc.devRef .tc y}) (Finset.Subset.refl _) (V := V0 m d)) $$ [Hb Hx Hy]
  · isplitl [Hb]; · iexact Hb
    unfold held
    rw [SparseCore.bigSep_insert' hnm, bigSep_singleton]
    isplitl [Hx]; · iexact Hx
    iexact Hy
  iintro ⟨Hb, Hh⟩
  rw [wp_ret]; imodintro
  iapply Hk
  isplitl [Hb]; · iexact Hb
  unfold held
  rw [SparseCore.bigSep_insert' hnm, bigSep_singleton,
    (StableHlo.reshape x y he hn hx hy : HloOp τ sig (Elt F)).result_of_not_mem (V0 m d) (b := Proc.devRef .tc x) hnm]
  exact BI.Entails.refl _

/-- The first bias laid out as a row, the second layer's weights as a row, the second bias as a 1 × 1 array. -/
def b1Row (d : Dev nD) : Buf (Elt F) (aLoc d main_v2) := shapeCast S1x64 (m (aLoc d main_arg3)) shapeCasts_S64_S1x64
def w2Row (d : Dev nD) : Buf (Elt F) (aLoc d main_v3) := shapeCast S1x64 (m (aLoc d main_arg4)) shapeCasts_S64x1_S1x64
def b2One (d : Dev nD) : Buf (Elt F) (aLoc d main_v4) := shapeCast S1x1 (m (aLoc d main_arg5)) shapeCasts_S1_S1x1

omit [FloatOps F] in
theorem res_v0 (d : Dev nD) (hx hy) :
    (StableHlo.reshape main_arg1 main_v0 rfl shapeCasts_S2x320000_S640000 hx hy : HloOp τ sig (Elt F)).result (V0 m d) (Proc.devRef .tc main_v0) = eFlat m d :=
  (StableHlo.reshape_result main_arg1 main_v0 rfl shapeCasts_S2x320000_S640000 hx hy (V0 m d)).trans rfl
omit [FloatOps F] in
theorem res_v2 (d : Dev nD) (hx hy) :
    (StableHlo.reshape main_arg3 main_v2 rfl shapeCasts_S64_S1x64 hx hy : HloOp τ sig (Elt F)).result (V0 m d) (Proc.devRef .tc main_v2) = b1Row m d :=
  (StableHlo.reshape_result main_arg3 main_v2 rfl shapeCasts_S64_S1x64 hx hy (V0 m d)).trans rfl
omit [FloatOps F] in
theorem res_v3 (d : Dev nD) (hx hy) :
    (StableHlo.reshape main_arg4 main_v3 rfl shapeCasts_S64x1_S1x64 hx hy : HloOp τ sig (Elt F)).result (V0 m d) (Proc.devRef .tc main_v3) = w2Row m d :=
  (StableHlo.reshape_result main_arg4 main_v3 rfl shapeCasts_S64x1_S1x64 hx hy (V0 m d)).trans rfl
omit [FloatOps F] in
theorem res_v4 (d : Dev nD) (hx hy) :
    (StableHlo.reshape main_arg5 main_v4 rfl shapeCasts_S1_S1x1 hx hy : HloOp τ sig (Elt F)).result (V0 m d) (Proc.devRef .tc main_v4) = b2One m d :=
  (StableHlo.reshape_result main_arg5 main_v4 rfl shapeCasts_S1_S1x1 hx hy (V0 m d)).trans rfl

/-! ## The multilayer-perceptron call as one step -/

/-- The six arrays the call reads and writes, whole: the feature array at the feature rows, the first layer's weights, the
    three rows, and the output at o. -/
def regArrs (d : Dev nD) (o : Buf (Elt F) (aLoc d main_v5)) : sProp 𝕄 :=
  iprop((aLoc d main_v1 ↦{fullShare} Cert.Feature.XF (m (zLoc d)) (eFlat m d)) ∗ (aLoc d main_arg2 ↦{fullShare} m (aLoc d main_arg2))
    ∗ (aLoc d main_v2 ↦{fullShare} b1Row m d) ∗ (aLoc d main_v3 ↦{fullShare} w2Row m d) ∗ (aLoc d main_v4 ↦{fullShare} b2One m d)
    ∗ (aLoc d main_v5 ↦{fullShare} o))

omit [FloatOps F] in
/-- What the TensorCore owes after the one SparseCore call: nothing, its recorded pairs at levels at most 8. -/
def owesTC (d : Dev nD) : sProp 𝕄 :=
  iprop(∃ W, ⌜(K (F := F)).WBelow (SparseCore.T d) W (8 * 1)⌝ ∗ owes (SparseCore.T d) 0 W)

/-- The call's contract: from the records' levels, the region boundary, the six arrays (the output at its launch
    contents), what the TensorCore owes and the pipeline's funded ghost state, the call runs and hands back the boundary,
    the five inputs as they were with the output at contents of which R holds, and what the TensorCore owes. -/
def RegionStep (R : (d : Dev nD) → Buf (Elt F) (aLoc d main_v5) → Prop) : Prop :=
  ∀ (d : Dev nD) (Q : PUnit → sProp 𝕄),
    iprop(levAts (K (F := F)).L (K (F := F)).lev ∗ boundary (SparseCore.T d : Thread nD τ) ∗ regArrs m d (m (aLoc d main_v5)) ∗ owesTC (F := F) d
        ∗ Pipeline.cellsGhost cfgs (EP (F := F)) 0 d ∗ Pipeline.toksInit cfgs (EP (F := F)) 0 d
        ∗ (iprop(boundary (SparseCore.T d : Thread nD τ) ∗ (∃ o, ⌜R d o⌝ ∗ regArrs m d o) ∗ owesTC (F := F) d) -∗ Q ⟨⟩))
      ⊢ wp frame (wpE ((K (F := F)).defs (D (F := F))) 𝒱 (SparseCore.T d) none) Set.univ
          (Prog.lift (.customCall (SparseCore.inner (Pipeline.entry 0)) ())) Q

omit [FloatOps F] in
/-- The TensorCore's state after the call is what it owes beside the rest. -/
theorem tcSt_one (d : Dev nD) : ∃ Rst : sProp 𝕄, (K (F := F)).tcSt EH d 1 = iprop(owesTC (F := F) d ∗ Rst) := by
  unfold SparseCore.Cfg.tcSt owesTC
  rw [(K (F := F)).Otc_end d (le_refl 1)]
  exact ⟨_, rfl⟩

/-! ## @main on the TensorCore -/

variable (R : (d : Dev nD) → Buf (Elt F) (aLoc d main_v5) → Prop)

/-- What @main leaves the claim: the six arguments at their launch contents, the output at contents of which R holds. -/
def FIN (d : Dev nD) : sProp 𝕄 :=
  iprop((aLoc d main_arg0 ↦{fullShare} m (aLoc d main_arg0)) ∗ (aLoc d main_arg1 ↦{fullShare} m (aLoc d main_arg1))
    ∗ (aLoc d main_arg2 ↦{fullShare} m (aLoc d main_arg2)) ∗ (aLoc d main_arg3 ↦{fullShare} m (aLoc d main_arg3))
    ∗ (aLoc d main_arg4 ↦{fullShare} m (aLoc d main_arg4)) ∗ (aLoc d main_arg5 ↦{fullShare} m (aLoc d main_arg5))
    ∗ ∃ o, ⌜R d o⌝ ∗ aLoc d main_v5 ↦{fullShare} o)

theorem hmain (hreg : RegionStep m R) (κ : GSem nD τ sig → ℕ) (d : Dev nD) :
    iprop((K (F := F)).ctx EH (P m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m R d) := by
  obtain ⟨Rst, hRst⟩ := tcSt_one (F := F) d
  unfold SparseCore.Cfg.tcRes
  rw [unscopedBufs_eq]
  simp only [main, wp_bind, wp_pure]
  iintro ⟨#Hctx, Hst, ⟨Hb, ⟨Ha0, Ha1, Ha2, Ha3, Ha4, Ha5, Hv0, Hv1, Hv2, Hv3, Hv4, Hv5⟩, -, -⟩, Hgp⟩
  -- the edge list flattened
  iapply (wp_reshape₀ m d main_arg1 main_v0 rfl shapeCasts_S2x320000_S640000 ⟨by decide, rfl⟩ ⟨by decide, rfl⟩ (by decide)) $$ [Hb Ha1 Hv0]
  · isplitl [Hb]; · iexact Hb
    isplitl [Ha1]; · iexact Ha1
    iexact Hv0
  iintro ⟨Hb, Ha1, Hv0⟩
  ihave Hv0 := (Entails.of_eq (congrArg (fun f => (aLoc d main_v0 ↦{fullShare} f : sProp 𝕄)) (res_v0 m d _ _))) $$ Hv0
  -- the call: the tiles' shares out and back
  ihave Hsp := (arrays_split m d (eFlat m d) (m (xLoc d))) $$ [Ha0 Hv0 Hv1]
  · isplitl [Ha0]; · iexact Ha0
    isplitl [Hv0]; · iexact Hv0
    iexact Hv1
  icases Hsp with ⟨Hzr, Htiles⟩
  iapply ((K (F := F)).wp_run (D (F := F)) 𝒱 (EH := EH) (P := P m) κ d 0)
  isplitr; · iexact Hctx
  isplitl [Hst]; · iexact Hst
  isplitl [Htiles]
  · rw [st0_eq]; iexact Htiles
  iintro ⟨Hst, Hdn⟩
  ihave Hdn := (Entails.of_eq (dn0_eq m d)) $$ Hdn
  ihave Hj := (arrays_join m d (eFlat m d) (Cert.Feature.XF (m (zLoc d)) (eFlat m d))) $$ [Hzr Hdn]
  · isplitl [Hzr]; · iexact Hzr
    iexact Hdn
  icases Hj with ⟨Ha0, Hv0, Hv1⟩
  -- the three rows laid out
  iapply (wp_reshape₀ m d main_arg3 main_v2 rfl shapeCasts_S64_S1x64 ⟨by decide, rfl⟩ ⟨by decide, rfl⟩ (by decide)) $$ [Hb Ha3 Hv2]
  · isplitl [Hb]; · iexact Hb
    isplitl [Ha3]; · iexact Ha3
    iexact Hv2
  iintro ⟨Hb, Ha3, Hv2⟩
  ihave Hv2 := (Entails.of_eq (congrArg (fun f => (aLoc d main_v2 ↦{fullShare} f : sProp 𝕄)) (res_v2 m d _ _))) $$ Hv2
  iapply (wp_reshape₀ m d main_arg4 main_v3 rfl shapeCasts_S64x1_S1x64 ⟨by decide, rfl⟩ ⟨by decide, rfl⟩ (by decide)) $$ [Hb Ha4 Hv3]
  · isplitl [Hb]; · iexact Hb
    isplitl [Ha4]; · iexact Ha4
    iexact Hv3
  iintro ⟨Hb, Ha4, Hv3⟩
  ihave Hv3 := (Entails.of_eq (congrArg (fun f => (aLoc d main_v3 ↦{fullShare} f : sProp 𝕄)) (res_v3 m d _ _))) $$ Hv3
  iapply (wp_reshape₀ m d main_arg5 main_v4 rfl shapeCasts_S1_S1x1 ⟨by decide, rfl⟩ ⟨by decide, rfl⟩ (by decide)) $$ [Hb Ha5 Hv4]
  · isplitl [Hb]; · iexact Hb
    isplitl [Ha5]; · iexact Ha5
    iexact Hv4
  iintro ⟨Hb, Ha5, Hv4⟩
  ihave Hv4 := (Entails.of_eq (congrArg (fun f => (aLoc d main_v4 ↦{fullShare} f : sProp 𝕄)) (res_v4 m d _ _))) $$ Hv4
  -- the multilayer-perceptron call
  ihave Hst := (Entails.of_eq ((show (K (F := F)).tcSt EH d ((0 : Fin 1).val + 1) = (K (F := F)).tcSt EH d 1 from rfl).trans hRst)) $$ Hst
  icases Hst with ⟨Ho, Hrest⟩
  ihave #Hlev := (SparseCore.Cfg.ctx_levAts κ) $$ Hctx
  iapply (hreg d _)
  isplitr; · iexact Hlev
  isplitl [Hb]; · iexact Hb
  isplitl [Hv1 Ha2 Hv2 Hv3 Hv4 Hv5]
  · unfold regArrs
    isplitl [Hv1]; · iexact Hv1
    isplitl [Ha2]; · iexact Ha2
    isplitl [Hv2]; · iexact Hv2
    isplitl [Hv3]; · iexact Hv3
    isplitl [Hv4]; · iexact Hv4
    iexact Hv5
  isplitl [Ho]; · iexact Ho
  unfold GP
  icases Hgp with ⟨Hcg, Htk⟩
  isplitl [Hcg]; · iexact Hcg
  isplitl [Htk]; · iexact Htk
  iintro ⟨Hb, ⟨%o, %hR, Harr⟩, Ho⟩
  unfold regArrs
  icases Harr with ⟨Hv1, Ha2, Hv2, Hv3, Hv4, Hv5⟩
  imodintro
  isplitl [Ho Hrest]
  · iapply (Entails.of_eq hRst.symm)
    isplitl [Ho]; · iexact Ho
    iexact Hrest
  unfold FIN
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexists o
  isplitr; · ipureintro; exact hR
  iexact Hv5

/-! ## The final memory and the run -/

/-- What the final memory of device d shows: the six arguments unchanged, the output satisfying R. -/
def fq (d : Dev nD) (s' : Phys nD τ sig (Elt F)) : Prop :=
  (s'.mem.mem (aLoc d main_arg0) = m (aLoc d main_arg0) ∧ s'.mem.mem (aLoc d main_arg1) = m (aLoc d main_arg1)
    ∧ s'.mem.mem (aLoc d main_arg2) = m (aLoc d main_arg2) ∧ s'.mem.mem (aLoc d main_arg3) = m (aLoc d main_arg3)
    ∧ s'.mem.mem (aLoc d main_arg4) = m (aLoc d main_arg4) ∧ s'.mem.mem (aLoc d main_arg5) = m (aLoc d main_arg5))
  ∧ R d (s'.mem.mem (aLoc d main_v5))

omit [FloatOps F] in
theorem hfin (d : Dev nD) (s' : Phys nD τ sig (Elt F)) : iprop(FIN m R d ∗ SI s') ⊢ (⌜fq m R d s'⌝ : sProp 𝕄) := by
  unfold FIN
  iintro ⟨⟨Ha0, Ha1, Ha2, Ha3, Ha4, Ha5, %o, %hR, Hv5⟩, HSI⟩
  icombine HSI Ha0 gives %h0
  icombine HSI Ha1 gives %h1
  icombine HSI Ha2 gives %h2
  icombine HSI Ha3 gives %h3
  icombine HSI Ha4 gives %h4
  icombine HSI Ha5 gives %h5
  icombine HSI Hv5 gives %h6
  ipureintro
  have e6 : s'.mem.mem (aLoc d main_v5) = o := funext fun i => h6 i (Finset.mem_univ i)
  exact ⟨⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i)⟩, e6 ▸ hR⟩

/-- The claim the run proves: on every device the six arguments are unchanged and the output satisfies R. -/
def QC : PUnit × MemSt nD τ sig (Elt F) → Prop := fun r => ∀ d : Dev nD,
  (r.2.mem (aLoc d main_arg0) = m (aLoc d main_arg0) ∧ r.2.mem (aLoc d main_arg1) = m (aLoc d main_arg1)
    ∧ r.2.mem (aLoc d main_arg2) = m (aLoc d main_arg2) ∧ r.2.mem (aLoc d main_arg3) = m (aLoc d main_arg3)
    ∧ r.2.mem (aLoc d main_arg4) = m (aLoc d main_arg4) ∧ r.2.mem (aLoc d main_arg5) = m (aLoc d main_arg5))
  ∧ R d (r.2.mem (aLoc d main_v5))

/-- The run of the whole kernel, from the tile's contract, the flattened edge list's words being row numbers of z, and the
    multilayer-perceptron call's contract. -/
theorem run_main [∀ e, Nonempty (Elt F e)] (hbody : TileContract m) (hpre : ∀ (d : Dev nD) j, (eFlat m d j).toNat < 10000)
    (hreg : RegionStep m R) :
    θ_run (Cert.Kernel.defs (F := F)) (Cert.Kernel.threads (F := F)) ⟨m, fun _ => 0, ρ⟩ (QC m R) :=
  SparseCore.Cfg.θ_run_sc (K := K (F := F)) (D := D (F := F)) (𝒱 := 𝒱) (EH := EH) (P := P m) facts v₀
    (fun q hq => match q with | 0 => nomatch hq)
    (fun q _ => match q with | 0 => tileObl m facts hbody hpre)
    (fun q _ => match q with | 0 => SparseCore.Cfg.VecSplit.of_plain (vecSplit m))
    m ρ main (GP (F := F)) (FIN m R) (u₀ (F := F)) (sep_elim_left.trans (hu₀ m)) (hmain m ρ R hreg) (fq m R) (hfin m R) (QC m R) (fun _ h => h)

end Cert.Proof.KB

end
-- ==== Proof.BitsRegionBody.lean ====
/-
  The multilayer-perceptron block of the idealized kernel at one grid point: the body run on whole staging
  buffers. It loads the feature block, the two weight arrays and the two biases, and stores into the output
  block the logistic of the second layer's affine form of the rectified first layer: the generated payload
  of the five loaded blocks. The inputs' buffers are handed back as they were.
-/
import proofs.«202806_g74526272520516_cont_9to1_m_1211_39_alg».proof.Proof.BitsSetup
import Idealize.ShloMosaic.Lib.Pipeline.FrameBody
import Idealize.ShloMosaic.Lib.Pipeline.Value

set_option maxRecDepth 16384

noncomputable section

namespace Cert.Proof.KB

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (SparseCore.Cfg.HIx 1) (Elt F) ℕ UU ℕ

/-! ## The body's accesses: each the whole block -/

abbrev rX : Rect S16000x128 := Rect.unit (s := S16000x128) ![0, 0] S16000x128.size inb_S16000x128_S16000x128_0_0
abbrev rW1 : Rect S128x64 := Rect.unit (s := S128x64) ![0, 0] S128x64.size inb_S128x64_S128x64_0_0
abbrev rRow : Rect S1x64 := Rect.unit (s := S1x64) ![0, 0] S1x64.size inb_S1x64_S1x64_0_0
abbrev rOne : Rect S1x1 := Rect.unit (s := S1x1) ![0, 0] S1x1.size inb_S1x1_S1x1_0_0
abbrev rOut : Rect S16000x1 := Rect.unit (s := S16000x1) ![0, 0] S16000x1.size inb_S16000x1_S16000x1_0_0

/-- The zero offsets of a rank-two block, as the printed rectangles spell them. -/
theorem zero2 : (![0, 0] : Fin 2 → Nat) = fun _ => 0 := funext fun a => by fin_cases a <;> rfl

/-- The one store covers the output block. -/
theorem cover_out (p : Vec F S16000x1 .f32) (y : S16000x1.Idx) :
    ∃ pc ∈ ([⟨rOut, p⟩] : List (View.Piece (Elt F) S16000x1 .f32)), y ∈ pc.1.set :=
  ⟨⟨rOut, p⟩, List.mem_singleton_self _, View.mem_set_unit_zero (S := S16000x1) zero2 inb_S16000x1_S16000x1_0_0 y⟩

set_option maxHeartbeats 1000000 in
/-- The body on whole staging buffers: the five inputs at contents x, w1, b1r, w2r, b2r and the output's at anything
    run to the inputs as they were and the output's at the payload of the five. -/
theorem body_wp (c : Dev nD) (E : Set ℕ) (i : grid1.Coords)
    (arg1 : Memref sig .tc .vmem S16000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x1 .f32) (harg5 : arg5.IsWhole) (arg6 : Memref sig .tc .vmem S16000x1 .f32) (harg6 : arg6.IsWhole)
    (x : Vec F S16000x128 .f32) (w1 : Vec F S128x64 .f32) (b1r w2r : Vec F S1x64 .f32) (b2r : Vec F S1x1 .f32) (Q : PUnit → sProp 𝕄) :
    iprop(owns (c : Thread nD τ) arg1 fullShare x ∗ owns (c : Thread nD τ) arg2 fullShare w1 ∗ owns (c : Thread nD τ) arg3 fullShare b1r
        ∗ owns (c : Thread nD τ) arg4 fullShare w2r ∗ owns (c : Thread nD τ) arg5 fullShare b2r ∗ (∃ o, owns (c : Thread nD τ) arg6 fullShare o)
        ∗ (iprop(owns (c : Thread nD τ) arg1 fullShare x ∗ owns (c : Thread nD τ) arg2 fullShare w1 ∗ owns (c : Thread nD τ) arg3 fullShare b1r
            ∗ owns (c : Thread nD τ) arg4 fullShare w2r ∗ owns (c : Thread nD τ) arg5 fullShare b2r
            ∗ owns (c : Thread nD τ) arg6 fullShare (k1_pay1 (F := F) x w1 b1r w2r b2r)) -∗ Q ⟨⟩))
      ⊢ wp frame (wpE (defs₀ (F := F)) 𝒱₀ c none) E (cc1__mlp_body i arg1 harg1 arg2 harg2 arg3 harg3 arg4 harg4 arg5 harg5 arg6 harg6) Q := by
  rw [cc1__mlp_body_eq_skeleton]; unfold cc1__mlp_body_skel
  unfold owns
  iintro ⟨⟨%f1, %hf1, H1⟩, ⟨%f2, %hf2, H2⟩, ⟨%f3, %hf3, H3⟩, ⟨%f4, %hf4, H4⟩, ⟨%f5, %hf5, H5⟩, ⟨%o, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover_out _), View.canon_unit_zero (S := S16000x1) zero2]
  simp only [View.readAt_eq_ld, View.ld_unit_zero (S := S16000x128) zero2, View.ld_unit_zero (S := S128x64) zero2,
    View.ld_unit_zero (S := S1x64) zero2, View.ld_unit_zero (S := S1x1) zero2]

end Cert.Proof.KB

end
-- ==== Proof.BitsRegion.lean ====
/-
  The multilayer-perceptron call of the idealized kernel as a region of the TensorCore's program: twenty grid points,
  point t staging rows [16000 t, 16000 t + 16000) of the edge features, the weights and biases staged once, the
  output's rows [16000 t, 16000 t + 16000) written back from the block the body stores. The proof data names what each
  staging buffer holds after the body at each point; the array the region leaves is read back block by block.
-/
import proofs.«202806_g74526272520516_cont_9to1_m_1211_39_alg».proof.Proof.BitsRegionBody
import Idealize.ShloMosaic.Lib.Pipeline.Regions
import Idealize.ShloMosaic.Lib.ValueIdx

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The one admissible contents of the (absent) prefetched tables. -/
abbrev adm : (p : Fin 1) → (pcfgs (F := F) p).Adm := fun p => (cfgs p).toPCfg_adm

/-! ## The arrays at entry and the windows' blocks -/

section Data

variable (x : Vec F S320000x128 .f32) (w1 : Vec F S128x64 .f32) (b1r w2r : Vec F S1x64 .f32) (b2r : Vec F S1x1 .f32)
  (o₀ : Vec F S320000x1 .f32)
-- what the TensorCore owes across the region, and the bound on the levels of the pairs its waits have recorded
variable (O : CellTallies nD τ sig (HIx 1)) (bnd : ℕ)

/-- The six windowed arrays' contents at entry, in window order: the edge features, the first layer's weights and
    bias row, the second layer's weight row and bias, and the output array at whatever it holds. -/
def A₀ (c : Dev nD) : (w : Fin cfg1.W) → Buf (Elt F) ((cfg1.win w).arr.view.loc (c : Thread nD τ))
  | ⟨0, _⟩ => x
  | ⟨1, _⟩ => w1
  | ⟨2, _⟩ => b1r
  | ⟨3, _⟩ => w2r
  | ⟨4, _⟩ => b2r
  | ⟨5, _⟩ => o₀

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (A₀ x w1 b1r w2r b2r o₀ c w)

/-- The proof data on core c: the arrays at entry; after the body at point t each input's buffer at its block and the
    output's at the payload of the five input blocks; the invariant the scoped buffers no window stages; full shares;
    the same tallies owed throughout, the recorded pairs at levels within the bound. -/
def dat (c : Dev nD) : Dat τ (Elt F) (HIx 1) ℕ UU ℕ cfg1 c where
  A := A₀ x w1 b1r w2r b2r o₀ c
  after w t := match w with
    | ⟨0, _⟩ => iblk x w1 b1r w2r b2r o₀ c 0 t
    | ⟨1, _⟩ => iblk x w1 b1r w2r b2r o₀ c 1 t
    | ⟨2, _⟩ => iblk x w1 b1r w2r b2r o₀ c 2 t
    | ⟨3, _⟩ => iblk x w1 b1r w2r b2r o₀ c 3 t
    | ⟨4, _⟩ => iblk x w1 b1r w2r b2r o₀ c 4 t
    | ⟨5, _⟩ => k1_pay1 (F := F) (iblk x w1 b1r w2r b2r o₀ c 0 t) (iblk x w1 b1r w2r b2r o₀ c 1 t) (iblk x w1 b1r w2r b2r o₀ c 2 t)
        (iblk x w1 b1r w2r b2r o₀ c 3 t) (iblk x w1 b1r w2r b2r o₀ c 4 t)
  Φ _ := Pipeline.scopedRest (Ix := HIx 1) (Name := ℕ) (U := UU) (Lvl := ℕ) (Val := Elt F) spec1 c
  q _ := fullShare
  owed _ := O
  recorded _ := {p | (K (F := F)).lev ((c : Thread nD τ), p.1) p.2 ≤ bnd}

local notation "𝔡" => dat x w1 b1r w2r b2r o₀ O bnd
local notation "𝔟" => iblk x w1 b1r w2r b2r o₀

theorem A_eq (c : Dev nD) (w : Fin cfg1.W) : (𝔡 c).A w = A₀ x w1 b1r w2r b2r o₀ c w := by dsimp only [dat]
theorem after_0 (c : Dev nD) (t : Fin cfg1.N) : (𝔡 c).after 0 t = 𝔟 c 0 t := by dsimp only [dat]
theorem after_1 (c : Dev nD) (t : Fin cfg1.N) : (𝔡 c).after 1 t = 𝔟 c 1 t := by dsimp only [dat]
theorem after_2 (c : Dev nD) (t : Fin cfg1.N) : (𝔡 c).after 2 t = 𝔟 c 2 t := by dsimp only [dat]
theorem after_3 (c : Dev nD) (t : Fin cfg1.N) : (𝔡 c).after 3 t = 𝔟 c 3 t := by dsimp only [dat]
theorem after_4 (c : Dev nD) (t : Fin cfg1.N) : (𝔡 c).after 4 t = 𝔟 c 4 t := by dsimp only [dat]
theorem after_5 (c : Dev nD) (t : Fin cfg1.N) :
    (𝔡 c).after 5 t = k1_pay1 (F := F) (𝔟 c 0 t) (𝔟 c 1 t) (𝔟 c 2 t) (𝔟 c 3 t) (𝔟 c 4 t) := by dsimp only [dat]

/-- Each input's current staging buffer holds its block at every point, fetched there or not: the body leaves the
    block in place, and where the pipeline does not fetch, the block index has not moved. -/
theorem before_0 (c : Dev nD) (t : Fin cfg1.N) (d) : (𝔡 c).before 0 t d = 𝔟 c 0 t :=
  ((𝔡 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (𝔡 c).before 1 t d = 𝔟 c 1 t :=
  ((𝔡 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (𝔡 c).before 2 t d = 𝔟 c 2 t :=
  ((𝔡 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (𝔡 c).before 3 t d = 𝔟 c 3 t :=
  ((𝔡 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (𝔡 c).before 4 t d = 𝔟 c 4 t :=
  ((𝔡 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation, at a generic point -/

/-- What the body is called with at point t: the invariant, what the core owes, and each window's current staging
    buffer at what it then holds; -/
def bodyPre (c : Dev nD) (t : Fin cfg1.N) : sProp 𝕄 :=
  iprop((𝔡 c).Φ t.castSucc ∗ (𝔡 c).owesAt none t.castSucc
    ∗ (∃ d, owns (c : Thread nD τ) (st1_0 t) fullShare ((𝔡 c).before 0 t d))
    ∗ (∃ d, owns (c : Thread nD τ) (st1_1 t) fullShare ((𝔡 c).before 1 t d))
    ∗ (∃ d, owns (c : Thread nD τ) (st1_2 t) fullShare ((𝔡 c).before 2 t d))
    ∗ (∃ d, owns (c : Thread nD τ) (st1_3 t) fullShare ((𝔡 c).before 3 t d))
    ∗ (∃ d, owns (c : Thread nD τ) (st1_4 t) fullShare ((𝔡 c).before 4 t d))
    ∗ (∃ d, owns (c : Thread nD τ) (st1_5 t) fullShare ((𝔡 c).before 5 t d)))

/-- and what it returns. -/
def bodyPost (c : Dev nD) (t : Fin cfg1.N) : sProp 𝕄 :=
  iprop((𝔡 c).Φ t.succ ∗ (𝔡 c).owesAt none t.succ
    ∗ owns (c : Thread nD τ) (st1_0 t) fullShare ((𝔡 c).after 0 t)
    ∗ owns (c : Thread nD τ) (st1_1 t) fullShare ((𝔡 c).after 1 t)
    ∗ owns (c : Thread nD τ) (st1_2 t) fullShare ((𝔡 c).after 2 t)
    ∗ owns (c : Thread nD τ) (st1_3 t) fullShare ((𝔡 c).after 3 t)
    ∗ owns (c : Thread nD τ) (st1_4 t) fullShare ((𝔡 c).after 4 t)
    ∗ owns (c : Thread nD τ) (st1_5 t) fullShare ((𝔡 c).after 5 t))

/-- The body at any point: the inputs' buffers hold their blocks, so the run of the kernel function applies; the
    invariant and what the core owes pass through unread. -/
theorem sound_body (c : Dev nD) (t : Fin cfg1.N) :
    bodyPre x w1 b1r w2r b2r o₀ O bnd c t
      ⊢ wp frame (wpE (defs₀ (F := F)) 𝒱₀ c none) Set.univ (bodyAt1 t) (fun _ => bodyPost x w1 b1r w2r b2r o₀ O bnd c t) := by
  unfold bodyPre bodyPost bodyAt1
  simp only [before_0, before_1, before_2, before_3, before_4]
  rw [show (𝔡 c).Φ t.succ = (𝔡 c).Φ t.castSucc from rfl,
    show (𝔡 c).owesAt none t.succ = (𝔡 c).owesAt none t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_wp c Set.univ (grid1.coords t) _ _ _ _ _ _ _ _ _ _ _ _ (𝔟 c 0 t) (𝔟 c 1 t) (𝔟 c 2 t) (𝔟 c 3 t) (𝔟 c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (𝔡 c) (defs₀ (F := F)) 𝒱₀ none Set.univ := fun t => by
  rw [bigSep_W1, bigSep_W1]
  exact sound_body x w1 b1r w2r b2r o₀ O bnd c t

end Data

/-! ## The region over the thread's state -/

section Region

variable (x : Vec F S320000x128 .f32) (w1 : Vec F S128x64 .f32) (b1r w2r : Vec F S1x64 .f32) (b2r : Vec F S1x1 .f32)
  (o₀ : Vec F S320000x1 .f32)
variable (O : CellTallies nD τ sig (HIx 1)) (bnd : ℕ)

local notation "𝔡" => dat x w1 b1r w2r b2r o₀ O bnd

/-- The proof data family: one pipeline. -/
abbrev pdats : (p : Fin 1) → (c : Dev nD) → Dat τ (Elt F) (HIx 1) ℕ UU ℕ (Pipeline.pin (pcfgs (F := F)) adm p) c :=
  fun _ c => 𝔡 c

/-- The six windowed arrays of core c, each whole at the full share: the edge features, the first layer's weights and
    bias row, the second layer's weight row and bias, the output. -/
def arrs (c : Dev nD) (x : Vec F S320000x128 .f32) (w1 : Vec F S128x64 .f32) (b1r w2r : Vec F S1x64 .f32) (b2r : Vec F S1x1 .f32)
    (o : Vec F S320000x1 .f32) : sProp 𝕄 :=
  iprop((((c : Thread nD τ).loc main_v1) ↦{fullShare} x) ∗ (((c : Thread nD τ).loc main_arg2) ↦{fullShare} w1)
    ∗ (((c : Thread nD τ).loc main_v2) ↦{fullShare} b1r) ∗ (((c : Thread nD τ).loc main_v3) ↦{fullShare} w2r)
    ∗ (((c : Thread nD τ).loc main_v4) ↦{fullShare} b2r) ∗ (((c : Thread nD τ).loc main_v5) ↦{fullShare} o))

/-- What the core owes, its recorded pairs at levels within the bound. -/
def owesB (c : Dev nD) : sProp 𝕄 := iprop(∃ W, ⌜(K (F := F)).WBelow (c : Thread nD τ) W bnd⌝ ∗ owes (c : Thread nD τ) O W)

/-- In the launch theorem's spelling of the TensorCore's thread. -/
theorem owesB_eq (c : Dev nD) :
    (owesB (F := F) O bnd c : sProp 𝕄)
      = iprop(∃ W, ⌜(K (F := F)).WBelow (SparseCore.T c) W bnd⌝ ∗ owes (SparseCore.T c) O W) := rfl

/-- The output array as the region leaves it: the entry contents with every point's block written back. -/
def out (c : Dev nD) : Vec F S320000x1 .f32 := (𝔡 c).arrAt 5 cfg1.N

/-- The pipeline's arrays are the six, one by one. -/
theorem arrays_open (c : Dev nD) (Fn : (w : Fin cfg1.W) → Buf (Elt F) ((cfg1.win w).arr.view.loc (c : Thread nD τ))) :
    ((𝔡 c).arrays Fn : sProp 𝕄) = arrs c (Fn 0) (Fn 1) (Fn 2) (Fn 3) (Fn 4) (Fn 5) := by
  rw [Pipeline.arrays_eq (fun _ : Fin 1 => cfg1) (fun _ c => 𝔡 c) (0 : Fin 1) c launch1.arr_whole
    (fun w => (𝔡 c).share_full (fun _ => rfl) w) Fn, bigSep_W1]
  rfl

-- the region rule's statement over the pinned configuration unifies with the program's own only when unification may
-- unfold plain definitions in a metavariable's type
set_option backward.isDefEq.respectTransparency.types false in
/-- The region as the library's record: the layout decided, no semaphore of the kernel's own, the body obligation,
    the waits' evidence (the staging cells' index is the lowest level, below everything owed at a call's index), and
    the thread's state before and after: the six arrays and what the core owes. Nothing enters the invariant but the
    scoped buffers no window stages. -/
def reg (hO : ∀ g, O g none = 0) :
    Pipeline.RegionSeg (pcfgs (F := F)) adm (pdats x w1 b1r w2r b2r o₀ O bnd) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation x w1 b1r w2r b2r o₀ O bnd c).loose
  hwaits c := Pipeline.cellsWaits_intro (Pipeline.pin (pcfgs (F := F)) adm) (pdats x w1 b1r w2r b2r o₀ O bnd) none 0 c
    fun w s t => (K (F := F)).mayWait_none (.dma _) hO
  pre c := iprop(arrs c x w1 b1r w2r b2r o₀ ∗ owesB O bnd c)
  post c := iprop(arrs c x w1 b1r w2r b2r (out x w1 b1r w2r b2r o₀ O bnd c) ∗ owesB O bnd c)
  X _ := BI.emp
  Y _ := BI.emp
  Z _ := BI.emp
  hentry c := by
    rw [Pipeline.ownSems0_none]
    rw [show ((pdats x w1 b1r w2r b2r o₀ O bnd 0 c).arrays ((pdats x w1 b1r w2r b2r o₀ O bnd 0 c).arrAt · 0) : sProp 𝕄)
      = arrs c x w1 b1r w2r b2r o₀ from arrays_open x w1 b1r w2r b2r o₀ O bnd c _]
    unfold owesB
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitr <;> iempintro
  hin c := by
    rw [show (pdats x w1 b1r w2r b2r o₀ O bnd 0 c).Φ 0
      = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats x w1 b1r w2r b2r o₀ O bnd 0 c).Φ (Fin.last _)
      = Pipeline.scopedRest (Ix := HIx 1) (Name := ℕ) (U := UU) (Lvl := ℕ) (Val := Elt F) spec1 c from rfl]
    iintro Hr
    isplitr; · iempintro
    isplitr; · iempintro
    iexact Hr
  hexit c := by
    rw [show ((pdats x w1 b1r w2r b2r o₀ O bnd 0 c).arrays ((pdats x w1 b1r w2r b2r o₀ O bnd 0 c).arrAt · cfg1.N) : sProp 𝕄)
      = arrs c x w1 b1r w2r b2r (out x w1 b1r w2r b2r o₀ O bnd c) from
        (arrays_open x w1 b1r w2r b2r o₀ O bnd c _).trans (by
          rw [show (𝔡 c).arrAt 0 cfg1.N = x from ((𝔡 c).arrAt_in 0 rfl _).trans (A_eq x w1 b1r w2r b2r o₀ O bnd c 0),
            show (𝔡 c).arrAt 1 cfg1.N = w1 from ((𝔡 c).arrAt_in 1 rfl _).trans (A_eq x w1 b1r w2r b2r o₀ O bnd c 1),
            show (𝔡 c).arrAt 2 cfg1.N = b1r from ((𝔡 c).arrAt_in 2 rfl _).trans (A_eq x w1 b1r w2r b2r o₀ O bnd c 2),
            show (𝔡 c).arrAt 3 cfg1.N = w2r from ((𝔡 c).arrAt_in 3 rfl _).trans (A_eq x w1 b1r w2r b2r o₀ O bnd c 3),
            show (𝔡 c).arrAt 4 cfg1.N = b2r from ((𝔡 c).arrAt_in 4 rfl _).trans (A_eq x w1 b1r w2r b2r o₀ O bnd c 4)]
          rfl)]
    unfold owesB
    iintro ⟨Ha, HO, -, -⟩
    imodintro
    isplitl [Ha]; · iexact Ha
    unfold Pipeline.Dat.owesAt Pipeline.owesWithin
    icases HO with ⟨%W, %hW, HO⟩
    iexists W; isplitr; swap; (· iexact HO)
    ipureintro
    intro p hp
    rcases hW (Finset.mem_coe.mpr hp) with h | ⟨w, s, e⟩
    · exact h
    · subst e; exact Nat.zero_le _

/-- The region's call in the pipeline library's own signature. -/
abbrev regionCall : Prog (TpuEff nD τ sig (Elt F) (ΛP (F := F)) .tc) PUnit :=
  Prog.lift (.customCall (Pipeline.entry (0 : Fin 1)) ())

set_option maxHeartbeats 1000000 in
set_option backward.isDefEq.respectTransparency.types false in
/-- The region under the pipelines' body table: from the level facts, the region boundary, the six arrays whole, what the
    core owes (nothing at the kernels' own index) and the pipeline's funded cells and duty tokens, the call runs to the
    boundary, the five inputs unchanged, the output array at `out`, and the core owing what it did. -/
theorem region_wp₀ (hO : ∀ g, O g none = 0) (d : Dev nD) (Q : PUnit → sProp 𝕄) :
    iprop(levAts (K (F := F)).L (K (F := F)).lev ∗ boundary (d : Thread nD τ)
        ∗ arrs d x w1 b1r w2r b2r o₀ ∗ owesB O bnd d
        ∗ Pipeline.cellsGhost cfgs (EP (F := F)) 0 d ∗ Pipeline.toksInit cfgs (EP (F := F)) 0 d
        ∗ (iprop(boundary (d : Thread nD τ) ∗ arrs d x w1 b1r w2r b2r (out x w1 b1r w2r b2r o₀ O bnd d) ∗ owesB O bnd d) -∗ Q ⟨⟩))
      ⊢ wp frame (wpE (D (F := F)) 𝒱 (d : Thread nD τ) none) Set.univ (regionCall (F := F)) Q := by
  have h := Pipeline.RegionSeg.wp (pcfgs (F := F)) adm (pdats x w1 b1r w2r b2r o₀ O bnd) none
    (show Function.Injective (Pipeline.cellOf (nD := nD) (τ := τ) (Pipeline.pin (pcfgs (F := F)) adm)) from cellOf_inj)
    (EP (F := F)) defs₀ 𝒱₀ (K (F := F)).L (K (F := F)).lev (reg x w1 b1r w2r b2r o₀ O bnd hO) d none (fun _ h => nomatch h)
    (fun _ => .ret ⟨⟩) Q
  rw [show (reg x w1 b1r w2r b2r o₀ O bnd hO).post d
      = iprop(arrs d x w1 b1r w2r b2r (out x w1 b1r w2r b2r o₀ O bnd d) ∗ owesB O bnd d) from rfl,
    show (reg x w1 b1r w2r b2r o₀ O bnd hO).pre d = iprop(arrs d x w1 b1r w2r b2r o₀ ∗ owesB O bnd d) from rfl] at h
  iintro ⟨#Hla, Hbd, Ha, HO, Hg, Ht, Hk⟩
  iapply h
  isplitl [Hk]
  · iintro ⟨Hbd, Ha, HO⟩
    rw [wp_ret]; imodintro
    iapply Hk
    isplitl [Hbd]; · iexact Hbd
    isplitl [Ha]; · iexact Ha
    iexact HO
  isplitl [Hbd]; · iexact Hbd
  isplitl [Ha HO]
  · isplitl [Ha]; · iexact Ha
    iexact HO
  isplitr; · iexact Hla
  isplitl [Hg]; · iexact Hg
  iexact Ht

set_option maxHeartbeats 1000000 in
/-- THE REGION in the TensorCore's program of the whole chip: the same, under the body table extended with the
    SparseCore calls' dispatch labels. -/
theorem region_wp (hO : ∀ g, O g none = 0) (d : Dev nD) (Q : PUnit → sProp 𝕄) :
    iprop(levAts (K (F := F)).L (K (F := F)).lev ∗ boundary (SparseCore.T d : Thread nD τ)
        ∗ arrs d x w1 b1r w2r b2r o₀ ∗ owesB O bnd d
        ∗ Pipeline.cellsGhost cfgs (EP (F := F)) 0 d ∗ Pipeline.toksInit cfgs (EP (F := F)) 0 d
        ∗ (iprop(boundary (SparseCore.T d : Thread nD τ) ∗ arrs d x w1 b1r w2r b2r (out x w1 b1r w2r b2r o₀ O bnd d) ∗ owesB O bnd d) -∗ Q ⟨⟩))
      ⊢ wp frame (wpE ((K (F := F)).defs (D (F := F))) 𝒱 (SparseCore.T d) none) Set.univ
          (Prog.lift (.customCall (SparseCore.inner (Pipeline.entry 0)) ())) Q :=
  (region_wp₀ x w1 b1r w2r b2r o₀ O bnd hO d Q).trans
    ((K (F := F)).wp_liftProg (D (F := F)) 𝒱 (SparseCore.T d) Set.univ none (regionCall (F := F)) Q)

end Region

/-! ## The array the region leaves, read block by block -/

section Value

variable (x : Vec F S320000x128 .f32) (w1 : Vec F S128x64 .f32) (b1r w2r : Vec F S1x64 .f32) (b2r : Vec F S1x1 .f32)
  (o₀ : Vec F S320000x1 .f32)
variable (O : CellTallies nD τ sig (HIx 1)) (bnd : ℕ)

local notation "𝔡" => dat x w1 b1r w2r b2r o₀ O bnd
local notation "𝔟" => iblk x w1 b1r w2r b2r o₀

/-- The output's index map sends distinct grid points to distinct blocks (decided over the twenty points). -/
theorem out_index_inj : ∀ t t' : Fin cfg1.N, win1_5.index t = win1_5.index t' → t = t' :=
  (by decide +kernel : ∀ t t' : Fin grid1.N, win1_5.index t = win1_5.index t' → t = t')

/-- So two points' output blocks share no row. -/
theorem out_blocks_disjoint : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (out_index_inj t t' h)

/-- The printed index maps over the grid: the feature block and the output block of point t are block t along the rows
    and block 0 along the columns; the weights' and biases' blocks are block 0 on both axes. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Rows [16000 t, 16000 t + 16000) of the edge features: the block point t stages. -/
def rowsOf (x : Vec F S320000x128 .f32) (t : Fin cfg1.N) : Vec F S16000x128 .f32 :=
  fun y => x (ValueIdx.ix2 ⟨16000 * t.val + (y 0).val, by
    have h0 : (y 0).val < 16000 := ValueIdx.idx2_lt0 y
    have ht : t.val < 20 := lt_of_lt_of_eq t.isLt N_1
    omega⟩ (y 1))

/-- BLOCK t OF THE OUTPUT ARRAY, read back through the window, is the payload of the five input blocks at t: no other
    point's block meets it. -/
theorem out_blk (c : Dev nD) (t : Fin cfg1.N) :
    ((cfg1.win 5).blk t).view.read (Elt F) (out x w1 b1r w2r b2r o₀ O bnd c)
      = k1_pay1 (F := F) (𝔟 c 0 t) (𝔟 c 1 t) (𝔟 c 2 t) (𝔟 c 3 t) (𝔟 c 4 t) := by
  unfold out
  rw [(𝔡 c).read_blk_arrAt_eq_flushed 5 out_blocks_disjoint cfg1.N t t.isLt (flush1_5 t)]
  show (cfg1.win 5).cut (grid1.coords t) ((𝔡 c).after 5 t) = _
  rw [after_5]
  rfl

/-- The feature block of point t is rows [16000 t, 16000 t + 16000) of the edge features. -/
theorem blk_0 (c : Dev nD) (t : Fin cfg1.N) : 𝔟 c 0 t = rowsOf x t := by
  obtain ⟨e0, e1, -⟩ := index_facts t
  funext j
  show x (((cfg1.win 0).blk t).view.emb j) = x _
  refine congrArg x (funext fun a => Fin.ext ?_)
  match a with
  | ⟨0, _⟩ => show win1_0.index t (0 : Fin 2) * 16000 + 1 * (j 0).val = 16000 * t.val + (j 0).val; omega
  | ⟨1, _⟩ => show win1_0.index t (1 : Fin 2) * 128 + 1 * (j 1).val = (j 1).val; omega

/-- The weights and biases are staged whole: each one's block at any point is the array. -/
theorem blk_1 (c : Dev nD) (t : Fin cfg1.N) : 𝔟 c 1 t = w1 := by
  obtain ⟨-, -, e0, e1, -⟩ := index_facts t
  funext j
  show w1 (((cfg1.win 1).blk t).view.emb j) = w1 j
  refine congrArg w1 (funext fun a => Fin.ext ?_)
  match a with
  | ⟨0, _⟩ => show win1_1.index t (0 : Fin 2) * 128 + 1 * (j 0).val = (j 0).val; omega
  | ⟨1, _⟩ => show win1_1.index t (1 : Fin 2) * 64 + 1 * (j 1).val = (j 1).val; omega
theorem blk_2 (c : Dev nD) (t : Fin cfg1.N) : 𝔟 c 2 t = b1r := by
  obtain ⟨-, -, -, -, e0, e1, -⟩ := index_facts t
  funext j
  show b1r (((cfg1.win 2).blk t).view.emb j) = b1r j
  refine congrArg b1r (funext fun a => Fin.ext ?_)
  match a with
  | ⟨0, _⟩ => show win1_2.index t (0 : Fin 2) * 1 + 1 * (j 0).val = (j 0).val; omega
  | ⟨1, _⟩ => show win1_2.index t (1 : Fin 2) * 64 + 1 * (j 1).val = (j 1).val; omega
theorem blk_3 (c : Dev nD) (t : Fin cfg1.N) : 𝔟 c 3 t = w2r := by
  obtain ⟨-, -, -, -, -, -, e0, e1, -⟩ := index_facts t
  funext j
  show w2r (((cfg1.win 3).blk t).view.emb j) = w2r j
  refine congrArg w2r (funext fun a => Fin.ext ?_)
  match a with
  | ⟨0, _⟩ => show win1_3.index t (0 : Fin 2) * 1 + 1 * (j 0).val = (j 0).val; omega
  | ⟨1, _⟩ => show win1_3.index t (1 : Fin 2) * 64 + 1 * (j 1).val = (j 1).val; omega
theorem blk_4 (c : Dev nD) (t : Fin cfg1.N) : 𝔟 c 4 t = b2r := by
  obtain ⟨-, -, -, -, -, -, -, -, e0, e1, -⟩ := index_facts t
  funext j
  show b2r (((cfg1.win 4).blk t).view.emb j) = b2r j
  refine congrArg b2r (funext fun a => Fin.ext ?_)
  match a with
  | ⟨0, _⟩ => show win1_4.index t (0 : Fin 2) * 1 + 1 * (j 0).val = (j 0).val; omega
  | ⟨1, _⟩ => show win1_4.index t (1 : Fin 2) * 1 + 1 * (j 1).val = (j 1).val; omega

/-- ROW 16000 t + r OF THE OUTPUT ARRAY is row r of the payload of the feature rows [16000 t, 16000 t + 16000), the weights
    and the biases. -/
theorem out_row (c : Dev nD) (t : Fin cfg1.N) (r : Fin 16000) :
    out x w1 b1r w2r b2r o₀ O bnd c (ValueIdx.ix2 ⟨16000 * t.val + r.val, by
        have ht : t.val < 20 := lt_of_lt_of_eq t.isLt N_1
        have hr := r.isLt
        omega⟩ (0 : Fin 1))
      = k1_pay1 (F := F) (rowsOf x t) w1 b1r w2r b2r (ValueIdx.ix2 r (0 : Fin 1)) := by
  have h := congrFun (out_blk x w1 b1r w2r b2r o₀ O bnd c t) (ValueIdx.ix2 r (0 : Fin 1))
  rw [blk_0, blk_1, blk_2, blk_3, blk_4] at h
  rw [← h]
  obtain ⟨-, -, -, -, -, -, -, -, -, -, e0, e1⟩ := index_facts t
  show out x w1 b1r w2r b2r o₀ O bnd c _ = out x w1 b1r w2r b2r o₀ O bnd c (((cfg1.win 5).blk t).view.emb (ValueIdx.ix2 r (0 : Fin 1)))
  refine congrArg _ (funext fun a => Fin.ext ?_)
  match a with
  | ⟨0, _⟩ => show 16000 * t.val + r.val = win1_5.index t (0 : Fin 2) * 16000 + 1 * r.val; omega
  | ⟨1, _⟩ => show 0 = win1_5.index t (1 : Fin 2) * 1 + 1 * 0; omega

/-- The same with the grid point as a number below twenty and the feature rows written out. -/
theorem out_row20 (c : Dev nD) (t : Fin 20) (r : Fin 16000) :
    out x w1 b1r w2r b2r o₀ O bnd c (ValueIdx.ix2 ⟨16000 * t.val + r.val, by have := t.isLt; have := r.isLt; omega⟩ (0 : Fin 1))
      = k1_pay1 (F := F) (fun y => x (ValueIdx.ix2 ⟨16000 * t.val + (y 0).val, by
          have h0 : (y 0).val < 16000 := ValueIdx.idx2_lt0 y
          have := t.isLt
          omega⟩ (y 1))) w1 b1r w2r b2r (ValueIdx.ix2 r (0 : Fin 1)) :=
  out_row x w1 b1r w2r b2r o₀ O bnd c (Fin.cast N_1.symm t) r

end Value

end Cert.Proof.KB

end
-- ==== Proof.BitsLaunchRun.lean ====
/-
  The run of the idealized kernel with the multilayer-perceptron call's contract discharged: the call leaves the output
  array at the contents its region computes from the feature array, the first layer's weights and the three rows, so at
  the end of the run the six arguments hold their launch contents and the output holds that array.
-/
import proofs.«202806_g74526272520516_cont_9to1_m_1211_39_alg».proof.Proof.BitsLaunch
import proofs.«202806_g74526272520516_cont_9to1_m_1211_39_alg».proof.Proof.BitsRegion

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-- The output array the multilayer-perceptron call leaves on device d, from the feature rows and the launch contents. -/
abbrev outOf (d : Dev nD) : Vec F S320000x1 .f32 :=
  out (Cert.Feature.XF (m (zLoc d)) (eFlat m d)) (m (aLoc d main_arg2)) (b1Row m d) (w2Row m d) (b2One m d) (m (aLoc d main_v5)) 0 (8 * 1) d

/-- The output's final contents are that array. -/
def ROut (d : Dev nD) (o : Buf (Elt F) (aLoc d main_v5)) : Prop := o = outOf m d

theorem regArrs_eq (d : Dev nD) (o : Buf (Elt F) (aLoc d main_v5)) :
    (regArrs m d o : sProp 𝕄) = arrs d (Cert.Feature.XF (m (zLoc d)) (eFlat m d)) (m (aLoc d main_arg2)) (b1Row m d) (w2Row m d) (b2One m d) o := rfl
omit [FloatOps F] in
theorem owesTC_eq (d : Dev nD) : (owesTC (F := F) d : sProp 𝕄) = owesB (F := F) 0 (8 * 1) d := rfl

/-- The call's contract, from its region's proof. -/
theorem regionStep : RegionStep m (ROut m) := fun d Q => by
  iintro ⟨Hlev, Hb, Harr, Ho, Hcg, Htk, Hk⟩
  ihave Harr := (Entails.of_eq (regArrs_eq m d _)) $$ Harr
  ihave Ho := (Entails.of_eq (owesTC_eq (F := F) d)) $$ Ho
  iapply (region_wp (Cert.Feature.XF (m (zLoc d)) (eFlat m d)) (m (aLoc d main_arg2)) (b1Row m d) (w2Row m d) (b2One m d)
    (m (aLoc d main_v5)) 0 (8 * 1) (fun _ => rfl) d Q)
  isplitl [Hlev]; · iexact Hlev
  isplitl [Hb]; · iexact Hb
  isplitl [Harr]; · iexact Harr
  isplitl [Ho]; · iexact Ho
  isplitl [Hcg]; · iexact Hcg
  isplitl [Htk]; · iexact Htk
  iintro ⟨Hb, Harr, Ho⟩
  ihave Harr := (Entails.of_eq (regArrs_eq m d (outOf m d)).symm) $$ Harr
  ihave Ho := (Entails.of_eq (owesTC_eq (F := F) d).symm) $$ Ho
  iapply Hk
  isplitl [Hb]; · iexact Hb
  isplitl [Harr]
  · iexists (outOf m d)
    isplitr; · ipureintro; exact rfl
    iexact Harr
  iexact Ho

/-- The run of the whole kernel: the six arguments unchanged, the output at the array the call computes. -/
theorem run_ideal [∀ e, Nonempty (Elt F e)] (hbody : TileContract m) (hpre : ∀ (d : Dev nD) j, (eFlat m d j).toNat < 10000) :
    θ_run (Cert.Kernel.defs (F := F)) (Cert.Kernel.threads (F := F)) ⟨m, fun _ => 0, ρ⟩ (QC m (ROut m)) :=
  run_main m ρ (ROut m) hbody hpre (regionStep m)

end Cert.Proof.KB

end
-- ==== Proof.BitsFlatRange.lean ====
/-
  The launch's range hypothesis from the edge list's: when on every device the edge list's entries lie in [0, 9999],
  every word of the device's flattened edge list is below 10000.
-/
import proofs.«202806_g74526272520516_cont_9to1_m_1211_39_alg».proof.Proof.BitsLaunchPay
import proofs.«202806_g74526272520516_cont_9to1_m_1211_39_alg».proof.Proof.FlatRange

noncomputable section

namespace Cert.Proof.KB

open Cert.Kernel Cert.Kernel.Gen
open Idealize.ShloMosaic

variable {F : FTy → Type}
variable (m : (ℓ : Loc nD τ sig) → Buf (Elt F) ℓ)

/-- Every word of a device's flattened edge list is a row number of z. -/
theorem eFlat_lt (hr : ∀ d : Dev nD, Cert.Spec.InRange (m ((SparseCore.T d).loc main_arg1))) :
    ∀ (d : Dev nD) j, (eFlat m d j).toNat < 10000 :=
  fun d j => Cert.Feature.flat_lt (m ((SparseCore.T d).loc main_arg1)) (hr d) shapeCasts_S2x320000_S640000 j

end Cert.Proof.KB

end
-- ==== Proof.AssembleBits.lean ====
/-
  The claim's conjunct for the kernel as printed, and the whole claim.

  The printed kernel's run is the idealized kernel's, word for word, read at the machine's floats: the launch and the
  second stage never look at a float's value. Its frame is that run with the output's value dropped. With it the five
  conjuncts are all there.
-/
import proofs.«202806_g74526272520516_cont_9to1_m_1211_39_alg».proof.Proof.Assemble
import proofs.«202806_g74526272520516_cont_9to1_m_1211_39_alg».proof.Proof.BitsLaunchRun
import proofs.«202806_g74526272520516_cont_9to1_m_1211_39_alg».proof.Proof.BitsFlatRange

noncomputable section

namespace Cert.Proof.Asm

open Idealize.ShloMosaic Idealize.SL.Sem

/-- The printed kernel's frame, from the tile's contract at the machine's floats. -/
theorem frame_Kernel_of (hbody : ∀ m, Cert.Proof.KB.TileContract (F := Bits) m) : Cert.frame_Kernel := fun m g hpre =>
  (θ_run _ _ _).mono (fun _ h c => (h c).1)
    (Cert.Proof.KB.run_ideal m g (hbody m)
      (Cert.Proof.KB.eFlat_lt m fun d => Cert.PreRange.inRange_of_pre _ _ _ _ _ _ (hpre d)))

/-- The whole claim, from the tile's contract at the machine's floats and at the extended reals. -/
theorem claim_of_contracts (hB : ∀ m, Cert.Proof.KB.TileContract (F := Bits) m) (hI : ∀ m, Cert.Proof.KI.TileContract (F := Ideal) m) :
    Cert.Claim :=
  claim_of (frame_Kernel_of hB) hI

end Cert.Proof.Asm

end
-- ==== Proof.TileValue.lean ====
/-
  The value of a gathered slot at an index, and from it a tile's rows of the edge-feature array.

  A tile (core c, subcore s) owns 10000 consecutive edges starting at base = 20000·s + 10000·c. It first copies its
  10000 source words, words base … base + 9999 of the flattened edge list, and its 10000 destination words, words
  320000 + base …, into two index scratches. A gather then takes a window of 80 consecutive words of a scratch, at
  offset o, and delivers an 80 × 128 slot whose row r is the row of z that word o + r names: entry (r, l) of the slot
  is z(word(o + r), l). With both gathers at the same window 80·j, the lane-by-lane product of the source slot and
  the destination slot at (r, l) is the feature array XF at edge base + 80·j + r, lane l — provided every word of the
  edge list names a row of z, so that reducing it into [0, 10000) changes nothing.

  Every lemma is stated over variables; the evidence an operation carries (a window inside its scratch, unit strides,
  the count of offsets, every offset in range) is universally quantified.
-/
import proofs.«202806_g74526272520516_cont_9to1_m_1211_39_alg».proof.Proof.FeatureArray
import proofs.«202806_g74526272520516_cont_9to1_m_1211_39_alg».proof.Proof.IdealSetup
import Idealize.ShloMosaic.Lib.SparseCore.Stream

noncomputable section

namespace Cert.Feature

open Idealize.ShloMosaic Idealize.ShloMosaic.ValueIdx
open Cert.KernelIdeal Cert.KernelIdeal.Gen

variable {F : FTy → Type} [FloatOps F]

/-! ## The first stage's memrefs: z, the flattened edge list, and the two index scratches -/

abbrev zW : Memref sig .scVector .hbm S10000x128 .f32 := Memref.whole main_arg0_scv
abbrev eW : Memref sig .scVector .hbm S640000 .i32 := Memref.whole main_v0_scv
abbrev sIs : Memref sig .scVector .vmem S10000 .i32 := Memref.whole cc0_scratch0
abbrev sId : Memref sig .scVector .vmem S10000 .i32 := Memref.whole cc0_scratch1

/-! ## A gather read at an index -/

/-- Place r of an 80-word window at offset off lies inside the scratch's 10000 words. -/
theorem win_lt (off : Fin 1 → ℕ) (h : ∀ a, off a + S80.size a ≤ S10000.size a) (r : Fin 80) : off 0 + r.val < 10000 := by
  have h0 : off 0 + 80 ≤ 10000 := h 0
  have := r.isLt
  omega

omit [FloatOps F] in
/-- A gather of rows of a 10000 × 128 array by a list of 80 words: entry (r, l) of what it delivers is the array at
    (word r, l). On the gathered axis the source index is the row the list names for r, and the 80 words in row-major
    order are the list itself; on the lane axis it is l. -/
theorem gather_at (g : S10000x128.Idx → Elt F .f32) (idx : S80.Idx → Elt F .i32)
    (hn : S80.numel = S80x128.size gathers_S10000x128_S80x128.axis')
    (hin : ∀ x, (idx x).toNat < S10000x128.size gathers_S10000x128_S80x128.axis) (r : Fin 80) (l : Fin 128) :
    SparseCore.gatherPayload gathers_S10000x128_S80x128 g (SparseCore.rows idx hn hin) (ix2 r l)
      = g (ix2 (⟨(idx (ix1 r)).toNat, hin (ix1 r)⟩ : Fin 10000) l) := by
  unfold SparseCore.gatherPayload
  refine congrArg g (funext fun a => Fin.ext ?_)
  match a with
  | ⟨0, _⟩ =>
    have e1 := congrArg Fin.val (Shape.Gathers.idx_axis gathers_S10000x128_S80x128 (SparseCore.rows idx hn hin) (ix2 r l))
    refine e1.trans ?_
    show (idx (S80.rowMajor.symm _)).toNat = (idx (ix1 r)).toNat
    refine congrArg (fun x => (idx x).toNat) ((Equiv.symm_apply_eq _).mpr (Fin.ext ?_))
    rw [Shape.rowMajor_val_one]
    rfl
  | ⟨1, _⟩ =>
    exact Shape.Gathers.idx_of_ne gathers_S10000x128_S80x128 _ _ ⟨1, by decide⟩ (by decide)

omit [FloatOps F] in
/-- A window of 80 words at offset off of a 10000-word memref reads, at place r, the memref at word off + r. -/
theorem read_window (M : Memref sig .scVector .vmem S10000 .i32) (ic : M.view.ty.Contents (Elt F)) (off : Fin 1 → ℕ)
    (h : ∀ a, off a + S80.size a ≤ S10000.size a) (hs : ∀ a, (Rect.unit (s := S10000) off S80.size h).stride a = 1) (r : Fin 80) :
    View.read (Elt F) (M.slice (Rect.unit (s := S10000) off S80.size h) hs).view ic (ix1 r)
      = View.read (Elt F) M.view ic (ix1 (⟨off 0 + r.val, win_lt off h r⟩ : Fin 10000)) := by
  show View.read (Elt F) M.view ic ((Rect.unit (s := S10000) off S80.size h).emb (ix1 r)) = _
  refine congrArg (View.read (Elt F) M.view ic) (funext fun a => Fin.ext ?_)
  match a with
  | ⟨0, _⟩ =>
    show off 0 + 1 * r.val = off 0 + r.val
    rw [Nat.one_mul]

omit [FloatOps F] in
/-- The array z read through the rectangle that is all of it is z. -/
theorem read_zwhole (zc : FVec F S10000x128 .f32)
    (hz : ∀ a, (Rect.unit (s := S10000x128) ![0, 0] S10000x128.size inb_S10000x128_S10000x128_0_0).stride a = 1) (j : S10000x128.Idx) :
    View.read (Elt F) (zW.slice (Rect.unit (s := S10000x128) ![0, 0] S10000x128.size inb_S10000x128_S10000x128_0_0) hz).view zc j = zc j := by
  show zc ((Rect.unit (s := S10000x128) ![0, 0] S10000x128.size inb_S10000x128_S10000x128_0_0).emb j) = zc j
  refine congrArg zc (funext fun a => Fin.ext ?_)
  show (![0, 0] : Fin 2 → ℕ) a + 1 * (j a).val = (j a).val
  match a with
  | ⟨0, _⟩ => simp
  | ⟨1, _⟩ => simp

omit [FloatOps F] in
/-- THE GATHERED SLOT AT (r, l), through any 10000-word memref M holding the offsets: z at the row that word off + r of
    M names, lane l. -/
theorem gathered_apply_of (M : Memref sig .scVector .vmem S10000 .i32) (zc : FVec F S10000x128 .f32)
    (ic : M.view.ty.Contents (Elt F)) (off : Fin 1 → ℕ) (h : ∀ a, off a + S80.size a ≤ S10000.size a)
    (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) (M.slice (Rect.unit (s := S10000) off S80.size h) hs).view ic x).toNat
      < S10000x128.size gathers_S10000x128_S80x128.axis)
    (r : Fin 80) (l : Fin 128) :
    SparseCore.gatherPayload gathers_S10000x128_S80x128
        (View.read (Elt F) (zW.slice (Rect.unit (s := S10000x128) ![0, 0] S10000x128.size inb_S10000x128_S10000x128_0_0) hz).view zc)
        (SparseCore.rows (View.read (Elt F) (M.slice (Rect.unit (s := S10000) off S80.size h) hs).view ic) hn hin) (ix2 r l)
      = zc (ix2 (⟨(View.read (Elt F) M.view ic (ix1 (⟨off 0 + r.val, win_lt off h r⟩ : Fin 10000))).toNat,
          (read_window M ic off h hs r) ▸ hin (ix1 r)⟩ : Fin 10000) l) := by
  rw [gather_at]
  refine (read_zwhole zc hz _).trans ?_
  refine congrArg zc (funext fun a => Fin.ext ?_)
  match a with
  | ⟨0, _⟩ => exact congrArg BitVec.toNat (read_window M ic off h hs r)
  | ⟨1, _⟩ => rfl

omit [FloatOps F] in
/-- The gathered slot through the SOURCE-index scratch holding ic: z at the row that word off + r of ic names. -/
theorem gathered_apply (zc : FVec F S10000x128 .f32) (ic : S10000.Idx → BitVec 32) (off : Fin 1 → ℕ)
    (h : ∀ a, off a + S80.size a ≤ S10000.size a) (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) (sIs.slice (Rect.unit (s := S10000) off S80.size h) hs).view ic x).toNat
      < S10000x128.size gathers_S10000x128_S80x128.axis)
    (r : Fin 80) (l : Fin 128) :
    SparseCore.gatherPayload gathers_S10000x128_S80x128
        (View.read (Elt F) (zW.slice (Rect.unit (s := S10000x128) ![0, 0] S10000x128.size inb_S10000x128_S10000x128_0_0) hz).view zc)
        (SparseCore.rows (View.read (Elt F) (sIs.slice (Rect.unit (s := S10000) off S80.size h) hs).view ic) hn hin) (ix2 r l)
      = zc (ix2 (⟨(ic (ix1 (⟨off 0 + r.val, win_lt off h r⟩ : Fin 10000))).toNat,
          lt_of_eq_of_lt (congrArg BitVec.toNat (read_window (F := F) sIs ic off h hs r)).symm (hin (ix1 r))⟩ : Fin 10000) l) :=
  gathered_apply_of sIs zc ic off h hs hz hn hin r l

omit [FloatOps F] in
/-- The same through the DESTINATION-index scratch. -/
theorem gathered_apply_dst (zc : FVec F S10000x128 .f32) (ic : S10000.Idx → BitVec 32) (off : Fin 1 → ℕ)
    (h : ∀ a, off a + S80.size a ≤ S10000.size a) (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) (sId.slice (Rect.unit (s := S10000) off S80.size h) hs).view ic x).toNat
      < S10000x128.size gathers_S10000x128_S80x128.axis)
    (r : Fin 80) (l : Fin 128) :
    SparseCore.gatherPayload gathers_S10000x128_S80x128
        (View.read (Elt F) (zW.slice (Rect.unit (s := S10000x128) ![0, 0] S10000x128.size inb_S10000x128_S10000x128_0_0) hz).view zc)
        (SparseCore.rows (View.read (Elt F) (sId.slice (Rect.unit (s := S10000) off S80.size h) hs).view ic) hn hin) (ix2 r l)
      = zc (ix2 (⟨(ic (ix1 (⟨off 0 + r.val, win_lt off h r⟩ : Fin 10000))).toNat,
          lt_of_eq_of_lt (congrArg BitVec.toNat (read_window (F := F) sId ic off h hs r)).symm (hin (ix1 r))⟩ : Fin 10000) l) :=
  gathered_apply_of sId zc ic off h hs hz hn hin r l

/-! ## The index scratches after the tile's first copies -/

/-- A tile's 10000 edges end inside the 320000: base + 10000 ≤ 320000 with base = 20000·s + 10000·c, c < 2, s < 16. -/
theorem base_le (L : grid0.Coords) : 20000 * (L 1).val + 10000 * (L 0).val + 10000 ≤ 320000 := by
  have h0 : (L 0).val < 2 := (L 0).isLt
  have h1 : (L 1).val < 16 := (L 1).isLt
  omega

/-- The tile's n-th source word is a word of the flattened list … -/
theorem srcWord_lt (L : grid0.Coords) (n : Fin 10000) : 20000 * (L 1).val + 10000 * (L 0).val + n.val < 640000 := by
  have := base_le L; have := n.isLt; omega
/-- … and so is its n-th destination word. -/
theorem dstWord_lt (L : grid0.Coords) (n : Fin 10000) : 20000 * (L 1).val + 10000 * (L 0).val + 320000 + n.val < 640000 := by
  have := base_le L; have := n.isLt; omega

omit [FloatOps F] in
/-- The source-index scratch after the tile's copy of its slice of the flattened edge list fe, whatever it held (fis): word n
    is word base + n of fe. -/
theorem isC_apply (L : grid0.Coords) (fis : S10000.Idx → BitVec 32) (fe : (⟨1, ![640000]⟩ : Shape).Idx → BitVec 32)
    (hb : ∀ a, (k0_off1 L) a + S10000.size a ≤ S640000.size a)
    (hst : ∀ a, (Rect.unit (s := S640000) (k0_off1 L) S10000.size hb).stride a = 1) (n : Fin 10000) :
    View.write (Elt F) sIs.view fis
        (ReadAs.same.apply (View.read (Elt F) (eW.slice (Rect.unit (s := S640000) (k0_off1 L) S10000.size hb) hst).view fe))
        Finset.univ (ix1 n)
      = fe (ix1 (⟨20000 * (L 1).val + 10000 * (L 0).val + n.val, srcWord_lt L n⟩ : Fin 640000)) := by
  rw [View.write_whole_univ]
  show fe ((Rect.unit (s := S640000) (k0_off1 L) S10000.size hb).emb (ix1 n)) = _
  refine congrArg fe (funext fun a => Fin.ext ?_)
  match a with
  | ⟨0, _⟩ =>
    show k0_off1 L 0 + 1 * n.val = 20000 * (L 1).val + 10000 * (L 0).val + n.val
    rw [k0_off1_eq L, Nat.one_mul]
    rfl

omit [FloatOps F] in
/-- The destination-index scratch after the tile's copy of its slice of the second half of fe: word n is word
    320000 + base + n of fe. -/
theorem idC_apply (L : grid0.Coords) (fid : S10000.Idx → BitVec 32) (fe : (⟨1, ![640000]⟩ : Shape).Idx → BitVec 32)
    (hb : ∀ a, (k0_off2 L) a + S10000.size a ≤ S640000.size a)
    (hst : ∀ a, (Rect.unit (s := S640000) (k0_off2 L) S10000.size hb).stride a = 1) (n : Fin 10000) :
    View.write (Elt F) sId.view fid
        (ReadAs.same.apply (View.read (Elt F) (eW.slice (Rect.unit (s := S640000) (k0_off2 L) S10000.size hb) hst).view fe))
        Finset.univ (ix1 n)
      = fe (ix1 (⟨20000 * (L 1).val + 10000 * (L 0).val + 320000 + n.val, dstWord_lt L n⟩ : Fin 640000)) := by
  rw [View.write_whole_univ]
  show fe ((Rect.unit (s := S640000) (k0_off2 L) S10000.size hb).emb (ix1 n)) = _
  refine congrArg fe (funext fun a => Fin.ext ?_)
  match a with
  | ⟨0, _⟩ =>
    show k0_off2 L 0 + 1 * n.val = 20000 * (L 1).val + 10000 * (L 0).val + 320000 + n.val
    rw [k0_off2_eq L, Nat.one_mul]
    rfl

/-! ## The product of the two gathered slots is the feature array on the tile's rows -/

omit [FloatOps F] in
/-- When every word names a row of z, the row a word names is the word's own value. -/
theorem row_val (fe : (⟨1, ![640000]⟩ : Shape).Idx → BitVec 32) (hfe : ∀ i, (fe i).toNat < 10000) (i : Fin 640000) :
    (row fe i).val = (fe (ix1 i)).toNat := by
  unfold row
  simp [Fin.ofNat, Nat.mod_eq_of_lt (hfe (ix1 i))]

/-- Row r of the tile's window 80·j is an edge: base + 80·j + r < 320000. -/
theorem tileRow_lt (L : grid0.Coords) (j : ℕ) (hj : 80 * j + 80 ≤ 10000) (r : Fin 80) :
    20000 * (L 1).val + 10000 * (L 0).val + 80 * j + r.val < 320000 := by
  have := base_le L; have := r.isLt; omega

/-- THE TILE'S ROWS, the two scratches described word by word (hisc, hidc): at window 80·j the product of the source slot
    and the destination slot at (r, l) is the feature array at edge base + 80·j + r, lane l. -/
theorem tile_rows_of (L : grid0.Coords) (zc : FVec F S10000x128 .f32) (fe : (⟨1, ![640000]⟩ : Shape).Idx → BitVec 32)
    (hfe : ∀ i, (fe i).toNat < 10000) (isc idc : S10000.Idx → BitVec 32)
    (hisc : ∀ n : Fin 10000, isc (ix1 n) = fe (ix1 (⟨20000 * (L 1).val + 10000 * (L 0).val + n.val, srcWord_lt L n⟩ : Fin 640000)))
    (hidc : ∀ n : Fin 10000, idc (ix1 n) = fe (ix1 (⟨20000 * (L 1).val + 10000 * (L 0).val + 320000 + n.val, dstWord_lt L n⟩ : Fin 640000)))
    (j : ℕ) (hj : 80 * j + 80 ≤ 10000)
    (off : Fin 1 → ℕ) (ho : off 0 = 80 * j) (h : ∀ a, off a + S80.size a ≤ S10000.size a)
    (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) (sIs.slice (Rect.unit (s := S10000) off S80.size h) hs).view isc x).toNat
      < S10000x128.size gathers_S10000x128_S80x128.axis)
    (off' : Fin 1 → ℕ) (ho' : off' 0 = 80 * j) (h' : ∀ a, off' a + S80.size a ≤ S10000.size a)
    (hs' : ∀ a, (Rect.unit (s := S10000) off' S80.size h').stride a = 1)
    (hz' : ∀ a, (Rect.unit (s := S10000x128) ![0, 0] S10000x128.size inb_S10000x128_S10000x128_0_0).stride a = 1)
    (hn' : S80.numel = S80x128.size gathers_S10000x128_S80x128.axis')
    (hin' : ∀ x, (View.read (Elt F) (sId.slice (Rect.unit (s := S10000) off' S80.size h') hs').view idc x).toNat
      < S10000x128.size gathers_S10000x128_S80x128.axis)
    (r : Fin 80) (l : Fin 128) :
    FloatOps.mulf
        (SparseCore.gatherPayload gathers_S10000x128_S80x128
          (View.read (Elt F) (zW.slice (Rect.unit (s := S10000x128) ![0, 0] S10000x128.size inb_S10000x128_S10000x128_0_0) hz).view zc)
          (SparseCore.rows (View.read (Elt F) (sIs.slice (Rect.unit (s := S10000) off S80.size h) hs).view isc) hn hin) (ix2 r l))
        (SparseCore.gatherPayload gathers_S10000x128_S80x128
          (View.read (Elt F) (zW.slice (Rect.unit (s := S10000x128) ![0, 0] S10000x128.size inb_S10000x128_S10000x128_0_0) hz').view zc)
          (SparseCore.rows (View.read (Elt F) (sId.slice (Rect.unit (s := S10000) off' S80.size h') hs').view idc) hn' hin') (ix2 r l))
      = XF zc fe (ix2 (⟨20000 * (L 1).val + 10000 * (L 0).val + 80 * j + r.val, tileRow_lt L j hj r⟩ : Fin 320000) l) := by
  rw [gathered_apply, gathered_apply_dst, XF_apply]
  congr 1
  · refine congrArg zc (funext fun a => Fin.ext ?_)
    match a with
    | ⟨0, _⟩ =>
      show (isc (ix1 _)).toNat = (row fe _).val
      rw [row_val fe hfe, hisc]
      refine congrArg (fun i => (fe (ix1 i)).toNat) (Fin.ext ?_)
      show 20000 * (L 1).val + 10000 * (L 0).val + (off 0 + r.val) = 20000 * (L 1).val + 10000 * (L 0).val + 80 * j + r.val
      omega
    | ⟨1, _⟩ => rfl
  · refine congrArg zc (funext fun a => Fin.ext ?_)
    match a with
    | ⟨0, _⟩ =>
      show (idc (ix1 _)).toNat = (row fe _).val
      rw [row_val fe hfe, hidc]
      refine congrArg (fun i => (fe (ix1 i)).toNat) (Fin.ext ?_)
      show 20000 * (L 1).val + 10000 * (L 0).val + 320000 + (off' 0 + r.val)
        = 320000 + (20000 * (L 1).val + 10000 * (L 0).val + 80 * j + r.val)
      omega
    | ⟨1, _⟩ => rfl

/-- THE TILE'S ROWS with the scratches as the tile's first copies leave them. -/
theorem tile_rows (L : grid0.Coords) (zc : FVec F S10000x128 .f32) (fe : (⟨1, ![640000]⟩ : Shape).Idx → BitVec 32)
    (hfe : ∀ i, (fe i).toNat < 10000) (fis fid : S10000.Idx → BitVec 32)
    (hb1 : ∀ a, (k0_off1 L) a + S10000.size a ≤ S640000.size a)
    (hst1 : ∀ a, (Rect.unit (s := S640000) (k0_off1 L) S10000.size hb1).stride a = 1)
    (hb2 : ∀ a, (k0_off2 L) a + S10000.size a ≤ S640000.size a)
    (hst2 : ∀ a, (Rect.unit (s := S640000) (k0_off2 L) S10000.size hb2).stride a = 1)
    (j : ℕ) (hj : 80 * j + 80 ≤ 10000)
    (off : Fin 1 → ℕ) (ho : off 0 = 80 * j) (h : ∀ a, off a + S80.size a ≤ S10000.size a)
    (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) (sIs.slice (Rect.unit (s := S10000) off S80.size h) hs).view
        (View.write (Elt F) sIs.view fis
          (ReadAs.same.apply (View.read (Elt F) (eW.slice (Rect.unit (s := S640000) (k0_off1 L) S10000.size hb1) hst1).view fe)) Finset.univ) x).toNat < S10000x128.size gathers_S10000x128_S80x128.axis)
    (off' : Fin 1 → ℕ) (ho' : off' 0 = 80 * j) (h' : ∀ a, off' a + S80.size a ≤ S10000.size a)
    (hs' : ∀ a, (Rect.unit (s := S10000) off' S80.size h').stride a = 1)
    (hz' : ∀ a, (Rect.unit (s := S10000x128) ![0, 0] S10000x128.size inb_S10000x128_S10000x128_0_0).stride a = 1)
    (hn' : S80.numel = S80x128.size gathers_S10000x128_S80x128.axis')
    (hin' : ∀ x, (View.read (Elt F) (sId.slice (Rect.unit (s := S10000) off' S80.size h') hs').view
        (View.write (Elt F) sId.view fid
          (ReadAs.same.apply (View.read (Elt F) (eW.slice (Rect.unit (s := S640000) (k0_off2 L) S10000.size hb2) hst2).view fe)) Finset.univ) x).toNat < S10000x128.size gathers_S10000x128_S80x128.axis)
    (r : Fin 80) (l : Fin 128) :
    FloatOps.mulf
        (SparseCore.gatherPayload gathers_S10000x128_S80x128
          (View.read (Elt F) (zW.slice (Rect.unit (s := S10000x128) ![0, 0] S10000x128.size inb_S10000x128_S10000x128_0_0) hz).view zc)
          (SparseCore.rows (View.read (Elt F) (sIs.slice (Rect.unit (s := S10000) off S80.size h) hs).view
            (View.write (Elt F) sIs.view fis
          (ReadAs.same.apply (View.read (Elt F) (eW.slice (Rect.unit (s := S640000) (k0_off1 L) S10000.size hb1) hst1).view fe)) Finset.univ)) hn hin) (ix2 r l))
        (SparseCore.gatherPayload gathers_S10000x128_S80x128
          (View.read (Elt F) (zW.slice (Rect.unit (s := S10000x128) ![0, 0] S10000x128.size inb_S10000x128_S10000x128_0_0) hz').view zc)
          (SparseCore.rows (View.read (Elt F) (sId.slice (Rect.unit (s := S10000) off' S80.size h') hs').view
            (View.write (Elt F) sId.view fid
          (ReadAs.same.apply (View.read (Elt F) (eW.slice (Rect.unit (s := S640000) (k0_off2 L) S10000.size hb2) hst2).view fe)) Finset.univ)) hn' hin') (ix2 r l))
      = XF zc fe (ix2 (⟨20000 * (L 1).val + 10000 * (L 0).val + 80 * j + r.val, tileRow_lt L j hj r⟩ : Fin 320000) l) :=
  tile_rows_of L zc fe hfe _ _ (isC_apply L fis fe hb1 hst1) (idC_apply L fid fe hb2 hst2) j hj off ho h hs hz hn hin
    off' ho' h' hs' hz' hn' hin' r l

end Cert.Feature

end
-- ==== Proof.IdealBandChunks.lean ====
/-
  A vector subcore's band of the feature array is its 125 chunks of 80 rows.

  The band of tile L is rows [base, base + 10000) of the [320000, 128] array, every lane; chunk j (j < 125) is
  rows [base + 80 j, base + 80 j + 80), every lane. Row e of the band lies in chunk (e − base) / 80 and in no
  other, so the chunks are pairwise disjoint and their union is the band: holding the band is holding every
  chunk. If chunk j is held at contents g j that agree, on chunk j, with one array function G, the band is held
  at G.
-/
import proofs.«202806_g74526272520516_cont_9to1_m_1211_39_alg».proof.Proof.IdealTileIface

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The chunks -/

theorem ck_inb (L : grid0.Coords) (j : Fin 125) :
    ∀ a, (![base L + 80 * j.val, 0] : Fin 2 → ℕ) a + S80x128.size a ≤ S320000x128.size a := by
  have := base_le L
  have := j.isLt
  intro a; fin_cases a <;> simp <;> omega

/-- Chunk j of tile L's band, as a rectangle of the array: rows [base + 80 j, +80), every lane. -/
abbrev ckRect (L : grid0.Coords) (j : Fin 125) : Rect S320000x128 :=
  Rect.unit (s := S320000x128) ![base L + 80 * j.val, 0] S80x128.size (ck_inb L j)

/-- Chunk j of tile L's band, as the slice of the array the task copies into. -/
abbrev xCk (L : grid0.Coords) (j : Fin 125) : Memref sig .scVector .hbm S80x128 .f32 :=
  (xW).slice (ckRect L j) (fun _ => rfl)

/-- A slice of 80 rows at an offset that is chunk j's, however the offset is spelt, is chunk j. -/
theorem slice_eq_xCk (L : grid0.Coords) (j : Fin 125) (off : Fin 2 → ℕ)
    (inb : ∀ a, off a + S80x128.size a ≤ S320000x128.size a) (h0 : off 0 = base L + 80 * j.val) (h1 : off 1 = 0) :
    (xW).slice (Rect.unit (s := S320000x128) off S80x128.size inb) (fun _ => rfl) = xCk L j := by
  have e : off = ![base L + 80 * j.val, 0] := funext (Fin.forall_fin_two.2 ⟨h0, h1⟩)
  subst e
  rfl

/-- The first chunk of trip t of the task's loop is chunk 2t. -/
theorem off14_chunk (L : grid0.Coords) (t : Fin k0_t1_loop.trips) (j : Fin 125) (hj : j.val = 2 * t.val) :
    k0_off14 L t 0 = base L + 80 * j.val ∧ k0_off14 L t 1 = 0 := by
  rw [k0_off14_eq]
  refine ⟨?_, rfl⟩
  show 20000 * (L 1).val + 10000 * (L 0).val + 160 * t.val = base L + 80 * j.val
  unfold base; omega

/-- The second chunk of trip t of the task's loop is chunk 2t + 1. -/
theorem off26_chunk (L : grid0.Coords) (t : Fin k0_t1_loop.trips) (j : Fin 125) (hj : j.val = 2 * t.val + 1) :
    k0_off26 L t 0 = base L + 80 * j.val ∧ k0_off26 L t 1 = 0 := by
  rw [k0_off26_eq]
  refine ⟨?_, rfl⟩
  show 20000 * (L 1).val + 10000 * (L 0).val + 160 * t.val + 80 = base L + 80 * j.val
  unfold base; omega

/-! ## The band is the disjoint union of its chunks -/

section Cover

variable (d : Dev nD) (L : grid0.Coords)

/-- Chunk j's elements, as elements of the array's buffer. -/
abbrev ckSet (j : Fin 125) : Finset (Idx ((xW).view.loc (thr d L))) := (xCk L j).view.set

theorem ckSet_eq (j : Fin 125) : ckSet d L j = (ckRect L j).set := View.set_slice_whole _ _

theorem bandSet_eq : bandSet d L = (bandRect L).set := by
  show ((bandRect L).set).map (View.whole main_v1_scv).emb = _
  rw [View.emb_whole, Finset.map_refl]

/-- An element of the array is in chunk j exactly when its row is one of the chunk's eighty. -/
theorem mem_ckSet (j : Fin 125) (i : S320000x128.Idx) :
    i ∈ (ckRect L j).set ↔ base L + 80 * j.val ≤ (i 0).val ∧ (i 0).val < base L + 80 * j.val + 80 := by
  rw [Rect.mem_set_unit, Fin.forall_fin_two]
  have h1 : (i 1).val < 128 := (i 1).isLt
  constructor
  · rintro ⟨⟨ha, hb⟩, -⟩
    exact ⟨ha, hb⟩
  · rintro ⟨ha, hb⟩
    exact ⟨⟨ha, hb⟩, Nat.zero_le _, by show (i 1).val < 0 + 128; omega⟩

/-- An element of the array is in the band exactly when its row is one of the band's ten thousand. -/
theorem mem_bandSet (i : S320000x128.Idx) :
    i ∈ (bandRect L).set ↔ base L ≤ (i 0).val ∧ (i 0).val < base L + 10000 := by
  rw [Rect.mem_set_unit, Fin.forall_fin_two]
  have h1 : (i 1).val < 128 := (i 1).isLt
  constructor
  · rintro ⟨⟨ha, hb⟩, -⟩
    exact ⟨ha, hb⟩
  · rintro ⟨ha, hb⟩
    exact ⟨⟨ha, hb⟩, Nat.zero_le _, by show (i 1).val < 0 + 128; omega⟩

/-- Different chunks share no element: their rows are apart. -/
theorem ckSet_disjoint (j j' : Fin 125) (h : j ≠ j') : Disjoint (ckSet d L j) (ckSet d L j') := by
  rw [ckSet_eq, ckSet_eq]
  refine Rect.unit_disjoint (0 : Fin 2) ?_
  have hne : j.val ≠ j'.val := fun e => h (Fin.ext e)
  show base L + 80 * j.val + 80 ≤ base L + 80 * j'.val ∨ base L + 80 * j'.val + 80 ≤ base L + 80 * j.val
  omega

/-- The band is the union of the chunks: row e lies in chunk (e − base) / 80. -/
theorem bandSet_cover : bandSet d L = Finset.univ.biUnion (ckSet d L) := by
  rw [bandSet_eq]
  ext i
  rw [mem_bandSet, Finset.mem_biUnion]
  constructor
  · rintro ⟨ha, hb⟩
    refine ⟨⟨((i 0).val - base L) / 80, by omega⟩, Finset.mem_univ _, ?_⟩
    rw [ckSet_eq, mem_ckSet]
    show base L + 80 * (((i 0).val - base L) / 80) ≤ (i 0).val ∧ (i 0).val < base L + 80 * (((i 0).val - base L) / 80) + 80
    omega
  · rintro ⟨j, -, hj⟩
    rw [ckSet_eq, mem_ckSet] at hj
    have := j.isLt
    omega

/-- HOLDING THE BAND IS HOLDING EVERY CHUNK, at one contents. -/
theorem band_eq_chunks (f : Buf (Elt F) (xLoc d)) :
    ((xW).view.loc (thr d L) ↦[bandSet d L]{fullShare} f : sProp 𝕄)
      = bigSep Finset.univ fun j : Fin 125 => (xW).view.loc (thr d L) ↦[ckSet d L j]{fullShare} f := by
  rw [bandSet_cover]
  exact pointsTo_biUnion Finset.univ (ckSet d L) fun j _ j' _ h => ckSet_disjoint d L j j' h

/-- The same as an equivalence of assertions. -/
theorem band_equiv_chunks (f : Buf (Elt F) (xLoc d)) :
    ((xW).view.loc (thr d L) ↦[bandSet d L]{fullShare} f : sProp 𝕄)
      ⊣⊢ bigSep Finset.univ fun j : Fin 125 => (xW).view.loc (thr d L) ↦[ckSet d L j]{fullShare} f :=
  ⟨Entails.of_eq (band_eq_chunks d L f), Entails.of_eq (band_eq_chunks d L f).symm⟩

/-- THE JOIN: chunks held at contents that each agree with one array function G on their own elements are the band
    held at G. -/
theorem chunks_join (g : Fin 125 → Buf (Elt F) (xLoc d)) (G : Buf (Elt F) (xLoc d))
    (hG : ∀ j, ∀ i ∈ ckSet d L j, g j i = G i) :
    (bigSep Finset.univ fun j : Fin 125 => ((xW).view.loc (thr d L) ↦[ckSet d L j]{fullShare} g j : sProp 𝕄))
      = ((xW).view.loc (thr d L) ↦[bandSet d L]{fullShare} G) := by
  rw [band_eq_chunks]
  exact bigSep_congr fun j _ => pointsTo_congr (hG j)

end Cover

end Cert.Proof.KI

end
-- ==== Proof.IdealTileInv.lean ====
import proofs.«202806_g74526272520516_cont_9to1_m_1211_39_alg».proof.Proof.IdealTileIface
import proofs.«202806_g74526272520516_cont_9to1_m_1211_39_alg».proof.Proof.TileValue
import proofs.«202806_g74526272520516_cont_9to1_m_1211_39_alg».proof.Proof.IdealBandChunks

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.ValueIdx

/-
  The state of a tile between two trips of its pipelined loop.

  Steps are numbered j = 0 … 124; step j works on rows [base + 80 j, base + 80 j + 80) of the tile's band ("chunk j")
  in slot j mod 2. Trip k of the loop runs step 2k in slot 0 and, when 2k + 1 < 125, step 2k + 1 in slot 1.
  Entering trip k (and after the last trip, k = 63), with n = min (2k) 125 steps started:
    · slot 0 has the two gathers of step 2k in flight when k ≤ 62, and is idle otherwise;
      slot 1 has the two gathers of step 2k + 1 in flight when k ≤ 61, and is idle otherwise;
    · each slot has the copy-out of its last started step in flight when k ≥ 1 (slot 0: step 2k − 2, or 124 at k = 63;
      slot 1: step 2k − 1, or 123 at k = 63), its product buffer lent to it, and is idle at k = 0;
    · chunks j ≥ n are untouched, chunks j with j + 2 < n hold the feature rows, the two chunks between are in flight.
-/

variable (m : (ℓ : Loc nD τ sig) → Buf (Elt F) ℓ) [FloatOps F]

section Tile
variable (d : Dev nD) (L : grid0.Coords)

abbrev zSl : Memref sig .scVector .hbm S10000x128 .f32 :=
  (zW).slice (Rect.unit (s := S10000x128) ![0, 0] S10000x128.size inb_S10000x128_S10000x128_0_0) (fun _ => rfl)

/-- The index scratches' contents after the tile's two first copies. -/
def isC (fe : Buf (Elt F) (eLoc d)) (f : Buf (Elt F) ((sIs).view.loc (thr d L))) : Buf (Elt F) ((sIs).view.loc (thr d L)) :=
  View.write (Elt F) (sIs).view f (ReadAs.same.apply (View.read (Elt F) (eSrc L).view fe)) Finset.univ
def idC (fe : Buf (Elt F) (eLoc d)) (f : Buf (Elt F) ((sId).view.loc (thr d L))) : Buf (Elt F) ((sId).view.loc (thr d L)) :=
  View.write (Elt F) (sId).view f (ReadAs.same.apply (View.read (Elt F) (eDst L).view fe)) Finset.univ

/-- Each slot reads the index scratches through its own half share. -/
abbrev qA : PosShare TreeShare := Transfers.shareDrop fullShare 1
abbrev qB : PosShare TreeShare := Transfers.shareTokN fullShare 0

/-- What a slot's source buffer holds after the gather of step j: the rows of z the step's source words name
    (destination buffer: the destination words, 320000 further on in the flattened edge list). -/
def GRows (B : Memref sig .scVector .vmem S80x128 .f32) (fe : Buf (Elt F) (eLoc d)) (shift j : ℕ) (g : Buf (Elt F) ((B).view.loc (thr d L))) : Prop :=
  ∀ (r : Fin 80) (l : Fin 128) (hb : shift + base L + 80 * j + r.val < 640000),
    View.read (Elt F) (B).view g (ix2 r l) = m (zLoc d) (ix2 (Cert.Feature.row fe ⟨shift + base L + 80 * j + r.val, hb⟩) l)

/-- A gather in flight into buffer B from the 80-word window at off of index scratch I: it delivers B at g, the
    window's share of the scratch, and the read share of z it borrowed. -/
def GFl (sem : DmaSem sig) (B : Memref sig .scVector .vmem S80x128 .f32) (I : Memref sig .scVector .vmem S10000 .i32)
    (qt qzb : PosShare TreeShare) (ic : Buf (Elt F) ((I).view.loc (thr d L))) (off : Fin 1 → ℕ) (h : ∀ a, off a + S80.size a ≤ S10000.size a)
    (g : Buf (Elt F) ((B).view.loc (thr d L))) : sProp 𝕄 :=
  Transfers.Flight countersEmb (thr d L) (SemLoc.dma sem) default 327680
    iprop((((B).view.loc (thr d L) ↦[(B).view.set]{fullShare} g)
        ∗ ((I).view.loc (thr d L) ↦[((I).slice (Rect.unit (s := S10000) off S80.size h) (fun _ => rfl)).view.set]{qt} ic))
      ∗ ((zW).view.loc (thr d L) ↦[(zSl).view.set]{qzb} m (zLoc d)))

/-- A copy-out in flight from product buffer P into the 80-row window at off of x: it delivers the window at fx and P back. -/
def SFl (sem : DmaSem sig) (P : Memref sig .scVector .vmem S80x128 .f32) (off : Fin 2 → ℕ) (h : ∀ a, off a + S80x128.size a ≤ S320000x128.size a)
    (fx : Buf (Elt F) ((xW).view.loc (thr d L))) (p : Buf (Elt F) ((P).view.loc (thr d L))) : sProp 𝕄 :=
  Transfers.Flight countersEmb (thr d L) (SemLoc.dma sem) default 327680
    iprop(((xW).view.loc (thr d L) ↦[((xW).slice (Rect.unit (s := S320000x128) off S80x128.size h) (fun _ => rfl)).view.set]{fullShare} fx)
      ∗ ((P).view.loc (thr d L) ↦[(P).view.set]{fullShare} p))

/-- One slot between trips: semG / semD its gather cells, semP its copy-out cell, R / Dd / P its three buffers, qt its half
    of the index scratches, qz0 / qz1 its two read tokens of z; gat = some j: the gathers of step j are in flight;
    out = some j: the copy-out of step j is in flight. -/
def Slot (semG semD semP : DmaSem sig) (R Dd P : Memref sig .scVector .vmem S80x128 .f32) (qt qz0 qz1 : PosShare TreeShare)
    (fe : Buf (Elt F) (eLoc d)) (isc : Buf (Elt F) ((sIs).view.loc (thr d L))) (idc : Buf (Elt F) ((sId).view.loc (thr d L)))
    (gat out : Option ℕ) : sProp 𝕄 :=
  iprop(((zW).view.loc (thr d L) ↦[Finset.univ \ (zSl).view.set]{qz0} m (zLoc d))
    ∗ ((zW).view.loc (thr d L) ↦[Finset.univ \ (zSl).view.set]{qz1} m (zLoc d))
    ∗ (match gat with
        | some j => iprop(∃ (off : Fin 1 → ℕ) (h : ∀ a, off a + S80.size a ≤ S10000.size a) (gS : Buf (Elt F) ((R).view.loc (thr d L))) (gD : Buf (Elt F) ((Dd).view.loc (thr d L))),
            ⌜off 0 = 80 * j ∧ GRows m d L R fe 0 j gS ∧ GRows m d L Dd fe 320000 j gD⌝
            ∗ GFl m d L semG R sIs qt qz0 isc off h gS ∗ GFl m d L semD Dd sId qt qz1 idc off h gD
            ∗ ((sIs).view.loc (thr d L) ↦[Finset.univ \ ((sIs).slice (Rect.unit (s := S10000) off S80.size h) (fun _ => rfl)).view.set]{qt} isc)
            ∗ ((sId).view.loc (thr d L) ↦[Finset.univ \ ((sId).slice (Rect.unit (s := S10000) off S80.size h) (fun _ => rfl)).view.set]{qt} idc))
        | none => iprop(semVal (thr d L, SemLoc.dma semG) 0 ∗ semVal (thr d L, SemLoc.dma semD) 0
            ∗ ((zW).view.loc (thr d L) ↦[(zSl).view.set]{qz0} m (zLoc d)) ∗ ((zW).view.loc (thr d L) ↦[(zSl).view.set]{qz1} m (zLoc d))
            ∗ (∃ g, (R).view.loc (thr d L) ↦[(R).view.set]{fullShare} g) ∗ (∃ g, (Dd).view.loc (thr d L) ↦[(Dd).view.set]{fullShare} g)
            ∗ ((sIs).view.loc (thr d L) ↦{qt} isc) ∗ ((sId).view.loc (thr d L) ↦{qt} idc)))
    ∗ (match out with
        | some j => iprop(∃ (off : Fin 2 → ℕ) (h : ∀ a, off a + S80x128.size a ≤ S320000x128.size a) (fx : Buf (Elt F) ((xW).view.loc (thr d L))) (p : Buf (Elt F) ((P).view.loc (thr d L))),
            ⌜off = ![base L + 80 * j, 0] ∧ ∀ i ∈ ((xW).slice (Rect.unit (s := S320000x128) off S80x128.size h) (fun _ => rfl)).view.set, fx i = Cert.Feature.XF (m (zLoc d)) fe i⌝
            ∗ SFl d L semP P off h fx p)
        | none => iprop(semVal (thr d L, SemLoc.dma semP) 0 ∗ ∃ p, (P).view.loc (thr d L) ↦[(P).view.set]{fullShare} p)))

/-- The steps started on entering trip k. -/
def started (k : ℕ) : ℕ := min (2 * k) 125

def gat0 (k : ℕ) : Option ℕ := if k ≤ 62 then some (2 * k) else none
def gat1 (k : ℕ) : Option ℕ := if k ≤ 61 then some (2 * k + 1) else none
def out0 (k : ℕ) : Option ℕ := if k = 0 then none else if k ≤ 62 then some (2 * k - 2) else some 124
def out1 (k : ℕ) : Option ℕ := if k = 0 then none else if k ≤ 62 then some (2 * k - 1) else some 123

/-- The band's chunks not yet started, at the contents the tile was handed. -/
def XUntouched (fx0 : Buf (Elt F) (xLoc d)) (k : ℕ) : sProp 𝕄 :=
  bigSep (Finset.univ.filter fun j : Fin 125 => started k ≤ j.val) fun j => (xW).view.loc (thr d L) ↦[ckSet d L j]{fullShare} fx0
/-- The band's chunks whose copy-out has been waited for, at the feature rows. -/
def XDone (fe : Buf (Elt F) (eLoc d)) (k : ℕ) : sProp 𝕄 :=
  bigSep (Finset.univ.filter fun j : Fin 125 => j.val + 2 < started k) fun j =>
    (xW).view.loc (thr d L) ↦[ckSet d L j]{fullShare} Cert.Feature.XF (m (zLoc d)) fe

/-- The loop's invariant on entering trip k (the carried word is of no interest). -/
def Inv (qz : PosShare TreeShare) (fe : Buf (Elt F) (eLoc d)) (fx0 : Buf (Elt F) (xLoc d))
    (isc : Buf (Elt F) ((sIs).view.loc (thr d L))) (idc : Buf (Elt F) ((sId).view.loc (thr d L)))
    (O : CellTallies nD τ sig (HIx 1)) (W : Waits sig (HIx 1)) (k : ℕ) (_ : BitVec 32) : sProp 𝕄 :=
  iprop(Transfers.MayWaits (thr d L) (none : HIx 1) O
    ∗ Slot m d L cc0_scratch8.sem cc0_scratch9.sem cc0_scratch12.sem sR0 sD0 sP0 qA (Transfers.shareTokN qz 0) (Transfers.shareTokN qz 1) fe isc idc (gat0 k) (out0 k)
    ∗ Slot m d L cc0_scratch10.sem cc0_scratch11.sem cc0_scratch13.sem sR1 sD1 sP1 qB (Transfers.shareTokN qz 2) (Transfers.shareTokN qz 3) fe isc idc (gat1 k) (out1 k)
    ∗ XUntouched d L fx0 k ∗ XDone m d L fe k
    ∗ ∃ W', ⌜∀ p ∈ W', p ∈ W ∨ p.2 = none⌝ ∗ owes (thr d L) O W')

end Tile

end Cert.Proof.KI

end
-- ==== Proof.IdealTileFacts.lean ====
/-
  Three facts about the values a tile's step moves, stated against the loop invariant's own predicates.

  Step j of tile L works on rows base + 80·j … base + 80·j + 79 of the feature array. (1) What a gather delivers into a
  slot buffer — written over the whole buffer — is the rows of z that the step's 80 source words name (for the
  destination buffer: the 80 destination words, 320000 further on in the flattened edge list); every word names a row
  of z, so reducing it into [0, 10000) changes nothing. (2) The lane-by-lane product of two such buffers is the feature
  array on the step's rows. (3) Copying that product into the step's 80-row window of the feature array leaves the
  window at the feature array.
-/
import proofs.«202806_g74526272520516_cont_9to1_m_1211_39_alg».proof.Proof.IdealTileInv

noncomputable section

namespace Cert.Proof.KI

open Cert.KernelIdeal Cert.KernelIdeal.Gen
open Idealize.ShloMosaic Idealize.ShloMosaic.ValueIdx
open Idealize.ShloMosaic.SparseCore (S V T)

variable {F : FTy → Type}
variable (m : (ℓ : Loc nD τ sig) → Buf (Elt F) ℓ) [FloatOps F]

section Tile
variable (d : Dev nD) (L : grid0.Coords)

omit [FloatOps F] in
/-- A buffer written over its whole rectangle reads back what was written. -/
theorem read_writes_whole (B : Memref sig .scVector .vmem S80x128 .f32) (f : Buf (Elt F) ((B).view.loc (thr d L)))
    (w : S80x128.Idx → Elt F .f32) (y : S80x128.Idx) :
    View.read (Elt F) (B).view ((B).view.writes (Elt F) f [⟨Rect.whole S80x128, w⟩]) y = w y := by
  have e := View.read_writes_cons_emb (B).view f (Rect.whole S80x128) w [] y
  rwa [Rect.emb_whole_apply] at e

omit [FloatOps F] in
/-- (1) SOURCE: after the gather of step j through the window at 80·j of the source-index scratch, the buffer holds the
    rows of z the step's source words name. -/
theorem grows_src (fe : Buf (Elt F) (eLoc d)) (hfe : ∀ j, (fe j).toNat < 10000)
    (B : Memref sig .scVector .vmem S80x128 .f32) (f : Buf (Elt F) ((B).view.loc (thr d L)))
    (fis : Buf (Elt F) ((sIs).view.loc (thr d L))) (j : ℕ) (hj : 80 * j + 80 ≤ 10000)
    (off : Fin 1 → ℕ) (ho : off 0 = 80 * j) (h : ∀ a, off a + S80.size a ≤ S10000.size a)
    (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) ((sIs).slice (Rect.unit (s := S10000) off S80.size h) hs).view (isC d L fe fis) x).toNat
      < S10000x128.size gathers_S10000x128_S80x128.axis) :
    GRows m d L B fe 0 j ((B).view.writes (Elt F) f [⟨Rect.whole S80x128,
      SparseCore.gatherPayload gathers_S10000x128_S80x128
        (View.read (Elt F) ((zW).slice (Rect.unit (s := S10000x128) ![0, 0] S10000x128.size inb_S10000x128_S10000x128_0_0) hz).view (m (zLoc d)))
        (SparseCore.rows (View.read (Elt F) ((sIs).slice (Rect.unit (s := S10000) off S80.size h) hs).view (isC d L fe fis)) hn hin)⟩]) := by
  intro r l hb
  rw [read_writes_whole, Cert.Feature.gathered_apply]
  refine congrArg (m (zLoc d)) (funext fun a => Fin.ext ?_)
  match a with
  | ⟨0, _⟩ =>
    show (isC d L fe fis (ix1 _)).toNat = (Cert.Feature.row fe _).val
    rw [Cert.Feature.row_val fe hfe]
    unfold isC
    rw [Cert.Feature.isC_apply]
    refine congrArg (fun i => (fe (ix1 i)).toNat) (Fin.ext ?_)
    show 20000 * (L 1).val + 10000 * (L 0).val + (off 0 + r.val) = 0 + base L + 80 * j + r.val
    unfold base; omega
  | ⟨1, _⟩ => rfl

omit [FloatOps F] in
/-- (1) DESTINATION: the same through the destination-index scratch, whose words are 320000 further on. -/
theorem grows_dst (fe : Buf (Elt F) (eLoc d)) (hfe : ∀ j, (fe j).toNat < 10000)
    (B : Memref sig .scVector .vmem S80x128 .f32) (f : Buf (Elt F) ((B).view.loc (thr d L)))
    (fid : Buf (Elt F) ((sId).view.loc (thr d L))) (j : ℕ) (hj : 80 * j + 80 ≤ 10000)
    (off : Fin 1 → ℕ) (ho : off 0 = 80 * j) (h : ∀ a, off a + S80.size a ≤ S10000.size a)
    (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) ((sId).slice (Rect.unit (s := S10000) off S80.size h) hs).view (idC d L fe fid) x).toNat
      < S10000x128.size gathers_S10000x128_S80x128.axis) :
    GRows m d L B fe 320000 j ((B).view.writes (Elt F) f [⟨Rect.whole S80x128,
      SparseCore.gatherPayload gathers_S10000x128_S80x128
        (View.read (Elt F) ((zW).slice (Rect.unit (s := S10000x128) ![0, 0] S10000x128.size inb_S10000x128_S10000x128_0_0) hz).view (m (zLoc d)))
        (SparseCore.rows (View.read (Elt F) ((sId).slice (Rect.unit (s := S10000) off S80.size h) hs).view (idC d L fe fid)) hn hin)⟩]) := by
  intro r l hb
  rw [read_writes_whole, Cert.Feature.gathered_apply_dst]
  refine congrArg (m (zLoc d)) (funext fun a => Fin.ext ?_)
  match a with
  | ⟨0, _⟩ =>
    show (idC d L fe fid (ix1 _)).toNat = (Cert.Feature.row fe _).val
    rw [Cert.Feature.row_val fe hfe]
    unfold idC
    rw [Cert.Feature.idC_apply]
    refine congrArg (fun i => (fe (ix1 i)).toNat) (Fin.ext ?_)
    show 20000 * (L 1).val + 10000 * (L 0).val + 320000 + (off 0 + r.val) = 320000 + base L + 80 * j + r.val
    unfold base; omega
  | ⟨1, _⟩ => rfl

/-- Row r of step j is an edge of the tile: base + 80·j + r < 320000. -/
theorem chunkRow_lt (j : ℕ) (hj : 80 * j + 80 ≤ 10000) (r : Fin 80) : base L + 80 * j + r.val < 320000 := by
  have := base_le L; have := r.isLt; omega

/-- (2) THE PRODUCT: if p' is, entry by entry, the product of a source buffer and a destination buffer of step j, it is
    the feature array on rows base + 80·j + r. -/
theorem prod_rows (fe : Buf (Elt F) (eLoc d)) (R Dd : Memref sig .scVector .vmem S80x128 .f32)
    (gS : Buf (Elt F) ((R).view.loc (thr d L))) (gD : Buf (Elt F) ((Dd).view.loc (thr d L))) (j : ℕ) (hj : 80 * j + 80 ≤ 10000)
    (hS : GRows m d L R fe 0 j gS) (hD : GRows m d L Dd fe 320000 j gD) (p' : S80x128.Idx → Elt F .f32)
    (hp : ∀ (r : Fin 80) (l : Fin 128), p' (ix2 r l)
      = FloatOps.mulf (View.read (Elt F) (R).view gS (ix2 r l)) (View.read (Elt F) (Dd).view gD (ix2 r l)))
    (r : Fin 80) (l : Fin 128) :
    p' (ix2 r l) = Cert.Feature.XF (m (zLoc d)) fe (ix2 (⟨base L + 80 * j + r.val, chunkRow_lt L j hj r⟩ : Fin 320000) l) := by
  have hb0 : 0 + base L + 80 * j + r.val < 640000 := by have := chunkRow_lt L j hj r; omega
  have hb1 : 320000 + base L + 80 * j + r.val < 640000 := by have := chunkRow_lt L j hj r; omega
  rw [hp r l, hS r l hb0, hD r l hb1, Cert.Feature.XF_apply]
  congr 1
  · refine congrArg (fun i => m (zLoc d) (ix2 (Cert.Feature.row fe i) l)) (Fin.ext ?_)
    show 0 + base L + 80 * j + r.val = base L + 80 * j + r.val
    omega
  · refine congrArg (fun i => m (zLoc d) (ix2 (Cert.Feature.row fe i) l)) (Fin.ext ?_)
    show 320000 + base L + 80 * j + r.val = 320000 + (base L + 80 * j + r.val)
    omega

/-- (3) THE WINDOW: a product buffer that holds the feature array on the step's rows, copied into the step's 80-row window
    of the feature array (over any prior contents fx), leaves every element of the window at the feature array. -/
theorem window_rows (fe : Buf (Elt F) (eLoc d)) (P : Memref sig .scVector .vmem S80x128 .f32)
    (p' : Buf (Elt F) ((P).view.loc (thr d L))) (j : ℕ) (hj : 80 * j + 80 ≤ 10000)
    (hp : ∀ (r : Fin 80) (l : Fin 128), View.read (Elt F) (P).view p' (ix2 r l)
      = Cert.Feature.XF (m (zLoc d)) fe (ix2 (⟨base L + 80 * j + r.val, chunkRow_lt L j hj r⟩ : Fin 320000) l))
    (off : Fin 2 → ℕ) (hoff : off = ![base L + 80 * j, 0]) (h : ∀ a, off a + S80x128.size a ≤ S320000x128.size a)
    (fx : Buf (Elt F) ((xW).view.loc (thr d L))) :
    ∀ i ∈ ((xW).slice (Rect.unit (s := S320000x128) off S80x128.size h) (fun _ => rfl)).view.set,
      View.write (Elt F) ((xW).slice (Rect.unit (s := S320000x128) off S80x128.size h) (fun _ => rfl)).view fx
        (ReadAs.same.apply (View.read (Elt F) (P).view p')) Finset.univ i = Cert.Feature.XF (m (zLoc d)) fe i := by
  subst hoff
  intro i hi
  obtain ⟨y, -, rfl⟩ := Finset.mem_map.mp hi
  rw [View.write_emb_of_mem _ _ (Finset.mem_univ y)]
  obtain ⟨r, l, rfl⟩ : ∃ (r : Fin 80) (l : Fin 128), y = ix2 r l := ⟨y 0, y 1, eq_ix2 y⟩
  show View.read (Elt F) (P).view p' (ix2 r l) = _
  rw [hp r l]
  refine congrArg (Cert.Feature.XF (m (zLoc d)) fe) (funext fun a => Fin.ext ?_)
  match a with
  | ⟨0, _⟩ =>
    show base L + 80 * j + r.val = (base L + 80 * j) + 1 * r.val
    omega
  | ⟨1, _⟩ =>
    show l.val = 0 + 1 * l.val
    omega

/-- (3) again, the copy's delivery spelt as one piece written over the whole window: the same contents at every element of
    the window. A piece over the whole rectangle of a view lands where the view itself puts its indices. -/
theorem window_rows_w (fe : Buf (Elt F) (eLoc d)) (P : Memref sig .scVector .vmem S80x128 .f32)
    (p' : Buf (Elt F) ((P).view.loc (thr d L))) (j : ℕ) (hj : 80 * j + 80 ≤ 10000)
    (hp : ∀ (r : Fin 80) (l : Fin 128), View.read (Elt F) (P).view p' (ix2 r l)
      = Cert.Feature.XF (m (zLoc d)) fe (ix2 (⟨base L + 80 * j + r.val, chunkRow_lt L j hj r⟩ : Fin 320000) l))
    (off : Fin 2 → ℕ) (hoff : off = ![base L + 80 * j, 0]) (h : ∀ a, off a + S80x128.size a ≤ S320000x128.size a)
    (fx : Buf (Elt F) ((xW).view.loc (thr d L))) :
    ∀ i ∈ ((xW).slice (Rect.unit (s := S320000x128) off S80x128.size h) (fun _ => rfl)).view.set,
      ((xW).slice (Rect.unit (s := S320000x128) off S80x128.size h) (fun _ => rfl)).view.writes (Elt F) fx
        [⟨Rect.whole S80x128, ReadAs.same.apply (View.read (Elt F) (P).view p')⟩] i = Cert.Feature.XF (m (zLoc d)) fe i := by
  subst hoff
  intro i hi
  obtain ⟨y, -, rfl⟩ := Finset.mem_map.mp hi
  have e : ((xW).slice (Rect.unit (s := S320000x128) ![base L + 80 * j, 0] S80x128.size h) (fun _ => rfl)).view.emb y
      = ((((xW).slice (Rect.unit (s := S320000x128) ![base L + 80 * j, 0] S80x128.size h) (fun _ => rfl)).view).slice (Rect.whole S80x128)).emb y := by
    show _ = ((xW).slice (Rect.unit (s := S320000x128) ![base L + 80 * j, 0] S80x128.size h) (fun _ => rfl)).view.emb ((Rect.whole S80x128).emb y)
    rw [Rect.emb_whole_apply]
  rw [View.writes_singleton, e, View.write_emb_of_mem _ _ (Finset.mem_univ y)]
  obtain ⟨r, l, rfl⟩ : ∃ (r : Fin 80) (l : Fin 128), y = ix2 r l := ⟨y 0, y 1, eq_ix2 y⟩
  show View.read (Elt F) (P).view p' (ix2 r l) = _
  rw [hp r l, ← e]
  refine congrArg (Cert.Feature.XF (m (zLoc d)) fe) (funext fun a => Fin.ext ?_)
  match a with
  | ⟨0, _⟩ =>
    show base L + 80 * j + r.val = (base L + 80 * j) + 1 * r.val
    omega
  | ⟨1, _⟩ =>
    show l.val = 0 + 1 * l.val
    omega

end Tile

end Cert.Proof.KI

end
-- ==== Proof.IdealTileRun.lean ====
/-
  A tile's whole task from one trip of its loop.

  Before the loop the tile copies its two slices of the flattened edge list into its index scratches and starts the
  gathers of steps 0 and 1: that establishes the loop's invariant at trip 0 (each slot reading the index scratches
  through its own half share, each gather reading z through its own read token; no chunk started, none finished).
  Each trip keeps the invariant (taken as given here). After the last trip both slots' gathers are idle and the
  copy-outs of steps 124 and 123 are in flight: the two final waits deliver those chunks at the feature rows, and with
  the 123 finished chunks they are the whole band; the read tokens of z, the halves of the index scratches and the
  buffers go back as they came.
-/
import proofs.«202806_g74526272520516_cont_9to1_m_1211_39_alg».proof.Proof.IdealTileFacts

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.ValueIdx

variable (m : (ℓ : Loc nD τ sig) → Buf (Elt F) ℓ) [FloatOps F]

/-- A resource put aside: the same assertion under another name. -/
@[irreducible] def Kept (P : sProp 𝕄) : sProp 𝕄 := P
omit [FloatOps F] in
theorem kept_in (P : sProp 𝕄) : P ⊢ Kept P := by unfold Kept; exact BI.Entails.refl _
omit [FloatOps F] in
theorem kept_out (P : sProp 𝕄) : Kept P ⊢ P := by unfold Kept; exact BI.Entails.refl _

omit [FloatOps F] in
/-- A points-to splits into four read tokens and a remainder. -/
theorem toks4 {ℓ : Loc nD τ sig} (q : PosShare TreeShare) (f : Buf (Elt F) ℓ) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h := Transfers.pointsTo_toks_range (nD := nD) (τ := τ) (sig := sig) (Ix := HIx 1) (Val := Elt F) (Name := ℕ) (U := UU) (Lvl := ℕ) (ℓ := ℓ) (S := Finset.univ) (f := f) q 4
  rw [show Finset.range 4 = {0, 1, 2, 3} by decide, SparseCore.bigSep_insert' (by decide), SparseCore.bigSep_insert' (by decide),
    SparseCore.bigSep_insert' (by decide), bigSep_singleton] at h
  exact h

omit [FloatOps F] in
/-- A points-to splits into two halves. -/
theorem halves {ℓ : Loc nD τ sig} (q : PosShare TreeShare) (f : Buf (Elt F) ℓ) :
    (ℓ ↦{q} f : sProp 𝕄) ⊣⊢ iprop((ℓ ↦{Transfers.shareDrop q 1} f) ∗ (ℓ ↦{Transfers.shareTokN q 0} f)) := by
  have h := Transfers.pointsTo_toks_range (nD := nD) (τ := τ) (sig := sig) (Ix := HIx 1) (Val := Elt F) (Name := ℕ) (U := UU) (Lvl := ℕ) (ℓ := ℓ) (S := Finset.univ) (f := f) q 1
  rw [show Finset.range 1 = {0} by decide, bigSep_singleton] at h
  exact h

/-- One trip of the loop keeps the invariant: the statement the tile's run takes as given. -/
def TripStmt : Prop :=
  ∀ (d : Dev nD) (L : grid0.Coords) (qz : PosShare TreeShare) (fe : Buf (Elt F) (eLoc d)) (_ : ∀ j, (fe j).toNat < 10000) (fx0 : Buf (Elt F) (xLoc d))
    (fis : Buf (Elt F) ((sIs).view.loc (thr d L))) (fid : Buf (Elt F) ((sId).view.loc (thr d L)))
    (O : CellTallies nD τ sig (HIx 1)) (W : Waits sig (HIx 1)) (t : Fin k0_t1_loop.trips) (v : BitVec 32),
    Inv m d L qz fe fx0 (isC d L fe fis) (idC d L fe fid) O W t.val v
      ⊢ wp frame (wpE (defs₀ (F := F)) 𝒱₀ (thr d L) none) Set.univ
          (k0_t1_body L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1 t v)
          (fun v' => Inv m d L qz fe fx0 (isC d L fe fis) (idC d L fe fid) O W (t.val + 1) v')

set_option maxHeartbeats 2000000 in
theorem tile_core_of_trip (htrip : TripStmt m) : TileCore m := by
  intro d L qz fe hfe fx0 O W hO
  rw [cc0__sc_gather_mul_eq_skeleton]; unfold cc0__sc_gather_mul_skel
  rw [k0_part5_eq_skeleton]; unfold k0_part5_skel
  simp only [bind_assoc]
  unfold tileRes tileOwn
  iintro ⟨#Hlv, ⟨Hz, Hes, Hed, Hx⟩, ⟨⟨%fis, His⟩, ⟨%fid, Hid⟩, ⟨%f2, Hr0⟩, ⟨%f3, Hd0⟩, ⟨%f4, Hr1⟩, ⟨%f5, Hd1⟩, ⟨%f6, Hp0⟩, ⟨%f7, Hp1⟩,
    Hg0, Hg1, Hg2, Hg3, Hs0, Hs1, Hc0, Hc1⟩, HO⟩
  ihave Hmw := ((K (F := F)).mayWaits_none (thr := thr d L) hO) $$ Hlv
  ihave Hzt := (toks4 (F := F) qz _).1 $$ Hz
  icases Hzt with ⟨HzR, Hz0, Hz1, Hz2, Hz3⟩
  ihave HxK := (kept_in (F := F) _) $$ Hx
  -- the two index copies
  sl_exec
  ihave Ht := (halves (F := F) fullShare _).1 $$ His
  icases Ht with ⟨HisA, HisB⟩
  ihave Ht := (halves (F := F) fullShare _).1 $$ Hid
  icases Ht with ⟨HidA, HidB⟩
  have hinS : ∀ (g : Buf (Elt F) ((sIs).view.loc (thr d L))) (off : Fin 1 → Nat) (h : ∀ a, off a + S80.size a ≤ S10000.size a) (hs) (x : S80.Idx),
      (((sIs).slice (Rect.unit (s := S10000) off S80.size h) hs).view.read (Elt F)
        (View.write (Elt F) (sIs).view g ((eSrc L).view.read (Elt F) fe) Finset.univ) x).toNat < 10000 := by
    intro g off h hs x
    rw [View.write_whole_univ, View.read_apply, View.read_apply]
    exact hfe _
  have hinD : ∀ (g : Buf (Elt F) ((sId).view.loc (thr d L))) (off : Fin 1 → Nat) (h : ∀ a, off a + S80.size a ≤ S10000.size a) (hs) (x : S80.Idx),
      (((sId).slice (Rect.unit (s := S10000) off S80.size h) hs).view.read (Elt F)
        (View.write (Elt F) (sId).view g ((eDst L).view.read (Elt F) fe) Finset.univ) x).toNat < 10000 := by
    intro g off h hs x
    rw [View.write_whole_univ, View.read_apply, View.read_apply]
    exact hfe _
  -- slot 0's two gathers: slot 1's halves of the index scratches and its two cells put aside
  ihave HisBk := (kept_in (F := F) _) $$ HisB
  ihave HidBk := (kept_in (F := F) _) $$ HidB
  ihave Hg2k := (kept_in (F := F) _) $$ Hg2
  ihave Hg3k := (kept_in (F := F) _) $$ Hg3
  sl_exec
  -- slot 1's two gathers: slot 0's remainders put aside
  ihave HisAk := (kept_in (F := F) _) $$ HisA
  ihave HidAk := (kept_in (F := F) _) $$ HidA
  ihave HisB := (kept_out (F := F) _) $$ HisBk
  ihave HidB := (kept_out (F := F) _) $$ HidBk
  ihave Hg2 := (kept_out (F := F) _) $$ Hg2k
  ihave Hg3 := (kept_out (F := F) _) $$ Hg3k
  sl_exec
  ihave HisA := (kept_out (F := F) _) $$ HisAk
  ihave HidA := (kept_out (F := F) _) $$ HidAk
  ihave Hx := (kept_out (F := F) _) $$ HxK
  -- the four gathers' delivered contents, named
  generalize hg0 : (sR0).view.writes (Elt F) f2 _ = g0
  generalize hg1 : (sD0).view.writes (Elt F) f3 _ = g1
  generalize hg2 : (sR1).view.writes (Elt F) f4 _ = g2
  generalize hg3 : (sD1).view.writes (Elt F) f5 _ = g3
  sl_for (Inv m d L qz fe fx0 (isC d L fe fis) (idC d L fe fid) O W) $$ [Hmw Hg0 Hz0 Hg1 Hz1 HisA HidA Hg2 Hz2 HisB Hg3 Hz3 HidB Hp0 Hp1 Hs0 Hs1 Hx HO]
  case region =>
    intro k v
    exact htrip d L qz fe hfe fx0 fis fid O W k v
  · -- the invariant on entering trip 0
    unfold Inv
    isplitr; · iexact Hmw
    isplitl [Hg0 Hz0 Hg1 Hz1 HisA HidA Hp0 Hs0]
    · rw [show gat0 0 = some 0 by decide, show out0 0 = none by decide]
      unfold Slot; dsimp only
      isplitl [Hz0]; · iexact Hz0
      isplitl [Hz1]; · iexact Hz1
      isplitl [Hg0 Hg1 HisA HidA]
      · iexists ![0], inb_S10000_S80_0, g0, g1
        isplitr
        · ipureintro
          refine ⟨rfl, ?_, ?_⟩
          · rw [← hg0]; exact grows_src m d L fe hfe sR0 f2 fis 0 (by omega) ![0] rfl _ _ _ _ _
          · rw [← hg1]; exact grows_dst m d L fe hfe sD0 f3 fid 0 (by omega) ![0] rfl _ _ _ _ _
        unfold GFl isC idC
        isplitl [Hg0]; · iexact Hg0
        isplitl [Hg1]; · iexact Hg1
        isplitl [HisA]; · iexact HisA
        iexact HidA
      · isplitl [Hs0]; · iexact Hs0
        iexists f6
        iapply (Entails.of_eq (by simp only [Memref.view_whole, View.set_whole])) $$ Hp0
    isplitl [Hg2 Hz2 Hg3 Hz3 HisB HidB Hp1 Hs1]
    · rw [show gat1 0 = some 1 by decide, show out1 0 = none by decide]
      unfold Slot; dsimp only
      isplitl [Hz2]; · iexact Hz2
      isplitl [Hz3]; · iexact Hz3
      isplitl [Hg2 Hg3 HisB HidB]
      · iexists ![80], inb_S10000_S80_80, g2, g3
        isplitr
        · ipureintro
          refine ⟨rfl, ?_, ?_⟩
          · rw [← hg2]; exact grows_src m d L fe hfe sR1 f4 fis 1 (by omega) ![80] rfl _ _ _ _ _
          · rw [← hg3]; exact grows_dst m d L fe hfe sD1 f5 fid 1 (by omega) ![80] rfl _ _ _ _ _
        unfold GFl isC idC
        isplitl [Hg2]; · iexact Hg2
        isplitl [Hg3]; · iexact Hg3
        isplitl [HisB]; · iexact HisB
        iexact HidB
      · isplitl [Hs1]; · iexact Hs1
        iexists f7
        iapply (Entails.of_eq (by simp only [Memref.view_whole, View.set_whole])) $$ Hp1
    isplitl [Hx]
    · -- no step started: every chunk of the band is untouched
      unfold XUntouched
      rw [show (Finset.univ.filter fun j : Fin 125 => started 0 ≤ j.val) = Finset.univ from
        Finset.filter_true_of_mem fun j _ => by simp [started]]
      iapply (Entails.of_eq (band_eq_chunks (F := F) d L fx0)) $$ Hx
    isplitr
    · unfold XDone
      rw [show (Finset.univ.filter fun j : Fin 125 => j.val + 2 < started 0) = ∅ from
        Finset.filter_false_of_mem fun j _ => by simp [started], bigSep_empty]
      iempintro
    iexists (insert (SemLoc.dma cc0_scoped1.sem, (default : HIx 1)) (insert (SemLoc.dma cc0_scoped0.sem, (default : HIx 1)) W)); isplitr
    · ipureintro
      intro p hp
      rcases Finset.mem_insert.mp hp with hp | hp
      · right; rw [hp]; rfl
      rcases Finset.mem_insert.mp hp with hp | hp
      · right; rw [hp]; rfl
      · exact .inl hp
    · iexact HO
  iintro %acc HI
  have htr : Scf.trips k0_t1_loop.lb k0_t1_loop.ub k0_t1_loop.st = 63 := by decide
  ihave HI := (Entails.of_eq (congrArg (fun k => Inv m d L qz fe fx0 (isC d L fe fis) (idC d L fe fid) O W k acc) htr)) $$ HI
  unfold Inv
  icases HI with ⟨-, HS0, HS1, HXU, HXD, ⟨%W', %hW', HO⟩⟩
  rw [show gat0 63 = none by decide, show out0 63 = some 124 by decide, show gat1 63 = none by decide, show out1 63 = some 123 by decide]
  unfold Slot; dsimp only
  icases HS0 with ⟨Hz0r, Hz1r, ⟨Hg0, Hg1, Hz0p, Hz1p, ⟨%gr0, Hr0'⟩, ⟨%gd0, Hd0'⟩, HisA, HidA⟩, ⟨%offa, %hxa, %fxa, %pa, %hfa, HF4⟩⟩
  icases HS1 with ⟨Hz2r, Hz3r, ⟨Hg2, Hg3, Hz2p, Hz3p, ⟨%gr1, Hr1'⟩, ⟨%gd1, Hd1'⟩, HisB, HidB⟩, ⟨%offb, %hxb, %fxb, %pb, %hfb, HF5⟩⟩
  unfold SFl
  sl_exec
  sl_step
  -- the band: chunks 124 and 123 as delivered, the finished chunks, nothing untouched
  obtain ⟨hoa, hva⟩ := hfa
  obtain ⟨hob, hvb⟩ := hfb
  subst hoa; subst hob
  have h124 : (124 : ℕ) < 125 := by omega
  have h123 : (123 : ℕ) < 125 := by omega
  have eA := slice_eq_xCk L (⟨124, h124⟩ : Fin 125) _ hxa rfl rfl
  have eB := slice_eq_xCk L (⟨123, h123⟩ : Fin 125) _ hxb rfl rfl
  have hU : (Finset.univ : Finset (Fin 125)) = insert (⟨124, h124⟩ : Fin 125) (insert (⟨123, h123⟩ : Fin 125)
      (Finset.univ.filter fun j : Fin 125 => j.val + 2 < started 63)) := by
    ext j
    rw [show started 63 = 125 by decide]
    simp only [Finset.mem_univ, Finset.mem_insert, Finset.mem_filter, true_and, true_iff, Fin.ext_iff]
    have := j.isLt
    omega
  have hn1 : (⟨124, h124⟩ : Fin 125) ∉ insert (⟨123, h123⟩ : Fin 125) (Finset.univ.filter fun j : Fin 125 => j.val + 2 < started 63) := by
    rw [show started 63 = 125 by decide]; simp [Fin.ext_iff]
  have hn2 : (⟨123, h123⟩ : Fin 125) ∉ (Finset.univ.filter fun j : Fin 125 => j.val + 2 < started 63) := by
    rw [show started 63 = 125 by decide]; simp
  have hjoin : iprop(((xW).view.loc (thr d L) ↦[ckSet d L ⟨124, h124⟩]{fullShare} Cert.Feature.XF (m (zLoc d)) fe)
        ∗ ((xW).view.loc (thr d L) ↦[ckSet d L ⟨123, h123⟩]{fullShare} Cert.Feature.XF (m (zLoc d)) fe) ∗ XDone m d L fe 63)
      ⊢ ((xW).view.loc (thr d L) ↦[bandSet d L]{fullShare} Cert.Feature.XF (m (zLoc d)) fe : sProp 𝕄) := by
    have e1 : (bigSep (Finset.univ : Finset (Fin 125)) fun j => ((xW).view.loc (thr d L) ↦[ckSet d L j]{fullShare} Cert.Feature.XF (m (zLoc d)) fe : sProp 𝕄))
        = iprop(((xW).view.loc (thr d L) ↦[ckSet d L ⟨124, h124⟩]{fullShare} Cert.Feature.XF (m (zLoc d)) fe)
          ∗ ((xW).view.loc (thr d L) ↦[ckSet d L ⟨123, h123⟩]{fullShare} Cert.Feature.XF (m (zLoc d)) fe)
          ∗ bigSep (Finset.univ.filter fun j : Fin 125 => j.val + 2 < started 63) fun j =>
              ((xW).view.loc (thr d L) ↦[ckSet d L j]{fullShare} Cert.Feature.XF (m (zLoc d)) fe)) := by
      conv_lhs => rw [hU]
      rw [SparseCore.bigSep_insert' hn1, SparseCore.bigSep_insert' hn2]
    unfold XDone
    rw [band_eq_chunks (F := F) d L, e1]
  isplitl [HzR Hz0r Hz1r Hz2r Hz3r Hz0p Hz1p Hz2p Hz3p Hes Hed HXD HF4_dst HF5_dst]
  · isplitl [HzR Hz0r Hz1r Hz2r Hz3r Hz0p Hz1p Hz2p Hz3p]
    · iapply (toks4 (F := F) qz _).2
      isplitl [HzR]; · iexact HzR
      isplitl [Hz0p Hz0r]; · iapply (pointsTo_split_subset (Finset.subset_univ _)).2; isplitl [Hz0p] <;> iassumption
      isplitl [Hz1p Hz1r]; · iapply (pointsTo_split_subset (Finset.subset_univ _)).2; isplitl [Hz1p] <;> iassumption
      isplitl [Hz2p Hz2r]; · iapply (pointsTo_split_subset (Finset.subset_univ _)).2; isplitl [Hz2p] <;> iassumption
      iapply (pointsTo_split_subset (Finset.subset_univ _)).2; isplitl [Hz3p] <;> iassumption
    isplitl [Hes]; · iexact Hes
    isplitl [Hed]; · iexact Hed
    iapply hjoin
    isplitl [HF4_dst]
    · ihave H4 := (Entails.of_eq (pointsTo_congr hva)) $$ HF4_dst
      iapply (Entails.of_eq (show ((xW).view.loc (thr d L) ↦[((xW).slice (Rect.unit (s := S320000x128) ![base L + 80 * 124, 0] S80x128.size hxa) (fun _ => rfl)).view.set]{fullShare} Cert.Feature.XF (m (zLoc d)) fe : sProp 𝕄)
          = ((xW).view.loc (thr d L) ↦[ckSet d L ⟨124, h124⟩]{fullShare} Cert.Feature.XF (m (zLoc d)) fe) from rfl)) $$ H4
    isplitl [HF5_dst]
    · ihave H5 := (Entails.of_eq (pointsTo_congr hvb)) $$ HF5_dst
      iapply (Entails.of_eq (show ((xW).view.loc (thr d L) ↦[((xW).slice (Rect.unit (s := S320000x128) ![base L + 80 * 123, 0] S80x128.size hxb) (fun _ => rfl)).view.set]{fullShare} Cert.Feature.XF (m (zLoc d)) fe : sProp 𝕄)
          = ((xW).view.loc (thr d L) ↦[ckSet d L ⟨123, h123⟩]{fullShare} Cert.Feature.XF (m (zLoc d)) fe) from rfl)) $$ H5
    iexact HXD
  isplitl [HisA HisB HidA HidB Hr0' Hd0' Hr1' Hd1' HF4_src HF5_src Hg0 Hg1 Hg2 Hg3 HF4 HF5 Hc0 Hc1]
  · isplitl [HisA HisB]
    · iexists _; iapply (halves (F := F) fullShare _).2; isplitl [HisA] <;> iassumption
    isplitl [HidA HidB]
    · iexists _; iapply (halves (F := F) fullShare _).2; isplitl [HidA] <;> iassumption
    isplitl [Hr0']; · iexists gr0; iapply (Entails.of_eq (by simp only [View.set_whole])) $$ Hr0'
    isplitl [Hd0']; · iexists gd0; iapply (Entails.of_eq (by simp only [View.set_whole])) $$ Hd0'
    isplitl [Hr1']; · iexists gr1; iapply (Entails.of_eq (by simp only [View.set_whole])) $$ Hr1'
    isplitl [Hd1']; · iexists gd1; iapply (Entails.of_eq (by simp only [View.set_whole])) $$ Hd1'
    isplitl [HF4_src]; · iexists pa; iapply (Entails.of_eq (by simp only [Memref.view_whole, View.set_whole])) $$ HF4_src
    isplitl [HF5_src]; · iexists pb; iapply (Entails.of_eq (by simp only [Memref.view_whole, View.set_whole])) $$ HF5_src
    isplitl [Hg0]; · iexact Hg0
    isplitl [Hg1]; · iexact Hg1
    isplitl [Hg2]; · iexact Hg2
    isplitl [Hg3]; · iexact Hg3
    isplitl [HF4]; · iexact HF4
    isplitl [HF5]; · iexact HF5
    isplitl [Hc0]; · iexact Hc0
    iexact Hc1
  iexists (insert (SemLoc.dma cc0_scratch13.sem, (default : HIx 1)) (insert (SemLoc.dma cc0_scratch12.sem, (default : HIx 1)) W')); isplitr
  · ipureintro
    intro p hp
    rcases Finset.mem_insert.mp hp with hp | hp
    · right; rw [hp]; rfl
    rcases Finset.mem_insert.mp hp with hp | hp
    · right; rw [hp]; rfl
    · exact hW' p hp
  · iexact HO

end Cert.Proof.KI

end
-- ==== Proof.IdealMulLoop.lean ====
/-
  The product loops of a vector subcore: each of the two counted loops multiplies two row buffers of shape [80, 128]
  pointwise into a third, one row per trip, eight lane groups of sixteen per row. Each loop is proved once at an
  invariant over a symbolic trip — the two sources unchanged, the first k rows of the product buffer done — and
  stated in continuation form: from the three buffers and what follows the loop, the loop's weakest precondition.
-/
import proofs.«202806_g74526272520516_cont_9to1_m_1211_39_alg».proof.Proof.IdealTileIface
import Idealize.ShloMosaic.Lib.Writes
import Idealize.ShloMosaic.Lib.ValueIdx
import Idealize.ShloMosaic.Lib.Pipeline.Value

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The pointwise product of two row buffers, one row of eight lane groups per trip -/

/-- A payload of the loop: the two loaded lane groups, flattened, multiplied and unflattened, is their pointwise product. -/
theorem pay_mul (u w : FVec F S1x16 .f32) (h : S1x16.ShapeCasts S16) (h' : S16.ShapeCasts S1x16) :
    shapeCast S1x16 (mulf (shapeCast S16 u h) (shapeCast S16 w h)) h' = mulf u w := by
  have e : ∀ (x y : FVec F S16 .f32), shapeCast S1x16 (mulf x y) h' = mulf (shapeCast S1x16 x h') (shapeCast S1x16 y h') :=
    fun _ _ => rfl
  rw [e, shapeCast_shapeCast, shapeCast_shapeCast]

/-- The pointwise product of two buffers of the scratch shape. -/
def prodBuf (a b : S80x128.Idx → F .f32) : S80x128.Idx → F .f32 := fun y => FloatOps.mulf (a y) (b y)

section Trip0
variable (d : Dev nD) (L : grid0.Coords)
variable (a : Buf (Elt F) ((sR0).view.loc (thr d L))) (b : Buf (Elt F) ((sD0).view.loc (thr d L))) (p : Buf (Elt F) ((sP0).view.loc (thr d L)))

/-- The eight stores of trip `k`: lane group `j` of row `k` receives the product of the two sources' lane groups. -/
def pieces0 (k : Fin k0_t2_loop.trips) : List (View.Piece (Elt F) S80x128 .f32) :=
  [⟨Rect.unit (s := S80x128) (k0_off12 k) S1x16.size (k0_off12_inb k),
      k0_pay8 (View.readAt (Elt F) sR0.view (Rect.unit (s := S80x128) (k0_off12 k) S1x16.size (k0_off12_inb k)).toLoadRect a)
        (View.readAt (Elt F) sD0.view (Rect.unit (s := S80x128) (k0_off12 k) S1x16.size (k0_off12_inb k)).toLoadRect b)⟩,
    ⟨Rect.unit (s := S80x128) (k0_off11 k) S1x16.size (k0_off11_inb k),
      k0_pay7 (View.readAt (Elt F) sR0.view (Rect.unit (s := S80x128) (k0_off11 k) S1x16.size (k0_off11_inb k)).toLoadRect a)
        (View.readAt (Elt F) sD0.view (Rect.unit (s := S80x128) (k0_off11 k) S1x16.size (k0_off11_inb k)).toLoadRect b)⟩,
    ⟨Rect.unit (s := S80x128) (k0_off10 k) S1x16.size (k0_off10_inb k),
      k0_pay6 (View.readAt (Elt F) sR0.view (Rect.unit (s := S80x128) (k0_off10 k) S1x16.size (k0_off10_inb k)).toLoadRect a)
        (View.readAt (Elt F) sD0.view (Rect.unit (s := S80x128) (k0_off10 k) S1x16.size (k0_off10_inb k)).toLoadRect b)⟩,
    ⟨Rect.unit (s := S80x128) (k0_off9 k) S1x16.size (k0_off9_inb k),
      k0_pay5 (View.readAt (Elt F) sR0.view (Rect.unit (s := S80x128) (k0_off9 k) S1x16.size (k0_off9_inb k)).toLoadRect a)
        (View.readAt (Elt F) sD0.view (Rect.unit (s := S80x128) (k0_off9 k) S1x16.size (k0_off9_inb k)).toLoadRect b)⟩,
    ⟨Rect.unit (s := S80x128) (k0_off8 k) S1x16.size (k0_off8_inb k),
      k0_pay4 (View.readAt (Elt F) sR0.view (Rect.unit (s := S80x128) (k0_off8 k) S1x16.size (k0_off8_inb k)).toLoadRect a)
        (View.readAt (Elt F) sD0.view (Rect.unit (s := S80x128) (k0_off8 k) S1x16.size (k0_off8_inb k)).toLoadRect b)⟩,
    ⟨Rect.unit (s := S80x128) (k0_off7 k) S1x16.size (k0_off7_inb k),
      k0_pay3 (View.readAt (Elt F) sR0.view (Rect.unit (s := S80x128) (k0_off7 k) S1x16.size (k0_off7_inb k)).toLoadRect a)
        (View.readAt (Elt F) sD0.view (Rect.unit (s := S80x128) (k0_off7 k) S1x16.size (k0_off7_inb k)).toLoadRect b)⟩,
    ⟨Rect.unit (s := S80x128) (k0_off6 k) S1x16.size (k0_off6_inb k),
      k0_pay2 (View.readAt (Elt F) sR0.view (Rect.unit (s := S80x128) (k0_off6 k) S1x16.size (k0_off6_inb k)).toLoadRect a)
        (View.readAt (Elt F) sD0.view (Rect.unit (s := S80x128) (k0_off6 k) S1x16.size (k0_off6_inb k)).toLoadRect b)⟩,
    ⟨Rect.unit (s := S80x128) (k0_off5 k) S1x16.size (k0_off5_inb k),
      k0_pay1 (View.readAt (Elt F) sR0.view (Rect.unit (s := S80x128) (k0_off5 k) S1x16.size (k0_off5_inb k)).toLoadRect a)
        (View.readAt (Elt F) sD0.view (Rect.unit (s := S80x128) (k0_off5 k) S1x16.size (k0_off5_inb k)).toLoadRect b)⟩]

/-- Each store's payload is the product buffer over its rectangle. -/
theorem pieces0_val (k : Fin k0_t2_loop.trips) :
    ∀ pc ∈ pieces0 d L a b k, ∀ x : pc.1.shape.Idx, pc.2 x = prodBuf a b (pc.1.emb x) := by
  intro pc hpc
  simp only [pieces0, List.mem_cons, List.not_mem_nil, _root_.or_false] at hpc
  rcases hpc with rfl | rfl | rfl | rfl | rfl | rfl | rfl | rfl <;> intro x
  · show k0_pay8 _ _ x = _
    unfold k0_pay8; rw [pay_mul]; rfl
  · show k0_pay7 _ _ x = _
    unfold k0_pay7; rw [pay_mul]; rfl
  · show k0_pay6 _ _ x = _
    unfold k0_pay6; rw [pay_mul]; rfl
  · show k0_pay5 _ _ x = _
    unfold k0_pay5; rw [pay_mul]; rfl
  · show k0_pay4 _ _ x = _
    unfold k0_pay4; rw [pay_mul]; rfl
  · show k0_pay3 _ _ x = _
    unfold k0_pay3; rw [pay_mul]; rfl
  · show k0_pay2 _ _ x = _
    unfold k0_pay2; rw [pay_mul]; rfl
  · show k0_pay1 _ _ x = _
    unfold k0_pay1; rw [pay_mul]; rfl

end Trip0

section Trip0v
variable (d : Dev nD) (L : grid0.Coords)
variable (a : Buf (Elt F) ((sR0).view.loc (thr d L))) (b : Buf (Elt F) ((sD0).view.loc (thr d L))) (p : Buf (Elt F) ((sP0).view.loc (thr d L)))

/-- Row `k` is covered by the trip's eight rectangles: lane `l` lies in the group `l / 16`. -/
theorem pieces0_cover (k : Fin k0_t2_loop.trips) (r : Fin 80) (l : Fin 128) (hr : r.val = k.val) :
    ∃ pc ∈ pieces0 d L a b k, (ix2 r l : S80x128.Idx) ∈ pc.1.set := by
  have h8 : l.val / 16 < 8 := by omega
  have hm : ∀ (off : Fin 2 → ℕ) (j : ℕ) inb, off = ![k.val, 16 * j] → l.val / 16 = j →
      (ix2 r l : S80x128.Idx) ∈ (Rect.unit (s := S80x128) off S1x16.size inb).set := by
    intro off j inb e hj
    subst e
    rw [Rect.mem_set_unit]
    refine Fin.forall_fin_two.mpr ⟨?_, ?_⟩
    · show k.val ≤ r.val ∧ r.val < k.val + 1
      omega
    · show 16 * j ≤ l.val ∧ l.val < 16 * j + 16
      omega
  unfold pieces0
  rcases (by omega : l.val / 16 = 7 ∨ l.val / 16 = 6 ∨ l.val / 16 = 5 ∨ l.val / 16 = 4 ∨ l.val / 16 = 3 ∨ l.val / 16 = 2
      ∨ l.val / 16 = 1 ∨ l.val / 16 = 0) with h | h | h | h | h | h | h | h
  · exact ⟨_, List.mem_cons_self, hm _ 7 (k0_off12_inb k) (k0_off12_eq k) h⟩
  · exact ⟨_, List.mem_cons_of_mem _ List.mem_cons_self, hm _ 6 (k0_off11_inb k) (k0_off11_eq k) h⟩
  · exact ⟨_, List.mem_cons_of_mem _ (List.mem_cons_of_mem _ List.mem_cons_self), hm _ 5 (k0_off10_inb k) (k0_off10_eq k) h⟩
  · exact ⟨_, List.mem_cons_of_mem _ (List.mem_cons_of_mem _ (List.mem_cons_of_mem _ List.mem_cons_self)), hm _ 4 (k0_off9_inb k) (k0_off9_eq k) h⟩
  · exact ⟨_, List.mem_cons_of_mem _ (List.mem_cons_of_mem _ (List.mem_cons_of_mem _ (List.mem_cons_of_mem _ List.mem_cons_self))),
      hm _ 3 (k0_off8_inb k) (k0_off8_eq k) h⟩
  · exact ⟨_, List.mem_cons_of_mem _ (List.mem_cons_of_mem _ (List.mem_cons_of_mem _ (List.mem_cons_of_mem _
      (List.mem_cons_of_mem _ List.mem_cons_self)))), hm _ 2 (k0_off7_inb k) (k0_off7_eq k) h⟩
  · exact ⟨_, List.mem_cons_of_mem _ (List.mem_cons_of_mem _ (List.mem_cons_of_mem _ (List.mem_cons_of_mem _
      (List.mem_cons_of_mem _ (List.mem_cons_of_mem _ List.mem_cons_self))))), hm _ 1 (k0_off6_inb k) (k0_off6_eq k) h⟩
  · exact ⟨_, List.mem_cons_of_mem _ (List.mem_cons_of_mem _ (List.mem_cons_of_mem _ (List.mem_cons_of_mem _
      (List.mem_cons_of_mem _ (List.mem_cons_of_mem _ (List.mem_cons_of_mem _ List.mem_cons_self)))))), hm _ 0 (k0_off5_inb k) (k0_off5_eq k) h⟩

/-- A row other than `k` meets none of the trip's rectangles. -/
theorem pieces0_miss (k : Fin k0_t2_loop.trips) (r : Fin 80) (l : Fin 128) (hr : r.val ≠ k.val) :
    ∀ pc ∈ pieces0 d L a b k, (ix2 r l : S80x128.Idx) ∉ pc.1.set := by
  have hm : ∀ (off : Fin 2 → ℕ) (j : ℕ) inb, off = ![k.val, j] →
      (ix2 r l : S80x128.Idx) ∉ (Rect.unit (s := S80x128) off S1x16.size inb).set := by
    intro off j inb e
    subst e
    rw [Rect.mem_set_unit]
    intro hall
    have h0 : k.val ≤ r.val ∧ r.val < k.val + 1 := hall 0
    omega
  intro pc hpc
  simp only [pieces0, List.mem_cons, List.not_mem_nil, _root_.or_false] at hpc
  rcases hpc with rfl | rfl | rfl | rfl | rfl | rfl | rfl | rfl
  · exact hm _ _ (k0_off12_inb k) (k0_off12_eq k)
  · exact hm _ _ (k0_off11_inb k) (k0_off11_eq k)
  · exact hm _ _ (k0_off10_inb k) (k0_off10_eq k)
  · exact hm _ _ (k0_off9_inb k) (k0_off9_eq k)
  · exact hm _ _ (k0_off8_inb k) (k0_off8_eq k)
  · exact hm _ _ (k0_off7_inb k) (k0_off7_eq k)
  · exact hm _ _ (k0_off6_inb k) (k0_off6_eq k)
  · exact hm _ _ (k0_off5_inb k) (k0_off5_eq k)

/-- One trip extends the finished rows by row `k`. -/
theorem trip0_val (k : Fin k0_t2_loop.trips)
    (hp : ∀ (r : Fin 80) (l : Fin 128), r.val < k.val → p (ix2 r l) = FloatOps.mulf (a (ix2 r l)) (b (ix2 r l))) :
    ∀ (r : Fin 80) (l : Fin 128), r.val < k.val + 1 →
      (sP0.view.writes (Elt F) p (pieces0 d L a b k)) (ix2 r l) = FloatOps.mulf (a (ix2 r l)) (b (ix2 r l)) := by
  intro r l hr
  rcases Nat.lt_succ_iff_lt_or_eq.mp hr with h | h
  · exact (View.read_writes_apply_of_forall_not_mem sP0.view p (ix2 r l) _ (pieces0_miss d L a b k r l (by omega))).trans (hp r l h)
  · exact View.read_writes_apply_of_pieces sP0.view p (prodBuf a b) _ (pieces0_val d L a b k) (ix2 r l) (pieces0_cover d L a b k r l h)

end Trip0v

section Loop0
variable (d : Dev nD) (L : grid0.Coords)

theorem trips0 : k0_t2_loop.trips = 80 := by decide

/-- Before trip `k`: the two sources as they were, the product buffer with its first `k` rows done. -/
def inv0 (q : PosShare TreeShare) (a : Buf (Elt F) ((sR0).view.loc (thr d L))) (b : Buf (Elt F) ((sD0).view.loc (thr d L)))
    (k : Nat) (_ : BitVec 32) : sProp 𝕄 :=
  iprop(((sR0).view.loc (thr d L) ↦{q} a) ∗ ((sD0).view.loc (thr d L) ↦{q} b)
    ∗ ∃ p : Buf (Elt F) ((sP0).view.loc (thr d L)), ((sP0).view.loc (thr d L) ↦{fullShare} p)
        ∗ ⌜∀ (r : Fin 80) (l : Fin 128), r.val < k → p (ix2 r l) = FloatOps.mulf (a (ix2 r l)) (b (ix2 r l))⌝)

/-- The first slot's product loop: on exit the product buffer holds the pointwise product of the two sources, which are
    unchanged (held at any positive share). -/
theorem mul_loop0 (q : PosShare TreeShare) (a : Buf (Elt F) ((sR0).view.loc (thr d L))) (b : Buf (Elt F) ((sD0).view.loc (thr d L)))
    (p : Buf (Elt F) ((sP0).view.loc (thr d L))) (Q : BitVec 32 → sProp 𝕄) :
    iprop(((sR0).view.loc (thr d L) ↦{q} a) ∗ ((sD0).view.loc (thr d L) ↦{q} b) ∗ ((sP0).view.loc (thr d L) ↦{fullShare} p)
        ∗ (∀ (p' : Buf (Elt F) ((sP0).view.loc (thr d L))) (v : BitVec 32),
            ⌜∀ (r : Fin 80) (l : Fin 128), p' (ix2 r l) = FloatOps.mulf (a (ix2 r l)) (b (ix2 r l))⌝
             -∗ ((sR0).view.loc (thr d L) ↦{q} a) -∗ ((sD0).view.loc (thr d L) ↦{q} b)
             -∗ ((sP0).view.loc (thr d L) ↦{fullShare} p') -∗ Q v))
      ⊢ wp frame (wpE (defs₀ (F := F)) 𝒱₀ (thr d L) none) Set.univ
          (Scf.Loop.for k0_t2_loop k0_t2_ok 0#32
            (k0_t2_body L zW (Memref.isWhole_whole _) eW (Memref.isWhole_whole _) xW (Memref.isWhole_whole _) sIs (Memref.isWhole_whole _)
              sId (Memref.isWhole_whole _) sR0 (Memref.isWhole_whole _) sD0 (Memref.isWhole_whole _) sR1 (Memref.isWhole_whole _)
              sD1 (Memref.isWhole_whole _) sP0 (Memref.isWhole_whole _) sP1 (Memref.isWhole_whole _)
              cc0_scratch8 cc0_scratch9 cc0_scratch10 cc0_scratch11 cc0_scratch12 cc0_scratch13 cc0_scoped0 cc0_scoped1)) Q := by
  iintro ⟨Ha, Hb, Hp, HQ⟩
  sl_for (inv0 d L q a b) $$ [Ha Hb Hp HQ]
  case region =>
    intro k acc
    unfold inv0
    iintro ⟨Ha, Hb, %p₀, Hp, %hp⟩
    sl_exec
    sl_step
    isplitl [Ha]; · iexact Ha
    isplitl [Hb]; · iexact Hb
    iexists _
    isplitl [Hp]; · iexact Hp
    ipureintro
    exact trip0_val d L a b p₀ k hp
  isplitl [Ha Hb Hp]
  · unfold inv0
    isplitl [Ha]; · iexact Ha
    isplitl [Hb]; · iexact Hb
    iexists p
    isplitl [Hp]; · iexact Hp
    ipureintro
    intro r l h
    exact absurd h (Nat.not_lt_zero _)
  iintro %acc HI
  unfold inv0
  icases HI with ⟨Ha, Hb, %p', Hp, %hp⟩
  ispecialize HQ $$ %p' %acc
  iapply HQ $$ [] [Ha] [Hb] [Hp]
  · ipureintro
    intro r l
    exact hp r l (by rw [show Scf.trips k0_t2_loop.lb k0_t2_loop.ub k0_t2_loop.st = 80 from trips0]; exact r.isLt)
  · iexact Ha
  · iexact Hb
  · iexact Hp

end Loop0

section Bind0
variable (d : Dev nD) (L : grid0.Coords)

/-- The same with the loop bound to what follows it: the continuation runs from the finished product buffer. -/
theorem mul_loop0_bind (q : PosShare TreeShare) (a : Buf (Elt F) ((sR0).view.loc (thr d L))) (b : Buf (Elt F) ((sD0).view.loc (thr d L)))
    (p : Buf (Elt F) ((sP0).view.loc (thr d L))) {β : Type}
    (kk : BitVec 32 → Prog (TpuEff nD τ sig (Elt F) Λ₀ (.scVector ((L 0).castLE hcore0) ((L 1).castLE hsub0))) β) (Q : β → sProp 𝕄) :
    iprop(((sR0).view.loc (thr d L) ↦{q} a) ∗ ((sD0).view.loc (thr d L) ↦{q} b) ∗ ((sP0).view.loc (thr d L) ↦{fullShare} p)
        ∗ (∀ (p' : Buf (Elt F) ((sP0).view.loc (thr d L))) (v : BitVec 32),
            ⌜∀ (r : Fin 80) (l : Fin 128), p' (ix2 r l) = FloatOps.mulf (a (ix2 r l)) (b (ix2 r l))⌝
             -∗ ((sR0).view.loc (thr d L) ↦{q} a) -∗ ((sD0).view.loc (thr d L) ↦{q} b)
             -∗ ((sP0).view.loc (thr d L) ↦{fullShare} p')
             -∗ wp frame (wpE (defs₀ (F := F)) 𝒱₀ (thr d L) none) Set.univ (kk v) Q))
      ⊢ wp frame (wpE (defs₀ (F := F)) 𝒱₀ (thr d L) none) Set.univ
          (Scf.Loop.for k0_t2_loop k0_t2_ok 0#32
            (k0_t2_body L zW (Memref.isWhole_whole _) eW (Memref.isWhole_whole _) xW (Memref.isWhole_whole _) sIs (Memref.isWhole_whole _)
              sId (Memref.isWhole_whole _) sR0 (Memref.isWhole_whole _) sD0 (Memref.isWhole_whole _) sR1 (Memref.isWhole_whole _)
              sD1 (Memref.isWhole_whole _) sP0 (Memref.isWhole_whole _) sP1 (Memref.isWhole_whole _)
              cc0_scratch8 cc0_scratch9 cc0_scratch10 cc0_scratch11 cc0_scratch12 cc0_scratch13 cc0_scoped0 cc0_scoped1) >>= kk) Q := by
  rw [wp_bind]
  exact mul_loop0 d L q a b p _

end Bind0
section Trip1
variable (d : Dev nD) (L : grid0.Coords) (k0_t1 : Fin k0_t1_loop.trips) (k0_h3 : k0_cond3 k0_t1 = 1#1)
variable (a : Buf (Elt F) ((sR1).view.loc (thr d L))) (b : Buf (Elt F) ((sD1).view.loc (thr d L))) (p : Buf (Elt F) ((sP1).view.loc (thr d L)))

/-- The eight stores of trip `k`: lane group `j` of row `k` receives the product of the two sources' lane groups. -/
def pieces1 (k : Fin k0_t3_loop.trips) : List (View.Piece (Elt F) S80x128 .f32) :=
  [⟨Rect.unit (s := S80x128) (k0_off24 k) S1x16.size (k0_off24_inb k0_t1 k k0_h3),
      k0_pay16 (View.readAt (Elt F) sR1.view (Rect.unit (s := S80x128) (k0_off24 k) S1x16.size (k0_off24_inb k0_t1 k k0_h3)).toLoadRect a)
        (View.readAt (Elt F) sD1.view (Rect.unit (s := S80x128) (k0_off24 k) S1x16.size (k0_off24_inb k0_t1 k k0_h3)).toLoadRect b)⟩,
    ⟨Rect.unit (s := S80x128) (k0_off23 k) S1x16.size (k0_off23_inb k0_t1 k k0_h3),
      k0_pay15 (View.readAt (Elt F) sR1.view (Rect.unit (s := S80x128) (k0_off23 k) S1x16.size (k0_off23_inb k0_t1 k k0_h3)).toLoadRect a)
        (View.readAt (Elt F) sD1.view (Rect.unit (s := S80x128) (k0_off23 k) S1x16.size (k0_off23_inb k0_t1 k k0_h3)).toLoadRect b)⟩,
    ⟨Rect.unit (s := S80x128) (k0_off22 k) S1x16.size (k0_off22_inb k0_t1 k k0_h3),
      k0_pay14 (View.readAt (Elt F) sR1.view (Rect.unit (s := S80x128) (k0_off22 k) S1x16.size (k0_off22_inb k0_t1 k k0_h3)).toLoadRect a)
        (View.readAt (Elt F) sD1.view (Rect.unit (s := S80x128) (k0_off22 k) S1x16.size (k0_off22_inb k0_t1 k k0_h3)).toLoadRect b)⟩,
    ⟨Rect.unit (s := S80x128) (k0_off21 k) S1x16.size (k0_off21_inb k0_t1 k k0_h3),
      k0_pay13 (View.readAt (Elt F) sR1.view (Rect.unit (s := S80x128) (k0_off21 k) S1x16.size (k0_off21_inb k0_t1 k k0_h3)).toLoadRect a)
        (View.readAt (Elt F) sD1.view (Rect.unit (s := S80x128) (k0_off21 k) S1x16.size (k0_off21_inb k0_t1 k k0_h3)).toLoadRect b)⟩,
    ⟨Rect.unit (s := S80x128) (k0_off20 k) S1x16.size (k0_off20_inb k0_t1 k k0_h3),
      k0_pay12 (View.readAt (Elt F) sR1.view (Rect.unit (s := S80x128) (k0_off20 k) S1x16.size (k0_off20_inb k0_t1 k k0_h3)).toLoadRect a)
        (View.readAt (Elt F) sD1.view (Rect.unit (s := S80x128) (k0_off20 k) S1x16.size (k0_off20_inb k0_t1 k k0_h3)).toLoadRect b)⟩,
    ⟨Rect.unit (s := S80x128) (k0_off19 k) S1x16.size (k0_off19_inb k0_t1 k k0_h3),
      k0_pay11 (View.readAt (Elt F) sR1.view (Rect.unit (s := S80x128) (k0_off19 k) S1x16.size (k0_off19_inb k0_t1 k k0_h3)).toLoadRect a)
        (View.readAt (Elt F) sD1.view (Rect.unit (s := S80x128) (k0_off19 k) S1x16.size (k0_off19_inb k0_t1 k k0_h3)).toLoadRect b)⟩,
    ⟨Rect.unit (s := S80x128) (k0_off18 k) S1x16.size (k0_off18_inb k0_t1 k k0_h3),
      k0_pay10 (View.readAt (Elt F) sR1.view (Rect.unit (s := S80x128) (k0_off18 k) S1x16.size (k0_off18_inb k0_t1 k k0_h3)).toLoadRect a)
        (View.readAt (Elt F) sD1.view (Rect.unit (s := S80x128) (k0_off18 k) S1x16.size (k0_off18_inb k0_t1 k k0_h3)).toLoadRect b)⟩,
    ⟨Rect.unit (s := S80x128) (k0_off17 k) S1x16.size (k0_off17_inb k0_t1 k k0_h3),
      k0_pay9 (View.readAt (Elt F) sR1.view (Rect.unit (s := S80x128) (k0_off17 k) S1x16.size (k0_off17_inb k0_t1 k k0_h3)).toLoadRect a)
        (View.readAt (Elt F) sD1.view (Rect.unit (s := S80x128) (k0_off17 k) S1x16.size (k0_off17_inb k0_t1 k k0_h3)).toLoadRect b)⟩]

/-- Each store's payload is the product buffer over its rectangle. -/
theorem pieces1_val (k : Fin k0_t3_loop.trips) :
    ∀ pc ∈ pieces1 d L k0_t1 k0_h3 a b k, ∀ x : pc.1.shape.Idx, pc.2 x = prodBuf a b (pc.1.emb x) := by
  intro pc hpc
  simp only [pieces1, List.mem_cons, List.not_mem_nil, _root_.or_false] at hpc
  rcases hpc with rfl | rfl | rfl | rfl | rfl | rfl | rfl | rfl <;> intro x
  · show k0_pay16 _ _ x = _
    unfold k0_pay16; rw [pay_mul]; rfl
  · show k0_pay15 _ _ x = _
    unfold k0_pay15; rw [pay_mul]; rfl
  · show k0_pay14 _ _ x = _
    unfold k0_pay14; rw [pay_mul]; rfl
  · show k0_pay13 _ _ x = _
    unfold k0_pay13; rw [pay_mul]; rfl
  · show k0_pay12 _ _ x = _
    unfold k0_pay12; rw [pay_mul]; rfl
  · show k0_pay11 _ _ x = _
    unfold k0_pay11; rw [pay_mul]; rfl
  · show k0_pay10 _ _ x = _
    unfold k0_pay10; rw [pay_mul]; rfl
  · show k0_pay9 _ _ x = _
    unfold k0_pay9; rw [pay_mul]; rfl

end Trip1

section Trip1v
variable (d : Dev nD) (L : grid0.Coords) (k0_t1 : Fin k0_t1_loop.trips) (k0_h3 : k0_cond3 k0_t1 = 1#1)
variable (a : Buf (Elt F) ((sR1).view.loc (thr d L))) (b : Buf (Elt F) ((sD1).view.loc (thr d L))) (p : Buf (Elt F) ((sP1).view.loc (thr d L)))

/-- Row `k` is covered by the trip's eight rectangles: lane `l` lies in the group `l / 16`. -/
theorem pieces1_cover (k : Fin k0_t3_loop.trips) (r : Fin 80) (l : Fin 128) (hr : r.val = k.val) :
    ∃ pc ∈ pieces1 d L k0_t1 k0_h3 a b k, (ix2 r l : S80x128.Idx) ∈ pc.1.set := by
  have h8 : l.val / 16 < 8 := by omega
  have hm : ∀ (off : Fin 2 → ℕ) (j : ℕ) inb, off = ![k.val, 16 * j] → l.val / 16 = j →
      (ix2 r l : S80x128.Idx) ∈ (Rect.unit (s := S80x128) off S1x16.size inb).set := by
    intro off j inb e hj
    subst e
    rw [Rect.mem_set_unit]
    refine Fin.forall_fin_two.mpr ⟨?_, ?_⟩
    · show k.val ≤ r.val ∧ r.val < k.val + 1
      omega
    · show 16 * j ≤ l.val ∧ l.val < 16 * j + 16
      omega
  unfold pieces1
  rcases (by omega : l.val / 16 = 7 ∨ l.val / 16 = 6 ∨ l.val / 16 = 5 ∨ l.val / 16 = 4 ∨ l.val / 16 = 3 ∨ l.val / 16 = 2
      ∨ l.val / 16 = 1 ∨ l.val / 16 = 0) with h | h | h | h | h | h | h | h
  · exact ⟨_, List.mem_cons_self, hm _ 7 (k0_off24_inb k0_t1 k k0_h3) (k0_off24_eq k) h⟩
  · exact ⟨_, List.mem_cons_of_mem _ List.mem_cons_self, hm _ 6 (k0_off23_inb k0_t1 k k0_h3) (k0_off23_eq k) h⟩
  · exact ⟨_, List.mem_cons_of_mem _ (List.mem_cons_of_mem _ List.mem_cons_self), hm _ 5 (k0_off22_inb k0_t1 k k0_h3) (k0_off22_eq k) h⟩
  · exact ⟨_, List.mem_cons_of_mem _ (List.mem_cons_of_mem _ (List.mem_cons_of_mem _ List.mem_cons_self)), hm _ 4 (k0_off21_inb k0_t1 k k0_h3) (k0_off21_eq k) h⟩
  · exact ⟨_, List.mem_cons_of_mem _ (List.mem_cons_of_mem _ (List.mem_cons_of_mem _ (List.mem_cons_of_mem _ List.mem_cons_self))),
      hm _ 3 (k0_off20_inb k0_t1 k k0_h3) (k0_off20_eq k) h⟩
  · exact ⟨_, List.mem_cons_of_mem _ (List.mem_cons_of_mem _ (List.mem_cons_of_mem _ (List.mem_cons_of_mem _
      (List.mem_cons_of_mem _ List.mem_cons_self)))), hm _ 2 (k0_off19_inb k0_t1 k k0_h3) (k0_off19_eq k) h⟩
  · exact ⟨_, List.mem_cons_of_mem _ (List.mem_cons_of_mem _ (List.mem_cons_of_mem _ (List.mem_cons_of_mem _
      (List.mem_cons_of_mem _ (List.mem_cons_of_mem _ List.mem_cons_self))))), hm _ 1 (k0_off18_inb k0_t1 k k0_h3) (k0_off18_eq k) h⟩
  · exact ⟨_, List.mem_cons_of_mem _ (List.mem_cons_of_mem _ (List.mem_cons_of_mem _ (List.mem_cons_of_mem _
      (List.mem_cons_of_mem _ (List.mem_cons_of_mem _ (List.mem_cons_of_mem _ List.mem_cons_self)))))), hm _ 0 (k0_off17_inb k0_t1 k k0_h3) (k0_off17_eq k) h⟩

/-- A row other than `k` meets none of the trip's rectangles. -/
theorem pieces1_miss (k : Fin k0_t3_loop.trips) (r : Fin 80) (l : Fin 128) (hr : r.val ≠ k.val) :
    ∀ pc ∈ pieces1 d L k0_t1 k0_h3 a b k, (ix2 r l : S80x128.Idx) ∉ pc.1.set := by
  have hm : ∀ (off : Fin 2 → ℕ) (j : ℕ) inb, off = ![k.val, j] →
      (ix2 r l : S80x128.Idx) ∉ (Rect.unit (s := S80x128) off S1x16.size inb).set := by
    intro off j inb e
    subst e
    rw [Rect.mem_set_unit]
    intro hall
    have h0 : k.val ≤ r.val ∧ r.val < k.val + 1 := hall 0
    omega
  intro pc hpc
  simp only [pieces1, List.mem_cons, List.not_mem_nil, _root_.or_false] at hpc
  rcases hpc with rfl | rfl | rfl | rfl | rfl | rfl | rfl | rfl
  · exact hm _ _ (k0_off24_inb k0_t1 k k0_h3) (k0_off24_eq k)
  · exact hm _ _ (k0_off23_inb k0_t1 k k0_h3) (k0_off23_eq k)
  · exact hm _ _ (k0_off22_inb k0_t1 k k0_h3) (k0_off22_eq k)
  · exact hm _ _ (k0_off21_inb k0_t1 k k0_h3) (k0_off21_eq k)
  · exact hm _ _ (k0_off20_inb k0_t1 k k0_h3) (k0_off20_eq k)
  · exact hm _ _ (k0_off19_inb k0_t1 k k0_h3) (k0_off19_eq k)
  · exact hm _ _ (k0_off18_inb k0_t1 k k0_h3) (k0_off18_eq k)
  · exact hm _ _ (k0_off17_inb k0_t1 k k0_h3) (k0_off17_eq k)

/-- One trip extends the finished rows by row `k`. -/
theorem trip1_val (k : Fin k0_t3_loop.trips)
    (hp : ∀ (r : Fin 80) (l : Fin 128), r.val < k.val → p (ix2 r l) = FloatOps.mulf (a (ix2 r l)) (b (ix2 r l))) :
    ∀ (r : Fin 80) (l : Fin 128), r.val < k.val + 1 →
      (sP1.view.writes (Elt F) p (pieces1 d L k0_t1 k0_h3 a b k)) (ix2 r l) = FloatOps.mulf (a (ix2 r l)) (b (ix2 r l)) := by
  intro r l hr
  rcases Nat.lt_succ_iff_lt_or_eq.mp hr with h | h
  · exact (View.read_writes_apply_of_forall_not_mem sP1.view p (ix2 r l) _ (pieces1_miss d L k0_t1 k0_h3 a b k r l (by omega))).trans (hp r l h)
  · exact View.read_writes_apply_of_pieces sP1.view p (prodBuf a b) _ (pieces1_val d L k0_t1 k0_h3 a b k) (ix2 r l) (pieces1_cover d L k0_t1 k0_h3 a b k r l h)

end Trip1v

section Loop1
variable (d : Dev nD) (L : grid0.Coords) (k0_t1 : Fin k0_t1_loop.trips) (k0_h3 : k0_cond3 k0_t1 = 1#1)

theorem trips1 : k0_t3_loop.trips = 80 := by decide

/-- Before trip `k`: the two sources as they were, the product buffer with its first `k` rows done. -/
def inv1 (q : PosShare TreeShare) (a : Buf (Elt F) ((sR1).view.loc (thr d L))) (b : Buf (Elt F) ((sD1).view.loc (thr d L)))
    (k : Nat) (_ : BitVec 32) : sProp 𝕄 :=
  iprop(((sR1).view.loc (thr d L) ↦{q} a) ∗ ((sD1).view.loc (thr d L) ↦{q} b)
    ∗ ∃ p : Buf (Elt F) ((sP1).view.loc (thr d L)), ((sP1).view.loc (thr d L) ↦{fullShare} p)
        ∗ ⌜∀ (r : Fin 80) (l : Fin 128), r.val < k → p (ix2 r l) = FloatOps.mulf (a (ix2 r l)) (b (ix2 r l))⌝)

/-- The second slot's product loop: on exit the product buffer holds the pointwise product of the two sources, which are
    unchanged (held at any positive share). -/
theorem mul_loop1 (q : PosShare TreeShare) (a : Buf (Elt F) ((sR1).view.loc (thr d L))) (b : Buf (Elt F) ((sD1).view.loc (thr d L)))
    (p : Buf (Elt F) ((sP1).view.loc (thr d L))) (Q : BitVec 32 → sProp 𝕄) :
    iprop(((sR1).view.loc (thr d L) ↦{q} a) ∗ ((sD1).view.loc (thr d L) ↦{q} b) ∗ ((sP1).view.loc (thr d L) ↦{fullShare} p)
        ∗ (∀ (p' : Buf (Elt F) ((sP1).view.loc (thr d L))) (v : BitVec 32),
            ⌜∀ (r : Fin 80) (l : Fin 128), p' (ix2 r l) = FloatOps.mulf (a (ix2 r l)) (b (ix2 r l))⌝
             -∗ ((sR1).view.loc (thr d L) ↦{q} a) -∗ ((sD1).view.loc (thr d L) ↦{q} b)
             -∗ ((sP1).view.loc (thr d L) ↦{fullShare} p') -∗ Q v))
      ⊢ wp frame (wpE (defs₀ (F := F)) 𝒱₀ (thr d L) none) Set.univ
          (Scf.Loop.for k0_t3_loop (k0_t3_ok k0_t1 k0_h3) 0#32
            (k0_t3_body L zW (Memref.isWhole_whole _) eW (Memref.isWhole_whole _) xW (Memref.isWhole_whole _) sIs (Memref.isWhole_whole _)
              sId (Memref.isWhole_whole _) sR0 (Memref.isWhole_whole _) sD0 (Memref.isWhole_whole _) sR1 (Memref.isWhole_whole _)
              sD1 (Memref.isWhole_whole _) sP0 (Memref.isWhole_whole _) sP1 (Memref.isWhole_whole _)
              cc0_scratch8 cc0_scratch9 cc0_scratch10 cc0_scratch11 cc0_scratch12 cc0_scratch13 cc0_scoped0 cc0_scoped1 k0_t1 k0_h3)) Q := by
  iintro ⟨Ha, Hb, Hp, HQ⟩
  sl_for (inv1 d L q a b) $$ [Ha Hb Hp HQ]
  case region =>
    intro k acc
    unfold inv1
    iintro ⟨Ha, Hb, %p₀, Hp, %hp⟩
    sl_exec
    sl_step
    isplitl [Ha]; · iexact Ha
    isplitl [Hb]; · iexact Hb
    iexists _
    isplitl [Hp]; · iexact Hp
    ipureintro
    exact trip1_val d L k0_t1 k0_h3 a b p₀ k hp
  isplitl [Ha Hb Hp]
  · unfold inv1
    isplitl [Ha]; · iexact Ha
    isplitl [Hb]; · iexact Hb
    iexists p
    isplitl [Hp]; · iexact Hp
    ipureintro
    intro r l h
    exact absurd h (Nat.not_lt_zero _)
  iintro %acc HI
  unfold inv1
  icases HI with ⟨Ha, Hb, %p', Hp, %hp⟩
  ispecialize HQ $$ %p' %acc
  iapply HQ $$ [] [Ha] [Hb] [Hp]
  · ipureintro
    intro r l
    exact hp r l (by rw [show Scf.trips k0_t3_loop.lb k0_t3_loop.ub k0_t3_loop.st = 80 from trips1]; exact r.isLt)
  · iexact Ha
  · iexact Hb
  · iexact Hp

end Loop1

section Bind1
variable (d : Dev nD) (L : grid0.Coords) (k0_t1 : Fin k0_t1_loop.trips) (k0_h3 : k0_cond3 k0_t1 = 1#1)

/-- The same with the loop bound to what follows it: the continuation runs from the finished product buffer. -/
theorem mul_loop1_bind (q : PosShare TreeShare) (a : Buf (Elt F) ((sR1).view.loc (thr d L))) (b : Buf (Elt F) ((sD1).view.loc (thr d L)))
    (p : Buf (Elt F) ((sP1).view.loc (thr d L))) {β : Type}
    (kk : BitVec 32 → Prog (TpuEff nD τ sig (Elt F) Λ₀ (.scVector ((L 0).castLE hcore0) ((L 1).castLE hsub0))) β) (Q : β → sProp 𝕄) :
    iprop(((sR1).view.loc (thr d L) ↦{q} a) ∗ ((sD1).view.loc (thr d L) ↦{q} b) ∗ ((sP1).view.loc (thr d L) ↦{fullShare} p)
        ∗ (∀ (p' : Buf (Elt F) ((sP1).view.loc (thr d L))) (v : BitVec 32),
            ⌜∀ (r : Fin 80) (l : Fin 128), p' (ix2 r l) = FloatOps.mulf (a (ix2 r l)) (b (ix2 r l))⌝
             -∗ ((sR1).view.loc (thr d L) ↦{q} a) -∗ ((sD1).view.loc (thr d L) ↦{q} b)
             -∗ ((sP1).view.loc (thr d L) ↦{fullShare} p')
             -∗ wp frame (wpE (defs₀ (F := F)) 𝒱₀ (thr d L) none) Set.univ (kk v) Q))
      ⊢ wp frame (wpE (defs₀ (F := F)) 𝒱₀ (thr d L) none) Set.univ
          (Scf.Loop.for k0_t3_loop (k0_t3_ok k0_t1 k0_h3) 0#32
            (k0_t3_body L zW (Memref.isWhole_whole _) eW (Memref.isWhole_whole _) xW (Memref.isWhole_whole _) sIs (Memref.isWhole_whole _)
              sId (Memref.isWhole_whole _) sR0 (Memref.isWhole_whole _) sD0 (Memref.isWhole_whole _) sR1 (Memref.isWhole_whole _)
              sD1 (Memref.isWhole_whole _) sP0 (Memref.isWhole_whole _) sP1 (Memref.isWhole_whole _)
              cc0_scratch8 cc0_scratch9 cc0_scratch10 cc0_scratch11 cc0_scratch12 cc0_scratch13 cc0_scoped0 cc0_scoped1 k0_t1 k0_h3) >>= kk) Q := by
  rw [wp_bind]
  exact mul_loop1 d L k0_t1 k0_h3 q a b p _

end Bind1

end Cert.Proof.KI

end
-- ==== Proof.IdealTileTrip.lean ====
/-
  One trip of a vector subcore's pipelined loop keeps the loop's invariant. Trip t runs step 2t in slot 0 and step
  2t + 1 in slot 1: each half waits for its two gathers and for the copy-out of the slot's previous step, multiplies
  the two gathered buffers into the product buffer, re-issues the gathers two steps ahead and issues the copy-out of
  the product into the step's chunk of the band. The chunk whose copy-out was waited for joins the finished chunks;
  the chunk copied into leaves the untouched ones.
-/
import proofs.«202806_g74526272520516_cont_9to1_m_1211_39_alg».proof.Proof.IdealTileInv
import proofs.«202806_g74526272520516_cont_9to1_m_1211_39_alg».proof.Proof.IdealTileFacts
import proofs.«202806_g74526272520516_cont_9to1_m_1211_39_alg».proof.Proof.IdealMulLoop

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ) [FloatOps F]

theorem tcond1_of : ∀ t : Fin k0_t1_loop.trips, 1 ≤ t.val → k0_cond1 t = 1#1 := by decide +kernel
theorem tcond2_of : ∀ t : Fin k0_t1_loop.trips, t.val ≤ 61 → k0_cond2 t = 1#1 := by decide +kernel
theorem tcond3_of : ∀ t : Fin k0_t1_loop.trips, t.val ≤ 61 → k0_cond3 t = 1#1 := by decide +kernel
theorem tcond4_of : ∀ t : Fin k0_t1_loop.trips, 1 ≤ t.val → k0_cond4 t = 1#1 := by decide +kernel
theorem tcond5_of : ∀ t : Fin k0_t1_loop.trips, t.val ≤ 60 → k0_cond5 t = 1#1 := by decide +kernel

section Tile
variable (d : Dev nD) (L : grid0.Coords)

/-- A resource put aside: the same assertion under another name. -/
@[irreducible] def Aside (P : sProp 𝕄) : sProp 𝕄 := P
omit [FloatOps F] in
theorem aside_in (P : sProp 𝕄) : P ⊢ Aside P := by unfold Aside; exact BI.Entails.refl _
omit [FloatOps F] in
theorem aside_out (P : sProp 𝕄) : Aside P ⊢ P := by unfold Aside; exact BI.Entails.refl _

/-- The invariant spelt out. -/
theorem Inv_eq (qz : PosShare TreeShare) (fe : Buf (Elt F) (eLoc d)) (fx0 : Buf (Elt F) (xLoc d))
    (isc : Buf (Elt F) ((sIs).view.loc (thr d L))) (idc : Buf (Elt F) ((sId).view.loc (thr d L)))
    (O : CellTallies nD τ sig (HIx 1)) (W : Waits sig (HIx 1)) (k : ℕ) (v : BitVec 32) :
    Inv m d L qz fe fx0 isc idc O W k v = iprop(Transfers.MayWaits (thr d L) (none : HIx 1) O
    ∗ Slot m d L cc0_scratch8.sem cc0_scratch9.sem cc0_scratch12.sem sR0 sD0 sP0 qA (Transfers.shareTokN qz 0) (Transfers.shareTokN qz 1) fe isc idc (gat0 k) (out0 k)
    ∗ Slot m d L cc0_scratch10.sem cc0_scratch11.sem cc0_scratch13.sem sR1 sD1 sP1 qB (Transfers.shareTokN qz 2) (Transfers.shareTokN qz 3) fe isc idc (gat1 k) (out1 k)
    ∗ XUntouched d L fx0 k ∗ XDone m d L fe k
    ∗ ∃ W', ⌜∀ p ∈ W', p ∈ W ∨ p.2 = none⌝ ∗ owes (thr d L) O W') := rfl

omit [FloatOps F] in
/-- A whole scratch buffer held on its own element set is held whole. -/
theorem pts_whole {sp : Space} {s : Shape} {e : EltTy} (B : Memref sig .scVector sp s e) (hB : B.IsWhole) (q : PosShare TreeShare)
    (g : Buf (Elt F) (B.view.loc (thr d L))) :
    (B.view.loc (thr d L) ↦[B.view.set]{q} g : sProp 𝕄) = (B.view.loc (thr d L) ↦{q} g) := by
  rw [hB.set_eq_univ]

omit [FloatOps F] in
/-- A slice of 80 rows of the feature array at chunk j's offsets, however spelt, has chunk j's elements. -/
theorem set_of_off (j : Fin 125) (off : Fin 2 → ℕ) (inb : ∀ a, off a + S80x128.size a ≤ S320000x128.size a)
    (h0 : off 0 = base L + 80 * j.val) (h1 : off 1 = 0) :
    ((xW).slice (Rect.unit (s := S320000x128) off S80x128.size inb) (fun _ => rfl)).view.set = ckSet d L j := by
  have e : off = ![base L + 80 * j.val, 0] := funext (Fin.forall_fin_two.2 ⟨h0, h1⟩)
  subst e
  rfl

omit [FloatOps F] in
/-- The chunks not yet started on entering trip k are chunks 2k, 2k + 1 and those not yet started on entering trip k + 1. -/
theorem XU_split (fx0 : Buf (Elt F) (xLoc d)) (k : ℕ) (hk : k ≤ 61) (j0 j1 : Fin 125) (h0 : j0.val = 2 * k) (h1 : j1.val = 2 * k + 1) :
    XUntouched (F := F) d L fx0 k
      = iprop(((xW).view.loc (thr d L) ↦[ckSet d L j0]{fullShare} fx0)
          ∗ ((xW).view.loc (thr d L) ↦[ckSet d L j1]{fullShare} fx0) ∗ XUntouched d L fx0 (k + 1)) := by
  unfold XUntouched
  obtain ⟨j0, hj0⟩ := j0
  obtain ⟨j1, hj1⟩ := j1
  simp only at h0 h1
  subst h0 h1
  have e : (Finset.univ.filter fun j : Fin 125 => started k ≤ j.val)
      = insert (⟨2 * k, hj0⟩ : Fin 125) (insert (⟨2 * k + 1, hj1⟩ : Fin 125)
          (Finset.univ.filter fun j : Fin 125 => started (k + 1) ≤ j.val)) := by
    ext ⟨j, hj⟩
    rw [Finset.mem_filter, Finset.mem_insert, Finset.mem_insert, Finset.mem_filter]
    simp only [Finset.mem_univ, _root_.true_and, Fin.mk.injEq, started]
    omega
  rw [e, SparseCore.bigSep_insert' (by
      rw [Finset.mem_insert, Finset.mem_filter]
      simp only [Finset.mem_univ, _root_.true_and, Fin.mk.injEq, started]; omega),
    SparseCore.bigSep_insert' (by
      rw [Finset.mem_filter]
      simp only [Finset.mem_univ, _root_.true_and, started]; omega)]

/-- The finished chunks on entering trip k + 1 are chunks 2k − 2, 2k − 1 and those finished on entering trip k. -/
theorem XD_join (fe : Buf (Elt F) (eLoc d)) (k : ℕ) (hk1 : 1 ≤ k) (hk : k ≤ 61) (j0 j1 : Fin 125) (h0 : j0.val = 2 * k - 2) (h1 : j1.val = 2 * k - 1) :
    XDone m d L fe (k + 1)
      = iprop(((xW).view.loc (thr d L) ↦[ckSet d L j0]{fullShare} Cert.Feature.XF (m (zLoc d)) fe)
          ∗ ((xW).view.loc (thr d L) ↦[ckSet d L j1]{fullShare} Cert.Feature.XF (m (zLoc d)) fe)
          ∗ XDone m d L fe k) := by
  unfold XDone
  obtain ⟨j0, hj0⟩ := j0
  obtain ⟨j1, hj1⟩ := j1
  simp only at h0 h1
  subst h0 h1
  have e : (Finset.univ.filter fun j : Fin 125 => j.val + 2 < started (k + 1))
      = insert (⟨2 * k - 2, hj0⟩ : Fin 125) (insert (⟨2 * k - 1, hj1⟩ : Fin 125)
          (Finset.univ.filter fun j : Fin 125 => j.val + 2 < started k)) := by
    ext ⟨j, hj⟩
    rw [Finset.mem_filter, Finset.mem_insert, Finset.mem_insert, Finset.mem_filter]
    simp only [Finset.mem_univ, _root_.true_and, Fin.mk.injEq, started]
    omega
  rw [e, SparseCore.bigSep_insert' (by
      rw [Finset.mem_insert, Finset.mem_filter]
      simp only [Finset.mem_univ, _root_.true_and, Fin.mk.injEq, started]; omega),
    SparseCore.bigSep_insert' (by
      rw [Finset.mem_filter]
      simp only [Finset.mem_univ, _root_.true_and, started]; omega)]

/-- The copy-outs' destinations, as the body slices them. -/
abbrev xO0 (L : grid0.Coords) (t : Fin k0_t1_loop.trips) : Memref sig .scVector .hbm S80x128 .f32 :=
  (xW).slice (Rect.unit (s := S320000x128) (k0_off14 L t) S80x128.size (k0_off14_inb L t)) (fun _ => rfl)
abbrev xO1 (L : grid0.Coords) (t : Fin k0_t1_loop.trips) (h3 : k0_cond3 t = 1#1) : Memref sig .scVector .hbm S80x128 .f32 :=
  (xW).slice (Rect.unit (s := S320000x128) (k0_off26 L t) S80x128.size (k0_off26_inb L t h3)) (fun _ => rfl)

/-- A slot with its gathers and its copy-out in flight, spelt out. -/
theorem Slot_ss (semG semD semP : DmaSem sig) (R Dd P : Memref sig .scVector .vmem S80x128 .f32) (qt qz0 qz1 : PosShare TreeShare)
    (fe : Buf (Elt F) (eLoc d)) (isc : Buf (Elt F) ((sIs).view.loc (thr d L))) (idc : Buf (Elt F) ((sId).view.loc (thr d L))) (jg jo : ℕ) :
    Slot m d L semG semD semP R Dd P qt qz0 qz1 fe isc idc (some jg) (some jo)
      = iprop(((zW).view.loc (thr d L) ↦[Finset.univ \ (zSl).view.set]{qz0} m (zLoc d))
    ∗ ((zW).view.loc (thr d L) ↦[Finset.univ \ (zSl).view.set]{qz1} m (zLoc d))
    ∗ (∃ (off : Fin 1 → ℕ) (h : ∀ a, off a + S80.size a ≤ S10000.size a) (gS : Buf (Elt F) ((R).view.loc (thr d L))) (gD : Buf (Elt F) ((Dd).view.loc (thr d L))),
            ⌜off 0 = 80 * jg ∧ GRows m d L R fe 0 jg gS ∧ GRows m d L Dd fe 320000 jg gD⌝
            ∗ GFl m d L semG R sIs qt qz0 isc off h gS ∗ GFl m d L semD Dd sId qt qz1 idc off h gD
            ∗ ((sIs).view.loc (thr d L) ↦[Finset.univ \ ((sIs).slice (Rect.unit (s := S10000) off S80.size h) (fun _ => rfl)).view.set]{qt} isc)
            ∗ ((sId).view.loc (thr d L) ↦[Finset.univ \ ((sId).slice (Rect.unit (s := S10000) off S80.size h) (fun _ => rfl)).view.set]{qt} idc))
    ∗ (∃ (off : Fin 2 → ℕ) (h : ∀ a, off a + S80x128.size a ≤ S320000x128.size a) (fx : Buf (Elt F) ((xW).view.loc (thr d L))) (p : Buf (Elt F) ((P).view.loc (thr d L))),
            ⌜off = ![base L + 80 * jo, 0] ∧ ∀ i ∈ ((xW).slice (Rect.unit (s := S320000x128) off S80x128.size h) (fun _ => rfl)).view.set, fx i = Cert.Feature.XF (m (zLoc d)) fe i⌝
            ∗ SFl d L semP P off h fx p)) := rfl

omit [FloatOps F] in
theorem off_eq2 (off : Fin 2 → ℕ) (a : ℕ) (h0 : off 0 = a) (h1 : off 1 = 0) : off = ![a, 0] :=
  funext (Fin.forall_fin_two.2 ⟨h0, h1⟩)

/-- A delivered window at chunk j's offsets whose contents are the feature rows there is chunk j at the feature array. -/
theorem done_chunk (fe : Buf (Elt F) (eLoc d)) (j : Fin 125) (jn : ℕ) (hj : j.val = jn) (off : Fin 2 → ℕ)
    (inb : ∀ a, off a + S80x128.size a ≤ S320000x128.size a) (fx : Buf (Elt F) ((xW).view.loc (thr d L)))
    (hoff : off = ![base L + 80 * jn, 0])
    (hfx : ∀ i ∈ ((xW).slice (Rect.unit (s := S320000x128) off S80x128.size inb) (fun _ => rfl)).view.set, fx i = Cert.Feature.XF (m (zLoc d)) fe i) :
    ((xW).view.loc (thr d L) ↦[((xW).slice (Rect.unit (s := S320000x128) off S80x128.size inb) (fun _ => rfl)).view.set]{fullShare} fx : sProp 𝕄)
      = ((xW).view.loc (thr d L) ↦[ckSet d L j]{fullShare} Cert.Feature.XF (m (zLoc d)) fe) := by
  subst hoff hj
  rw [pointsTo_congr hfx]

theorem trip_mid (qz : PosShare TreeShare) (fe : Buf (Elt F) (eLoc d)) (hfe : ∀ j, (fe j).toNat < 10000) (fx0 : Buf (Elt F) (xLoc d))
    (fis : Buf (Elt F) ((sIs).view.loc (thr d L))) (fid : Buf (Elt F) ((sId).view.loc (thr d L)))
    (O : CellTallies nD τ sig (HIx 1)) (W : Waits sig (HIx 1))
    (t : Fin k0_t1_loop.trips) (h1 : 1 ≤ t.val) (h60 : t.val ≤ 60) (v : BitVec 32) :
    Inv m d L qz fe fx0 (isC d L fe fis) (idC d L fe fid) O W t.val v
      ⊢ wp frame (wpE (defs₀ (F := F)) 𝒱₀ (thr d L) none) Set.univ
          (k0_t1_body L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1 t v)
          (fun v' => Inv m d L qz fe fx0 (isC d L fe fis) (idC d L fe fid) O W (t.val + 1) v') := by
  have hc1 := tcond1_of t h1
  have hc2 := tcond2_of t (by omega)
  have hc3 := tcond3_of t (by omega)
  have hc4 := tcond4_of t h1
  have hc5 := tcond5_of t h60
  have eg0 : gat0 t.val = some (2 * t.val) := by unfold gat0; rw [if_pos (by omega)]
  have eo0 : out0 t.val = some (2 * t.val - 2) := by unfold out0; rw [if_neg (by omega), if_pos (by omega)]
  have eg1 : gat1 t.val = some (2 * t.val + 1) := by unfold gat1; rw [if_pos (by omega)]
  have eo1 : out1 t.val = some (2 * t.val - 1) := by unfold out1; rw [if_neg (by omega), if_pos (by omega)]
  have hinS : ∀ (off : Fin 1 → Nat) (h : ∀ a, off a + S80.size a ≤ S10000.size a) (hs) (x : S80.Idx),
      (((sIs).slice (Rect.unit (s := S10000) off S80.size h) hs).view.read (Elt F) (isC d L fe fis) x).toNat < 10000 := by
    intro off h hs x
    unfold isC
    rw [View.write_whole_univ, View.read_apply]
    exact hfe _
  have hinD : ∀ (off : Fin 1 → Nat) (h : ∀ a, off a + S80.size a ≤ S10000.size a) (hs) (x : S80.Idx),
      (((sId).slice (Rect.unit (s := S10000) off S80.size h) hs).view.read (Elt F) (idC d L fe fid) x).toNat < 10000 := by
    intro off h hs x
    unfold idC
    rw [View.write_whole_univ, View.read_apply]
    exact hfe _
  obtain ⟨j0, hj0⟩ : ∃ j : Fin 125, j.val = 2 * t.val := ⟨⟨2 * t.val, by omega⟩, rfl⟩
  obtain ⟨j1, hj1⟩ : ∃ j : Fin 125, j.val = 2 * t.val + 1 := ⟨⟨2 * t.val + 1, by omega⟩, rfl⟩
  rw [Inv_eq m d L qz fe fx0 _ _ O W t.val v, eg0, eo0, eg1, eo1, XU_split d L fx0 t.val (by omega) j0 j1 hj0 hj1]
  iintro ⟨#Hmw, HS0, HS1, ⟨Hck0, Hck1, HXU⟩, HXD, %W', %hW', HO⟩
  ihave HS1k := (aside_in (F := F) _) $$ HS1
  ihave Hck1k := (aside_in (F := F) _) $$ Hck1
  unfold Slot
  icases HS0 with ⟨Hzr0, Hzr1, ⟨%offA, %hA, %gS, %gD, %hgA, HF0, HF1, HisA, HidA⟩, ⟨%offX, %hX, %fxo, %po, %hxo, HFP⟩⟩
  unfold GFl SFl k0_t1_body
  sl_exec
  -- the product loop of slot 0
  ihave Ha := (Entails.of_eq (pts_whole (F := F) d L sR0 (Memref.isWhole_whole _) fullShare gS)) $$ HF0_dst
  ihave Hb := (Entails.of_eq (pts_whole (F := F) d L sD0 (Memref.isWhole_whole _) fullShare gD)) $$ HF1_dst
  ihave Hp := (Entails.of_eq (pts_whole (F := F) d L sP0 (Memref.isWhole_whole _) fullShare po)) $$ HFP_src
  iapply (mul_loop0_bind d L fullShare gS gD po _ _)
  isplitl [Ha]; · iexact Ha
  isplitl [Hb]; · iexact Hb
  isplitl [Hp]; · iexact Hp
  iintro %p0 %v0 %hp0 Ha Hb Hp
  -- chunk 2t, spelt as the copy-out's destination
  ihave Hck0' := (Entails.of_eq (congrArg (fun X => ((xW).view.loc (thr d L) ↦[X]{fullShare} fx0 : sProp 𝕄))
      (set_of_off d L j0 (k0_off14 L t) (k0_off14_inb L t) (off14_chunk L t j0 hj0).1 (off14_chunk L t j0 hj0).2).symm)) $$ Hck0
  ihave Hck0'' := (Entails.of_eq (show ((xW).view.loc (thr d L) ↦[(xO0 L t).view.set]{fullShare} fx0 : sProp 𝕄)
      = ((xO0 L t).view.loc (thr d L) ↦[(xO0 L t).view.set]{fullShare} fx0) from rfl)) $$ Hck0'

  sl_exec
  -- slot 0 at trip t + 1: the gathers of step 2t + 2 and the copy-out of step 2t in flight
  have hoffA : k0_off13 t 0 = 80 * (2 * t.val + 2) := by
    rw [k0_off13_eq]; show 160 * t.val + 160 = 80 * (2 * t.val + 2); omega
  have hoffX : k0_off14 L t = ![base L + 80 * (2 * t.val), 0] :=
    off_eq2 _ _ ((off14_chunk L t j0 hj0).1.trans (by rw [hj0])) (off14_chunk L t j0 hj0).2
  have hprod0 := fun r l => prod_rows m d L fe sR0 sD0 gS gD (2 * t.val) (by omega) hgA.2.1 hgA.2.2 p0 hp0 r l
  ihave HS0n := (Entails.of_eq (Slot_ss m d L cc0_scratch8.sem cc0_scratch9.sem cc0_scratch12.sem sR0 sD0 sP0 qA
      (Transfers.shareTokN qz 0) (Transfers.shareTokN qz 1) fe (isC d L fe fis) (idC d L fe fid) (2 * t.val + 2) (2 * t.val)).symm)
    $$ [Hzr0 Hzr1 HF0 HF1 HisA HidA HFP]
  · isplitl [Hzr0]; · iexact Hzr0
    isplitl [Hzr1]; · iexact Hzr1
    isplitl [HF0 HF1 HisA HidA]
    · iexists (k0_off13 t), (k0_off13_inb t hc2), _, _
      isplitr
      pick_goal 2
      · unfold GFl
        isplitl [HF0]; · iexact HF0
        isplitl [HF1]; · iexact HF1
        isplitl [HisA]; · iexact HisA
        iexact HidA
      · ipureintro
        refine ⟨hoffA, ?_, ?_⟩
        · exact grows_src m d L fe hfe sR0 gS fis (2 * t.val + 2) (by omega) (k0_off13 t) hoffA (k0_off13_inb t hc2) _ _ _ _
        · exact grows_dst m d L fe hfe sD0 gD fid (2 * t.val + 2) (by omega) (k0_off13 t) hoffA (k0_off13_inb t hc2) _ _ _ _
    · iexists (k0_off14 L t), (k0_off14_inb L t), _, p0
      isplitr
      pick_goal 2
      · unfold SFl
        iexact HFP
      · ipureintro
        exact ⟨hoffX, window_rows_w m d L fe sP0 p0 (2 * t.val) (by omega) hprod0 (k0_off14 L t) hoffX (k0_off14_inb L t) fx0⟩
  ihave HS0k := (aside_in (F := F) _) $$ HS0n

  -- chunk 2t − 2 is done
  obtain ⟨jd0, hjd0⟩ : ∃ j : Fin 125, j.val = 2 * t.val - 2 := ⟨⟨2 * t.val - 2, by omega⟩, rfl⟩
  obtain ⟨jd1, hjd1⟩ : ∃ j : Fin 125, j.val = 2 * t.val - 1 := ⟨⟨2 * t.val - 1, by omega⟩, rfl⟩
  ihave Hdone0 := (Entails.of_eq (done_chunk m d L fe jd0 _ hjd0 offX hX fxo hxo.1 hxo.2)) $$ HFP_dst
  ihave Hdone0k := (aside_in (F := F) _) $$ Hdone0
  -- slot 1
  ihave HS1 := (aside_out (F := F) _) $$ HS1k
  icases HS1 with ⟨Hzr2, Hzr3, ⟨%offB, %hB, %gS1, %gD1, %hgB, HF2, HF3, HisB, HidB⟩, ⟨%offY, %hY, %fyo, %p1o, %hyo, HFQ⟩⟩
  sl_exec
  ihave Ha1 := (Entails.of_eq (pts_whole (F := F) d L sR1 (Memref.isWhole_whole _) fullShare gS1)) $$ HF2_dst
  ihave Hb1 := (Entails.of_eq (pts_whole (F := F) d L sD1 (Memref.isWhole_whole _) fullShare gD1)) $$ HF3_dst
  ihave Hp1 := (Entails.of_eq (pts_whole (F := F) d L sP1 (Memref.isWhole_whole _) fullShare p1o)) $$ HFQ_src
  iapply (mul_loop1_bind d L t hc3 fullShare gS1 gD1 p1o _ _)
  isplitl [Ha1]; · iexact Ha1
  isplitl [Hb1]; · iexact Hb1
  isplitl [Hp1]; · iexact Hp1
  iintro %p1 %v1 %hp1 Ha1 Hb1 Hp1
  ihave Hck1 := (aside_out (F := F) _) $$ Hck1k
  ihave Hck1' := (Entails.of_eq (congrArg (fun X => ((xW).view.loc (thr d L) ↦[X]{fullShare} fx0 : sProp 𝕄))
      (set_of_off d L j1 (k0_off26 L t) (k0_off26_inb L t hc3) (off26_chunk L t j1 hj1).1 (off26_chunk L t j1 hj1).2).symm)) $$ Hck1
  ihave Hck1'' := (Entails.of_eq (show ((xW).view.loc (thr d L) ↦[(xO1 L t hc3).view.set]{fullShare} fx0 : sProp 𝕄)
      = ((xO1 L t hc3).view.loc (thr d L) ↦[(xO1 L t hc3).view.set]{fullShare} fx0) from rfl)) $$ Hck1'
  sl_exec

  -- slot 1 at trip t + 1: the gathers of step 2t + 3 and the copy-out of step 2t + 1 in flight
  have hoffB : k0_off25 t 0 = 80 * (2 * t.val + 3) := by
    rw [k0_off25_eq]; show 160 * t.val + 240 = 80 * (2 * t.val + 3); omega
  have hoffY : k0_off26 L t = ![base L + 80 * (2 * t.val + 1), 0] :=
    off_eq2 _ _ ((off26_chunk L t j1 hj1).1.trans (by rw [hj1])) (off26_chunk L t j1 hj1).2
  have hprod1 := fun r l => prod_rows m d L fe sR1 sD1 gS1 gD1 (2 * t.val + 1) (by omega) hgB.2.1 hgB.2.2 p1 hp1 r l
  ihave HS1n := (Entails.of_eq (Slot_ss m d L cc0_scratch10.sem cc0_scratch11.sem cc0_scratch13.sem sR1 sD1 sP1 qB
      (Transfers.shareTokN qz 2) (Transfers.shareTokN qz 3) fe (isC d L fe fis) (idC d L fe fid) (2 * t.val + 3) (2 * t.val + 1)).symm)
    $$ [Hzr2 Hzr3 HF2 HF3 HisB HidB HFQ]
  · isplitl [Hzr2]; · iexact Hzr2
    isplitl [Hzr3]; · iexact Hzr3
    isplitl [HF2 HF3 HisB HidB]
    · iexists (k0_off25 t), (k0_off25_inb t hc3 hc5), _, _
      isplitr
      pick_goal 2
      · unfold GFl
        isplitl [HF2]; · iexact HF2
        isplitl [HF3]; · iexact HF3
        isplitl [HisB]; · iexact HisB
        iexact HidB
      · ipureintro
        refine ⟨hoffB, ?_, ?_⟩
        · exact grows_src m d L fe hfe sR1 gS1 fis (2 * t.val + 3) (by omega) (k0_off25 t) hoffB (k0_off25_inb t hc3 hc5) _ _ _ _
        · exact grows_dst m d L fe hfe sD1 gD1 fid (2 * t.val + 3) (by omega) (k0_off25 t) hoffB (k0_off25_inb t hc3 hc5) _ _ _ _
    · iexists (k0_off26 L t), (k0_off26_inb L t hc3), _, p1
      isplitr
      pick_goal 2
      · unfold SFl
        iexact HFQ
      · ipureintro
        exact ⟨hoffY, window_rows_w m d L fe sP1 p1 (2 * t.val + 1) (by omega) hprod1 (k0_off26 L t) hoffY (k0_off26_inb L t hc3) fx0⟩
  ihave Hdone1 := (Entails.of_eq (done_chunk m d L fe jd1 _ hjd1 offY hY fyo hyo.1 hyo.2)) $$ HFQ_dst
  ihave Hdone0 := (aside_out (F := F) _) $$ Hdone0k
  ihave HS0n := (aside_out (F := F) _) $$ HS0k
  sl_step
  have eg0' : gat0 (t.val + 1) = some (2 * t.val + 2) := by unfold gat0; rw [if_pos (by omega)]; exact congrArg some (by omega)
  have eo0' : out0 (t.val + 1) = some (2 * t.val) := by unfold out0; rw [if_neg (by omega), if_pos (by omega)]; exact congrArg some (by omega)
  have eg1' : gat1 (t.val + 1) = some (2 * t.val + 3) := by unfold gat1; rw [if_pos (by omega)]; exact congrArg some (by omega)
  have eo1' : out1 (t.val + 1) = some (2 * t.val + 1) := by unfold out1; rw [if_neg (by omega), if_pos (by omega)]; exact congrArg some (by omega)
  irw [Inv_eq m d L qz fe fx0 _ _ O W (t.val + 1), eg0', eo0', eg1', eo1', XD_join m d L fe t.val h1 (by omega) jd0 jd1 hjd0 hjd1]
  isplitr; · iexact Hmw
  isplitl [HS0n]; · iexact HS0n
  isplitl [HS1n]; · iexact HS1n
  isplitl [HXU]; · iexact HXU
  isplitl [Hdone0 Hdone1 HXD]
  · isplitl [Hdone0]; · iexact Hdone0
    isplitl [Hdone1]; · iexact Hdone1
    iexact HXD
  iexists _
  isplitr
  pick_goal 2
  · iexact HO
  · ipureintro
    intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact hW' p hp

end Tile

end Cert.Proof.KI

end
-- ==== Proof.IdealTileTripEnds.lean ====
/-
  The first and the last trip of a vector subcore's pipelined loop. On the first trip no copy-out is in flight yet, so
  neither half waits for one and no chunk is finished; on the last trip only slot 0 has a step left (step 124), its
  gathers are not re-issued, and slot 1 is passed through untouched.
-/
import proofs.«202806_g74526272520516_cont_9to1_m_1211_39_alg».proof.Proof.IdealTileTrip

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ) [FloatOps F]

section Tile
variable (d : Dev nD) (L : grid0.Coords)

theorem tcond1_not : ∀ t : Fin k0_t1_loop.trips, t.val = 0 → ¬ (k0_cond1 t = 1#1) := by decide +kernel
theorem tcond4_not : ∀ t : Fin k0_t1_loop.trips, t.val = 0 → ¬ (k0_cond4 t = 1#1) := by decide +kernel
theorem tcond2_not : ∀ t : Fin k0_t1_loop.trips, 62 ≤ t.val → ¬ (k0_cond2 t = 1#1) := by decide +kernel
theorem tcond3_not : ∀ t : Fin k0_t1_loop.trips, 62 ≤ t.val → ¬ (k0_cond3 t = 1#1) := by decide +kernel

/-- No chunk is finished on entering the first two trips. -/
theorem XD_low (fe : Buf (Elt F) (eLoc d)) (k : ℕ) (hk : k ≤ 1) : XDone m d L fe k = (BI.emp : sProp 𝕄) := by
  unfold XDone
  have e : (Finset.univ.filter fun j : Fin 125 => j.val + 2 < started k) = ∅ := by
    ext ⟨j, hj⟩
    rw [Finset.mem_filter]
    simp only [Finset.mem_univ, _root_.true_and, started, Finset.notMem_empty, _root_.iff_false]
    omega
  rw [e, bigSep_empty]

/-- A slot with its gathers in flight and no copy-out in flight, spelt out. -/
theorem Slot_sn (semG semD semP : DmaSem sig) (R Dd P : Memref sig .scVector .vmem S80x128 .f32) (qt qz0 qz1 : PosShare TreeShare)
    (fe : Buf (Elt F) (eLoc d)) (isc : Buf (Elt F) ((sIs).view.loc (thr d L))) (idc : Buf (Elt F) ((sId).view.loc (thr d L))) (jg : ℕ) :
    Slot m d L semG semD semP R Dd P qt qz0 qz1 fe isc idc (some jg) none
      = iprop(((zW).view.loc (thr d L) ↦[Finset.univ \ (zSl).view.set]{qz0} m (zLoc d))
    ∗ ((zW).view.loc (thr d L) ↦[Finset.univ \ (zSl).view.set]{qz1} m (zLoc d))
    ∗ (∃ (off : Fin 1 → ℕ) (h : ∀ a, off a + S80.size a ≤ S10000.size a) (gS : Buf (Elt F) ((R).view.loc (thr d L))) (gD : Buf (Elt F) ((Dd).view.loc (thr d L))),
            ⌜off 0 = 80 * jg ∧ GRows m d L R fe 0 jg gS ∧ GRows m d L Dd fe 320000 jg gD⌝
            ∗ GFl m d L semG R sIs qt qz0 isc off h gS ∗ GFl m d L semD Dd sId qt qz1 idc off h gD
            ∗ ((sIs).view.loc (thr d L) ↦[Finset.univ \ ((sIs).slice (Rect.unit (s := S10000) off S80.size h) (fun _ => rfl)).view.set]{qt} isc)
            ∗ ((sId).view.loc (thr d L) ↦[Finset.univ \ ((sId).slice (Rect.unit (s := S10000) off S80.size h) (fun _ => rfl)).view.set]{qt} idc))
    ∗ (semVal (thr d L, SemLoc.dma semP) 0 ∗ ∃ p, (P).view.loc (thr d L) ↦[(P).view.set]{fullShare} p)) := rfl

/-- A slot with no gather in flight and its copy-out in flight, spelt out. -/
theorem Slot_ns (semG semD semP : DmaSem sig) (R Dd P : Memref sig .scVector .vmem S80x128 .f32) (qt qz0 qz1 : PosShare TreeShare)
    (fe : Buf (Elt F) (eLoc d)) (isc : Buf (Elt F) ((sIs).view.loc (thr d L))) (idc : Buf (Elt F) ((sId).view.loc (thr d L))) (jo : ℕ) :
    Slot m d L semG semD semP R Dd P qt qz0 qz1 fe isc idc none (some jo)
      = iprop(((zW).view.loc (thr d L) ↦[Finset.univ \ (zSl).view.set]{qz0} m (zLoc d))
    ∗ ((zW).view.loc (thr d L) ↦[Finset.univ \ (zSl).view.set]{qz1} m (zLoc d))
    ∗ (semVal (thr d L, SemLoc.dma semG) 0 ∗ semVal (thr d L, SemLoc.dma semD) 0
            ∗ ((zW).view.loc (thr d L) ↦[(zSl).view.set]{qz0} m (zLoc d)) ∗ ((zW).view.loc (thr d L) ↦[(zSl).view.set]{qz1} m (zLoc d))
            ∗ (∃ g, (R).view.loc (thr d L) ↦[(R).view.set]{fullShare} g) ∗ (∃ g, (Dd).view.loc (thr d L) ↦[(Dd).view.set]{fullShare} g)
            ∗ ((sIs).view.loc (thr d L) ↦{qt} isc) ∗ ((sId).view.loc (thr d L) ↦{qt} idc))
    ∗ (∃ (off : Fin 2 → ℕ) (h : ∀ a, off a + S80x128.size a ≤ S320000x128.size a) (fx : Buf (Elt F) ((xW).view.loc (thr d L))) (p : Buf (Elt F) ((P).view.loc (thr d L))),
            ⌜off = ![base L + 80 * jo, 0] ∧ ∀ i ∈ ((xW).slice (Rect.unit (s := S320000x128) off S80x128.size h) (fun _ => rfl)).view.set, fx i = Cert.Feature.XF (m (zLoc d)) fe i⌝
            ∗ SFl d L semP P off h fx p)) := rfl

omit [FloatOps F] in
/-- On entering the last trip only chunk 124 is not yet started; after it none is. -/
theorem XU_last (fx0 : Buf (Elt F) (xLoc d)) (j0 : Fin 125) (h0 : j0.val = 124) :
    XUntouched (F := F) d L fx0 62
      = iprop(((xW).view.loc (thr d L) ↦[ckSet d L j0]{fullShare} fx0) ∗ XUntouched d L fx0 63) := by
  unfold XUntouched
  obtain ⟨j0, hj0⟩ := j0
  simp only at h0
  subst h0
  have e : (Finset.univ.filter fun j : Fin 125 => started 62 ≤ j.val)
      = insert (⟨124, hj0⟩ : Fin 125) (Finset.univ.filter fun j : Fin 125 => started 63 ≤ j.val) := by
    ext ⟨j, hj⟩
    rw [Finset.mem_filter, Finset.mem_insert, Finset.mem_filter]
    simp only [Finset.mem_univ, _root_.true_and, Fin.mk.injEq, started]
    omega
  rw [e, SparseCore.bigSep_insert' (by
      rw [Finset.mem_filter]
      simp only [Finset.mem_univ, _root_.true_and, started]; omega)]

/-- The finished chunks after the last trip are chunk 122 and those finished on entering it. -/
theorem XD_last (fe : Buf (Elt F) (eLoc d)) (j0 : Fin 125) (h0 : j0.val = 122) :
    XDone m d L fe 63
      = iprop(((xW).view.loc (thr d L) ↦[ckSet d L j0]{fullShare} Cert.Feature.XF (m (zLoc d)) fe) ∗ XDone m d L fe 62) := by
  unfold XDone
  obtain ⟨j0, hj0⟩ := j0
  simp only at h0
  subst h0
  have e : (Finset.univ.filter fun j : Fin 125 => j.val + 2 < started 63)
      = insert (⟨122, hj0⟩ : Fin 125) (Finset.univ.filter fun j : Fin 125 => j.val + 2 < started 62) := by
    ext ⟨j, hj⟩
    rw [Finset.mem_filter, Finset.mem_insert, Finset.mem_filter]
    simp only [Finset.mem_univ, _root_.true_and, Fin.mk.injEq, started]
    omega
  rw [e, SparseCore.bigSep_insert' (by
      rw [Finset.mem_filter]
      simp only [Finset.mem_univ, _root_.true_and, started]; omega)]

theorem trip_first (qz : PosShare TreeShare) (fe : Buf (Elt F) (eLoc d)) (hfe : ∀ j, (fe j).toNat < 10000) (fx0 : Buf (Elt F) (xLoc d))
    (fis : Buf (Elt F) ((sIs).view.loc (thr d L))) (fid : Buf (Elt F) ((sId).view.loc (thr d L)))
    (O : CellTallies nD τ sig (HIx 1)) (W : Waits sig (HIx 1))
    (t : Fin k0_t1_loop.trips) (h0 : t.val = 0) (v : BitVec 32) :
    Inv m d L qz fe fx0 (isC d L fe fis) (idC d L fe fid) O W t.val v
      ⊢ wp frame (wpE (defs₀ (F := F)) 𝒱₀ (thr d L) none) Set.univ
          (k0_t1_body L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1 t v)
          (fun v' => Inv m d L qz fe fx0 (isC d L fe fis) (idC d L fe fid) O W (t.val + 1) v') := by
  have hc1 := tcond1_not t h0
  have hc2 := tcond2_of t (by omega)
  have hc3 := tcond3_of t (by omega)
  have hc4 := tcond4_not t h0
  have hc5 := tcond5_of t (by omega)
  have eg0 : gat0 t.val = some (2 * t.val) := by unfold gat0; rw [if_pos (by omega)]
  have eo0 : out0 t.val = none := by unfold out0; rw [if_pos h0]
  have eg1 : gat1 t.val = some (2 * t.val + 1) := by unfold gat1; rw [if_pos (by omega)]
  have eo1 : out1 t.val = none := by unfold out1; rw [if_pos h0]
  have hinS : ∀ (off : Fin 1 → Nat) (h : ∀ a, off a + S80.size a ≤ S10000.size a) (hs) (x : S80.Idx),
      (((sIs).slice (Rect.unit (s := S10000) off S80.size h) hs).view.read (Elt F) (isC d L fe fis) x).toNat < 10000 := by
    intro off h hs x
    unfold isC
    rw [View.write_whole_univ, View.read_apply]
    exact hfe _
  have hinD : ∀ (off : Fin 1 → Nat) (h : ∀ a, off a + S80.size a ≤ S10000.size a) (hs) (x : S80.Idx),
      (((sId).slice (Rect.unit (s := S10000) off S80.size h) hs).view.read (Elt F) (idC d L fe fid) x).toNat < 10000 := by
    intro off h hs x
    unfold idC
    rw [View.write_whole_univ, View.read_apply]
    exact hfe _
  obtain ⟨j0, hj0⟩ : ∃ j : Fin 125, j.val = 2 * t.val := ⟨⟨2 * t.val, by omega⟩, rfl⟩
  obtain ⟨j1, hj1⟩ : ∃ j : Fin 125, j.val = 2 * t.val + 1 := ⟨⟨2 * t.val + 1, by omega⟩, rfl⟩
  rw [Inv_eq m d L qz fe fx0 _ _ O W t.val v, eg0, eo0, eg1, eo1, XU_split d L fx0 t.val (by omega) j0 j1 hj0 hj1, XD_low m d L fe t.val (by omega)]
  iintro ⟨#Hmw, HS0, HS1, ⟨Hck0, Hck1, HXU⟩, HXD, %W', %hW', HO⟩
  ihave HS1k := (aside_in (F := F) _) $$ HS1
  ihave Hck1k := (aside_in (F := F) _) $$ Hck1
  unfold Slot
  icases HS0 with ⟨Hzr0, Hzr1, ⟨%offA, %hA, %gS, %gD, %hgA, HF0, HF1, HisA, HidA⟩, ⟨HFP, %po, HFP_src⟩⟩
  unfold GFl SFl k0_t1_body
  sl_exec
  -- the product loop of slot 0
  ihave Ha := (Entails.of_eq (pts_whole (F := F) d L sR0 (Memref.isWhole_whole _) fullShare gS)) $$ HF0_dst
  ihave Hb := (Entails.of_eq (pts_whole (F := F) d L sD0 (Memref.isWhole_whole _) fullShare gD)) $$ HF1_dst
  ihave Hp := (Entails.of_eq (pts_whole (F := F) d L sP0 (Memref.isWhole_whole _) fullShare po)) $$ HFP_src
  iapply (mul_loop0_bind d L fullShare gS gD po _ _)
  isplitl [Ha]; · iexact Ha
  isplitl [Hb]; · iexact Hb
  isplitl [Hp]; · iexact Hp
  iintro %p0 %v0 %hp0 Ha Hb Hp
  -- chunk 2t, spelt as the copy-out's destination
  ihave Hck0' := (Entails.of_eq (congrArg (fun X => ((xW).view.loc (thr d L) ↦[X]{fullShare} fx0 : sProp 𝕄))
      (set_of_off d L j0 (k0_off14 L t) (k0_off14_inb L t) (off14_chunk L t j0 hj0).1 (off14_chunk L t j0 hj0).2).symm)) $$ Hck0
  ihave Hck0'' := (Entails.of_eq (show ((xW).view.loc (thr d L) ↦[(xO0 L t).view.set]{fullShare} fx0 : sProp 𝕄)
      = ((xO0 L t).view.loc (thr d L) ↦[(xO0 L t).view.set]{fullShare} fx0) from rfl)) $$ Hck0'

  sl_exec
  -- slot 0 at trip t + 1: the gathers of step 2t + 2 and the copy-out of step 2t in flight
  have hoffA : k0_off13 t 0 = 80 * (2 * t.val + 2) := by
    rw [k0_off13_eq]; show 160 * t.val + 160 = 80 * (2 * t.val + 2); omega
  have hoffX : k0_off14 L t = ![base L + 80 * (2 * t.val), 0] :=
    off_eq2 _ _ ((off14_chunk L t j0 hj0).1.trans (by rw [hj0])) (off14_chunk L t j0 hj0).2
  have hprod0 := fun r l => prod_rows m d L fe sR0 sD0 gS gD (2 * t.val) (by omega) hgA.2.1 hgA.2.2 p0 hp0 r l
  ihave HS0n := (Entails.of_eq (Slot_ss m d L cc0_scratch8.sem cc0_scratch9.sem cc0_scratch12.sem sR0 sD0 sP0 qA
      (Transfers.shareTokN qz 0) (Transfers.shareTokN qz 1) fe (isC d L fe fis) (idC d L fe fid) (2 * t.val + 2) (2 * t.val)).symm)
    $$ [Hzr0 Hzr1 HF0 HF1 HisA HidA HFP]
  · isplitl [Hzr0]; · iexact Hzr0
    isplitl [Hzr1]; · iexact Hzr1
    isplitl [HF0 HF1 HisA HidA]
    · iexists (k0_off13 t), (k0_off13_inb t hc2), _, _
      isplitr
      pick_goal 2
      · unfold GFl
        isplitl [HF0]; · iexact HF0
        isplitl [HF1]; · iexact HF1
        isplitl [HisA]; · iexact HisA
        iexact HidA
      · ipureintro
        refine ⟨hoffA, ?_, ?_⟩
        · exact grows_src m d L fe hfe sR0 gS fis (2 * t.val + 2) (by omega) (k0_off13 t) hoffA (k0_off13_inb t hc2) _ _ _ _
        · exact grows_dst m d L fe hfe sD0 gD fid (2 * t.val + 2) (by omega) (k0_off13 t) hoffA (k0_off13_inb t hc2) _ _ _ _
    · iexists (k0_off14 L t), (k0_off14_inb L t), _, p0
      isplitr
      pick_goal 2
      · unfold SFl
        iexact HFP
      · ipureintro
        exact ⟨hoffX, window_rows_w m d L fe sP0 p0 (2 * t.val) (by omega) hprod0 (k0_off14 L t) hoffX (k0_off14_inb L t) fx0⟩
  ihave HS0k := (aside_in (F := F) _) $$ HS0n

  -- slot 1
  ihave HS1 := (aside_out (F := F) _) $$ HS1k
  icases HS1 with ⟨Hzr2, Hzr3, ⟨%offB, %hB, %gS1, %gD1, %hgB, HF2, HF3, HisB, HidB⟩, ⟨HFQ, %p1o, HFQ_src⟩⟩
  sl_exec
  ihave Ha1 := (Entails.of_eq (pts_whole (F := F) d L sR1 (Memref.isWhole_whole _) fullShare gS1)) $$ HF2_dst
  ihave Hb1 := (Entails.of_eq (pts_whole (F := F) d L sD1 (Memref.isWhole_whole _) fullShare gD1)) $$ HF3_dst
  ihave Hp1 := (Entails.of_eq (pts_whole (F := F) d L sP1 (Memref.isWhole_whole _) fullShare p1o)) $$ HFQ_src
  iapply (mul_loop1_bind d L t hc3 fullShare gS1 gD1 p1o _ _)
  isplitl [Ha1]; · iexact Ha1
  isplitl [Hb1]; · iexact Hb1
  isplitl [Hp1]; · iexact Hp1
  iintro %p1 %v1 %hp1 Ha1 Hb1 Hp1
  ihave Hck1 := (aside_out (F := F) _) $$ Hck1k
  ihave Hck1' := (Entails.of_eq (congrArg (fun X => ((xW).view.loc (thr d L) ↦[X]{fullShare} fx0 : sProp 𝕄))
      (set_of_off d L j1 (k0_off26 L t) (k0_off26_inb L t hc3) (off26_chunk L t j1 hj1).1 (off26_chunk L t j1 hj1).2).symm)) $$ Hck1
  ihave Hck1'' := (Entails.of_eq (show ((xW).view.loc (thr d L) ↦[(xO1 L t hc3).view.set]{fullShare} fx0 : sProp 𝕄)
      = ((xO1 L t hc3).view.loc (thr d L) ↦[(xO1 L t hc3).view.set]{fullShare} fx0) from rfl)) $$ Hck1'
  sl_exec

  -- slot 1 at trip t + 1: the gathers of step 2t + 3 and the copy-out of step 2t + 1 in flight
  have hoffB : k0_off25 t 0 = 80 * (2 * t.val + 3) := by
    rw [k0_off25_eq]; show 160 * t.val + 240 = 80 * (2 * t.val + 3); omega
  have hoffY : k0_off26 L t = ![base L + 80 * (2 * t.val + 1), 0] :=
    off_eq2 _ _ ((off26_chunk L t j1 hj1).1.trans (by rw [hj1])) (off26_chunk L t j1 hj1).2
  have hprod1 := fun r l => prod_rows m d L fe sR1 sD1 gS1 gD1 (2 * t.val + 1) (by omega) hgB.2.1 hgB.2.2 p1 hp1 r l
  ihave HS1n := (Entails.of_eq (Slot_ss m d L cc0_scratch10.sem cc0_scratch11.sem cc0_scratch13.sem sR1 sD1 sP1 qB
      (Transfers.shareTokN qz 2) (Transfers.shareTokN qz 3) fe (isC d L fe fis) (idC d L fe fid) (2 * t.val + 3) (2 * t.val + 1)).symm)
    $$ [Hzr2 Hzr3 HF2 HF3 HisB HidB HFQ]
  · isplitl [Hzr2]; · iexact Hzr2
    isplitl [Hzr3]; · iexact Hzr3
    isplitl [HF2 HF3 HisB HidB]
    · iexists (k0_off25 t), (k0_off25_inb t hc3 hc5), _, _
      isplitr
      pick_goal 2
      · unfold GFl
        isplitl [HF2]; · iexact HF2
        isplitl [HF3]; · iexact HF3
        isplitl [HisB]; · iexact HisB
        iexact HidB
      · ipureintro
        refine ⟨hoffB, ?_, ?_⟩
        · exact grows_src m d L fe hfe sR1 gS1 fis (2 * t.val + 3) (by omega) (k0_off25 t) hoffB (k0_off25_inb t hc3 hc5) _ _ _ _
        · exact grows_dst m d L fe hfe sD1 gD1 fid (2 * t.val + 3) (by omega) (k0_off25 t) hoffB (k0_off25_inb t hc3 hc5) _ _ _ _
    · iexists (k0_off26 L t), (k0_off26_inb L t hc3), _, p1
      isplitr
      pick_goal 2
      · unfold SFl
        iexact HFQ
      · ipureintro
        exact ⟨hoffY, window_rows_w m d L fe sP1 p1 (2 * t.val + 1) (by omega) hprod1 (k0_off26 L t) hoffY (k0_off26_inb L t hc3) fx0⟩
  ihave HS0n := (aside_out (F := F) _) $$ HS0k
  sl_step
  have eg0' : gat0 (t.val + 1) = some (2 * t.val + 2) := by unfold gat0; rw [if_pos (by omega)]; exact congrArg some (by omega)
  have eo0' : out0 (t.val + 1) = some (2 * t.val) := by unfold out0; rw [if_neg (by omega), if_pos (by omega)]; exact congrArg some (by omega)
  have eg1' : gat1 (t.val + 1) = some (2 * t.val + 3) := by unfold gat1; rw [if_pos (by omega)]; exact congrArg some (by omega)
  have eo1' : out1 (t.val + 1) = some (2 * t.val + 1) := by unfold out1; rw [if_neg (by omega), if_pos (by omega)]; exact congrArg some (by omega)
  irw [Inv_eq m d L qz fe fx0 _ _ O W (t.val + 1), eg0', eo0', eg1', eo1', XD_low m d L fe (t.val + 1) (by omega)]
  isplitr; · iexact Hmw
  isplitl [HS0n]; · iexact HS0n
  isplitl [HS1n]; · iexact HS1n
  isplitl [HXU]; · iexact HXU
  isplitl [HXD]; · iexact HXD
  iexists _
  isplitr
  pick_goal 2
  · iexact HO
  · ipureintro
    intro p hp
    simp only [Finset.mem_insert] at hp
    rcases hp with rfl | rfl | rfl | rfl | hp
    · exact .inr rfl
    · exact .inr rfl
    · exact .inr rfl
    · exact .inr rfl
    · exact hW' p hp

theorem trip_62 (qz : PosShare TreeShare) (fe : Buf (Elt F) (eLoc d)) (hfe : ∀ j, (fe j).toNat < 10000) (fx0 : Buf (Elt F) (xLoc d))
    (fis : Buf (Elt F) ((sIs).view.loc (thr d L))) (fid : Buf (Elt F) ((sId).view.loc (thr d L)))
    (O : CellTallies nD τ sig (HIx 1)) (W : Waits sig (HIx 1))
    (t : Fin k0_t1_loop.trips) (h62 : t.val = 62) (v : BitVec 32) :
    Inv m d L qz fe fx0 (isC d L fe fis) (idC d L fe fid) O W t.val v
      ⊢ wp frame (wpE (defs₀ (F := F)) 𝒱₀ (thr d L) none) Set.univ
          (k0_t1_body L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1 t v)
          (fun v' => Inv m d L qz fe fx0 (isC d L fe fis) (idC d L fe fid) O W (t.val + 1) v') := by
  have hc1 := tcond1_of t (by omega)
  have hc2 := tcond2_not t (by omega)
  have hc3 := tcond3_not t (by omega)
  have eg0 : gat0 t.val = some (2 * t.val) := by unfold gat0; rw [if_pos (by omega)]
  have eo0 : out0 t.val = some (2 * t.val - 2) := by unfold out0; rw [if_neg (by omega), if_pos (by omega)]
  obtain ⟨j0, hj0⟩ : ∃ j : Fin 125, j.val = 2 * t.val := ⟨⟨2 * t.val, by omega⟩, rfl⟩
  have e62 : t.val = 62 := h62
  rw [Inv_eq m d L qz fe fx0 _ _ O W t.val v, eg0, eo0, Slot_ss]
  rw [show XUntouched (F := F) d L fx0 t.val = XUntouched d L fx0 62 by rw [e62], XU_last d L fx0 j0 (by omega),
    show XDone m d L fe t.val = XDone m d L fe 62 by rw [e62]]
  iintro ⟨#Hmw, HS0, HS1, ⟨Hck0, HXU⟩, HXD, %W', %hW', HO⟩
  ihave HS1k := (aside_in (F := F) _) $$ HS1
  icases HS0 with ⟨Hzr0, Hzr1, ⟨%offA, %hA, %gS, %gD, %hgA, HF0, HF1, HisA, HidA⟩, ⟨%offX, %hX, %fxo, %po, %hxo, HFP⟩⟩
  unfold GFl SFl k0_t1_body
  sl_exec
  -- the product loop of slot 0
  ihave Ha := (Entails.of_eq (pts_whole (F := F) d L sR0 (Memref.isWhole_whole _) fullShare gS)) $$ HF0_dst
  ihave Hb := (Entails.of_eq (pts_whole (F := F) d L sD0 (Memref.isWhole_whole _) fullShare gD)) $$ HF1_dst
  ihave Hp := (Entails.of_eq (pts_whole (F := F) d L sP0 (Memref.isWhole_whole _) fullShare po)) $$ HFP_src
  iapply (mul_loop0_bind d L fullShare gS gD po _ _)
  isplitl [Ha]; · iexact Ha
  isplitl [Hb]; · iexact Hb
  isplitl [Hp]; · iexact Hp
  iintro %p0 %v0 %hp0 Ha Hb Hp
  -- chunk 2t, spelt as the copy-out's destination
  ihave Hck0' := (Entails.of_eq (congrArg (fun X => ((xW).view.loc (thr d L) ↦[X]{fullShare} fx0 : sProp 𝕄))
      (set_of_off d L j0 (k0_off14 L t) (k0_off14_inb L t) (off14_chunk L t j0 hj0).1 (off14_chunk L t j0 hj0).2).symm)) $$ Hck0
  ihave Hck0'' := (Entails.of_eq (show ((xW).view.loc (thr d L) ↦[(xO0 L t).view.set]{fullShare} fx0 : sProp 𝕄)
      = ((xO0 L t).view.loc (thr d L) ↦[(xO0 L t).view.set]{fullShare} fx0) from rfl)) $$ Hck0'
  sl_exec
  -- chunk 2t − 2 is done
  obtain ⟨jd0, hjd0⟩ : ∃ j : Fin 125, j.val = 2 * t.val - 2 := ⟨⟨2 * t.val - 2, by omega⟩, rfl⟩
  ihave Hdone0 := (Entails.of_eq (done_chunk m d L fe jd0 _ hjd0 offX hX fxo hxo.1 hxo.2)) $$ HFP_dst
  -- slot 0 after the last trip: no gather in flight, the copy-out of step 2t in flight
  have hoffX : k0_off14 L t = ![base L + 80 * (2 * t.val), 0] :=
    off_eq2 _ _ ((off14_chunk L t j0 hj0).1.trans (by rw [hj0])) (off14_chunk L t j0 hj0).2
  have hprod0 := fun r l => prod_rows m d L fe sR0 sD0 gS gD (2 * t.val) (by omega) hgA.2.1 hgA.2.2 p0 hp0 r l
  ihave Hz0s := ((pointsTo_split_subset (Finset.subset_univ ((zSl).view.set))).1) $$ Hzr0
  icases Hz0s with ⟨Hzin0, Hzr0⟩
  ihave Hz1s := ((pointsTo_split_subset (Finset.subset_univ ((zSl).view.set))).1) $$ Hzr1
  icases Hz1s with ⟨Hzin1, Hzr1⟩
  ihave HS0n := (Entails.of_eq (Slot_ns m d L cc0_scratch8.sem cc0_scratch9.sem cc0_scratch12.sem sR0 sD0 sP0 qA
      (Transfers.shareTokN qz 0) (Transfers.shareTokN qz 1) fe (isC d L fe fis) (idC d L fe fid) (2 * t.val)).symm)
    $$ [Hzr0 Hzr1 Hzin0 Hzin1 HF0 HF1 Ha Hb HisA HidA HFP]
  · isplitl [Hzr0]; · iexact Hzr0
    isplitl [Hzr1]; · iexact Hzr1
    isplitl [HF0 HF1 Hzin0 Hzin1 Ha Hb HisA HidA]
    · isplitl [HF0]; · iexact HF0
      isplitl [HF1]; · iexact HF1
      isplitl [Hzin0]; · iexact Hzin0
      isplitl [Hzin1]; · iexact Hzin1
      isplitl [Ha]
      · iexists gS
        iapply (Entails.of_eq (pts_whole (F := F) d L sR0 (Memref.isWhole_whole _) fullShare gS).symm)
        iexact Ha
      isplitl [Hb]
      · iexists gD
        iapply (Entails.of_eq (pts_whole (F := F) d L sD0 (Memref.isWhole_whole _) fullShare gD).symm)
        iexact Hb
      isplitl [HisA]; · iexact HisA
      iexact HidA
    · iexists (k0_off14 L t), (k0_off14_inb L t), _, p0
      isplitr
      pick_goal 2
      · unfold SFl
        iexact HFP
      · ipureintro
        exact ⟨hoffX, window_rows_w m d L fe sP0 p0 (2 * t.val) (by omega) hprod0 (k0_off14 L t) hoffX (k0_off14_inb L t) fx0⟩
  ihave HS1 := (aside_out (F := F) _) $$ HS1k
  sl_step
  have eg0' : gat0 (t.val + 1) = none := by unfold gat0; rw [if_neg (by omega)]
  have eo0' : out0 (t.val + 1) = some (2 * t.val) := by
    unfold out0; rw [if_neg (by omega), if_neg (by omega)]; exact congrArg some (by omega)
  have eg1' : gat1 (t.val + 1) = gat1 t.val := by unfold gat1; rw [if_neg (by omega), if_neg (by omega)]
  have eo1' : out1 (t.val + 1) = out1 t.val := by
    unfold out1; rw [if_neg (by omega), if_neg (by omega), if_neg (by omega), if_pos (by omega)]; exact congrArg some (by omega)
  irw [Inv_eq m d L qz fe fx0 _ _ O W (t.val + 1), eg0', eo0', eg1', eo1',
    show XDone m d L fe (t.val + 1) = XDone m d L fe 63 by rw [e62], XD_last m d L fe jd0 (by omega),
    show XUntouched (F := F) d L fx0 (t.val + 1) = XUntouched d L fx0 63 by rw [e62]]
  isplitr; · iexact Hmw
  isplitl [HS0n]; · iexact HS0n
  isplitl [HS1]; · iexact HS1
  isplitl [HXU]; · iexact HXU
  isplitl [Hdone0 HXD]
  · isplitl [Hdone0]; · iexact Hdone0
    iexact HXD
  iexists _
  isplitr
  pick_goal 2
  · iexact HO
  · ipureintro
    intro p hp
    simp only [Finset.mem_insert] at hp
    rcases hp with rfl | rfl | rfl | hp
    · exact .inr rfl
    · exact .inr rfl
    · exact .inr rfl
    · exact hW' p hp

end Tile

end Cert.Proof.KI

end
-- ==== Proof.IdealTileTrip61.lean ====
/-
  The trip before the last of a vector subcore's pipelined loop keeps the loop's invariant. Trip 61 runs step 122 in slot 0
  and step 123 in slot 1 as every middle trip does, except that slot 1 has no step two ahead (125 would be past the last
  step, 124): after its product it issues only the copy-out, and its gather cells, its two read shares of z, its two
  gathered buffers and its half of the index scratches rest with it, idle, from then on.
-/
import proofs.«202806_g74526272520516_cont_9to1_m_1211_39_alg».proof.Proof.IdealTileTrip

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ) [FloatOps F]

/-- From trip 61 on there is no step two ahead for slot 1. -/
theorem t61_cond5_not : ∀ t : Fin k0_t1_loop.trips, 61 ≤ t.val → ¬ (k0_cond5 t = 1#1) := by decide +kernel

section Tile
variable (d : Dev nD) (L : grid0.Coords)

/-- A slot with its gathers idle and its copy-out in flight, spelt out. -/
theorem t61_Slot_ns (semG semD semP : DmaSem sig) (R Dd P : Memref sig .scVector .vmem S80x128 .f32) (qt qz0 qz1 : PosShare TreeShare)
    (fe : Buf (Elt F) (eLoc d)) (isc : Buf (Elt F) ((sIs).view.loc (thr d L))) (idc : Buf (Elt F) ((sId).view.loc (thr d L))) (jo : ℕ) :
    Slot m d L semG semD semP R Dd P qt qz0 qz1 fe isc idc none (some jo)
      = iprop(((zW).view.loc (thr d L) ↦[Finset.univ \ (zSl).view.set]{qz0} m (zLoc d))
    ∗ ((zW).view.loc (thr d L) ↦[Finset.univ \ (zSl).view.set]{qz1} m (zLoc d))
    ∗ (semVal (thr d L, SemLoc.dma semG) 0 ∗ semVal (thr d L, SemLoc.dma semD) 0
            ∗ ((zW).view.loc (thr d L) ↦[(zSl).view.set]{qz0} m (zLoc d)) ∗ ((zW).view.loc (thr d L) ↦[(zSl).view.set]{qz1} m (zLoc d))
            ∗ (∃ g, (R).view.loc (thr d L) ↦[(R).view.set]{fullShare} g) ∗ (∃ g, (Dd).view.loc (thr d L) ↦[(Dd).view.set]{fullShare} g)
            ∗ ((sIs).view.loc (thr d L) ↦{qt} isc) ∗ ((sId).view.loc (thr d L) ↦{qt} idc))
    ∗ (∃ (off : Fin 2 → ℕ) (h : ∀ a, off a + S80x128.size a ≤ S320000x128.size a) (fx : Buf (Elt F) ((xW).view.loc (thr d L))) (p : Buf (Elt F) ((P).view.loc (thr d L))),
            ⌜off = ![base L + 80 * jo, 0] ∧ ∀ i ∈ ((xW).slice (Rect.unit (s := S320000x128) off S80x128.size h) (fun _ => rfl)).view.set, fx i = Cert.Feature.XF (m (zLoc d)) fe i⌝
            ∗ SFl d L semP P off h fx p)) := rfl

theorem trip_61 (qz : PosShare TreeShare) (fe : Buf (Elt F) (eLoc d)) (hfe : ∀ j, (fe j).toNat < 10000) (fx0 : Buf (Elt F) (xLoc d))
    (fis : Buf (Elt F) ((sIs).view.loc (thr d L))) (fid : Buf (Elt F) ((sId).view.loc (thr d L)))
    (O : CellTallies nD τ sig (HIx 1)) (W : Waits sig (HIx 1))
    (t : Fin k0_t1_loop.trips) (h61 : t.val = 61) (v : BitVec 32) :
    Inv m d L qz fe fx0 (isC d L fe fis) (idC d L fe fid) O W t.val v
      ⊢ wp frame (wpE (defs₀ (F := F)) 𝒱₀ (thr d L) none) Set.univ
          (k0_t1_body L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1 t v)
          (fun v' => Inv m d L qz fe fx0 (isC d L fe fis) (idC d L fe fid) O W (t.val + 1) v') := by
  have h1 : 1 ≤ t.val := by omega
  have hc1 := tcond1_of t h1
  have hc2 := tcond2_of t (by omega)
  have hc3 := tcond3_of t (by omega)
  have hc4 := tcond4_of t h1
  have hc5 := t61_cond5_not t (by omega)
  have eg0 : gat0 t.val = some (2 * t.val) := by unfold gat0; rw [if_pos (by omega)]
  have eo0 : out0 t.val = some (2 * t.val - 2) := by unfold out0; rw [if_neg (by omega), if_pos (by omega)]
  have eg1 : gat1 t.val = some (2 * t.val + 1) := by unfold gat1; rw [if_pos (by omega)]
  have eo1 : out1 t.val = some (2 * t.val - 1) := by unfold out1; rw [if_neg (by omega), if_pos (by omega)]
  have hinS : ∀ (off : Fin 1 → Nat) (h : ∀ a, off a + S80.size a ≤ S10000.size a) (hs) (x : S80.Idx),
      (((sIs).slice (Rect.unit (s := S10000) off S80.size h) hs).view.read (Elt F) (isC d L fe fis) x).toNat < 10000 := by
    intro off h hs x
    unfold isC
    rw [View.write_whole_univ, View.read_apply]
    exact hfe _
  have hinD : ∀ (off : Fin 1 → Nat) (h : ∀ a, off a + S80.size a ≤ S10000.size a) (hs) (x : S80.Idx),
      (((sId).slice (Rect.unit (s := S10000) off S80.size h) hs).view.read (Elt F) (idC d L fe fid) x).toNat < 10000 := by
    intro off h hs x
    unfold idC
    rw [View.write_whole_univ, View.read_apply]
    exact hfe _
  obtain ⟨j0, hj0⟩ : ∃ j : Fin 125, j.val = 2 * t.val := ⟨⟨2 * t.val, by omega⟩, rfl⟩
  obtain ⟨j1, hj1⟩ : ∃ j : Fin 125, j.val = 2 * t.val + 1 := ⟨⟨2 * t.val + 1, by omega⟩, rfl⟩
  rw [Inv_eq m d L qz fe fx0 _ _ O W t.val v, eg0, eo0, eg1, eo1, XU_split d L fx0 t.val (by omega) j0 j1 hj0 hj1]
  iintro ⟨#Hmw, HS0, HS1, ⟨Hck0, Hck1, HXU⟩, HXD, %W', %hW', HO⟩
  ihave HS1k := (aside_in (F := F) _) $$ HS1
  ihave Hck1k := (aside_in (F := F) _) $$ Hck1
  unfold Slot
  icases HS0 with ⟨Hzr0, Hzr1, ⟨%offA, %hA, %gS, %gD, %hgA, HF0, HF1, HisA, HidA⟩, ⟨%offX, %hX, %fxo, %po, %hxo, HFP⟩⟩
  unfold GFl SFl k0_t1_body
  sl_exec
  -- the product loop of slot 0
  ihave Ha := (Entails.of_eq (pts_whole (F := F) d L sR0 (Memref.isWhole_whole _) fullShare gS)) $$ HF0_dst
  ihave Hb := (Entails.of_eq (pts_whole (F := F) d L sD0 (Memref.isWhole_whole _) fullShare gD)) $$ HF1_dst
  ihave Hp := (Entails.of_eq (pts_whole (F := F) d L sP0 (Memref.isWhole_whole _) fullShare po)) $$ HFP_src
  iapply (mul_loop0_bind d L fullShare gS gD po _ _)
  isplitl [Ha]; · iexact Ha
  isplitl [Hb]; · iexact Hb
  isplitl [Hp]; · iexact Hp
  iintro %p0 %v0 %hp0 Ha Hb Hp
  -- chunk 2t, spelt as the copy-out's destination
  ihave Hck0' := (Entails.of_eq (congrArg (fun X => ((xW).view.loc (thr d L) ↦[X]{fullShare} fx0 : sProp 𝕄))
      (set_of_off d L j0 (k0_off14 L t) (k0_off14_inb L t) (off14_chunk L t j0 hj0).1 (off14_chunk L t j0 hj0).2).symm)) $$ Hck0
  ihave Hck0'' := (Entails.of_eq (show ((xW).view.loc (thr d L) ↦[(xO0 L t).view.set]{fullShare} fx0 : sProp 𝕄)
      = ((xO0 L t).view.loc (thr d L) ↦[(xO0 L t).view.set]{fullShare} fx0) from rfl)) $$ Hck0'

  sl_exec
  -- slot 0 at trip t + 1: the gathers of step 2t + 2 and the copy-out of step 2t in flight
  have hoffA : k0_off13 t 0 = 80 * (2 * t.val + 2) := by
    rw [k0_off13_eq]; show 160 * t.val + 160 = 80 * (2 * t.val + 2); omega
  have hoffX : k0_off14 L t = ![base L + 80 * (2 * t.val), 0] :=
    off_eq2 _ _ ((off14_chunk L t j0 hj0).1.trans (by rw [hj0])) (off14_chunk L t j0 hj0).2
  have hprod0 := fun r l => prod_rows m d L fe sR0 sD0 gS gD (2 * t.val) (by omega) hgA.2.1 hgA.2.2 p0 hp0 r l
  ihave HS0n := (Entails.of_eq (Slot_ss m d L cc0_scratch8.sem cc0_scratch9.sem cc0_scratch12.sem sR0 sD0 sP0 qA
      (Transfers.shareTokN qz 0) (Transfers.shareTokN qz 1) fe (isC d L fe fis) (idC d L fe fid) (2 * t.val + 2) (2 * t.val)).symm)
    $$ [Hzr0 Hzr1 HF0 HF1 HisA HidA HFP]
  · isplitl [Hzr0]; · iexact Hzr0
    isplitl [Hzr1]; · iexact Hzr1
    isplitl [HF0 HF1 HisA HidA]
    · iexists (k0_off13 t), (k0_off13_inb t hc2), _, _
      isplitr
      pick_goal 2
      · unfold GFl
        isplitl [HF0]; · iexact HF0
        isplitl [HF1]; · iexact HF1
        isplitl [HisA]; · iexact HisA
        iexact HidA
      · ipureintro
        refine ⟨hoffA, ?_, ?_⟩
        · exact grows_src m d L fe hfe sR0 gS fis (2 * t.val + 2) (by omega) (k0_off13 t) hoffA (k0_off13_inb t hc2) _ _ _ _
        · exact grows_dst m d L fe hfe sD0 gD fid (2 * t.val + 2) (by omega) (k0_off13 t) hoffA (k0_off13_inb t hc2) _ _ _ _
    · iexists (k0_off14 L t), (k0_off14_inb L t), _, p0
      isplitr
      pick_goal 2
      · unfold SFl
        iexact HFP
      · ipureintro
        exact ⟨hoffX, window_rows_w m d L fe sP0 p0 (2 * t.val) (by omega) hprod0 (k0_off14 L t) hoffX (k0_off14_inb L t) fx0⟩
  ihave HS0k := (aside_in (F := F) _) $$ HS0n

  -- chunk 2t − 2 is done
  obtain ⟨jd0, hjd0⟩ : ∃ j : Fin 125, j.val = 2 * t.val - 2 := ⟨⟨2 * t.val - 2, by omega⟩, rfl⟩
  obtain ⟨jd1, hjd1⟩ : ∃ j : Fin 125, j.val = 2 * t.val - 1 := ⟨⟨2 * t.val - 1, by omega⟩, rfl⟩
  ihave Hdone0 := (Entails.of_eq (done_chunk m d L fe jd0 _ hjd0 offX hX fxo hxo.1 hxo.2)) $$ HFP_dst
  ihave Hdone0k := (aside_in (F := F) _) $$ Hdone0
  -- slot 1
  ihave HS1 := (aside_out (F := F) _) $$ HS1k
  icases HS1 with ⟨Hzr2, Hzr3, ⟨%offB, %hB, %gS1, %gD1, %hgB, HF2, HF3, HisB, HidB⟩, ⟨%offY, %hY, %fyo, %p1o, %hyo, HFQ⟩⟩
  sl_exec
  ihave Ha1 := (Entails.of_eq (pts_whole (F := F) d L sR1 (Memref.isWhole_whole _) fullShare gS1)) $$ HF2_dst
  ihave Hb1 := (Entails.of_eq (pts_whole (F := F) d L sD1 (Memref.isWhole_whole _) fullShare gD1)) $$ HF3_dst
  ihave Hp1 := (Entails.of_eq (pts_whole (F := F) d L sP1 (Memref.isWhole_whole _) fullShare p1o)) $$ HFQ_src
  iapply (mul_loop1_bind d L t hc3 fullShare gS1 gD1 p1o _ _)
  isplitl [Ha1]; · iexact Ha1
  isplitl [Hb1]; · iexact Hb1
  isplitl [Hp1]; · iexact Hp1
  iintro %p1 %v1 %hp1 Ha1 Hb1 Hp1
  ihave Hck1 := (aside_out (F := F) _) $$ Hck1k
  ihave Hck1' := (Entails.of_eq (congrArg (fun X => ((xW).view.loc (thr d L) ↦[X]{fullShare} fx0 : sProp 𝕄))
      (set_of_off d L j1 (k0_off26 L t) (k0_off26_inb L t hc3) (off26_chunk L t j1 hj1).1 (off26_chunk L t j1 hj1).2).symm)) $$ Hck1
  ihave Hck1'' := (Entails.of_eq (show ((xW).view.loc (thr d L) ↦[(xO1 L t hc3).view.set]{fullShare} fx0 : sProp 𝕄)
      = ((xO1 L t hc3).view.loc (thr d L) ↦[(xO1 L t hc3).view.set]{fullShare} fx0) from rfl)) $$ Hck1'
  sl_exec

  -- slot 1 at trip t + 1: its gathers idle, the copy-out of step 2t + 1 in flight
  have hoffY : k0_off26 L t = ![base L + 80 * (2 * t.val + 1), 0] :=
    off_eq2 _ _ ((off26_chunk L t j1 hj1).1.trans (by rw [hj1])) (off26_chunk L t j1 hj1).2
  have hprod1 := fun r l => prod_rows m d L fe sR1 sD1 gS1 gD1 (2 * t.val + 1) (by omega) hgB.2.1 hgB.2.2 p1 hp1 r l
  ihave Hz2 := (pointsTo_split_subset (Finset.subset_univ (zSl).view.set)).1 $$ Hzr2
  icases Hz2 with ⟨Hzin2, Hzr2⟩
  ihave Hz3 := (pointsTo_split_subset (Finset.subset_univ (zSl).view.set)).1 $$ Hzr3
  icases Hz3 with ⟨Hzin3, Hzr3⟩
  ihave HS1n := (Entails.of_eq (t61_Slot_ns m d L cc0_scratch10.sem cc0_scratch11.sem cc0_scratch13.sem sR1 sD1 sP1 qB
      (Transfers.shareTokN qz 2) (Transfers.shareTokN qz 3) fe (isC d L fe fis) (idC d L fe fid) (2 * t.val + 1)).symm)
    $$ [Hzr2 Hzr3 HF2 HF3 Hzin2 Hzin3 Ha1 Hb1 HisB HidB HFQ]
  · isplitl [Hzr2]; · iexact Hzr2
    isplitl [Hzr3]; · iexact Hzr3
    isplitl [HF2 HF3 Hzin2 Hzin3 Ha1 Hb1 HisB HidB]
    · isplitl [HF2]; · iexact HF2
      isplitl [HF3]; · iexact HF3
      isplitl [Hzin2]; · iexact Hzin2
      isplitl [Hzin3]; · iexact Hzin3
      isplitl [Ha1]
      · iexists gS1
        iapply (Entails.of_eq (pts_whole (F := F) d L sR1 (Memref.isWhole_whole _) fullShare gS1).symm)
        iexact Ha1
      isplitl [Hb1]
      · iexists gD1
        iapply (Entails.of_eq (pts_whole (F := F) d L sD1 (Memref.isWhole_whole _) fullShare gD1).symm)
        iexact Hb1
      isplitl [HisB]; · iexact HisB
      iexact HidB
    · iexists (k0_off26 L t), (k0_off26_inb L t hc3), _, p1
      isplitr
      pick_goal 2
      · unfold SFl
        iexact HFQ
      · ipureintro
        exact ⟨hoffY, window_rows_w m d L fe sP1 p1 (2 * t.val + 1) (by omega) hprod1 (k0_off26 L t) hoffY (k0_off26_inb L t hc3) fx0⟩
  ihave Hdone1 := (Entails.of_eq (done_chunk m d L fe jd1 _ hjd1 offY hY fyo hyo.1 hyo.2)) $$ HFQ_dst
  ihave Hdone0 := (aside_out (F := F) _) $$ Hdone0k
  ihave HS0n := (aside_out (F := F) _) $$ HS0k
  sl_step
  have eg0' : gat0 (t.val + 1) = some (2 * t.val + 2) := by unfold gat0; rw [if_pos (by omega)]; exact congrArg some (by omega)
  have eo0' : out0 (t.val + 1) = some (2 * t.val) := by unfold out0; rw [if_neg (by omega), if_pos (by omega)]; exact congrArg some (by omega)
  have eg1' : gat1 (t.val + 1) = none := by unfold gat1; rw [if_neg (by omega)]
  have eo1' : out1 (t.val + 1) = some (2 * t.val + 1) := by unfold out1; rw [if_neg (by omega), if_pos (by omega)]; exact congrArg some (by omega)
  irw [Inv_eq m d L qz fe fx0 _ _ O W (t.val + 1), eg0', eo0', eg1', eo1', XD_join m d L fe t.val h1 (by omega) jd0 jd1 hjd0 hjd1]
  isplitr; · iexact Hmw
  isplitl [HS0n]; · iexact HS0n
  isplitl [HS1n]; · iexact HS1n
  isplitl [HXU]; · iexact HXU
  isplitl [Hdone0 Hdone1 HXD]
  · isplitl [Hdone0]; · iexact Hdone0
    isplitl [Hdone1]; · iexact Hdone1
    iexact HXD
  iexists _
  isplitr
  pick_goal 2
  · iexact HO
  · ipureintro
    intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact hW' p hp

end Tile

end Cert.Proof.KI

end
-- ==== Proof.IdealTileTripAll.lean ====
/-
  Every trip of a vector subcore's pipelined loop keeps the loop's invariant: the first trip, the trips with every
  optional part present (1 ≤ t ≤ 60), trip 61 (slot 1's gathers not re-issued) and the last trip, 62.
-/
import proofs.«202806_g74526272520516_cont_9to1_m_1211_39_alg».proof.Proof.IdealTileTripEnds
import proofs.«202806_g74526272520516_cont_9to1_m_1211_39_alg».proof.Proof.IdealTileTrip61

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ) [FloatOps F]

section Tile
variable (d : Dev nD) (L : grid0.Coords)

theorem trips_outer : k0_t1_loop.trips = 63 := by decide

theorem trip (qz : PosShare TreeShare) (fe : Buf (Elt F) (eLoc d)) (hfe : ∀ j, (fe j).toNat < 10000) (fx0 : Buf (Elt F) (xLoc d))
    (fis : Buf (Elt F) ((sIs).view.loc (thr d L))) (fid : Buf (Elt F) ((sId).view.loc (thr d L)))
    (O : CellTallies nD τ sig (HIx 1)) (W : Waits sig (HIx 1))
    (t : Fin k0_t1_loop.trips)  (v : BitVec 32) :
    Inv m d L qz fe fx0 (isC d L fe fis) (idC d L fe fid) O W t.val v
      ⊢ wp frame (wpE (defs₀ (F := F)) 𝒱₀ (thr d L) none) Set.univ
          (k0_t1_body L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1 t v)
          (fun v' => Inv m d L qz fe fx0 (isC d L fe fis) (idC d L fe fid) O W (t.val + 1) v') := by
  have h63 : t.val < 63 := lt_of_lt_of_eq t.isLt trips_outer
  rcases Nat.eq_zero_or_pos t.val with h0 | h1
  · exact trip_first m d L qz fe hfe fx0 fis fid O W t h0 v
  by_cases h60 : t.val ≤ 60
  · exact trip_mid m d L qz fe hfe fx0 fis fid O W t h1 h60 v
  by_cases h61 : t.val = 61
  · exact trip_61 m d L qz fe hfe fx0 fis fid O W t h61 v
  · exact trip_62 m d L qz fe hfe fx0 fis fid O W t (by omega) v

end Tile

end Cert.Proof.KI

end
-- ==== Proof.IdealTileOwn.lean ====
/-
  A vector subcore's contract in the launch theorem's spelling, from the contract with its own scratch spelt out.

  What the launch hands a vector subcore as "everything scoped to it" is exactly its own buffers, each whole at
  some contents, and its own semaphore cells, each at zero. Among the buffers are the eight scratch buffers of
  the task, among the cells its eight DMA semaphores; taking those sixteen out leaves a remainder the task never
  touches. So the task run from the sixteen (and the arrays) may be framed by the remainder, and at the end the
  sixteen and the remainder make up "everything scoped to it" again.
-/
import proofs.«202806_g74526272520516_cont_9to1_m_1211_39_alg».proof.Proof.IdealTileIface

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Own

variable (d : Dev nD) (L : grid0.Coords)

/-- The cell of one of the subcore's DMA semaphores. -/
abbrev cell (s : DmaSems sig S_) : GSem nD τ sig := (thr d L, SemLoc.dma s.sem)

theorem cell_ne {a b : SemLoc sig} (h : a ≠ b) : ((thr d L, a) : GSem nD τ sig) ≠ (thr d L, b) :=
  fun e => h (congrArg Prod.snd e)

/-- The subcore's own cells but the task's eight. -/
abbrev restCells : Finset (GSem nD τ sig) :=
  (((((((((ownCells (thr d L)).erase (cell d L cc0_scratch8)).erase (cell d L cc0_scratch9)).erase (cell d L cc0_scratch10)).erase (cell d L cc0_scratch11)).erase (cell d L cc0_scratch12)).erase (cell d L cc0_scratch13)).erase (cell d L cc0_scoped0)).erase (cell d L cc0_scoped1))

/-- The subcore's own buffers but the task's eight. -/
abbrev restRefs : Finset (DevRef τ sig) :=
  (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7))

/-- The eight DMA semaphores are among the subcore's own cells: its cells at zero are those eight at zero and the rest. -/
theorem ownSems0_V8 :
    (ownSems0 (thr d L) : sProp 𝕄)
      = iprop(semVal (cell d L cc0_scratch8) 0 ∗ semVal (cell d L cc0_scratch9) 0 ∗ semVal (cell d L cc0_scratch10) 0 ∗ semVal (cell d L cc0_scratch11) 0 ∗ semVal (cell d L cc0_scratch12) 0 ∗ semVal (cell d L cc0_scratch13) 0 ∗ semVal (cell d L cc0_scoped0) 0 ∗ semVal (cell d L cc0_scoped1) 0
          ∗ bigSep (restCells d L) fun g => semVal g 0) := by
  unfold SparseCore.Cfg.ownSems0
  rw [SparseCore.bigSep_erase' ((mem_ownCells (g := cell d L cc0_scratch8)).mpr ⟨rfl, by
        show (SemLoc.dma cc0_scratch8.sem : SemLoc sig).isScoped .scVector = true; decide⟩),
    SparseCore.bigSep_erase' (Finset.mem_erase.mpr ⟨cell_ne d L (show (SemLoc.dma cc0_scratch9.sem : SemLoc sig) ≠ SemLoc.dma cc0_scratch8.sem by decide),
      (mem_ownCells (g := cell d L cc0_scratch9)).mpr ⟨rfl, by
        show (SemLoc.dma cc0_scratch9.sem : SemLoc sig).isScoped .scVector = true; decide⟩⟩),
    SparseCore.bigSep_erase' (Finset.mem_erase.mpr ⟨cell_ne d L (show (SemLoc.dma cc0_scratch10.sem : SemLoc sig) ≠ SemLoc.dma cc0_scratch9.sem by decide),
      Finset.mem_erase.mpr ⟨cell_ne d L (show (SemLoc.dma cc0_scratch10.sem : SemLoc sig) ≠ SemLoc.dma cc0_scratch8.sem by decide),
      (mem_ownCells (g := cell d L cc0_scratch10)).mpr ⟨rfl, by
        show (SemLoc.dma cc0_scratch10.sem : SemLoc sig).isScoped .scVector = true; decide⟩⟩⟩),
    SparseCore.bigSep_erase' (Finset.mem_erase.mpr ⟨cell_ne d L (show (SemLoc.dma cc0_scratch11.sem : SemLoc sig) ≠ SemLoc.dma cc0_scratch10.sem by decide),
      Finset.mem_erase.mpr ⟨cell_ne d L (show (SemLoc.dma cc0_scratch11.sem : SemLoc sig) ≠ SemLoc.dma cc0_scratch9.sem by decide),
      Finset.mem_erase.mpr ⟨cell_ne d L (show (SemLoc.dma cc0_scratch11.sem : SemLoc sig) ≠ SemLoc.dma cc0_scratch8.sem by decide),
      (mem_ownCells (g := cell d L cc0_scratch11)).mpr ⟨rfl, by
        show (SemLoc.dma cc0_scratch11.sem : SemLoc sig).isScoped .scVector = true; decide⟩⟩⟩⟩),
    SparseCore.bigSep_erase' (Finset.mem_erase.mpr ⟨cell_ne d L (show (SemLoc.dma cc0_scratch12.sem : SemLoc sig) ≠ SemLoc.dma cc0_scratch11.sem by decide),
      Finset.mem_erase.mpr ⟨cell_ne d L (show (SemLoc.dma cc0_scratch12.sem : SemLoc sig) ≠ SemLoc.dma cc0_scratch10.sem by decide),
      Finset.mem_erase.mpr ⟨cell_ne d L (show (SemLoc.dma cc0_scratch12.sem : SemLoc sig) ≠ SemLoc.dma cc0_scratch9.sem by decide),
      Finset.mem_erase.mpr ⟨cell_ne d L (show (SemLoc.dma cc0_scratch12.sem : SemLoc sig) ≠ SemLoc.dma cc0_scratch8.sem by decide),
      (mem_ownCells (g := cell d L cc0_scratch12)).mpr ⟨rfl, by
        show (SemLoc.dma cc0_scratch12.sem : SemLoc sig).isScoped .scVector = true; decide⟩⟩⟩⟩⟩),
    SparseCore.bigSep_erase' (Finset.mem_erase.mpr ⟨cell_ne d L (show (SemLoc.dma cc0_scratch13.sem : SemLoc sig) ≠ SemLoc.dma cc0_scratch12.sem by decide),
      Finset.mem_erase.mpr ⟨cell_ne d L (show (SemLoc.dma cc0_scratch13.sem : SemLoc sig) ≠ SemLoc.dma cc0_scratch11.sem by decide),
      Finset.mem_erase.mpr ⟨cell_ne d L (show (SemLoc.dma cc0_scratch13.sem : SemLoc sig) ≠ SemLoc.dma cc0_scratch10.sem by decide),
      Finset.mem_erase.mpr ⟨cell_ne d L (show (SemLoc.dma cc0_scratch13.sem : SemLoc sig) ≠ SemLoc.dma cc0_scratch9.sem by decide),
      Finset.mem_erase.mpr ⟨cell_ne d L (show (SemLoc.dma cc0_scratch13.sem : SemLoc sig) ≠ SemLoc.dma cc0_scratch8.sem by decide),
      (mem_ownCells (g := cell d L cc0_scratch13)).mpr ⟨rfl, by
        show (SemLoc.dma cc0_scratch13.sem : SemLoc sig).isScoped .scVector = true; decide⟩⟩⟩⟩⟩⟩),
    SparseCore.bigSep_erase' (Finset.mem_erase.mpr ⟨cell_ne d L (show (SemLoc.dma cc0_scoped0.sem : SemLoc sig) ≠ SemLoc.dma cc0_scratch13.sem by decide),
      Finset.mem_erase.mpr ⟨cell_ne d L (show (SemLoc.dma cc0_scoped0.sem : SemLoc sig) ≠ SemLoc.dma cc0_scratch12.sem by decide),
      Finset.mem_erase.mpr ⟨cell_ne d L (show (SemLoc.dma cc0_scoped0.sem : SemLoc sig) ≠ SemLoc.dma cc0_scratch11.sem by decide),
      Finset.mem_erase.mpr ⟨cell_ne d L (show (SemLoc.dma cc0_scoped0.sem : SemLoc sig) ≠ SemLoc.dma cc0_scratch10.sem by decide),
      Finset.mem_erase.mpr ⟨cell_ne d L (show (SemLoc.dma cc0_scoped0.sem : SemLoc sig) ≠ SemLoc.dma cc0_scratch9.sem by decide),
      Finset.mem_erase.mpr ⟨cell_ne d L (show (SemLoc.dma cc0_scoped0.sem : SemLoc sig) ≠ SemLoc.dma cc0_scratch8.sem by decide),
      (mem_ownCells (g := cell d L cc0_scoped0)).mpr ⟨rfl, by
        show (SemLoc.dma cc0_scoped0.sem : SemLoc sig).isScoped .scVector = true; decide⟩⟩⟩⟩⟩⟩⟩),
    SparseCore.bigSep_erase' (Finset.mem_erase.mpr ⟨cell_ne d L (show (SemLoc.dma cc0_scoped1.sem : SemLoc sig) ≠ SemLoc.dma cc0_scoped0.sem by decide),
      Finset.mem_erase.mpr ⟨cell_ne d L (show (SemLoc.dma cc0_scoped1.sem : SemLoc sig) ≠ SemLoc.dma cc0_scratch13.sem by decide),
      Finset.mem_erase.mpr ⟨cell_ne d L (show (SemLoc.dma cc0_scoped1.sem : SemLoc sig) ≠ SemLoc.dma cc0_scratch12.sem by decide),
      Finset.mem_erase.mpr ⟨cell_ne d L (show (SemLoc.dma cc0_scoped1.sem : SemLoc sig) ≠ SemLoc.dma cc0_scratch11.sem by decide),
      Finset.mem_erase.mpr ⟨cell_ne d L (show (SemLoc.dma cc0_scoped1.sem : SemLoc sig) ≠ SemLoc.dma cc0_scratch10.sem by decide),
      Finset.mem_erase.mpr ⟨cell_ne d L (show (SemLoc.dma cc0_scoped1.sem : SemLoc sig) ≠ SemLoc.dma cc0_scratch9.sem by decide),
      Finset.mem_erase.mpr ⟨cell_ne d L (show (SemLoc.dma cc0_scoped1.sem : SemLoc sig) ≠ SemLoc.dma cc0_scratch8.sem by decide),
      (mem_ownCells (g := cell d L cc0_scoped1)).mpr ⟨rfl, by
        show (SemLoc.dma cc0_scoped1.sem : SemLoc sig).isScoped .scVector = true; decide⟩⟩⟩⟩⟩⟩⟩⟩)]

/-- The eight scratch buffers are among the subcore's own: its buffers are those eight, at some contents, and the rest. -/
theorem ownBufs_V8 :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide),
      Finset.mem_erase.mpr ⟨fun e => absurd (Proc.devRef_injective _ e) (show (cc0_scratch4 : Ref sig .scVector) ≠ cc0_scratch2 by decide),
      Finset.mem_erase.mpr ⟨fun e => absurd (Proc.devRef_injective _ e) (show (cc0_scratch4 : Ref sig .scVector) ≠ cc0_scratch1 by decide),
      Finset.mem_erase.mpr ⟨fun e => absurd (Proc.devRef_injective _ e) (show (cc0_scratch4 : Ref sig .scVector) ≠ cc0_scratch0 by decide),
      SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide),
      Finset.mem_erase.mpr ⟨fun e => absurd (Proc.devRef_injective _ e) (show (cc0_scratch5 : Ref sig .scVector) ≠ cc0_scratch3 by decide),
      Finset.mem_erase.mpr ⟨fun e => absurd (Proc.devRef_injective _ e) (show (cc0_scratch5 : Ref sig .scVector) ≠ cc0_scratch2 by decide),
      Finset.mem_erase.mpr ⟨fun e => absurd (Proc.devRef_injective _ e) (show (cc0_scratch5 : Ref sig .scVector) ≠ cc0_scratch1 by decide),
      Finset.mem_erase.mpr ⟨fun e => absurd (Proc.devRef_injective _ e) (show (cc0_scratch5 : Ref sig .scVector) ≠ cc0_scratch0 by decide),
      SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide),
      Finset.mem_erase.mpr ⟨fun e => absurd (Proc.devRef_injective _ e) (show (cc0_scratch6 : Ref sig .scVector) ≠ cc0_scratch4 by decide),
      Finset.mem_erase.mpr ⟨fun e => absurd (Proc.devRef_injective _ e) (show (cc0_scratch6 : Ref sig .scVector) ≠ cc0_scratch3 by decide),
      Finset.mem_erase.mpr ⟨fun e => absurd (Proc.devRef_injective _ e) (show (cc0_scratch6 : Ref sig .scVector) ≠ cc0_scratch2 by decide),
      Finset.mem_erase.mpr ⟨fun e => absurd (Proc.devRef_injective _ e) (show (cc0_scratch6 : Ref sig .scVector) ≠ cc0_scratch1 by decide),
      Finset.mem_erase.mpr ⟨fun e => absurd (Proc.devRef_injective _ e) (show (cc0_scratch6 : Ref sig .scVector) ≠ cc0_scratch0 by decide),
      SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide),
      Finset.mem_erase.mpr ⟨fun e => absurd (Proc.devRef_injective _ e) (show (cc0_scratch7 : Ref sig .scVector) ≠ cc0_scratch5 by decide),
      Finset.mem_erase.mpr ⟨fun e => absurd (Proc.devRef_injective _ e) (show (cc0_scratch7 : Ref sig .scVector) ≠ cc0_scratch4 by decide),
      Finset.mem_erase.mpr ⟨fun e => absurd (Proc.devRef_injective _ e) (show (cc0_scratch7 : Ref sig .scVector) ≠ cc0_scratch3 by decide),
      Finset.mem_erase.mpr ⟨fun e => absurd (Proc.devRef_injective _ e) (show (cc0_scratch7 : Ref sig .scVector) ≠ cc0_scratch2 by decide),
      Finset.mem_erase.mpr ⟨fun e => absurd (Proc.devRef_injective _ e) (show (cc0_scratch7 : Ref sig .scVector) ≠ cc0_scratch1 by decide),
      Finset.mem_erase.mpr ⟨fun e => absurd (Proc.devRef_injective _ e) (show (cc0_scratch7 : Ref sig .scVector) ≠ cc0_scratch0 by decide),
      SparseCore.Cfg.mem_ownRefs_of_owner (p := Proc.scVector (cV L) (jV L)) (b := ((Proc.scVector (cV L) (jV L)).devRef cc0_scratch7)) rfl⟩⟩⟩⟩⟩⟩⟩)]

/-- The task's own scratch and semaphores, in the same spelling. -/
theorem tileOwn_eq :
    (tileOwn (F := F) d L : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f)
          ∗ semVal (cell d L cc0_scratch8) 0 ∗ semVal (cell d L cc0_scratch9) 0 ∗ semVal (cell d L cc0_scratch10) 0 ∗ semVal (cell d L cc0_scratch11) 0 ∗ semVal (cell d L cc0_scratch12) 0 ∗ semVal (cell d L cc0_scratch13) 0 ∗ semVal (cell d L cc0_scoped0) 0 ∗ semVal (cell d L cc0_scoped1) 0) := rfl

end Own

variable (m : (ℓ : Loc nD τ sig) → Buf (Elt F) ℓ) [FloatOps F]

/-- The contract in the launch theorem's spelling follows from the contract with the scratch spelt out. -/
theorem contract_of_core (hF : (K (F := F)).Facts) (hcore : TileCore m) : TileContract m := by
  intro _ d L qz fe hfe fx0 O W hO
  rw [(K (F := F)).scopedBufs_V hF d (cV L) (jV L), SparseCore.Cfg.scopedSems0_V (Val := Elt F) d (cV L) (jV L),
    ownSems0_V8, ownBufs_V8]
  -- the sixteen beside the arrays, the remainder aside
  refine (?pre : _ ⊢ iprop((levAts (K (F := F)).L (K (F := F)).lev ∗ tileRes m d L qz fe fx0 ∗ tileOwn d L ∗ owes (thr d L) O W)
      ∗ ((bigSep (restRefs L) fun b => iprop(∃ f, ((d, b) : Loc nD τ sig) ↦{fullShare} f))
        ∗ bigSep (restCells d L) fun g => semVal g 0))).trans ?_
  case pre =>
    rw [tileOwn_eq]
    iintro ⟨Hlv, -, Hres, ⟨Hb0, Hb1, Hb2, Hb3, Hb4, Hb5, Hb6, Hb7, Hbufs⟩, ⟨Hs0, Hs1, Hs2, Hs3, Hs4, Hs5, Hs6, Hs7, Hsems⟩, HO⟩
    isplitr [Hbufs Hsems]
    · isplitl [Hlv]; · iexact Hlv
      isplitl [Hres]; · iexact Hres
      isplitr [HO]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        iexact Hs7
      · iexact HO
    · isplitl [Hbufs]; · iexact Hbufs
      iexact Hsems
  -- the task runs from the sixteen; the remainder frames it; at the end they are put together again
  refine (sep_mono_l (hcore d L qz fe hfe fx0 O W hO)).trans ?_
  refine (wp_frame_r _ _ _).trans (wp_mono _ _ _ fun _ => ?_)
  rw [tileOwn_eq]
  iintro ⟨⟨Hres, ⟨Hb0, Hb1, Hb2, Hb3, Hb4, Hb5, Hb6, Hb7, Hs0, Hs1, Hs2, Hs3, Hs4, Hs5, Hs6, Hs7⟩, HW⟩, Hbufs, Hsems⟩
  isplitl [Hres]; · iexact Hres
  isplitl [Hb0 Hb1 Hb2 Hb3 Hb4 Hb5 Hb6 Hb7 Hbufs]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    iexact Hbufs
  isplitl [Hs0 Hs1 Hs2 Hs3 Hs4 Hs5 Hs6 Hs7 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hsems
  iexact HW

end Cert.Proof.KI

end
-- ==== Proof.IdealTile.lean ====
/-
  The tile's contract, assembled: one trip of the loop keeps the invariant; the task from its start to its end follows from
  one trip; and the tile's own scratch buffers and semaphores are what the launch hands a vector subcore and takes back.
-/
import proofs.«202806_g74526272520516_cont_9to1_m_1211_39_alg».proof.Proof.IdealTileRun
import proofs.«202806_g74526272520516_cont_9to1_m_1211_39_alg».proof.Proof.IdealTileTripAll
import proofs.«202806_g74526272520516_cont_9to1_m_1211_39_alg».proof.Proof.IdealTileOwn

noncomputable section

namespace Cert.Proof.KI

open Cert.KernelIdeal Cert.KernelIdeal.Gen
open Idealize.ShloMosaic

variable {F : FTy → Type}

/-- Every vector subcore's task meets its contract. -/
theorem tile_contract (m : (ℓ : Loc nD τ sig) → Buf (Elt F) ℓ) [FloatOps F] : TileContract m :=
  contract_of_core m facts (tile_core_of_trip m fun d L qz fe hfe fx0 fis fid O W t v => trip m d L qz fe hfe fx0 fis fid O W t v)

end Cert.Proof.KI

end
-- ==== Proof.BitsTileValue.lean ====
/-
  The value of a gathered slot at an index, and from it a tile's rows of the edge-feature array.

  A tile (core c, subcore s) owns 10000 consecutive edges starting at base = 20000·s + 10000·c. It first copies its
  10000 source words, words base … base + 9999 of the flattened edge list, and its 10000 destination words, words
  320000 + base …, into two index scratches. A gather then takes a window of 80 consecutive words of a scratch, at
  offset o, and delivers an 80 × 128 slot whose row r is the row of z that word o + r names: entry (r, l) of the slot
  is z(word(o + r), l). With both gathers at the same window 80·j, the lane-by-lane product of the source slot and
  the destination slot at (r, l) is the feature array XF at edge base + 80·j + r, lane l — provided every word of the
  edge list names a row of z, so that reducing it into [0, 10000) changes nothing.

  Every lemma is stated over variables; the evidence an operation carries (a window inside its scratch, unit strides,
  the count of offsets, every offset in range) is universally quantified.
-/
import proofs.«202806_g74526272520516_cont_9to1_m_1211_39_alg».proof.Proof.FeatureArray
import proofs.«202806_g74526272520516_cont_9to1_m_1211_39_alg».proof.Proof.BitsSetup
import Idealize.ShloMosaic.Lib.SparseCore.Stream

noncomputable section

namespace Cert.FeatureB

open Cert.Feature (XF XF_apply row)

open Idealize.ShloMosaic Idealize.ShloMosaic.ValueIdx
open Cert.Kernel Cert.Kernel.Gen

variable {F : FTy → Type} [FloatOps F]

/-! ## The first stage's memrefs: z, the flattened edge list, and the two index scratches -/

abbrev zW : Memref sig .scVector .hbm S10000x128 .f32 := Memref.whole main_arg0_scv
abbrev eW : Memref sig .scVector .hbm S640000 .i32 := Memref.whole main_v0_scv
abbrev sIs : Memref sig .scVector .vmem S10000 .i32 := Memref.whole cc0_scratch0
abbrev sId : Memref sig .scVector .vmem S10000 .i32 := Memref.whole cc0_scratch1

/-! ## A gather read at an index -/

/-- Place r of an 80-word window at offset off lies inside the scratch's 10000 words. -/
theorem win_lt (off : Fin 1 → ℕ) (h : ∀ a, off a + S80.size a ≤ S10000.size a) (r : Fin 80) : off 0 + r.val < 10000 := by
  have h0 : off 0 + 80 ≤ 10000 := h 0
  have := r.isLt
  omega

omit [FloatOps F] in
/-- A gather of rows of a 10000 × 128 array by a list of 80 words: entry (r, l) of what it delivers is the array at
    (word r, l). On the gathered axis the source index is the row the list names for r, and the 80 words in row-major
    order are the list itself; on the lane axis it is l. -/
theorem gather_at (g : S10000x128.Idx → Elt F .f32) (idx : S80.Idx → Elt F .i32)
    (hn : S80.numel = S80x128.size gathers_S10000x128_S80x128.axis')
    (hin : ∀ x, (idx x).toNat < S10000x128.size gathers_S10000x128_S80x128.axis) (r : Fin 80) (l : Fin 128) :
    SparseCore.gatherPayload gathers_S10000x128_S80x128 g (SparseCore.rows idx hn hin) (ix2 r l)
      = g (ix2 (⟨(idx (ix1 r)).toNat, hin (ix1 r)⟩ : Fin 10000) l) := by
  unfold SparseCore.gatherPayload
  refine congrArg g (funext fun a => Fin.ext ?_)
  match a with
  | ⟨0, _⟩ =>
    have e1 := congrArg Fin.val (Shape.Gathers.idx_axis gathers_S10000x128_S80x128 (SparseCore.rows idx hn hin) (ix2 r l))
    refine e1.trans ?_
    show (idx (S80.rowMajor.symm _)).toNat = (idx (ix1 r)).toNat
    refine congrArg (fun x => (idx x).toNat) ((Equiv.symm_apply_eq _).mpr (Fin.ext ?_))
    rw [Shape.rowMajor_val_one]
    rfl
  | ⟨1, _⟩ =>
    exact Shape.Gathers.idx_of_ne gathers_S10000x128_S80x128 _ _ ⟨1, by decide⟩ (by decide)

omit [FloatOps F] in
/-- A window of 80 words at offset off of a 10000-word memref reads, at place r, the memref at word off + r. -/
theorem read_window (M : Memref sig .scVector .vmem S10000 .i32) (ic : M.view.ty.Contents (Elt F)) (off : Fin 1 → ℕ)
    (h : ∀ a, off a + S80.size a ≤ S10000.size a) (hs : ∀ a, (Rect.unit (s := S10000) off S80.size h).stride a = 1) (r : Fin 80) :
    View.read (Elt F) (M.slice (Rect.unit (s := S10000) off S80.size h) hs).view ic (ix1 r)
      = View.read (Elt F) M.view ic (ix1 (⟨off 0 + r.val, win_lt off h r⟩ : Fin 10000)) := by
  show View.read (Elt F) M.view ic ((Rect.unit (s := S10000) off S80.size h).emb (ix1 r)) = _
  refine congrArg (View.read (Elt F) M.view ic) (funext fun a => Fin.ext ?_)
  match a with
  | ⟨0, _⟩ =>
    show off 0 + 1 * r.val = off 0 + r.val
    rw [Nat.one_mul]

omit [FloatOps F] in
/-- The array z read through the rectangle that is all of it is z. -/
theorem read_zwhole (zc : FVec F S10000x128 .f32)
    (hz : ∀ a, (Rect.unit (s := S10000x128) ![0, 0] S10000x128.size inb_S10000x128_S10000x128_0_0).stride a = 1) (j : S10000x128.Idx) :
    View.read (Elt F) (zW.slice (Rect.unit (s := S10000x128) ![0, 0] S10000x128.size inb_S10000x128_S10000x128_0_0) hz).view zc j = zc j := by
  show zc ((Rect.unit (s := S10000x128) ![0, 0] S10000x128.size inb_S10000x128_S10000x128_0_0).emb j) = zc j
  refine congrArg zc (funext fun a => Fin.ext ?_)
  show (![0, 0] : Fin 2 → ℕ) a + 1 * (j a).val = (j a).val
  match a with
  | ⟨0, _⟩ => simp
  | ⟨1, _⟩ => simp

omit [FloatOps F] in
/-- THE GATHERED SLOT AT (r, l), through any 10000-word memref M holding the offsets: z at the row that word off + r of
    M names, lane l. -/
theorem gathered_apply_of (M : Memref sig .scVector .vmem S10000 .i32) (zc : FVec F S10000x128 .f32)
    (ic : M.view.ty.Contents (Elt F)) (off : Fin 1 → ℕ) (h : ∀ a, off a + S80.size a ≤ S10000.size a)
    (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) (M.slice (Rect.unit (s := S10000) off S80.size h) hs).view ic x).toNat
      < S10000x128.size gathers_S10000x128_S80x128.axis)
    (r : Fin 80) (l : Fin 128) :
    SparseCore.gatherPayload gathers_S10000x128_S80x128
        (View.read (Elt F) (zW.slice (Rect.unit (s := S10000x128) ![0, 0] S10000x128.size inb_S10000x128_S10000x128_0_0) hz).view zc)
        (SparseCore.rows (View.read (Elt F) (M.slice (Rect.unit (s := S10000) off S80.size h) hs).view ic) hn hin) (ix2 r l)
      = zc (ix2 (⟨(View.read (Elt F) M.view ic (ix1 (⟨off 0 + r.val, win_lt off h r⟩ : Fin 10000))).toNat,
          (read_window M ic off h hs r) ▸ hin (ix1 r)⟩ : Fin 10000) l) := by
  rw [gather_at]
  refine (read_zwhole zc hz _).trans ?_
  refine congrArg zc (funext fun a => Fin.ext ?_)
  match a with
  | ⟨0, _⟩ => exact congrArg BitVec.toNat (read_window M ic off h hs r)
  | ⟨1, _⟩ => rfl

omit [FloatOps F] in
/-- The gathered slot through the SOURCE-index scratch holding ic: z at the row that word off + r of ic names. -/
theorem gathered_apply (zc : FVec F S10000x128 .f32) (ic : S10000.Idx → BitVec 32) (off : Fin 1 → ℕ)
    (h : ∀ a, off a + S80.size a ≤ S10000.size a) (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) (sIs.slice (Rect.unit (s := S10000) off S80.size h) hs).view ic x).toNat
      < S10000x128.size gathers_S10000x128_S80x128.axis)
    (r : Fin 80) (l : Fin 128) :
    SparseCore.gatherPayload gathers_S10000x128_S80x128
        (View.read (Elt F) (zW.slice (Rect.unit (s := S10000x128) ![0, 0] S10000x128.size inb_S10000x128_S10000x128_0_0) hz).view zc)
        (SparseCore.rows (View.read (Elt F) (sIs.slice (Rect.unit (s := S10000) off S80.size h) hs).view ic) hn hin) (ix2 r l)
      = zc (ix2 (⟨(ic (ix1 (⟨off 0 + r.val, win_lt off h r⟩ : Fin 10000))).toNat,
          lt_of_eq_of_lt (congrArg BitVec.toNat (read_window (F := F) sIs ic off h hs r)).symm (hin (ix1 r))⟩ : Fin 10000) l) :=
  gathered_apply_of sIs zc ic off h hs hz hn hin r l

omit [FloatOps F] in
/-- The same through the DESTINATION-index scratch. -/
theorem gathered_apply_dst (zc : FVec F S10000x128 .f32) (ic : S10000.Idx → BitVec 32) (off : Fin 1 → ℕ)
    (h : ∀ a, off a + S80.size a ≤ S10000.size a) (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) (sId.slice (Rect.unit (s := S10000) off S80.size h) hs).view ic x).toNat
      < S10000x128.size gathers_S10000x128_S80x128.axis)
    (r : Fin 80) (l : Fin 128) :
    SparseCore.gatherPayload gathers_S10000x128_S80x128
        (View.read (Elt F) (zW.slice (Rect.unit (s := S10000x128) ![0, 0] S10000x128.size inb_S10000x128_S10000x128_0_0) hz).view zc)
        (SparseCore.rows (View.read (Elt F) (sId.slice (Rect.unit (s := S10000) off S80.size h) hs).view ic) hn hin) (ix2 r l)
      = zc (ix2 (⟨(ic (ix1 (⟨off 0 + r.val, win_lt off h r⟩ : Fin 10000))).toNat,
          lt_of_eq_of_lt (congrArg BitVec.toNat (read_window (F := F) sId ic off h hs r)).symm (hin (ix1 r))⟩ : Fin 10000) l) :=
  gathered_apply_of sId zc ic off h hs hz hn hin r l

/-! ## The index scratches after the tile's first copies -/

/-- A tile's 10000 edges end inside the 320000: base + 10000 ≤ 320000 with base = 20000·s + 10000·c, c < 2, s < 16. -/
theorem base_le (L : grid0.Coords) : 20000 * (L 1).val + 10000 * (L 0).val + 10000 ≤ 320000 := by
  have h0 : (L 0).val < 2 := (L 0).isLt
  have h1 : (L 1).val < 16 := (L 1).isLt
  omega

/-- The tile's n-th source word is a word of the flattened list … -/
theorem srcWord_lt (L : grid0.Coords) (n : Fin 10000) : 20000 * (L 1).val + 10000 * (L 0).val + n.val < 640000 := by
  have := base_le L; have := n.isLt; omega
/-- … and so is its n-th destination word. -/
theorem dstWord_lt (L : grid0.Coords) (n : Fin 10000) : 20000 * (L 1).val + 10000 * (L 0).val + 320000 + n.val < 640000 := by
  have := base_le L; have := n.isLt; omega

omit [FloatOps F] in
/-- The source-index scratch after the tile's copy of its slice of the flattened edge list fe, whatever it held (fis): word n
    is word base + n of fe. -/
theorem isC_apply (L : grid0.Coords) (fis : S10000.Idx → BitVec 32) (fe : (⟨1, ![640000]⟩ : Shape).Idx → BitVec 32)
    (hb : ∀ a, (k0_off1 L) a + S10000.size a ≤ S640000.size a)
    (hst : ∀ a, (Rect.unit (s := S640000) (k0_off1 L) S10000.size hb).stride a = 1) (n : Fin 10000) :
    View.write (Elt F) sIs.view fis
        (ReadAs.same.apply (View.read (Elt F) (eW.slice (Rect.unit (s := S640000) (k0_off1 L) S10000.size hb) hst).view fe))
        Finset.univ (ix1 n)
      = fe (ix1 (⟨20000 * (L 1).val + 10000 * (L 0).val + n.val, srcWord_lt L n⟩ : Fin 640000)) := by
  rw [View.write_whole_univ]
  show fe ((Rect.unit (s := S640000) (k0_off1 L) S10000.size hb).emb (ix1 n)) = _
  refine congrArg fe (funext fun a => Fin.ext ?_)
  match a with
  | ⟨0, _⟩ =>
    show k0_off1 L 0 + 1 * n.val = 20000 * (L 1).val + 10000 * (L 0).val + n.val
    rw [k0_off1_eq L, Nat.one_mul]
    rfl

omit [FloatOps F] in
/-- The destination-index scratch after the tile's copy of its slice of the second half of fe: word n is word
    320000 + base + n of fe. -/
theorem idC_apply (L : grid0.Coords) (fid : S10000.Idx → BitVec 32) (fe : (⟨1, ![640000]⟩ : Shape).Idx → BitVec 32)
    (hb : ∀ a, (k0_off2 L) a + S10000.size a ≤ S640000.size a)
    (hst : ∀ a, (Rect.unit (s := S640000) (k0_off2 L) S10000.size hb).stride a = 1) (n : Fin 10000) :
    View.write (Elt F) sId.view fid
        (ReadAs.same.apply (View.read (Elt F) (eW.slice (Rect.unit (s := S640000) (k0_off2 L) S10000.size hb) hst).view fe))
        Finset.univ (ix1 n)
      = fe (ix1 (⟨20000 * (L 1).val + 10000 * (L 0).val + 320000 + n.val, dstWord_lt L n⟩ : Fin 640000)) := by
  rw [View.write_whole_univ]
  show fe ((Rect.unit (s := S640000) (k0_off2 L) S10000.size hb).emb (ix1 n)) = _
  refine congrArg fe (funext fun a => Fin.ext ?_)
  match a with
  | ⟨0, _⟩ =>
    show k0_off2 L 0 + 1 * n.val = 20000 * (L 1).val + 10000 * (L 0).val + 320000 + n.val
    rw [k0_off2_eq L, Nat.one_mul]
    rfl

/-! ## The product of the two gathered slots is the feature array on the tile's rows -/

omit [FloatOps F] in
/-- When every word names a row of z, the row a word names is the word's own value. -/
theorem row_val (fe : (⟨1, ![640000]⟩ : Shape).Idx → BitVec 32) (hfe : ∀ i, (fe i).toNat < 10000) (i : Fin 640000) :
    (row fe i).val = (fe (ix1 i)).toNat := by
  unfold row
  simp [Fin.ofNat, Nat.mod_eq_of_lt (hfe (ix1 i))]

/-- Row r of the tile's window 80·j is an edge: base + 80·j + r < 320000. -/
theorem tileRow_lt (L : grid0.Coords) (j : ℕ) (hj : 80 * j + 80 ≤ 10000) (r : Fin 80) :
    20000 * (L 1).val + 10000 * (L 0).val + 80 * j + r.val < 320000 := by
  have := base_le L; have := r.isLt; omega

/-- THE TILE'S ROWS, the two scratches described word by word (hisc, hidc): at window 80·j the product of the source slot
    and the destination slot at (r, l) is the feature array at edge base + 80·j + r, lane l. -/
theorem tile_rows_of (L : grid0.Coords) (zc : FVec F S10000x128 .f32) (fe : (⟨1, ![640000]⟩ : Shape).Idx → BitVec 32)
    (hfe : ∀ i, (fe i).toNat < 10000) (isc idc : S10000.Idx → BitVec 32)
    (hisc : ∀ n : Fin 10000, isc (ix1 n) = fe (ix1 (⟨20000 * (L 1).val + 10000 * (L 0).val + n.val, srcWord_lt L n⟩ : Fin 640000)))
    (hidc : ∀ n : Fin 10000, idc (ix1 n) = fe (ix1 (⟨20000 * (L 1).val + 10000 * (L 0).val + 320000 + n.val, dstWord_lt L n⟩ : Fin 640000)))
    (j : ℕ) (hj : 80 * j + 80 ≤ 10000)
    (off : Fin 1 → ℕ) (ho : off 0 = 80 * j) (h : ∀ a, off a + S80.size a ≤ S10000.size a)
    (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) (sIs.slice (Rect.unit (s := S10000) off S80.size h) hs).view isc x).toNat
      < S10000x128.size gathers_S10000x128_S80x128.axis)
    (off' : Fin 1 → ℕ) (ho' : off' 0 = 80 * j) (h' : ∀ a, off' a + S80.size a ≤ S10000.size a)
    (hs' : ∀ a, (Rect.unit (s := S10000) off' S80.size h').stride a = 1)
    (hz' : ∀ a, (Rect.unit (s := S10000x128) ![0, 0] S10000x128.size inb_S10000x128_S10000x128_0_0).stride a = 1)
    (hn' : S80.numel = S80x128.size gathers_S10000x128_S80x128.axis')
    (hin' : ∀ x, (View.read (Elt F) (sId.slice (Rect.unit (s := S10000) off' S80.size h') hs').view idc x).toNat
      < S10000x128.size gathers_S10000x128_S80x128.axis)
    (r : Fin 80) (l : Fin 128) :
    FloatOps.mulf
        (SparseCore.gatherPayload gathers_S10000x128_S80x128
          (View.read (Elt F) (zW.slice (Rect.unit (s := S10000x128) ![0, 0] S10000x128.size inb_S10000x128_S10000x128_0_0) hz).view zc)
          (SparseCore.rows (View.read (Elt F) (sIs.slice (Rect.unit (s := S10000) off S80.size h) hs).view isc) hn hin) (ix2 r l))
        (SparseCore.gatherPayload gathers_S10000x128_S80x128
          (View.read (Elt F) (zW.slice (Rect.unit (s := S10000x128) ![0, 0] S10000x128.size inb_S10000x128_S10000x128_0_0) hz').view zc)
          (SparseCore.rows (View.read (Elt F) (sId.slice (Rect.unit (s := S10000) off' S80.size h') hs').view idc) hn' hin') (ix2 r l))
      = XF zc fe (ix2 (⟨20000 * (L 1).val + 10000 * (L 0).val + 80 * j + r.val, tileRow_lt L j hj r⟩ : Fin 320000) l) := by
  rw [gathered_apply, gathered_apply_dst, XF_apply]
  congr 1
  · refine congrArg zc (funext fun a => Fin.ext ?_)
    match a with
    | ⟨0, _⟩ =>
      show (isc (ix1 _)).toNat = (row fe _).val
      rw [row_val fe hfe, hisc]
      refine congrArg (fun i => (fe (ix1 i)).toNat) (Fin.ext ?_)
      show 20000 * (L 1).val + 10000 * (L 0).val + (off 0 + r.val) = 20000 * (L 1).val + 10000 * (L 0).val + 80 * j + r.val
      omega
    | ⟨1, _⟩ => rfl
  · refine congrArg zc (funext fun a => Fin.ext ?_)
    match a with
    | ⟨0, _⟩ =>
      show (idc (ix1 _)).toNat = (row fe _).val
      rw [row_val fe hfe, hidc]
      refine congrArg (fun i => (fe (ix1 i)).toNat) (Fin.ext ?_)
      show 20000 * (L 1).val + 10000 * (L 0).val + 320000 + (off' 0 + r.val)
        = 320000 + (20000 * (L 1).val + 10000 * (L 0).val + 80 * j + r.val)
      omega
    | ⟨1, _⟩ => rfl

/-- THE TILE'S ROWS with the scratches as the tile's first copies leave them. -/
theorem tile_rows (L : grid0.Coords) (zc : FVec F S10000x128 .f32) (fe : (⟨1, ![640000]⟩ : Shape).Idx → BitVec 32)
    (hfe : ∀ i, (fe i).toNat < 10000) (fis fid : S10000.Idx → BitVec 32)
    (hb1 : ∀ a, (k0_off1 L) a + S10000.size a ≤ S640000.size a)
    (hst1 : ∀ a, (Rect.unit (s := S640000) (k0_off1 L) S10000.size hb1).stride a = 1)
    (hb2 : ∀ a, (k0_off2 L) a + S10000.size a ≤ S640000.size a)
    (hst2 : ∀ a, (Rect.unit (s := S640000) (k0_off2 L) S10000.size hb2).stride a = 1)
    (j : ℕ) (hj : 80 * j + 80 ≤ 10000)
    (off : Fin 1 → ℕ) (ho : off 0 = 80 * j) (h : ∀ a, off a + S80.size a ≤ S10000.size a)
    (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) (sIs.slice (Rect.unit (s := S10000) off S80.size h) hs).view
        (View.write (Elt F) sIs.view fis
          (ReadAs.same.apply (View.read (Elt F) (eW.slice (Rect.unit (s := S640000) (k0_off1 L) S10000.size hb1) hst1).view fe)) Finset.univ) x).toNat < S10000x128.size gathers_S10000x128_S80x128.axis)
    (off' : Fin 1 → ℕ) (ho' : off' 0 = 80 * j) (h' : ∀ a, off' a + S80.size a ≤ S10000.size a)
    (hs' : ∀ a, (Rect.unit (s := S10000) off' S80.size h').stride a = 1)
    (hz' : ∀ a, (Rect.unit (s := S10000x128) ![0, 0] S10000x128.size inb_S10000x128_S10000x128_0_0).stride a = 1)
    (hn' : S80.numel = S80x128.size gathers_S10000x128_S80x128.axis')
    (hin' : ∀ x, (View.read (Elt F) (sId.slice (Rect.unit (s := S10000) off' S80.size h') hs').view
        (View.write (Elt F) sId.view fid
          (ReadAs.same.apply (View.read (Elt F) (eW.slice (Rect.unit (s := S640000) (k0_off2 L) S10000.size hb2) hst2).view fe)) Finset.univ) x).toNat < S10000x128.size gathers_S10000x128_S80x128.axis)
    (r : Fin 80) (l : Fin 128) :
    FloatOps.mulf
        (SparseCore.gatherPayload gathers_S10000x128_S80x128
          (View.read (Elt F) (zW.slice (Rect.unit (s := S10000x128) ![0, 0] S10000x128.size inb_S10000x128_S10000x128_0_0) hz).view zc)
          (SparseCore.rows (View.read (Elt F) (sIs.slice (Rect.unit (s := S10000) off S80.size h) hs).view
            (View.write (Elt F) sIs.view fis
          (ReadAs.same.apply (View.read (Elt F) (eW.slice (Rect.unit (s := S640000) (k0_off1 L) S10000.size hb1) hst1).view fe)) Finset.univ)) hn hin) (ix2 r l))
        (SparseCore.gatherPayload gathers_S10000x128_S80x128
          (View.read (Elt F) (zW.slice (Rect.unit (s := S10000x128) ![0, 0] S10000x128.size inb_S10000x128_S10000x128_0_0) hz').view zc)
          (SparseCore.rows (View.read (Elt F) (sId.slice (Rect.unit (s := S10000) off' S80.size h') hs').view
            (View.write (Elt F) sId.view fid
          (ReadAs.same.apply (View.read (Elt F) (eW.slice (Rect.unit (s := S640000) (k0_off2 L) S10000.size hb2) hst2).view fe)) Finset.univ)) hn' hin') (ix2 r l))
      = XF zc fe (ix2 (⟨20000 * (L 1).val + 10000 * (L 0).val + 80 * j + r.val, tileRow_lt L j hj r⟩ : Fin 320000) l) :=
  tile_rows_of L zc fe hfe _ _ (isC_apply L fis fe hb1 hst1) (idC_apply L fid fe hb2 hst2) j hj off ho h hs hz hn hin
    off' ho' h' hs' hz' hn' hin' r l

end Cert.FeatureB

end
-- ==== Proof.BitsBandChunks.lean ====
/-
  A vector subcore's band of the feature array is its 125 chunks of 80 rows.

  The band of tile L is rows [base, base + 10000) of the [320000, 128] array, every lane; chunk j (j < 125) is
  rows [base + 80 j, base + 80 j + 80), every lane. Row e of the band lies in chunk (e − base) / 80 and in no
  other, so the chunks are pairwise disjoint and their union is the band: holding the band is holding every
  chunk. If chunk j is held at contents g j that agree, on chunk j, with one array function G, the band is held
  at G.
-/
import proofs.«202806_g74526272520516_cont_9to1_m_1211_39_alg».proof.Proof.BitsTileIface

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The chunks -/

theorem ck_inb (L : grid0.Coords) (j : Fin 125) :
    ∀ a, (![base L + 80 * j.val, 0] : Fin 2 → ℕ) a + S80x128.size a ≤ S320000x128.size a := by
  have := base_le L
  have := j.isLt
  intro a; fin_cases a <;> simp <;> omega

/-- Chunk j of tile L's band, as a rectangle of the array: rows [base + 80 j, +80), every lane. -/
abbrev ckRect (L : grid0.Coords) (j : Fin 125) : Rect S320000x128 :=
  Rect.unit (s := S320000x128) ![base L + 80 * j.val, 0] S80x128.size (ck_inb L j)

/-- Chunk j of tile L's band, as the slice of the array the task copies into. -/
abbrev xCk (L : grid0.Coords) (j : Fin 125) : Memref sig .scVector .hbm S80x128 .f32 :=
  (xW).slice (ckRect L j) (fun _ => rfl)

/-- A slice of 80 rows at an offset that is chunk j's, however the offset is spelt, is chunk j. -/
theorem slice_eq_xCk (L : grid0.Coords) (j : Fin 125) (off : Fin 2 → ℕ)
    (inb : ∀ a, off a + S80x128.size a ≤ S320000x128.size a) (h0 : off 0 = base L + 80 * j.val) (h1 : off 1 = 0) :
    (xW).slice (Rect.unit (s := S320000x128) off S80x128.size inb) (fun _ => rfl) = xCk L j := by
  have e : off = ![base L + 80 * j.val, 0] := funext (Fin.forall_fin_two.2 ⟨h0, h1⟩)
  subst e
  rfl

/-- The first chunk of trip t of the task's loop is chunk 2t. -/
theorem off14_chunk (L : grid0.Coords) (t : Fin k0_t1_loop.trips) (j : Fin 125) (hj : j.val = 2 * t.val) :
    k0_off14 L t 0 = base L + 80 * j.val ∧ k0_off14 L t 1 = 0 := by
  rw [k0_off14_eq]
  refine ⟨?_, rfl⟩
  show 20000 * (L 1).val + 10000 * (L 0).val + 160 * t.val = base L + 80 * j.val
  unfold base; omega

/-- The second chunk of trip t of the task's loop is chunk 2t + 1. -/
theorem off26_chunk (L : grid0.Coords) (t : Fin k0_t1_loop.trips) (j : Fin 125) (hj : j.val = 2 * t.val + 1) :
    k0_off26 L t 0 = base L + 80 * j.val ∧ k0_off26 L t 1 = 0 := by
  rw [k0_off26_eq]
  refine ⟨?_, rfl⟩
  show 20000 * (L 1).val + 10000 * (L 0).val + 160 * t.val + 80 = base L + 80 * j.val
  unfold base; omega

/-! ## The band is the disjoint union of its chunks -/

section Cover

variable (d : Dev nD) (L : grid0.Coords)

/-- Chunk j's elements, as elements of the array's buffer. -/
abbrev ckSet (j : Fin 125) : Finset (Idx ((xW).view.loc (thr d L))) := (xCk L j).view.set

theorem ckSet_eq (j : Fin 125) : ckSet d L j = (ckRect L j).set := View.set_slice_whole _ _

theorem bandSet_eq : bandSet d L = (bandRect L).set := by
  show ((bandRect L).set).map (View.whole main_v1_scv).emb = _
  rw [View.emb_whole, Finset.map_refl]

/-- An element of the array is in chunk j exactly when its row is one of the chunk's eighty. -/
theorem mem_ckSet (j : Fin 125) (i : S320000x128.Idx) :
    i ∈ (ckRect L j).set ↔ base L + 80 * j.val ≤ (i 0).val ∧ (i 0).val < base L + 80 * j.val + 80 := by
  rw [Rect.mem_set_unit, Fin.forall_fin_two]
  have h1 : (i 1).val < 128 := (i 1).isLt
  constructor
  · rintro ⟨⟨ha, hb⟩, -⟩
    exact ⟨ha, hb⟩
  · rintro ⟨ha, hb⟩
    exact ⟨⟨ha, hb⟩, Nat.zero_le _, by show (i 1).val < 0 + 128; omega⟩

/-- An element of the array is in the band exactly when its row is one of the band's ten thousand. -/
theorem mem_bandSet (i : S320000x128.Idx) :
    i ∈ (bandRect L).set ↔ base L ≤ (i 0).val ∧ (i 0).val < base L + 10000 := by
  rw [Rect.mem_set_unit, Fin.forall_fin_two]
  have h1 : (i 1).val < 128 := (i 1).isLt
  constructor
  · rintro ⟨⟨ha, hb⟩, -⟩
    exact ⟨ha, hb⟩
  · rintro ⟨ha, hb⟩
    exact ⟨⟨ha, hb⟩, Nat.zero_le _, by show (i 1).val < 0 + 128; omega⟩

/-- Different chunks share no element: their rows are apart. -/
theorem ckSet_disjoint (j j' : Fin 125) (h : j ≠ j') : Disjoint (ckSet d L j) (ckSet d L j') := by
  rw [ckSet_eq, ckSet_eq]
  refine Rect.unit_disjoint (0 : Fin 2) ?_
  have hne : j.val ≠ j'.val := fun e => h (Fin.ext e)
  show base L + 80 * j.val + 80 ≤ base L + 80 * j'.val ∨ base L + 80 * j'.val + 80 ≤ base L + 80 * j.val
  omega

/-- The band is the union of the chunks: row e lies in chunk (e − base) / 80. -/
theorem bandSet_cover : bandSet d L = Finset.univ.biUnion (ckSet d L) := by
  rw [bandSet_eq]
  ext i
  rw [mem_bandSet, Finset.mem_biUnion]
  constructor
  · rintro ⟨ha, hb⟩
    refine ⟨⟨((i 0).val - base L) / 80, by omega⟩, Finset.mem_univ _, ?_⟩
    rw [ckSet_eq, mem_ckSet]
    show base L + 80 * (((i 0).val - base L) / 80) ≤ (i 0).val ∧ (i 0).val < base L + 80 * (((i 0).val - base L) / 80) + 80
    omega
  · rintro ⟨j, -, hj⟩
    rw [ckSet_eq, mem_ckSet] at hj
    have := j.isLt
    omega

/-- HOLDING THE BAND IS HOLDING EVERY CHUNK, at one contents. -/
theorem band_eq_chunks (f : Buf (Elt F) (xLoc d)) :
    ((xW).view.loc (thr d L) ↦[bandSet d L]{fullShare} f : sProp 𝕄)
      = bigSep Finset.univ fun j : Fin 125 => (xW).view.loc (thr d L) ↦[ckSet d L j]{fullShare} f := by
  rw [bandSet_cover]
  exact pointsTo_biUnion Finset.univ (ckSet d L) fun j _ j' _ h => ckSet_disjoint d L j j' h

/-- The same as an equivalence of assertions. -/
theorem band_equiv_chunks (f : Buf (Elt F) (xLoc d)) :
    ((xW).view.loc (thr d L) ↦[bandSet d L]{fullShare} f : sProp 𝕄)
      ⊣⊢ bigSep Finset.univ fun j : Fin 125 => (xW).view.loc (thr d L) ↦[ckSet d L j]{fullShare} f :=
  ⟨Entails.of_eq (band_eq_chunks d L f), Entails.of_eq (band_eq_chunks d L f).symm⟩

/-- THE JOIN: chunks held at contents that each agree with one array function G on their own elements are the band
    held at G. -/
theorem chunks_join (g : Fin 125 → Buf (Elt F) (xLoc d)) (G : Buf (Elt F) (xLoc d))
    (hG : ∀ j, ∀ i ∈ ckSet d L j, g j i = G i) :
    (bigSep Finset.univ fun j : Fin 125 => ((xW).view.loc (thr d L) ↦[ckSet d L j]{fullShare} g j : sProp 𝕄))
      = ((xW).view.loc (thr d L) ↦[bandSet d L]{fullShare} G) := by
  rw [band_eq_chunks]
  exact bigSep_congr fun j _ => pointsTo_congr (hG j)

end Cover

end Cert.Proof.KB

end
-- ==== Proof.BitsTileInv.lean ====
import proofs.«202806_g74526272520516_cont_9to1_m_1211_39_alg».proof.Proof.BitsTileIface
import proofs.«202806_g74526272520516_cont_9to1_m_1211_39_alg».proof.Proof.BitsTileValue
import proofs.«202806_g74526272520516_cont_9to1_m_1211_39_alg».proof.Proof.BitsBandChunks

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.ValueIdx

/-
  The state of a tile between two trips of its pipelined loop.

  Steps are numbered j = 0 … 124; step j works on rows [base + 80 j, base + 80 j + 80) of the tile's band ("chunk j")
  in slot j mod 2. Trip k of the loop runs step 2k in slot 0 and, when 2k + 1 < 125, step 2k + 1 in slot 1.
  Entering trip k (and after the last trip, k = 63), with n = min (2k) 125 steps started:
    · slot 0 has the two gathers of step 2k in flight when k ≤ 62, and is idle otherwise;
      slot 1 has the two gathers of step 2k + 1 in flight when k ≤ 61, and is idle otherwise;
    · each slot has the copy-out of its last started step in flight when k ≥ 1 (slot 0: step 2k − 2, or 124 at k = 63;
      slot 1: step 2k − 1, or 123 at k = 63), its product buffer lent to it, and is idle at k = 0;
    · chunks j ≥ n are untouched, chunks j with j + 2 < n hold the feature rows, the two chunks between are in flight.
-/

variable (m : (ℓ : Loc nD τ sig) → Buf (Elt F) ℓ) [FloatOps F]

section Tile
variable (d : Dev nD) (L : grid0.Coords)

abbrev zSl : Memref sig .scVector .hbm S10000x128 .f32 :=
  (zW).slice (Rect.unit (s := S10000x128) ![0, 0] S10000x128.size inb_S10000x128_S10000x128_0_0) (fun _ => rfl)

/-- The index scratches' contents after the tile's two first copies. -/
def isC (fe : Buf (Elt F) (eLoc d)) (f : Buf (Elt F) ((sIs).view.loc (thr d L))) : Buf (Elt F) ((sIs).view.loc (thr d L)) :=
  View.write (Elt F) (sIs).view f (ReadAs.same.apply (View.read (Elt F) (eSrc L).view fe)) Finset.univ
def idC (fe : Buf (Elt F) (eLoc d)) (f : Buf (Elt F) ((sId).view.loc (thr d L))) : Buf (Elt F) ((sId).view.loc (thr d L)) :=
  View.write (Elt F) (sId).view f (ReadAs.same.apply (View.read (Elt F) (eDst L).view fe)) Finset.univ

/-- Each slot reads the index scratches through its own half share. -/
abbrev qA : PosShare TreeShare := Transfers.shareDrop fullShare 1
abbrev qB : PosShare TreeShare := Transfers.shareTokN fullShare 0

/-- What a slot's source buffer holds after the gather of step j: the rows of z the step's source words name
    (destination buffer: the destination words, 320000 further on in the flattened edge list). -/
def GRows (B : Memref sig .scVector .vmem S80x128 .f32) (fe : Buf (Elt F) (eLoc d)) (shift j : ℕ) (g : Buf (Elt F) ((B).view.loc (thr d L))) : Prop :=
  ∀ (r : Fin 80) (l : Fin 128) (hb : shift + base L + 80 * j + r.val < 640000),
    View.read (Elt F) (B).view g (ix2 r l) = m (zLoc d) (ix2 (Cert.Feature.row fe ⟨shift + base L + 80 * j + r.val, hb⟩) l)

/-- A gather in flight into buffer B from the 80-word window at off of index scratch I: it delivers B at g, the
    window's share of the scratch, and the read share of z it borrowed. -/
def GFl (sem : DmaSem sig) (B : Memref sig .scVector .vmem S80x128 .f32) (I : Memref sig .scVector .vmem S10000 .i32)
    (qt qzb : PosShare TreeShare) (ic : Buf (Elt F) ((I).view.loc (thr d L))) (off : Fin 1 → ℕ) (h : ∀ a, off a + S80.size a ≤ S10000.size a)
    (g : Buf (Elt F) ((B).view.loc (thr d L))) : sProp 𝕄 :=
  Transfers.Flight countersEmb (thr d L) (SemLoc.dma sem) default 327680
    iprop((((B).view.loc (thr d L) ↦[(B).view.set]{fullShare} g)
        ∗ ((I).view.loc (thr d L) ↦[((I).slice (Rect.unit (s := S10000) off S80.size h) (fun _ => rfl)).view.set]{qt} ic))
      ∗ ((zW).view.loc (thr d L) ↦[(zSl).view.set]{qzb} m (zLoc d)))

/-- A copy-out in flight from product buffer P into the 80-row window at off of x: it delivers the window at fx and P back. -/
def SFl (sem : DmaSem sig) (P : Memref sig .scVector .vmem S80x128 .f32) (off : Fin 2 → ℕ) (h : ∀ a, off a + S80x128.size a ≤ S320000x128.size a)
    (fx : Buf (Elt F) ((xW).view.loc (thr d L))) (p : Buf (Elt F) ((P).view.loc (thr d L))) : sProp 𝕄 :=
  Transfers.Flight countersEmb (thr d L) (SemLoc.dma sem) default 327680
    iprop(((xW).view.loc (thr d L) ↦[((xW).slice (Rect.unit (s := S320000x128) off S80x128.size h) (fun _ => rfl)).view.set]{fullShare} fx)
      ∗ ((P).view.loc (thr d L) ↦[(P).view.set]{fullShare} p))

/-- One slot between trips: semG / semD its gather cells, semP its copy-out cell, R / Dd / P its three buffers, qt its half
    of the index scratches, qz0 / qz1 its two read tokens of z; gat = some j: the gathers of step j are in flight;
    out = some j: the copy-out of step j is in flight. -/
def Slot (semG semD semP : DmaSem sig) (R Dd P : Memref sig .scVector .vmem S80x128 .f32) (qt qz0 qz1 : PosShare TreeShare)
    (fe : Buf (Elt F) (eLoc d)) (isc : Buf (Elt F) ((sIs).view.loc (thr d L))) (idc : Buf (Elt F) ((sId).view.loc (thr d L)))
    (gat out : Option ℕ) : sProp 𝕄 :=
  iprop(((zW).view.loc (thr d L) ↦[Finset.univ \ (zSl).view.set]{qz0} m (zLoc d))
    ∗ ((zW).view.loc (thr d L) ↦[Finset.univ \ (zSl).view.set]{qz1} m (zLoc d))
    ∗ (match gat with
        | some j => iprop(∃ (off : Fin 1 → ℕ) (h : ∀ a, off a + S80.size a ≤ S10000.size a) (gS : Buf (Elt F) ((R).view.loc (thr d L))) (gD : Buf (Elt F) ((Dd).view.loc (thr d L))),
            ⌜off 0 = 80 * j ∧ GRows m d L R fe 0 j gS ∧ GRows m d L Dd fe 320000 j gD⌝
            ∗ GFl m d L semG R sIs qt qz0 isc off h gS ∗ GFl m d L semD Dd sId qt qz1 idc off h gD
            ∗ ((sIs).view.loc (thr d L) ↦[Finset.univ \ ((sIs).slice (Rect.unit (s := S10000) off S80.size h) (fun _ => rfl)).view.set]{qt} isc)
            ∗ ((sId).view.loc (thr d L) ↦[Finset.univ \ ((sId).slice (Rect.unit (s := S10000) off S80.size h) (fun _ => rfl)).view.set]{qt} idc))
        | none => iprop(semVal (thr d L, SemLoc.dma semG) 0 ∗ semVal (thr d L, SemLoc.dma semD) 0
            ∗ ((zW).view.loc (thr d L) ↦[(zSl).view.set]{qz0} m (zLoc d)) ∗ ((zW).view.loc (thr d L) ↦[(zSl).view.set]{qz1} m (zLoc d))
            ∗ (∃ g, (R).view.loc (thr d L) ↦[(R).view.set]{fullShare} g) ∗ (∃ g, (Dd).view.loc (thr d L) ↦[(Dd).view.set]{fullShare} g)
            ∗ ((sIs).view.loc (thr d L) ↦{qt} isc) ∗ ((sId).view.loc (thr d L) ↦{qt} idc)))
    ∗ (match out with
        | some j => iprop(∃ (off : Fin 2 → ℕ) (h : ∀ a, off a + S80x128.size a ≤ S320000x128.size a) (fx : Buf (Elt F) ((xW).view.loc (thr d L))) (p : Buf (Elt F) ((P).view.loc (thr d L))),
            ⌜off = ![base L + 80 * j, 0] ∧ ∀ i ∈ ((xW).slice (Rect.unit (s := S320000x128) off S80x128.size h) (fun _ => rfl)).view.set, fx i = Cert.Feature.XF (m (zLoc d)) fe i⌝
            ∗ SFl d L semP P off h fx p)
        | none => iprop(semVal (thr d L, SemLoc.dma semP) 0 ∗ ∃ p, (P).view.loc (thr d L) ↦[(P).view.set]{fullShare} p)))

/-- The steps started on entering trip k. -/
def started (k : ℕ) : ℕ := min (2 * k) 125

def gat0 (k : ℕ) : Option ℕ := if k ≤ 62 then some (2 * k) else none
def gat1 (k : ℕ) : Option ℕ := if k ≤ 61 then some (2 * k + 1) else none
def out0 (k : ℕ) : Option ℕ := if k = 0 then none else if k ≤ 62 then some (2 * k - 2) else some 124
def out1 (k : ℕ) : Option ℕ := if k = 0 then none else if k ≤ 62 then some (2 * k - 1) else some 123

/-- The band's chunks not yet started, at the contents the tile was handed. -/
def XUntouched (fx0 : Buf (Elt F) (xLoc d)) (k : ℕ) : sProp 𝕄 :=
  bigSep (Finset.univ.filter fun j : Fin 125 => started k ≤ j.val) fun j => (xW).view.loc (thr d L) ↦[ckSet d L j]{fullShare} fx0
/-- The band's chunks whose copy-out has been waited for, at the feature rows. -/
def XDone (fe : Buf (Elt F) (eLoc d)) (k : ℕ) : sProp 𝕄 :=
  bigSep (Finset.univ.filter fun j : Fin 125 => j.val + 2 < started k) fun j =>
    (xW).view.loc (thr d L) ↦[ckSet d L j]{fullShare} Cert.Feature.XF (m (zLoc d)) fe

/-- The loop's invariant on entering trip k (the carried word is of no interest). -/
def Inv (qz : PosShare TreeShare) (fe : Buf (Elt F) (eLoc d)) (fx0 : Buf (Elt F) (xLoc d))
    (isc : Buf (Elt F) ((sIs).view.loc (thr d L))) (idc : Buf (Elt F) ((sId).view.loc (thr d L)))
    (O : CellTallies nD τ sig (HIx 1)) (W : Waits sig (HIx 1)) (k : ℕ) (_ : BitVec 32) : sProp 𝕄 :=
  iprop(Transfers.MayWaits (thr d L) (none : HIx 1) O
    ∗ Slot m d L cc0_scratch8.sem cc0_scratch9.sem cc0_scratch12.sem sR0 sD0 sP0 qA (Transfers.shareTokN qz 0) (Transfers.shareTokN qz 1) fe isc idc (gat0 k) (out0 k)
    ∗ Slot m d L cc0_scratch10.sem cc0_scratch11.sem cc0_scratch13.sem sR1 sD1 sP1 qB (Transfers.shareTokN qz 2) (Transfers.shareTokN qz 3) fe isc idc (gat1 k) (out1 k)
    ∗ XUntouched d L fx0 k ∗ XDone m d L fe k
    ∗ ∃ W', ⌜∀ p ∈ W', p ∈ W ∨ p.2 = none⌝ ∗ owes (thr d L) O W')

end Tile

end Cert.Proof.KB

end
-- ==== Proof.BitsTileFacts.lean ====
/-
  Three facts about the values a tile's step moves, stated against the loop invariant's own predicates.

  Step j of tile L works on rows base + 80·j … base + 80·j + 79 of the feature array. (1) What a gather delivers into a
  slot buffer — written over the whole buffer — is the rows of z that the step's 80 source words name (for the
  destination buffer: the 80 destination words, 320000 further on in the flattened edge list); every word names a row
  of z, so reducing it into [0, 10000) changes nothing. (2) The lane-by-lane product of two such buffers is the feature
  array on the step's rows. (3) Copying that product into the step's 80-row window of the feature array leaves the
  window at the feature array.
-/
import proofs.«202806_g74526272520516_cont_9to1_m_1211_39_alg».proof.Proof.BitsTileInv

noncomputable section

namespace Cert.Proof.KB

open Cert.Kernel Cert.Kernel.Gen
open Idealize.ShloMosaic Idealize.ShloMosaic.ValueIdx
open Idealize.ShloMosaic.SparseCore (S V T)

variable {F : FTy → Type}
variable (m : (ℓ : Loc nD τ sig) → Buf (Elt F) ℓ) [FloatOps F]

section Tile
variable (d : Dev nD) (L : grid0.Coords)

omit [FloatOps F] in
/-- A buffer written over its whole rectangle reads back what was written. -/
theorem read_writes_whole (B : Memref sig .scVector .vmem S80x128 .f32) (f : Buf (Elt F) ((B).view.loc (thr d L)))
    (w : S80x128.Idx → Elt F .f32) (y : S80x128.Idx) :
    View.read (Elt F) (B).view ((B).view.writes (Elt F) f [⟨Rect.whole S80x128, w⟩]) y = w y := by
  have e := View.read_writes_cons_emb (B).view f (Rect.whole S80x128) w [] y
  rwa [Rect.emb_whole_apply] at e

omit [FloatOps F] in
/-- (1) SOURCE: after the gather of step j through the window at 80·j of the source-index scratch, the buffer holds the
    rows of z the step's source words name. -/
theorem grows_src (fe : Buf (Elt F) (eLoc d)) (hfe : ∀ j, (fe j).toNat < 10000)
    (B : Memref sig .scVector .vmem S80x128 .f32) (f : Buf (Elt F) ((B).view.loc (thr d L)))
    (fis : Buf (Elt F) ((sIs).view.loc (thr d L))) (j : ℕ) (hj : 80 * j + 80 ≤ 10000)
    (off : Fin 1 → ℕ) (ho : off 0 = 80 * j) (h : ∀ a, off a + S80.size a ≤ S10000.size a)
    (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) ((sIs).slice (Rect.unit (s := S10000) off S80.size h) hs).view (isC d L fe fis) x).toNat
      < S10000x128.size gathers_S10000x128_S80x128.axis) :
    GRows m d L B fe 0 j ((B).view.writes (Elt F) f [⟨Rect.whole S80x128,
      SparseCore.gatherPayload gathers_S10000x128_S80x128
        (View.read (Elt F) ((zW).slice (Rect.unit (s := S10000x128) ![0, 0] S10000x128.size inb_S10000x128_S10000x128_0_0) hz).view (m (zLoc d)))
        (SparseCore.rows (View.read (Elt F) ((sIs).slice (Rect.unit (s := S10000) off S80.size h) hs).view (isC d L fe fis)) hn hin)⟩]) := by
  intro r l hb
  rw [read_writes_whole, Cert.FeatureB.gathered_apply]
  refine congrArg (m (zLoc d)) (funext fun a => Fin.ext ?_)
  match a with
  | ⟨0, _⟩ =>
    show (isC d L fe fis (ix1 _)).toNat = (Cert.Feature.row fe _).val
    rw [Cert.FeatureB.row_val fe hfe]
    unfold isC
    rw [Cert.FeatureB.isC_apply]
    refine congrArg (fun i => (fe (ix1 i)).toNat) (Fin.ext ?_)
    show 20000 * (L 1).val + 10000 * (L 0).val + (off 0 + r.val) = 0 + base L + 80 * j + r.val
    unfold base; omega
  | ⟨1, _⟩ => rfl

omit [FloatOps F] in
/-- (1) DESTINATION: the same through the destination-index scratch, whose words are 320000 further on. -/
theorem grows_dst (fe : Buf (Elt F) (eLoc d)) (hfe : ∀ j, (fe j).toNat < 10000)
    (B : Memref sig .scVector .vmem S80x128 .f32) (f : Buf (Elt F) ((B).view.loc (thr d L)))
    (fid : Buf (Elt F) ((sId).view.loc (thr d L))) (j : ℕ) (hj : 80 * j + 80 ≤ 10000)
    (off : Fin 1 → ℕ) (ho : off 0 = 80 * j) (h : ∀ a, off a + S80.size a ≤ S10000.size a)
    (hs : ∀ a, (Rect.unit (s := S10000) off S80.size h).stride a = 1)
    (hz : ∀ a, (Rect.unit (s := S10000x128) ![0, 0] S10000x128.size inb_S10000x128_S10000x128_0_0).stride a = 1)
    (hn : S80.numel = S80x128.size gathers_S10000x128_S80x128.axis')
    (hin : ∀ x, (View.read (Elt F) ((sId).slice (Rect.unit (s := S10000) off S80.size h) hs).view (idC d L fe fid) x).toNat
      < S10000x128.size gathers_S10000x128_S80x128.axis) :
    GRows m d L B fe 320000 j ((B).view.writes (Elt F) f [⟨Rect.whole S80x128,
      SparseCore.gatherPayload gathers_S10000x128_S80x128
        (View.read (Elt F) ((zW).slice (Rect.unit (s := S10000x128) ![0, 0] S10000x128.size inb_S10000x128_S10000x128_0_0) hz).view (m (zLoc d)))
        (SparseCore.rows (View.read (Elt F) ((sId).slice (Rect.unit (s := S10000) off S80.size h) hs).view (idC d L fe fid)) hn hin)⟩]) := by
  intro r l hb
  rw [read_writes_whole, Cert.FeatureB.gathered_apply_dst]
  refine congrArg (m (zLoc d)) (funext fun a => Fin.ext ?_)
  match a with
  | ⟨0, _⟩ =>
    show (idC d L fe fid (ix1 _)).toNat = (Cert.Feature.row fe _).val
    rw [Cert.FeatureB.row_val fe hfe]
    unfold idC
    rw [Cert.FeatureB.idC_apply]
    refine congrArg (fun i => (fe (ix1 i)).toNat) (Fin.ext ?_)
    show 20000 * (L 1).val + 10000 * (L 0).val + 320000 + (off 0 + r.val) = 320000 + base L + 80 * j + r.val
    unfold base; omega
  | ⟨1, _⟩ => rfl

/-- Row r of step j is an edge of the tile: base + 80·j + r < 320000. -/
theorem chunkRow_lt (j : ℕ) (hj : 80 * j + 80 ≤ 10000) (r : Fin 80) : base L + 80 * j + r.val < 320000 := by
  have := base_le L; have := r.isLt; omega

/-- (2) THE PRODUCT: if p' is, entry by entry, the product of a source buffer and a destination buffer of step j, it is
    the feature array on rows base + 80·j + r. -/
theorem prod_rows (fe : Buf (Elt F) (eLoc d)) (R Dd : Memref sig .scVector .vmem S80x128 .f32)
    (gS : Buf (Elt F) ((R).view.loc (thr d L))) (gD : Buf (Elt F) ((Dd).view.loc (thr d L))) (j : ℕ) (hj : 80 * j + 80 ≤ 10000)
    (hS : GRows m d L R fe 0 j gS) (hD : GRows m d L Dd fe 320000 j gD) (p' : S80x128.Idx → Elt F .f32)
    (hp : ∀ (r : Fin 80) (l : Fin 128), p' (ix2 r l)
      = FloatOps.mulf (View.read (Elt F) (R).view gS (ix2 r l)) (View.read (Elt F) (Dd).view gD (ix2 r l)))
    (r : Fin 80) (l : Fin 128) :
    p' (ix2 r l) = Cert.Feature.XF (m (zLoc d)) fe (ix2 (⟨base L + 80 * j + r.val, chunkRow_lt L j hj r⟩ : Fin 320000) l) := by
  have hb0 : 0 + base L + 80 * j + r.val < 640000 := by have := chunkRow_lt L j hj r; omega
  have hb1 : 320000 + base L + 80 * j + r.val < 640000 := by have := chunkRow_lt L j hj r; omega
  rw [hp r l, hS r l hb0, hD r l hb1, Cert.Feature.XF_apply]
  congr 1
  · refine congrArg (fun i => m (zLoc d) (ix2 (Cert.Feature.row fe i) l)) (Fin.ext ?_)
    show 0 + base L + 80 * j + r.val = base L + 80 * j + r.val
    omega
  · refine congrArg (fun i => m (zLoc d) (ix2 (Cert.Feature.row fe i) l)) (Fin.ext ?_)
    show 320000 + base L + 80 * j + r.val = 320000 + (base L + 80 * j + r.val)
    omega

/-- (3) THE WINDOW: a product buffer that holds the feature array on the step's rows, copied into the step's 80-row window
    of the feature array (over any prior contents fx), leaves every element of the window at the feature array. -/
theorem window_rows (fe : Buf (Elt F) (eLoc d)) (P : Memref sig .scVector .vmem S80x128 .f32)
    (p' : Buf (Elt F) ((P).view.loc (thr d L))) (j : ℕ) (hj : 80 * j + 80 ≤ 10000)
    (hp : ∀ (r : Fin 80) (l : Fin 128), View.read (Elt F) (P).view p' (ix2 r l)
      = Cert.Feature.XF (m (zLoc d)) fe (ix2 (⟨base L + 80 * j + r.val, chunkRow_lt L j hj r⟩ : Fin 320000) l))
    (off : Fin 2 → ℕ) (hoff : off = ![base L + 80 * j, 0]) (h : ∀ a, off a + S80x128.size a ≤ S320000x128.size a)
    (fx : Buf (Elt F) ((xW).view.loc (thr d L))) :
    ∀ i ∈ ((xW).slice (Rect.unit (s := S320000x128) off S80x128.size h) (fun _ => rfl)).view.set,
      View.write (Elt F) ((xW).slice (Rect.unit (s := S320000x128) off S80x128.size h) (fun _ => rfl)).view fx
        (ReadAs.same.apply (View.read (Elt F) (P).view p')) Finset.univ i = Cert.Feature.XF (m (zLoc d)) fe i := by
  subst hoff
  intro i hi
  obtain ⟨y, -, rfl⟩ := Finset.mem_map.mp hi
  rw [View.write_emb_of_mem _ _ (Finset.mem_univ y)]
  obtain ⟨r, l, rfl⟩ : ∃ (r : Fin 80) (l : Fin 128), y = ix2 r l := ⟨y 0, y 1, eq_ix2 y⟩
  show View.read (Elt F) (P).view p' (ix2 r l) = _
  rw [hp r l]
  refine congrArg (Cert.Feature.XF (m (zLoc d)) fe) (funext fun a => Fin.ext ?_)
  match a with
  | ⟨0, _⟩ =>
    show base L + 80 * j + r.val = (base L + 80 * j) + 1 * r.val
    omega
  | ⟨1, _⟩ =>
    show l.val = 0 + 1 * l.val
    omega

/-- (3) again, the copy's delivery spelt as one piece written over the whole window: the same contents at every element of
    the window. A piece over the whole rectangle of a view lands where the view itself puts its indices. -/
theorem window_rows_w (fe : Buf (Elt F) (eLoc d)) (P : Memref sig .scVector .vmem S80x128 .f32)
    (p' : Buf (Elt F) ((P).view.loc (thr d L))) (j : ℕ) (hj : 80 * j + 80 ≤ 10000)
    (hp : ∀ (r : Fin 80) (l : Fin 128), View.read (Elt F) (P).view p' (ix2 r l)
      = Cert.Feature.XF (m (zLoc d)) fe (ix2 (⟨base L + 80 * j + r.val, chunkRow_lt L j hj r⟩ : Fin 320000) l))
    (off : Fin 2 → ℕ) (hoff : off = ![base L + 80 * j, 0]) (h : ∀ a, off a + S80x128.size a ≤ S320000x128.size a)
    (fx : Buf (Elt F) ((xW).view.loc (thr d L))) :
    ∀ i ∈ ((xW).slice (Rect.unit (s := S320000x128) off S80x128.size h) (fun _ => rfl)).view.set,
      ((xW).slice (Rect.unit (s := S320000x128) off S80x128.size h) (fun _ => rfl)).view.writes (Elt F) fx
        [⟨Rect.whole S80x128, ReadAs.same.apply (View.read (Elt F) (P).view p')⟩] i = Cert.Feature.XF (m (zLoc d)) fe i := by
  subst hoff
  intro i hi
  obtain ⟨y, -, rfl⟩ := Finset.mem_map.mp hi
  have e : ((xW).slice (Rect.unit (s := S320000x128) ![base L + 80 * j, 0] S80x128.size h) (fun _ => rfl)).view.emb y
      = ((((xW).slice (Rect.unit (s := S320000x128) ![base L + 80 * j, 0] S80x128.size h) (fun _ => rfl)).view).slice (Rect.whole S80x128)).emb y := by
    show _ = ((xW).slice (Rect.unit (s := S320000x128) ![base L + 80 * j, 0] S80x128.size h) (fun _ => rfl)).view.emb ((Rect.whole S80x128).emb y)
    rw [Rect.emb_whole_apply]
  rw [View.writes_singleton, e, View.write_emb_of_mem _ _ (Finset.mem_univ y)]
  obtain ⟨r, l, rfl⟩ : ∃ (r : Fin 80) (l : Fin 128), y = ix2 r l := ⟨y 0, y 1, eq_ix2 y⟩
  show View.read (Elt F) (P).view p' (ix2 r l) = _
  rw [hp r l, ← e]
  refine congrArg (Cert.Feature.XF (m (zLoc d)) fe) (funext fun a => Fin.ext ?_)
  match a with
  | ⟨0, _⟩ =>
    show base L + 80 * j + r.val = (base L + 80 * j) + 1 * r.val
    omega
  | ⟨1, _⟩ =>
    show l.val = 0 + 1 * l.val
    omega

end Tile

end Cert.Proof.KB

end
-- ==== Proof.BitsTileRun.lean ====
/-
  A tile's whole task from one trip of its loop.

  Before the loop the tile copies its two slices of the flattened edge list into its index scratches and starts the
  gathers of steps 0 and 1: that establishes the loop's invariant at trip 0 (each slot reading the index scratches
  through its own half share, each gather reading z through its own read token; no chunk started, none finished).
  Each trip keeps the invariant (taken as given here). After the last trip both slots' gathers are idle and the
  copy-outs of steps 124 and 123 are in flight: the two final waits deliver those chunks at the feature rows, and with
  the 123 finished chunks they are the whole band; the read tokens of z, the halves of the index scratches and the
  buffers go back as they came.
-/
import proofs.«202806_g74526272520516_cont_9to1_m_1211_39_alg».proof.Proof.BitsTileFacts

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.ValueIdx

variable (m : (ℓ : Loc nD τ sig) → Buf (Elt F) ℓ) [FloatOps F]

/-- A resource put aside: the same assertion under another name. -/
@[irreducible] def Kept (P : sProp 𝕄) : sProp 𝕄 := P
omit [FloatOps F] in
theorem kept_in (P : sProp 𝕄) : P ⊢ Kept P := by unfold Kept; exact BI.Entails.refl _
omit [FloatOps F] in
theorem kept_out (P : sProp 𝕄) : Kept P ⊢ P := by unfold Kept; exact BI.Entails.refl _

omit [FloatOps F] in
/-- A points-to splits into four read tokens and a remainder. -/
theorem toks4 {ℓ : Loc nD τ sig} (q : PosShare TreeShare) (f : Buf (Elt F) ℓ) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h := Transfers.pointsTo_toks_range (nD := nD) (τ := τ) (sig := sig) (Ix := HIx 1) (Val := Elt F) (Name := ℕ) (U := UU) (Lvl := ℕ) (ℓ := ℓ) (S := Finset.univ) (f := f) q 4
  rw [show Finset.range 4 = {0, 1, 2, 3} by decide, SparseCore.bigSep_insert' (by decide), SparseCore.bigSep_insert' (by decide),
    SparseCore.bigSep_insert' (by decide), bigSep_singleton] at h
  exact h

omit [FloatOps F] in
/-- A points-to splits into two halves. -/
theorem halves {ℓ : Loc nD τ sig} (q : PosShare TreeShare) (f : Buf (Elt F) ℓ) :
    (ℓ ↦{q} f : sProp 𝕄) ⊣⊢ iprop((ℓ ↦{Transfers.shareDrop q 1} f) ∗ (ℓ ↦{Transfers.shareTokN q 0} f)) := by
  have h := Transfers.pointsTo_toks_range (nD := nD) (τ := τ) (sig := sig) (Ix := HIx 1) (Val := Elt F) (Name := ℕ) (U := UU) (Lvl := ℕ) (ℓ := ℓ) (S := Finset.univ) (f := f) q 1
  rw [show Finset.range 1 = {0} by decide, bigSep_singleton] at h
  exact h

/-- One trip of the loop keeps the invariant: the statement the tile's run takes as given. -/
def TripStmt : Prop :=
  ∀ (d : Dev nD) (L : grid0.Coords) (qz : PosShare TreeShare) (fe : Buf (Elt F) (eLoc d)) (_ : ∀ j, (fe j).toNat < 10000) (fx0 : Buf (Elt F) (xLoc d))
    (fis : Buf (Elt F) ((sIs).view.loc (thr d L))) (fid : Buf (Elt F) ((sId).view.loc (thr d L)))
    (O : CellTallies nD τ sig (HIx 1)) (W : Waits sig (HIx 1)) (t : Fin k0_t1_loop.trips) (v : BitVec 32),
    Inv m d L qz fe fx0 (isC d L fe fis) (idC d L fe fid) O W t.val v
      ⊢ wp frame (wpE (defs₀ (F := F)) 𝒱₀ (thr d L) none) Set.univ
          (k0_t1_body L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1 t v)
          (fun v' => Inv m d L qz fe fx0 (isC d L fe fis) (idC d L fe fid) O W (t.val + 1) v')

set_option maxHeartbeats 2000000 in
theorem tile_core_of_trip (htrip : TripStmt m) : TileCore m := by
  intro d L qz fe hfe fx0 O W hO
  rw [cc0__sc_gather_mul_eq_skeleton]; unfold cc0__sc_gather_mul_skel
  rw [k0_part5_eq_skeleton]; unfold k0_part5_skel
  simp only [bind_assoc]
  unfold tileRes tileOwn
  iintro ⟨#Hlv, ⟨Hz, Hes, Hed, Hx⟩, ⟨⟨%fis, His⟩, ⟨%fid, Hid⟩, ⟨%f2, Hr0⟩, ⟨%f3, Hd0⟩, ⟨%f4, Hr1⟩, ⟨%f5, Hd1⟩, ⟨%f6, Hp0⟩, ⟨%f7, Hp1⟩,
    Hg0, Hg1, Hg2, Hg3, Hs0, Hs1, Hc0, Hc1⟩, HO⟩
  ihave Hmw := ((K (F := F)).mayWaits_none (thr := thr d L) hO) $$ Hlv
  ihave Hzt := (toks4 (F := F) qz _).1 $$ Hz
  icases Hzt with ⟨HzR, Hz0, Hz1, Hz2, Hz3⟩
  ihave HxK := (kept_in (F := F) _) $$ Hx
  -- the two index copies
  sl_exec
  ihave Ht := (halves (F := F) fullShare _).1 $$ His
  icases Ht with ⟨HisA, HisB⟩
  ihave Ht := (halves (F := F) fullShare _).1 $$ Hid
  icases Ht with ⟨HidA, HidB⟩
  have hinS : ∀ (g : Buf (Elt F) ((sIs).view.loc (thr d L))) (off : Fin 1 → Nat) (h : ∀ a, off a + S80.size a ≤ S10000.size a) (hs) (x : S80.Idx),
      (((sIs).slice (Rect.unit (s := S10000) off S80.size h) hs).view.read (Elt F)
        (View.write (Elt F) (sIs).view g ((eSrc L).view.read (Elt F) fe) Finset.univ) x).toNat < 10000 := by
    intro g off h hs x
    rw [View.write_whole_univ, View.read_apply, View.read_apply]
    exact hfe _
  have hinD : ∀ (g : Buf (Elt F) ((sId).view.loc (thr d L))) (off : Fin 1 → Nat) (h : ∀ a, off a + S80.size a ≤ S10000.size a) (hs) (x : S80.Idx),
      (((sId).slice (Rect.unit (s := S10000) off S80.size h) hs).view.read (Elt F)
        (View.write (Elt F) (sId).view g ((eDst L).view.read (Elt F) fe) Finset.univ) x).toNat < 10000 := by
    intro g off h hs x
    rw [View.write_whole_univ, View.read_apply, View.read_apply]
    exact hfe _
  -- slot 0's two gathers: slot 1's halves of the index scratches and its two cells put aside
  ihave HisBk := (kept_in (F := F) _) $$ HisB
  ihave HidBk := (kept_in (F := F) _) $$ HidB
  ihave Hg2k := (kept_in (F := F) _) $$ Hg2
  ihave Hg3k := (kept_in (F := F) _) $$ Hg3
  sl_exec
  -- slot 1's two gathers: slot 0's remainders put aside
  ihave HisAk := (kept_in (F := F) _) $$ HisA
  ihave HidAk := (kept_in (F := F) _) $$ HidA
  ihave HisB := (kept_out (F := F) _) $$ HisBk
  ihave HidB := (kept_out (F := F) _) $$ HidBk
  ihave Hg2 := (kept_out (F := F) _) $$ Hg2k
  ihave Hg3 := (kept_out (F := F) _) $$ Hg3k
  sl_exec
  ihave HisA := (kept_out (F := F) _) $$ HisAk
  ihave HidA := (kept_out (F := F) _) $$ HidAk
  ihave Hx := (kept_out (F := F) _) $$ HxK
  -- the four gathers' delivered contents, named
  generalize hg0 : (sR0).view.writes (Elt F) f2 _ = g0
  generalize hg1 : (sD0).view.writes (Elt F) f3 _ = g1
  generalize hg2 : (sR1).view.writes (Elt F) f4 _ = g2
  generalize hg3 : (sD1).view.writes (Elt F) f5 _ = g3
  sl_for (Inv m d L qz fe fx0 (isC d L fe fis) (idC d L fe fid) O W) $$ [Hmw Hg0 Hz0 Hg1 Hz1 HisA HidA Hg2 Hz2 HisB Hg3 Hz3 HidB Hp0 Hp1 Hs0 Hs1 Hx HO]
  case region =>
    intro k v
    exact htrip d L qz fe hfe fx0 fis fid O W k v
  · -- the invariant on entering trip 0
    unfold Inv
    isplitr; · iexact Hmw
    isplitl [Hg0 Hz0 Hg1 Hz1 HisA HidA Hp0 Hs0]
    · rw [show gat0 0 = some 0 by decide, show out0 0 = none by decide]
      unfold Slot; dsimp only
      isplitl [Hz0]; · iexact Hz0
      isplitl [Hz1]; · iexact Hz1
      isplitl [Hg0 Hg1 HisA HidA]
      · iexists ![0], inb_S10000_S80_0, g0, g1
        isplitr
        · ipureintro
          refine ⟨rfl, ?_, ?_⟩
          · rw [← hg0]; exact grows_src m d L fe hfe sR0 f2 fis 0 (by omega) ![0] rfl _ _ _ _ _
          · rw [← hg1]; exact grows_dst m d L fe hfe sD0 f3 fid 0 (by omega) ![0] rfl _ _ _ _ _
        unfold GFl isC idC
        isplitl [Hg0]; · iexact Hg0
        isplitl [Hg1]; · iexact Hg1
        isplitl [HisA]; · iexact HisA
        iexact HidA
      · isplitl [Hs0]; · iexact Hs0
        iexists f6
        iapply (Entails.of_eq (by simp only [Memref.view_whole, View.set_whole])) $$ Hp0
    isplitl [Hg2 Hz2 Hg3 Hz3 HisB HidB Hp1 Hs1]
    · rw [show gat1 0 = some 1 by decide, show out1 0 = none by decide]
      unfold Slot; dsimp only
      isplitl [Hz2]; · iexact Hz2
      isplitl [Hz3]; · iexact Hz3
      isplitl [Hg2 Hg3 HisB HidB]
      · iexists ![80], inb_S10000_S80_80, g2, g3
        isplitr
        · ipureintro
          refine ⟨rfl, ?_, ?_⟩
          · rw [← hg2]; exact grows_src m d L fe hfe sR1 f4 fis 1 (by omega) ![80] rfl _ _ _ _ _
          · rw [← hg3]; exact grows_dst m d L fe hfe sD1 f5 fid 1 (by omega) ![80] rfl _ _ _ _ _
        unfold GFl isC idC
        isplitl [Hg2]; · iexact Hg2
        isplitl [Hg3]; · iexact Hg3
        isplitl [HisB]; · iexact HisB
        iexact HidB
      · isplitl [Hs1]; · iexact Hs1
        iexists f7
        iapply (Entails.of_eq (by simp only [Memref.view_whole, View.set_whole])) $$ Hp1
    isplitl [Hx]
    · -- no step started: every chunk of the band is untouched
      unfold XUntouched
      rw [show (Finset.univ.filter fun j : Fin 125 => started 0 ≤ j.val) = Finset.univ from
        Finset.filter_true_of_mem fun j _ => by simp [started]]
      iapply (Entails.of_eq (band_eq_chunks (F := F) d L fx0)) $$ Hx
    isplitr
    · unfold XDone
      rw [show (Finset.univ.filter fun j : Fin 125 => j.val + 2 < started 0) = ∅ from
        Finset.filter_false_of_mem fun j _ => by simp [started], bigSep_empty]
      iempintro
    iexists (insert (SemLoc.dma cc0_scoped1.sem, (default : HIx 1)) (insert (SemLoc.dma cc0_scoped0.sem, (default : HIx 1)) W)); isplitr
    · ipureintro
      intro p hp
      rcases Finset.mem_insert.mp hp with hp | hp
      · right; rw [hp]; rfl
      rcases Finset.mem_insert.mp hp with hp | hp
      · right; rw [hp]; rfl
      · exact .inl hp
    · iexact HO
  iintro %acc HI
  have htr : Scf.trips k0_t1_loop.lb k0_t1_loop.ub k0_t1_loop.st = 63 := by decide
  ihave HI := (Entails.of_eq (congrArg (fun k => Inv m d L qz fe fx0 (isC d L fe fis) (idC d L fe fid) O W k acc) htr)) $$ HI
  unfold Inv
  icases HI with ⟨-, HS0, HS1, HXU, HXD, ⟨%W', %hW', HO⟩⟩
  rw [show gat0 63 = none by decide, show out0 63 = some 124 by decide, show gat1 63 = none by decide, show out1 63 = some 123 by decide]
  unfold Slot; dsimp only
  icases HS0 with ⟨Hz0r, Hz1r, ⟨Hg0, Hg1, Hz0p, Hz1p, ⟨%gr0, Hr0'⟩, ⟨%gd0, Hd0'⟩, HisA, HidA⟩, ⟨%offa, %hxa, %fxa, %pa, %hfa, HF4⟩⟩
  icases HS1 with ⟨Hz2r, Hz3r, ⟨Hg2, Hg3, Hz2p, Hz3p, ⟨%gr1, Hr1'⟩, ⟨%gd1, Hd1'⟩, HisB, HidB⟩, ⟨%offb, %hxb, %fxb, %pb, %hfb, HF5⟩⟩
  unfold SFl
  sl_exec
  sl_step
  -- the band: chunks 124 and 123 as delivered, the finished chunks, nothing untouched
  obtain ⟨hoa, hva⟩ := hfa
  obtain ⟨hob, hvb⟩ := hfb
  subst hoa; subst hob
  have h124 : (124 : ℕ) < 125 := by omega
  have h123 : (123 : ℕ) < 125 := by omega
  have eA := slice_eq_xCk L (⟨124, h124⟩ : Fin 125) _ hxa rfl rfl
  have eB := slice_eq_xCk L (⟨123, h123⟩ : Fin 125) _ hxb rfl rfl
  have hU : (Finset.univ : Finset (Fin 125)) = insert (⟨124, h124⟩ : Fin 125) (insert (⟨123, h123⟩ : Fin 125)
      (Finset.univ.filter fun j : Fin 125 => j.val + 2 < started 63)) := by
    ext j
    rw [show started 63 = 125 by decide]
    simp only [Finset.mem_univ, Finset.mem_insert, Finset.mem_filter, true_and, true_iff, Fin.ext_iff]
    have := j.isLt
    omega
  have hn1 : (⟨124, h124⟩ : Fin 125) ∉ insert (⟨123, h123⟩ : Fin 125) (Finset.univ.filter fun j : Fin 125 => j.val + 2 < started 63) := by
    rw [show started 63 = 125 by decide]; simp [Fin.ext_iff]
  have hn2 : (⟨123, h123⟩ : Fin 125) ∉ (Finset.univ.filter fun j : Fin 125 => j.val + 2 < started 63) := by
    rw [show started 63 = 125 by decide]; simp
  have hjoin : iprop(((xW).view.loc (thr d L) ↦[ckSet d L ⟨124, h124⟩]{fullShare} Cert.Feature.XF (m (zLoc d)) fe)
        ∗ ((xW).view.loc (thr d L) ↦[ckSet d L ⟨123, h123⟩]{fullShare} Cert.Feature.XF (m (zLoc d)) fe) ∗ XDone m d L fe 63)
      ⊢ ((xW).view.loc (thr d L) ↦[bandSet d L]{fullShare} Cert.Feature.XF (m (zLoc d)) fe : sProp 𝕄) := by
    have e1 : (bigSep (Finset.univ : Finset (Fin 125)) fun j => ((xW).view.loc (thr d L) ↦[ckSet d L j]{fullShare} Cert.Feature.XF (m (zLoc d)) fe : sProp 𝕄))
        = iprop(((xW).view.loc (thr d L) ↦[ckSet d L ⟨124, h124⟩]{fullShare} Cert.Feature.XF (m (zLoc d)) fe)
          ∗ ((xW).view.loc (thr d L) ↦[ckSet d L ⟨123, h123⟩]{fullShare} Cert.Feature.XF (m (zLoc d)) fe)
          ∗ bigSep (Finset.univ.filter fun j : Fin 125 => j.val + 2 < started 63) fun j =>
              ((xW).view.loc (thr d L) ↦[ckSet d L j]{fullShare} Cert.Feature.XF (m (zLoc d)) fe)) := by
      conv_lhs => rw [hU]
      rw [SparseCore.bigSep_insert' hn1, SparseCore.bigSep_insert' hn2]
    unfold XDone
    rw [band_eq_chunks (F := F) d L, e1]
  isplitl [HzR Hz0r Hz1r Hz2r Hz3r Hz0p Hz1p Hz2p Hz3p Hes Hed HXD HF4_dst HF5_dst]
  · isplitl [HzR Hz0r Hz1r Hz2r Hz3r Hz0p Hz1p Hz2p Hz3p]
    · iapply (toks4 (F := F) qz _).2
      isplitl [HzR]; · iexact HzR
      isplitl [Hz0p Hz0r]; · iapply (pointsTo_split_subset (Finset.subset_univ _)).2; isplitl [Hz0p] <;> iassumption
      isplitl [Hz1p Hz1r]; · iapply (pointsTo_split_subset (Finset.subset_univ _)).2; isplitl [Hz1p] <;> iassumption
      isplitl [Hz2p Hz2r]; · iapply (pointsTo_split_subset (Finset.subset_univ _)).2; isplitl [Hz2p] <;> iassumption
      iapply (pointsTo_split_subset (Finset.subset_univ _)).2; isplitl [Hz3p] <;> iassumption
    isplitl [Hes]; · iexact Hes
    isplitl [Hed]; · iexact Hed
    iapply hjoin
    isplitl [HF4_dst]
    · ihave H4 := (Entails.of_eq (pointsTo_congr hva)) $$ HF4_dst
      iapply (Entails.of_eq (show ((xW).view.loc (thr d L) ↦[((xW).slice (Rect.unit (s := S320000x128) ![base L + 80 * 124, 0] S80x128.size hxa) (fun _ => rfl)).view.set]{fullShare} Cert.Feature.XF (m (zLoc d)) fe : sProp 𝕄)
          = ((xW).view.loc (thr d L) ↦[ckSet d L ⟨124, h124⟩]{fullShare} Cert.Feature.XF (m (zLoc d)) fe) from rfl)) $$ H4
    isplitl [HF5_dst]
    · ihave H5 := (Entails.of_eq (pointsTo_congr hvb)) $$ HF5_dst
      iapply (Entails.of_eq (show ((xW).view.loc (thr d L) ↦[((xW).slice (Rect.unit (s := S320000x128) ![base L + 80 * 123, 0] S80x128.size hxb) (fun _ => rfl)).view.set]{fullShare} Cert.Feature.XF (m (zLoc d)) fe : sProp 𝕄)
          = ((xW).view.loc (thr d L) ↦[ckSet d L ⟨123, h123⟩]{fullShare} Cert.Feature.XF (m (zLoc d)) fe) from rfl)) $$ H5
    iexact HXD
  isplitl [HisA HisB HidA HidB Hr0' Hd0' Hr1' Hd1' HF4_src HF5_src Hg0 Hg1 Hg2 Hg3 HF4 HF5 Hc0 Hc1]
  · isplitl [HisA HisB]
    · iexists _; iapply (halves (F := F) fullShare _).2; isplitl [HisA] <;> iassumption
    isplitl [HidA HidB]
    · iexists _; iapply (halves (F := F) fullShare _).2; isplitl [HidA] <;> iassumption
    isplitl [Hr0']; · iexists gr0; iapply (Entails.of_eq (by simp only [View.set_whole])) $$ Hr0'
    isplitl [Hd0']; · iexists gd0; iapply (Entails.of_eq (by simp only [View.set_whole])) $$ Hd0'
    isplitl [Hr1']; · iexists gr1; iapply (Entails.of_eq (by simp only [View.set_whole])) $$ Hr1'
    isplitl [Hd1']; · iexists gd1; iapply (Entails.of_eq (by simp only [View.set_whole])) $$ Hd1'
    isplitl [HF4_src]; · iexists pa; iapply (Entails.of_eq (by simp only [Memref.view_whole, View.set_whole])) $$ HF4_src
    isplitl [HF5_src]; · iexists pb; iapply (Entails.of_eq (by simp only [Memref.view_whole, View.set_whole])) $$ HF5_src
    isplitl [Hg0]; · iexact Hg0
    isplitl [Hg1]; · iexact Hg1
    isplitl [Hg2]; · iexact Hg2
    isplitl [Hg3]; · iexact Hg3
    isplitl [HF4]; · iexact HF4
    isplitl [HF5]; · iexact HF5
    isplitl [Hc0]; · iexact Hc0
    iexact Hc1
  iexists (insert (SemLoc.dma cc0_scratch13.sem, (default : HIx 1)) (insert (SemLoc.dma cc0_scratch12.sem, (default : HIx 1)) W')); isplitr
  · ipureintro
    intro p hp
    rcases Finset.mem_insert.mp hp with hp | hp
    · right; rw [hp]; rfl
    rcases Finset.mem_insert.mp hp with hp | hp
    · right; rw [hp]; rfl
    · exact hW' p hp
  · iexact HO

end Cert.Proof.KB

end
-- ==== Proof.BitsMulLoop.lean ====
/-
  The product loops of a vector subcore: each of the two counted loops multiplies two row buffers of shape [80, 128]
  pointwise into a third, one row per trip, eight lane groups of sixteen per row. Each loop is proved once at an
  invariant over a symbolic trip — the two sources unchanged, the first k rows of the product buffer done — and
  stated in continuation form: from the three buffers and what follows the loop, the loop's weakest precondition.
-/
import proofs.«202806_g74526272520516_cont_9to1_m_1211_39_alg».proof.Proof.BitsTileIface
import Idealize.ShloMosaic.Lib.Writes
import Idealize.ShloMosaic.Lib.ValueIdx
import Idealize.ShloMosaic.Lib.Pipeline.Value

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The pointwise product of two row buffers, one row of eight lane groups per trip -/

/-- A payload of the loop: the two loaded lane groups, flattened, multiplied and unflattened, is their pointwise product. -/
theorem pay_mul (u w : FVec F S1x16 .f32) (h : S1x16.ShapeCasts S16) (h' : S16.ShapeCasts S1x16) :
    shapeCast S1x16 (mulf (shapeCast S16 u h) (shapeCast S16 w h)) h' = mulf u w := by
  have e : ∀ (x y : FVec F S16 .f32), shapeCast S1x16 (mulf x y) h' = mulf (shapeCast S1x16 x h') (shapeCast S1x16 y h') :=
    fun _ _ => rfl
  rw [e, shapeCast_shapeCast, shapeCast_shapeCast]

/-- The pointwise product of two buffers of the scratch shape. -/
def prodBuf (a b : S80x128.Idx → F .f32) : S80x128.Idx → F .f32 := fun y => FloatOps.mulf (a y) (b y)

section Trip0
variable (d : Dev nD) (L : grid0.Coords)
variable (a : Buf (Elt F) ((sR0).view.loc (thr d L))) (b : Buf (Elt F) ((sD0).view.loc (thr d L))) (p : Buf (Elt F) ((sP0).view.loc (thr d L)))

/-- The eight stores of trip `k`: lane group `j` of row `k` receives the product of the two sources' lane groups. -/
def pieces0 (k : Fin k0_t2_loop.trips) : List (View.Piece (Elt F) S80x128 .f32) :=
  [⟨Rect.unit (s := S80x128) (k0_off12 k) S1x16.size (k0_off12_inb k),
      k0_pay8 (View.readAt (Elt F) sR0.view (Rect.unit (s := S80x128) (k0_off12 k) S1x16.size (k0_off12_inb k)).toLoadRect a)
        (View.readAt (Elt F) sD0.view (Rect.unit (s := S80x128) (k0_off12 k) S1x16.size (k0_off12_inb k)).toLoadRect b)⟩,
    ⟨Rect.unit (s := S80x128) (k0_off11 k) S1x16.size (k0_off11_inb k),
      k0_pay7 (View.readAt (Elt F) sR0.view (Rect.unit (s := S80x128) (k0_off11 k) S1x16.size (k0_off11_inb k)).toLoadRect a)
        (View.readAt (Elt F) sD0.view (Rect.unit (s := S80x128) (k0_off11 k) S1x16.size (k0_off11_inb k)).toLoadRect b)⟩,
    ⟨Rect.unit (s := S80x128) (k0_off10 k) S1x16.size (k0_off10_inb k),
      k0_pay6 (View.readAt (Elt F) sR0.view (Rect.unit (s := S80x128) (k0_off10 k) S1x16.size (k0_off10_inb k)).toLoadRect a)
        (View.readAt (Elt F) sD0.view (Rect.unit (s := S80x128) (k0_off10 k) S1x16.size (k0_off10_inb k)).toLoadRect b)⟩,
    ⟨Rect.unit (s := S80x128) (k0_off9 k) S1x16.size (k0_off9_inb k),
      k0_pay5 (View.readAt (Elt F) sR0.view (Rect.unit (s := S80x128) (k0_off9 k) S1x16.size (k0_off9_inb k)).toLoadRect a)
        (View.readAt (Elt F) sD0.view (Rect.unit (s := S80x128) (k0_off9 k) S1x16.size (k0_off9_inb k)).toLoadRect b)⟩,
    ⟨Rect.unit (s := S80x128) (k0_off8 k) S1x16.size (k0_off8_inb k),
      k0_pay4 (View.readAt (Elt F) sR0.view (Rect.unit (s := S80x128) (k0_off8 k) S1x16.size (k0_off8_inb k)).toLoadRect a)
        (View.readAt (Elt F) sD0.view (Rect.unit (s := S80x128) (k0_off8 k) S1x16.size (k0_off8_inb k)).toLoadRect b)⟩,
    ⟨Rect.unit (s := S80x128) (k0_off7 k) S1x16.size (k0_off7_inb k),
      k0_pay3 (View.readAt (Elt F) sR0.view (Rect.unit (s := S80x128) (k0_off7 k) S1x16.size (k0_off7_inb k)).toLoadRect a)
        (View.readAt (Elt F) sD0.view (Rect.unit (s := S80x128) (k0_off7 k) S1x16.size (k0_off7_inb k)).toLoadRect b)⟩,
    ⟨Rect.unit (s := S80x128) (k0_off6 k) S1x16.size (k0_off6_inb k),
      k0_pay2 (View.readAt (Elt F) sR0.view (Rect.unit (s := S80x128) (k0_off6 k) S1x16.size (k0_off6_inb k)).toLoadRect a)
        (View.readAt (Elt F) sD0.view (Rect.unit (s := S80x128) (k0_off6 k) S1x16.size (k0_off6_inb k)).toLoadRect b)⟩,
    ⟨Rect.unit (s := S80x128) (k0_off5 k) S1x16.size (k0_off5_inb k),
      k0_pay1 (View.readAt (Elt F) sR0.view (Rect.unit (s := S80x128) (k0_off5 k) S1x16.size (k0_off5_inb k)).toLoadRect a)
        (View.readAt (Elt F) sD0.view (Rect.unit (s := S80x128) (k0_off5 k) S1x16.size (k0_off5_inb k)).toLoadRect b)⟩]

/-- Each store's payload is the product buffer over its rectangle. -/
theorem pieces0_val (k : Fin k0_t2_loop.trips) :
    ∀ pc ∈ pieces0 d L a b k, ∀ x : pc.1.shape.Idx, pc.2 x = prodBuf a b (pc.1.emb x) := by
  intro pc hpc
  simp only [pieces0, List.mem_cons, List.not_mem_nil, _root_.or_false] at hpc
  rcases hpc with rfl | rfl | rfl | rfl | rfl | rfl | rfl | rfl <;> intro x
  · show k0_pay8 _ _ x = _
    unfold k0_pay8; rw [pay_mul]; rfl
  · show k0_pay7 _ _ x = _
    unfold k0_pay7; rw [pay_mul]; rfl
  · show k0_pay6 _ _ x = _
    unfold k0_pay6; rw [pay_mul]; rfl
  · show k0_pay5 _ _ x = _
    unfold k0_pay5; rw [pay_mul]; rfl
  · show k0_pay4 _ _ x = _
    unfold k0_pay4; rw [pay_mul]; rfl
  · show k0_pay3 _ _ x = _
    unfold k0_pay3; rw [pay_mul]; rfl
  · show k0_pay2 _ _ x = _
    unfold k0_pay2; rw [pay_mul]; rfl
  · show k0_pay1 _ _ x = _
    unfold k0_pay1; rw [pay_mul]; rfl

end Trip0

section Trip0v
variable (d : Dev nD) (L : grid0.Coords)
variable (a : Buf (Elt F) ((sR0).view.loc (thr d L))) (b : Buf (Elt F) ((sD0).view.loc (thr d L))) (p : Buf (Elt F) ((sP0).view.loc (thr d L)))

/-- Row `k` is covered by the trip's eight rectangles: lane `l` lies in the group `l / 16`. -/
theorem pieces0_cover (k : Fin k0_t2_loop.trips) (r : Fin 80) (l : Fin 128) (hr : r.val = k.val) :
    ∃ pc ∈ pieces0 d L a b k, (ix2 r l : S80x128.Idx) ∈ pc.1.set := by
  have h8 : l.val / 16 < 8 := by omega
  have hm : ∀ (off : Fin 2 → ℕ) (j : ℕ) inb, off = ![k.val, 16 * j] → l.val / 16 = j →
      (ix2 r l : S80x128.Idx) ∈ (Rect.unit (s := S80x128) off S1x16.size inb).set := by
    intro off j inb e hj
    subst e
    rw [Rect.mem_set_unit]
    refine Fin.forall_fin_two.mpr ⟨?_, ?_⟩
    · show k.val ≤ r.val ∧ r.val < k.val + 1
      omega
    · show 16 * j ≤ l.val ∧ l.val < 16 * j + 16
      omega
  unfold pieces0
  rcases (by omega : l.val / 16 = 7 ∨ l.val / 16 = 6 ∨ l.val / 16 = 5 ∨ l.val / 16 = 4 ∨ l.val / 16 = 3 ∨ l.val / 16 = 2
      ∨ l.val / 16 = 1 ∨ l.val / 16 = 0) with h | h | h | h | h | h | h | h
  · exact ⟨_, List.mem_cons_self, hm _ 7 (k0_off12_inb k) (k0_off12_eq k) h⟩
  · exact ⟨_, List.mem_cons_of_mem _ List.mem_cons_self, hm _ 6 (k0_off11_inb k) (k0_off11_eq k) h⟩
  · exact ⟨_, List.mem_cons_of_mem _ (List.mem_cons_of_mem _ List.mem_cons_self), hm _ 5 (k0_off10_inb k) (k0_off10_eq k) h⟩
  · exact ⟨_, List.mem_cons_of_mem _ (List.mem_cons_of_mem _ (List.mem_cons_of_mem _ List.mem_cons_self)), hm _ 4 (k0_off9_inb k) (k0_off9_eq k) h⟩
  · exact ⟨_, List.mem_cons_of_mem _ (List.mem_cons_of_mem _ (List.mem_cons_of_mem _ (List.mem_cons_of_mem _ List.mem_cons_self))),
      hm _ 3 (k0_off8_inb k) (k0_off8_eq k) h⟩
  · exact ⟨_, List.mem_cons_of_mem _ (List.mem_cons_of_mem _ (List.mem_cons_of_mem _ (List.mem_cons_of_mem _
      (List.mem_cons_of_mem _ List.mem_cons_self)))), hm _ 2 (k0_off7_inb k) (k0_off7_eq k) h⟩
  · exact ⟨_, List.mem_cons_of_mem _ (List.mem_cons_of_mem _ (List.mem_cons_of_mem _ (List.mem_cons_of_mem _
      (List.mem_cons_of_mem _ (List.mem_cons_of_mem _ List.mem_cons_self))))), hm _ 1 (k0_off6_inb k) (k0_off6_eq k) h⟩
  · exact ⟨_, List.mem_cons_of_mem _ (List.mem_cons_of_mem _ (List.mem_cons_of_mem _ (List.mem_cons_of_mem _
      (List.mem_cons_of_mem _ (List.mem_cons_of_mem _ (List.mem_cons_of_mem _ List.mem_cons_self)))))), hm _ 0 (k0_off5_inb k) (k0_off5_eq k) h⟩

/-- A row other than `k` meets none of the trip's rectangles. -/
theorem pieces0_miss (k : Fin k0_t2_loop.trips) (r : Fin 80) (l : Fin 128) (hr : r.val ≠ k.val) :
    ∀ pc ∈ pieces0 d L a b k, (ix2 r l : S80x128.Idx) ∉ pc.1.set := by
  have hm : ∀ (off : Fin 2 → ℕ) (j : ℕ) inb, off = ![k.val, j] →
      (ix2 r l : S80x128.Idx) ∉ (Rect.unit (s := S80x128) off S1x16.size inb).set := by
    intro off j inb e
    subst e
    rw [Rect.mem_set_unit]
    intro hall
    have h0 : k.val ≤ r.val ∧ r.val < k.val + 1 := hall 0
    omega
  intro pc hpc
  simp only [pieces0, List.mem_cons, List.not_mem_nil, _root_.or_false] at hpc
  rcases hpc with rfl | rfl | rfl | rfl | rfl | rfl | rfl | rfl
  · exact hm _ _ (k0_off12_inb k) (k0_off12_eq k)
  · exact hm _ _ (k0_off11_inb k) (k0_off11_eq k)
  · exact hm _ _ (k0_off10_inb k) (k0_off10_eq k)
  · exact hm _ _ (k0_off9_inb k) (k0_off9_eq k)
  · exact hm _ _ (k0_off8_inb k) (k0_off8_eq k)
  · exact hm _ _ (k0_off7_inb k) (k0_off7_eq k)
  · exact hm _ _ (k0_off6_inb k) (k0_off6_eq k)
  · exact hm _ _ (k0_off5_inb k) (k0_off5_eq k)

/-- One trip extends the finished rows by row `k`. -/
theorem trip0_val (k : Fin k0_t2_loop.trips)
    (hp : ∀ (r : Fin 80) (l : Fin 128), r.val < k.val → p (ix2 r l) = FloatOps.mulf (a (ix2 r l)) (b (ix2 r l))) :
    ∀ (r : Fin 80) (l : Fin 128), r.val < k.val + 1 →
      (sP0.view.writes (Elt F) p (pieces0 d L a b k)) (ix2 r l) = FloatOps.mulf (a (ix2 r l)) (b (ix2 r l)) := by
  intro r l hr
  rcases Nat.lt_succ_iff_lt_or_eq.mp hr with h | h
  · exact (View.read_writes_apply_of_forall_not_mem sP0.view p (ix2 r l) _ (pieces0_miss d L a b k r l (by omega))).trans (hp r l h)
  · exact View.read_writes_apply_of_pieces sP0.view p (prodBuf a b) _ (pieces0_val d L a b k) (ix2 r l) (pieces0_cover d L a b k r l h)

end Trip0v

section Loop0
variable (d : Dev nD) (L : grid0.Coords)

theorem trips0 : k0_t2_loop.trips = 80 := by decide

/-- Before trip `k`: the two sources as they were, the product buffer with its first `k` rows done. -/
def inv0 (q : PosShare TreeShare) (a : Buf (Elt F) ((sR0).view.loc (thr d L))) (b : Buf (Elt F) ((sD0).view.loc (thr d L)))
    (k : Nat) (_ : BitVec 32) : sProp 𝕄 :=
  iprop(((sR0).view.loc (thr d L) ↦{q} a) ∗ ((sD0).view.loc (thr d L) ↦{q} b)
    ∗ ∃ p : Buf (Elt F) ((sP0).view.loc (thr d L)), ((sP0).view.loc (thr d L) ↦{fullShare} p)
        ∗ ⌜∀ (r : Fin 80) (l : Fin 128), r.val < k → p (ix2 r l) = FloatOps.mulf (a (ix2 r l)) (b (ix2 r l))⌝)

/-- The first slot's product loop: on exit the product buffer holds the pointwise product of the two sources, which are
    unchanged (held at any positive share). -/
theorem mul_loop0 (q : PosShare TreeShare) (a : Buf (Elt F) ((sR0).view.loc (thr d L))) (b : Buf (Elt F) ((sD0).view.loc (thr d L)))
    (p : Buf (Elt F) ((sP0).view.loc (thr d L))) (Q : BitVec 32 → sProp 𝕄) :
    iprop(((sR0).view.loc (thr d L) ↦{q} a) ∗ ((sD0).view.loc (thr d L) ↦{q} b) ∗ ((sP0).view.loc (thr d L) ↦{fullShare} p)
        ∗ (∀ (p' : Buf (Elt F) ((sP0).view.loc (thr d L))) (v : BitVec 32),
            ⌜∀ (r : Fin 80) (l : Fin 128), p' (ix2 r l) = FloatOps.mulf (a (ix2 r l)) (b (ix2 r l))⌝
             -∗ ((sR0).view.loc (thr d L) ↦{q} a) -∗ ((sD0).view.loc (thr d L) ↦{q} b)
             -∗ ((sP0).view.loc (thr d L) ↦{fullShare} p') -∗ Q v))
      ⊢ wp frame (wpE (defs₀ (F := F)) 𝒱₀ (thr d L) none) Set.univ
          (Scf.Loop.for k0_t2_loop k0_t2_ok 0#32
            (k0_t2_body L zW (Memref.isWhole_whole _) eW (Memref.isWhole_whole _) xW (Memref.isWhole_whole _) sIs (Memref.isWhole_whole _)
              sId (Memref.isWhole_whole _) sR0 (Memref.isWhole_whole _) sD0 (Memref.isWhole_whole _) sR1 (Memref.isWhole_whole _)
              sD1 (Memref.isWhole_whole _) sP0 (Memref.isWhole_whole _) sP1 (Memref.isWhole_whole _)
              cc0_scratch8 cc0_scratch9 cc0_scratch10 cc0_scratch11 cc0_scratch12 cc0_scratch13 cc0_scoped0 cc0_scoped1)) Q := by
  iintro ⟨Ha, Hb, Hp, HQ⟩
  sl_for (inv0 d L q a b) $$ [Ha Hb Hp HQ]
  case region =>
    intro k acc
    unfold inv0
    iintro ⟨Ha, Hb, %p₀, Hp, %hp⟩
    sl_exec
    sl_step
    isplitl [Ha]; · iexact Ha
    isplitl [Hb]; · iexact Hb
    iexists _
    isplitl [Hp]; · iexact Hp
    ipureintro
    exact trip0_val d L a b p₀ k hp
  isplitl [Ha Hb Hp]
  · unfold inv0
    isplitl [Ha]; · iexact Ha
    isplitl [Hb]; · iexact Hb
    iexists p
    isplitl [Hp]; · iexact Hp
    ipureintro
    intro r l h
    exact absurd h (Nat.not_lt_zero _)
  iintro %acc HI
  unfold inv0
  icases HI with ⟨Ha, Hb, %p', Hp, %hp⟩
  ispecialize HQ $$ %p' %acc
  iapply HQ $$ [] [Ha] [Hb] [Hp]
  · ipureintro
    intro r l
    exact hp r l (by rw [show Scf.trips k0_t2_loop.lb k0_t2_loop.ub k0_t2_loop.st = 80 from trips0]; exact r.isLt)
  · iexact Ha
  · iexact Hb
  · iexact Hp

end Loop0

section Bind0
variable (d : Dev nD) (L : grid0.Coords)

/-- The same with the loop bound to what follows it: the continuation runs from the finished product buffer. -/
theorem mul_loop0_bind (q : PosShare TreeShare) (a : Buf (Elt F) ((sR0).view.loc (thr d L))) (b : Buf (Elt F) ((sD0).view.loc (thr d L)))
    (p : Buf (Elt F) ((sP0).view.loc (thr d L))) {β : Type}
    (kk : BitVec 32 → Prog (TpuEff nD τ sig (Elt F) Λ₀ (.scVector ((L 0).castLE hcore0) ((L 1).castLE hsub0))) β) (Q : β → sProp 𝕄) :
    iprop(((sR0).view.loc (thr d L) ↦{q} a) ∗ ((sD0).view.loc (thr d L) ↦{q} b) ∗ ((sP0).view.loc (thr d L) ↦{fullShare} p)
        ∗ (∀ (p' : Buf (Elt F) ((sP0).view.loc (thr d L))) (v : BitVec 32),
            ⌜∀ (r : Fin 80) (l : Fin 128), p' (ix2 r l) = FloatOps.mulf (a (ix2 r l)) (b (ix2 r l))⌝
             -∗ ((sR0).view.loc (thr d L) ↦{q} a) -∗ ((sD0).view.loc (thr d L) ↦{q} b)
             -∗ ((sP0).view.loc (thr d L) ↦{fullShare} p')
             -∗ wp frame (wpE (defs₀ (F := F)) 𝒱₀ (thr d L) none) Set.univ (kk v) Q))
      ⊢ wp frame (wpE (defs₀ (F := F)) 𝒱₀ (thr d L) none) Set.univ
          (Scf.Loop.for k0_t2_loop k0_t2_ok 0#32
            (k0_t2_body L zW (Memref.isWhole_whole _) eW (Memref.isWhole_whole _) xW (Memref.isWhole_whole _) sIs (Memref.isWhole_whole _)
              sId (Memref.isWhole_whole _) sR0 (Memref.isWhole_whole _) sD0 (Memref.isWhole_whole _) sR1 (Memref.isWhole_whole _)
              sD1 (Memref.isWhole_whole _) sP0 (Memref.isWhole_whole _) sP1 (Memref.isWhole_whole _)
              cc0_scratch8 cc0_scratch9 cc0_scratch10 cc0_scratch11 cc0_scratch12 cc0_scratch13 cc0_scoped0 cc0_scoped1) >>= kk) Q := by
  rw [wp_bind]
  exact mul_loop0 d L q a b p _

end Bind0
section Trip1
variable (d : Dev nD) (L : grid0.Coords) (k0_t1 : Fin k0_t1_loop.trips) (k0_h3 : k0_cond3 k0_t1 = 1#1)
variable (a : Buf (Elt F) ((sR1).view.loc (thr d L))) (b : Buf (Elt F) ((sD1).view.loc (thr d L))) (p : Buf (Elt F) ((sP1).view.loc (thr d L)))

/-- The eight stores of trip `k`: lane group `j` of row `k` receives the product of the two sources' lane groups. -/
def pieces1 (k : Fin k0_t3_loop.trips) : List (View.Piece (Elt F) S80x128 .f32) :=
  [⟨Rect.unit (s := S80x128) (k0_off24 k) S1x16.size (k0_off24_inb k0_t1 k k0_h3),
      k0_pay16 (View.readAt (Elt F) sR1.view (Rect.unit (s := S80x128) (k0_off24 k) S1x16.size (k0_off24_inb k0_t1 k k0_h3)).toLoadRect a)
        (View.readAt (Elt F) sD1.view (Rect.unit (s := S80x128) (k0_off24 k) S1x16.size (k0_off24_inb k0_t1 k k0_h3)).toLoadRect b)⟩,
    ⟨Rect.unit (s := S80x128) (k0_off23 k) S1x16.size (k0_off23_inb k0_t1 k k0_h3),
      k0_pay15 (View.readAt (Elt F) sR1.view (Rect.unit (s := S80x128) (k0_off23 k) S1x16.size (k0_off23_inb k0_t1 k k0_h3)).toLoadRect a)
        (View.readAt (Elt F) sD1.view (Rect.unit (s := S80x128) (k0_off23 k) S1x16.size (k0_off23_inb k0_t1 k k0_h3)).toLoadRect b)⟩,
    ⟨Rect.unit (s := S80x128) (k0_off22 k) S1x16.size (k0_off22_inb k0_t1 k k0_h3),
      k0_pay14 (View.readAt (Elt F) sR1.view (Rect.unit (s := S80x128) (k0_off22 k) S1x16.size (k0_off22_inb k0_t1 k k0_h3)).toLoadRect a)
        (View.readAt (Elt F) sD1.view (Rect.unit (s := S80x128) (k0_off22 k) S1x16.size (k0_off22_inb k0_t1 k k0_h3)).toLoadRect b)⟩,
    ⟨Rect.unit (s := S80x128) (k0_off21 k) S1x16.size (k0_off21_inb k0_t1 k k0_h3),
      k0_pay13 (View.readAt (Elt F) sR1.view (Rect.unit (s := S80x128) (k0_off21 k) S1x16.size (k0_off21_inb k0_t1 k k0_h3)).toLoadRect a)
        (View.readAt (Elt F) sD1.view (Rect.unit (s := S80x128) (k0_off21 k) S1x16.size (k0_off21_inb k0_t1 k k0_h3)).toLoadRect b)⟩,
    ⟨Rect.unit (s := S80x128) (k0_off20 k) S1x16.size (k0_off20_inb k0_t1 k k0_h3),
      k0_pay12 (View.readAt (Elt F) sR1.view (Rect.unit (s := S80x128) (k0_off20 k) S1x16.size (k0_off20_inb k0_t1 k k0_h3)).toLoadRect a)
        (View.readAt (Elt F) sD1.view (Rect.unit (s := S80x128) (k0_off20 k) S1x16.size (k0_off20_inb k0_t1 k k0_h3)).toLoadRect b)⟩,
    ⟨Rect.unit (s := S80x128) (k0_off19 k) S1x16.size (k0_off19_inb k0_t1 k k0_h3),
      k0_pay11 (View.readAt (Elt F) sR1.view (Rect.unit (s := S80x128) (k0_off19 k) S1x16.size (k0_off19_inb k0_t1 k k0_h3)).toLoadRect a)
        (View.readAt (Elt F) sD1.view (Rect.unit (s := S80x128) (k0_off19 k) S1x16.size (k0_off19_inb k0_t1 k k0_h3)).toLoadRect b)⟩,
    ⟨Rect.unit (s := S80x128) (k0_off18 k) S1x16.size (k0_off18_inb k0_t1 k k0_h3),
      k0_pay10 (View.readAt (Elt F) sR1.view (Rect.unit (s := S80x128) (k0_off18 k) S1x16.size (k0_off18_inb k0_t1 k k0_h3)).toLoadRect a)
        (View.readAt (Elt F) sD1.view (Rect.unit (s := S80x128) (k0_off18 k) S1x16.size (k0_off18_inb k0_t1 k k0_h3)).toLoadRect b)⟩,
    ⟨Rect.unit (s := S80x128) (k0_off17 k) S1x16.size (k0_off17_inb k0_t1 k k0_h3),
      k0_pay9 (View.readAt (Elt F) sR1.view (Rect.unit (s := S80x128) (k0_off17 k) S1x16.size (k0_off17_inb k0_t1 k k0_h3)).toLoadRect a)
        (View.readAt (Elt F) sD1.view (Rect.unit (s := S80x128) (k0_off17 k) S1x16.size (k0_off17_inb k0_t1 k k0_h3)).toLoadRect b)⟩]

/-- Each store's payload is the product buffer over its rectangle. -/
theorem pieces1_val (k : Fin k0_t3_loop.trips) :
    ∀ pc ∈ pieces1 d L k0_t1 k0_h3 a b k, ∀ x : pc.1.shape.Idx, pc.2 x = prodBuf a b (pc.1.emb x) := by
  intro pc hpc
  simp only [pieces1, List.mem_cons, List.not_mem_nil, _root_.or_false] at hpc
  rcases hpc with rfl | rfl | rfl | rfl | rfl | rfl | rfl | rfl <;> intro x
  · show k0_pay16 _ _ x = _
    unfold k0_pay16; rw [pay_mul]; rfl
  · show k0_pay15 _ _ x = _
    unfold k0_pay15; rw [pay_mul]; rfl
  · show k0_pay14 _ _ x = _
    unfold k0_pay14; rw [pay_mul]; rfl
  · show k0_pay13 _ _ x = _
    unfold k0_pay13; rw [pay_mul]; rfl
  · show k0_pay12 _ _ x = _
    unfold k0_pay12; rw [pay_mul]; rfl
  · show k0_pay11 _ _ x = _
    unfold k0_pay11; rw [pay_mul]; rfl
  · show k0_pay10 _ _ x = _
    unfold k0_pay10; rw [pay_mul]; rfl
  · show k0_pay9 _ _ x = _
    unfold k0_pay9; rw [pay_mul]; rfl

end Trip1

section Trip1v
variable (d : Dev nD) (L : grid0.Coords) (k0_t1 : Fin k0_t1_loop.trips) (k0_h3 : k0_cond3 k0_t1 = 1#1)
variable (a : Buf (Elt F) ((sR1).view.loc (thr d L))) (b : Buf (Elt F) ((sD1).view.loc (thr d L))) (p : Buf (Elt F) ((sP1).view.loc (thr d L)))

/-- Row `k` is covered by the trip's eight rectangles: lane `l` lies in the group `l / 16`. -/
theorem pieces1_cover (k : Fin k0_t3_loop.trips) (r : Fin 80) (l : Fin 128) (hr : r.val = k.val) :
    ∃ pc ∈ pieces1 d L k0_t1 k0_h3 a b k, (ix2 r l : S80x128.Idx) ∈ pc.1.set := by
  have h8 : l.val / 16 < 8 := by omega
  have hm : ∀ (off : Fin 2 → ℕ) (j : ℕ) inb, off = ![k.val, 16 * j] → l.val / 16 = j →
      (ix2 r l : S80x128.Idx) ∈ (Rect.unit (s := S80x128) off S1x16.size inb).set := by
    intro off j inb e hj
    subst e
    rw [Rect.mem_set_unit]
    refine Fin.forall_fin_two.mpr ⟨?_, ?_⟩
    · show k.val ≤ r.val ∧ r.val < k.val + 1
      omega
    · show 16 * j ≤ l.val ∧ l.val < 16 * j + 16
      omega
  unfold pieces1
  rcases (by omega : l.val / 16 = 7 ∨ l.val / 16 = 6 ∨ l.val / 16 = 5 ∨ l.val / 16 = 4 ∨ l.val / 16 = 3 ∨ l.val / 16 = 2
      ∨ l.val / 16 = 1 ∨ l.val / 16 = 0) with h | h | h | h | h | h | h | h
  · exact ⟨_, List.mem_cons_self, hm _ 7 (k0_off24_inb k0_t1 k k0_h3) (k0_off24_eq k) h⟩
  · exact ⟨_, List.mem_cons_of_mem _ List.mem_cons_self, hm _ 6 (k0_off23_inb k0_t1 k k0_h3) (k0_off23_eq k) h⟩
  · exact ⟨_, List.mem_cons_of_mem _ (List.mem_cons_of_mem _ List.mem_cons_self), hm _ 5 (k0_off22_inb k0_t1 k k0_h3) (k0_off22_eq k) h⟩
  · exact ⟨_, List.mem_cons_of_mem _ (List.mem_cons_of_mem _ (List.mem_cons_of_mem _ List.mem_cons_self)), hm _ 4 (k0_off21_inb k0_t1 k k0_h3) (k0_off21_eq k) h⟩
  · exact ⟨_, List.mem_cons_of_mem _ (List.mem_cons_of_mem _ (List.mem_cons_of_mem _ (List.mem_cons_of_mem _ List.mem_cons_self))),
      hm _ 3 (k0_off20_inb k0_t1 k k0_h3) (k0_off20_eq k) h⟩
  · exact ⟨_, List.mem_cons_of_mem _ (List.mem_cons_of_mem _ (List.mem_cons_of_mem _ (List.mem_cons_of_mem _
      (List.mem_cons_of_mem _ List.mem_cons_self)))), hm _ 2 (k0_off19_inb k0_t1 k k0_h3) (k0_off19_eq k) h⟩
  · exact ⟨_, List.mem_cons_of_mem _ (List.mem_cons_of_mem _ (List.mem_cons_of_mem _ (List.mem_cons_of_mem _
      (List.mem_cons_of_mem _ (List.mem_cons_of_mem _ List.mem_cons_self))))), hm _ 1 (k0_off18_inb k0_t1 k k0_h3) (k0_off18_eq k) h⟩
  · exact ⟨_, List.mem_cons_of_mem _ (List.mem_cons_of_mem _ (List.mem_cons_of_mem _ (List.mem_cons_of_mem _
      (List.mem_cons_of_mem _ (List.mem_cons_of_mem _ (List.mem_cons_of_mem _ List.mem_cons_self)))))), hm _ 0 (k0_off17_inb k0_t1 k k0_h3) (k0_off17_eq k) h⟩

/-- A row other than `k` meets none of the trip's rectangles. -/
theorem pieces1_miss (k : Fin k0_t3_loop.trips) (r : Fin 80) (l : Fin 128) (hr : r.val ≠ k.val) :
    ∀ pc ∈ pieces1 d L k0_t1 k0_h3 a b k, (ix2 r l : S80x128.Idx) ∉ pc.1.set := by
  have hm : ∀ (off : Fin 2 → ℕ) (j : ℕ) inb, off = ![k.val, j] →
      (ix2 r l : S80x128.Idx) ∉ (Rect.unit (s := S80x128) off S1x16.size inb).set := by
    intro off j inb e
    subst e
    rw [Rect.mem_set_unit]
    intro hall
    have h0 : k.val ≤ r.val ∧ r.val < k.val + 1 := hall 0
    omega
  intro pc hpc
  simp only [pieces1, List.mem_cons, List.not_mem_nil, _root_.or_false] at hpc
  rcases hpc with rfl | rfl | rfl | rfl | rfl | rfl | rfl | rfl
  · exact hm _ _ (k0_off24_inb k0_t1 k k0_h3) (k0_off24_eq k)
  · exact hm _ _ (k0_off23_inb k0_t1 k k0_h3) (k0_off23_eq k)
  · exact hm _ _ (k0_off22_inb k0_t1 k k0_h3) (k0_off22_eq k)
  · exact hm _ _ (k0_off21_inb k0_t1 k k0_h3) (k0_off21_eq k)
  · exact hm _ _ (k0_off20_inb k0_t1 k k0_h3) (k0_off20_eq k)
  · exact hm _ _ (k0_off19_inb k0_t1 k k0_h3) (k0_off19_eq k)
  · exact hm _ _ (k0_off18_inb k0_t1 k k0_h3) (k0_off18_eq k)
  · exact hm _ _ (k0_off17_inb k0_t1 k k0_h3) (k0_off17_eq k)

/-- One trip extends the finished rows by row `k`. -/
theorem trip1_val (k : Fin k0_t3_loop.trips)
    (hp : ∀ (r : Fin 80) (l : Fin 128), r.val < k.val → p (ix2 r l) = FloatOps.mulf (a (ix2 r l)) (b (ix2 r l))) :
    ∀ (r : Fin 80) (l : Fin 128), r.val < k.val + 1 →
      (sP1.view.writes (Elt F) p (pieces1 d L k0_t1 k0_h3 a b k)) (ix2 r l) = FloatOps.mulf (a (ix2 r l)) (b (ix2 r l)) := by
  intro r l hr
  rcases Nat.lt_succ_iff_lt_or_eq.mp hr with h | h
  · exact (View.read_writes_apply_of_forall_not_mem sP1.view p (ix2 r l) _ (pieces1_miss d L k0_t1 k0_h3 a b k r l (by omega))).trans (hp r l h)
  · exact View.read_writes_apply_of_pieces sP1.view p (prodBuf a b) _ (pieces1_val d L k0_t1 k0_h3 a b k) (ix2 r l) (pieces1_cover d L k0_t1 k0_h3 a b k r l h)

end Trip1v

section Loop1
variable (d : Dev nD) (L : grid0.Coords) (k0_t1 : Fin k0_t1_loop.trips) (k0_h3 : k0_cond3 k0_t1 = 1#1)

theorem trips1 : k0_t3_loop.trips = 80 := by decide

/-- Before trip `k`: the two sources as they were, the product buffer with its first `k` rows done. -/
def inv1 (q : PosShare TreeShare) (a : Buf (Elt F) ((sR1).view.loc (thr d L))) (b : Buf (Elt F) ((sD1).view.loc (thr d L)))
    (k : Nat) (_ : BitVec 32) : sProp 𝕄 :=
  iprop(((sR1).view.loc (thr d L) ↦{q} a) ∗ ((sD1).view.loc (thr d L) ↦{q} b)
    ∗ ∃ p : Buf (Elt F) ((sP1).view.loc (thr d L)), ((sP1).view.loc (thr d L) ↦{fullShare} p)
        ∗ ⌜∀ (r : Fin 80) (l : Fin 128), r.val < k → p (ix2 r l) = FloatOps.mulf (a (ix2 r l)) (b (ix2 r l))⌝)

/-- The second slot's product loop: on exit the product buffer holds the pointwise product of the two sources, which are
    unchanged (held at any positive share). -/
theorem mul_loop1 (q : PosShare TreeShare) (a : Buf (Elt F) ((sR1).view.loc (thr d L))) (b : Buf (Elt F) ((sD1).view.loc (thr d L)))
    (p : Buf (Elt F) ((sP1).view.loc (thr d L))) (Q : BitVec 32 → sProp 𝕄) :
    iprop(((sR1).view.loc (thr d L) ↦{q} a) ∗ ((sD1).view.loc (thr d L) ↦{q} b) ∗ ((sP1).view.loc (thr d L) ↦{fullShare} p)
        ∗ (∀ (p' : Buf (Elt F) ((sP1).view.loc (thr d L))) (v : BitVec 32),
            ⌜∀ (r : Fin 80) (l : Fin 128), p' (ix2 r l) = FloatOps.mulf (a (ix2 r l)) (b (ix2 r l))⌝
             -∗ ((sR1).view.loc (thr d L) ↦{q} a) -∗ ((sD1).view.loc (thr d L) ↦{q} b)
             -∗ ((sP1).view.loc (thr d L) ↦{fullShare} p') -∗ Q v))
      ⊢ wp frame (wpE (defs₀ (F := F)) 𝒱₀ (thr d L) none) Set.univ
          (Scf.Loop.for k0_t3_loop (k0_t3_ok k0_t1 k0_h3) 0#32
            (k0_t3_body L zW (Memref.isWhole_whole _) eW (Memref.isWhole_whole _) xW (Memref.isWhole_whole _) sIs (Memref.isWhole_whole _)
              sId (Memref.isWhole_whole _) sR0 (Memref.isWhole_whole _) sD0 (Memref.isWhole_whole _) sR1 (Memref.isWhole_whole _)
              sD1 (Memref.isWhole_whole _) sP0 (Memref.isWhole_whole _) sP1 (Memref.isWhole_whole _)
              cc0_scratch8 cc0_scratch9 cc0_scratch10 cc0_scratch11 cc0_scratch12 cc0_scratch13 cc0_scoped0 cc0_scoped1 k0_t1 k0_h3)) Q := by
  iintro ⟨Ha, Hb, Hp, HQ⟩
  sl_for (inv1 d L q a b) $$ [Ha Hb Hp HQ]
  case region =>
    intro k acc
    unfold inv1
    iintro ⟨Ha, Hb, %p₀, Hp, %hp⟩
    sl_exec
    sl_step
    isplitl [Ha]; · iexact Ha
    isplitl [Hb]; · iexact Hb
    iexists _
    isplitl [Hp]; · iexact Hp
    ipureintro
    exact trip1_val d L k0_t1 k0_h3 a b p₀ k hp
  isplitl [Ha Hb Hp]
  · unfold inv1
    isplitl [Ha]; · iexact Ha
    isplitl [Hb]; · iexact Hb
    iexists p
    isplitl [Hp]; · iexact Hp
    ipureintro
    intro r l h
    exact absurd h (Nat.not_lt_zero _)
  iintro %acc HI
  unfold inv1
  icases HI with ⟨Ha, Hb, %p', Hp, %hp⟩
  ispecialize HQ $$ %p' %acc
  iapply HQ $$ [] [Ha] [Hb] [Hp]
  · ipureintro
    intro r l
    exact hp r l (by rw [show Scf.trips k0_t3_loop.lb k0_t3_loop.ub k0_t3_loop.st = 80 from trips1]; exact r.isLt)
  · iexact Ha
  · iexact Hb
  · iexact Hp

end Loop1

section Bind1
variable (d : Dev nD) (L : grid0.Coords) (k0_t1 : Fin k0_t1_loop.trips) (k0_h3 : k0_cond3 k0_t1 = 1#1)

/-- The same with the loop bound to what follows it: the continuation runs from the finished product buffer. -/
theorem mul_loop1_bind (q : PosShare TreeShare) (a : Buf (Elt F) ((sR1).view.loc (thr d L))) (b : Buf (Elt F) ((sD1).view.loc (thr d L)))
    (p : Buf (Elt F) ((sP1).view.loc (thr d L))) {β : Type}
    (kk : BitVec 32 → Prog (TpuEff nD τ sig (Elt F) Λ₀ (.scVector ((L 0).castLE hcore0) ((L 1).castLE hsub0))) β) (Q : β → sProp 𝕄) :
    iprop(((sR1).view.loc (thr d L) ↦{q} a) ∗ ((sD1).view.loc (thr d L) ↦{q} b) ∗ ((sP1).view.loc (thr d L) ↦{fullShare} p)
        ∗ (∀ (p' : Buf (Elt F) ((sP1).view.loc (thr d L))) (v : BitVec 32),
            ⌜∀ (r : Fin 80) (l : Fin 128), p' (ix2 r l) = FloatOps.mulf (a (ix2 r l)) (b (ix2 r l))⌝
             -∗ ((sR1).view.loc (thr d L) ↦{q} a) -∗ ((sD1).view.loc (thr d L) ↦{q} b)
             -∗ ((sP1).view.loc (thr d L) ↦{fullShare} p')
             -∗ wp frame (wpE (defs₀ (F := F)) 𝒱₀ (thr d L) none) Set.univ (kk v) Q))
      ⊢ wp frame (wpE (defs₀ (F := F)) 𝒱₀ (thr d L) none) Set.univ
          (Scf.Loop.for k0_t3_loop (k0_t3_ok k0_t1 k0_h3) 0#32
            (k0_t3_body L zW (Memref.isWhole_whole _) eW (Memref.isWhole_whole _) xW (Memref.isWhole_whole _) sIs (Memref.isWhole_whole _)
              sId (Memref.isWhole_whole _) sR0 (Memref.isWhole_whole _) sD0 (Memref.isWhole_whole _) sR1 (Memref.isWhole_whole _)
              sD1 (Memref.isWhole_whole _) sP0 (Memref.isWhole_whole _) sP1 (Memref.isWhole_whole _)
              cc0_scratch8 cc0_scratch9 cc0_scratch10 cc0_scratch11 cc0_scratch12 cc0_scratch13 cc0_scoped0 cc0_scoped1 k0_t1 k0_h3) >>= kk) Q := by
  rw [wp_bind]
  exact mul_loop1 d L k0_t1 k0_h3 q a b p _

end Bind1

end Cert.Proof.KB

end
-- ==== Proof.BitsTileTrip.lean ====
/-
  One trip of a vector subcore's pipelined loop keeps the loop's invariant. Trip t runs step 2t in slot 0 and step
  2t + 1 in slot 1: each half waits for its two gathers and for the copy-out of the slot's previous step, multiplies
  the two gathered buffers into the product buffer, re-issues the gathers two steps ahead and issues the copy-out of
  the product into the step's chunk of the band. The chunk whose copy-out was waited for joins the finished chunks;
  the chunk copied into leaves the untouched ones.
-/
import proofs.«202806_g74526272520516_cont_9to1_m_1211_39_alg».proof.Proof.BitsTileInv
import proofs.«202806_g74526272520516_cont_9to1_m_1211_39_alg».proof.Proof.BitsTileFacts
import proofs.«202806_g74526272520516_cont_9to1_m_1211_39_alg».proof.Proof.BitsMulLoop

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ) [FloatOps F]

theorem tcond1_of : ∀ t : Fin k0_t1_loop.trips, 1 ≤ t.val → k0_cond1 t = 1#1 := by decide +kernel
theorem tcond2_of : ∀ t : Fin k0_t1_loop.trips, t.val ≤ 61 → k0_cond2 t = 1#1 := by decide +kernel
theorem tcond3_of : ∀ t : Fin k0_t1_loop.trips, t.val ≤ 61 → k0_cond3 t = 1#1 := by decide +kernel
theorem tcond4_of : ∀ t : Fin k0_t1_loop.trips, 1 ≤ t.val → k0_cond4 t = 1#1 := by decide +kernel
theorem tcond5_of : ∀ t : Fin k0_t1_loop.trips, t.val ≤ 60 → k0_cond5 t = 1#1 := by decide +kernel

section Tile
variable (d : Dev nD) (L : grid0.Coords)

/-- A resource put aside: the same assertion under another name. -/
@[irreducible] def Aside (P : sProp 𝕄) : sProp 𝕄 := P
omit [FloatOps F] in
theorem aside_in (P : sProp 𝕄) : P ⊢ Aside P := by unfold Aside; exact BI.Entails.refl _
omit [FloatOps F] in
theorem aside_out (P : sProp 𝕄) : Aside P ⊢ P := by unfold Aside; exact BI.Entails.refl _

/-- The invariant spelt out. -/
theorem Inv_eq (qz : PosShare TreeShare) (fe : Buf (Elt F) (eLoc d)) (fx0 : Buf (Elt F) (xLoc d))
    (isc : Buf (Elt F) ((sIs).view.loc (thr d L))) (idc : Buf (Elt F) ((sId).view.loc (thr d L)))
    (O : CellTallies nD τ sig (HIx 1)) (W : Waits sig (HIx 1)) (k : ℕ) (v : BitVec 32) :
    Inv m d L qz fe fx0 isc idc O W k v = iprop(Transfers.MayWaits (thr d L) (none : HIx 1) O
    ∗ Slot m d L cc0_scratch8.sem cc0_scratch9.sem cc0_scratch12.sem sR0 sD0 sP0 qA (Transfers.shareTokN qz 0) (Transfers.shareTokN qz 1) fe isc idc (gat0 k) (out0 k)
    ∗ Slot m d L cc0_scratch10.sem cc0_scratch11.sem cc0_scratch13.sem sR1 sD1 sP1 qB (Transfers.shareTokN qz 2) (Transfers.shareTokN qz 3) fe isc idc (gat1 k) (out1 k)
    ∗ XUntouched d L fx0 k ∗ XDone m d L fe k
    ∗ ∃ W', ⌜∀ p ∈ W', p ∈ W ∨ p.2 = none⌝ ∗ owes (thr d L) O W') := rfl

omit [FloatOps F] in
/-- A whole scratch buffer held on its own element set is held whole. -/
theorem pts_whole {sp : Space} {s : Shape} {e : EltTy} (B : Memref sig .scVector sp s e) (hB : B.IsWhole) (q : PosShare TreeShare)
    (g : Buf (Elt F) (B.view.loc (thr d L))) :
    (B.view.loc (thr d L) ↦[B.view.set]{q} g : sProp 𝕄) = (B.view.loc (thr d L) ↦{q} g) := by
  rw [hB.set_eq_univ]

omit [FloatOps F] in
/-- A slice of 80 rows of the feature array at chunk j's offsets, however spelt, has chunk j's elements. -/
theorem set_of_off (j : Fin 125) (off : Fin 2 → ℕ) (inb : ∀ a, off a + S80x128.size a ≤ S320000x128.size a)
    (h0 : off 0 = base L + 80 * j.val) (h1 : off 1 = 0) :
    ((xW).slice (Rect.unit (s := S320000x128) off S80x128.size inb) (fun _ => rfl)).view.set = ckSet d L j := by
  have e : off = ![base L + 80 * j.val, 0] := funext (Fin.forall_fin_two.2 ⟨h0, h1⟩)
  subst e
  rfl

omit [FloatOps F] in
/-- The chunks not yet started on entering trip k are chunks 2k, 2k + 1 and those not yet started on entering trip k + 1. -/
theorem XU_split (fx0 : Buf (Elt F) (xLoc d)) (k : ℕ) (hk : k ≤ 61) (j0 j1 : Fin 125) (h0 : j0.val = 2 * k) (h1 : j1.val = 2 * k + 1) :
    XUntouched (F := F) d L fx0 k
      = iprop(((xW).view.loc (thr d L) ↦[ckSet d L j0]{fullShare} fx0)
          ∗ ((xW).view.loc (thr d L) ↦[ckSet d L j1]{fullShare} fx0) ∗ XUntouched d L fx0 (k + 1)) := by
  unfold XUntouched
  obtain ⟨j0, hj0⟩ := j0
  obtain ⟨j1, hj1⟩ := j1
  simp only at h0 h1
  subst h0 h1
  have e : (Finset.univ.filter fun j : Fin 125 => started k ≤ j.val)
      = insert (⟨2 * k, hj0⟩ : Fin 125) (insert (⟨2 * k + 1, hj1⟩ : Fin 125)
          (Finset.univ.filter fun j : Fin 125 => started (k + 1) ≤ j.val)) := by
    ext ⟨j, hj⟩
    rw [Finset.mem_filter, Finset.mem_insert, Finset.mem_insert, Finset.mem_filter]
    simp only [Finset.mem_univ, _root_.true_and, Fin.mk.injEq, started]
    omega
  rw [e, SparseCore.bigSep_insert' (by
      rw [Finset.mem_insert, Finset.mem_filter]
      simp only [Finset.mem_univ, _root_.true_and, Fin.mk.injEq, started]; omega),
    SparseCore.bigSep_insert' (by
      rw [Finset.mem_filter]
      simp only [Finset.mem_univ, _root_.true_and, started]; omega)]

/-- The finished chunks on entering trip k + 1 are chunks 2k − 2, 2k − 1 and those finished on entering trip k. -/
theorem XD_join (fe : Buf (Elt F) (eLoc d)) (k : ℕ) (hk1 : 1 ≤ k) (hk : k ≤ 61) (j0 j1 : Fin 125) (h0 : j0.val = 2 * k - 2) (h1 : j1.val = 2 * k - 1) :
    XDone m d L fe (k + 1)
      = iprop(((xW).view.loc (thr d L) ↦[ckSet d L j0]{fullShare} Cert.Feature.XF (m (zLoc d)) fe)
          ∗ ((xW).view.loc (thr d L) ↦[ckSet d L j1]{fullShare} Cert.Feature.XF (m (zLoc d)) fe)
          ∗ XDone m d L fe k) := by
  unfold XDone
  obtain ⟨j0, hj0⟩ := j0
  obtain ⟨j1, hj1⟩ := j1
  simp only at h0 h1
  subst h0 h1
  have e : (Finset.univ.filter fun j : Fin 125 => j.val + 2 < started (k + 1))
      = insert (⟨2 * k - 2, hj0⟩ : Fin 125) (insert (⟨2 * k - 1, hj1⟩ : Fin 125)
          (Finset.univ.filter fun j : Fin 125 => j.val + 2 < started k)) := by
    ext ⟨j, hj⟩
    rw [Finset.mem_filter, Finset.mem_insert, Finset.mem_insert, Finset.mem_filter]
    simp only [Finset.mem_univ, _root_.true_and, Fin.mk.injEq, started]
    omega
  rw [e, SparseCore.bigSep_insert' (by
      rw [Finset.mem_insert, Finset.mem_filter]
      simp only [Finset.mem_univ, _root_.true_and, Fin.mk.injEq, started]; omega),
    SparseCore.bigSep_insert' (by
      rw [Finset.mem_filter]
      simp only [Finset.mem_univ, _root_.true_and, started]; omega)]

/-- The copy-outs' destinations, as the body slices them. -/
abbrev xO0 (L : grid0.Coords) (t : Fin k0_t1_loop.trips) : Memref sig .scVector .hbm S80x128 .f32 :=
  (xW).slice (Rect.unit (s := S320000x128) (k0_off14 L t) S80x128.size (k0_off14_inb L t)) (fun _ => rfl)
abbrev xO1 (L : grid0.Coords) (t : Fin k0_t1_loop.trips) (h3 : k0_cond3 t = 1#1) : Memref sig .scVector .hbm S80x128 .f32 :=
  (xW).slice (Rect.unit (s := S320000x128) (k0_off26 L t) S80x128.size (k0_off26_inb L t h3)) (fun _ => rfl)

/-- A slot with its gathers and its copy-out in flight, spelt out. -/
theorem Slot_ss (semG semD semP : DmaSem sig) (R Dd P : Memref sig .scVector .vmem S80x128 .f32) (qt qz0 qz1 : PosShare TreeShare)
    (fe : Buf (Elt F) (eLoc d)) (isc : Buf (Elt F) ((sIs).view.loc (thr d L))) (idc : Buf (Elt F) ((sId).view.loc (thr d L))) (jg jo : ℕ) :
    Slot m d L semG semD semP R Dd P qt qz0 qz1 fe isc idc (some jg) (some jo)
      = iprop(((zW).view.loc (thr d L) ↦[Finset.univ \ (zSl).view.set]{qz0} m (zLoc d))
    ∗ ((zW).view.loc (thr d L) ↦[Finset.univ \ (zSl).view.set]{qz1} m (zLoc d))
    ∗ (∃ (off : Fin 1 → ℕ) (h : ∀ a, off a + S80.size a ≤ S10000.size a) (gS : Buf (Elt F) ((R).view.loc (thr d L))) (gD : Buf (Elt F) ((Dd).view.loc (thr d L))),
            ⌜off 0 = 80 * jg ∧ GRows m d L R fe 0 jg gS ∧ GRows m d L Dd fe 320000 jg gD⌝
            ∗ GFl m d L semG R sIs qt qz0 isc off h gS ∗ GFl m d L semD Dd sId qt qz1 idc off h gD
            ∗ ((sIs).view.loc (thr d L) ↦[Finset.univ \ ((sIs).slice (Rect.unit (s := S10000) off S80.size h) (fun _ => rfl)).view.set]{qt} isc)
            ∗ ((sId).view.loc (thr d L) ↦[Finset.univ \ ((sId).slice (Rect.unit (s := S10000) off S80.size h) (fun _ => rfl)).view.set]{qt} idc))
    ∗ (∃ (off : Fin 2 → ℕ) (h : ∀ a, off a + S80x128.size a ≤ S320000x128.size a) (fx : Buf (Elt F) ((xW).view.loc (thr d L))) (p : Buf (Elt F) ((P).view.loc (thr d L))),
            ⌜off = ![base L + 80 * jo, 0] ∧ ∀ i ∈ ((xW).slice (Rect.unit (s := S320000x128) off S80x128.size h) (fun _ => rfl)).view.set, fx i = Cert.Feature.XF (m (zLoc d)) fe i⌝
            ∗ SFl d L semP P off h fx p)) := rfl

omit [FloatOps F] in
theorem off_eq2 (off : Fin 2 → ℕ) (a : ℕ) (h0 : off 0 = a) (h1 : off 1 = 0) : off = ![a, 0] :=
  funext (Fin.forall_fin_two.2 ⟨h0, h1⟩)

/-- A delivered window at chunk j's offsets whose contents are the feature rows there is chunk j at the feature array. -/
theorem done_chunk (fe : Buf (Elt F) (eLoc d)) (j : Fin 125) (jn : ℕ) (hj : j.val = jn) (off : Fin 2 → ℕ)
    (inb : ∀ a, off a + S80x128.size a ≤ S320000x128.size a) (fx : Buf (Elt F) ((xW).view.loc (thr d L)))
    (hoff : off = ![base L + 80 * jn, 0])
    (hfx : ∀ i ∈ ((xW).slice (Rect.unit (s := S320000x128) off S80x128.size inb) (fun _ => rfl)).view.set, fx i = Cert.Feature.XF (m (zLoc d)) fe i) :
    ((xW).view.loc (thr d L) ↦[((xW).slice (Rect.unit (s := S320000x128) off S80x128.size inb) (fun _ => rfl)).view.set]{fullShare} fx : sProp 𝕄)
      = ((xW).view.loc (thr d L) ↦[ckSet d L j]{fullShare} Cert.Feature.XF (m (zLoc d)) fe) := by
  subst hoff hj
  rw [pointsTo_congr hfx]

theorem trip_mid (qz : PosShare TreeShare) (fe : Buf (Elt F) (eLoc d)) (hfe : ∀ j, (fe j).toNat < 10000) (fx0 : Buf (Elt F) (xLoc d))
    (fis : Buf (Elt F) ((sIs).view.loc (thr d L))) (fid : Buf (Elt F) ((sId).view.loc (thr d L)))
    (O : CellTallies nD τ sig (HIx 1)) (W : Waits sig (HIx 1))
    (t : Fin k0_t1_loop.trips) (h1 : 1 ≤ t.val) (h60 : t.val ≤ 60) (v : BitVec 32) :
    Inv m d L qz fe fx0 (isC d L fe fis) (idC d L fe fid) O W t.val v
      ⊢ wp frame (wpE (defs₀ (F := F)) 𝒱₀ (thr d L) none) Set.univ
          (k0_t1_body L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1 t v)
          (fun v' => Inv m d L qz fe fx0 (isC d L fe fis) (idC d L fe fid) O W (t.val + 1) v') := by
  have hc1 := tcond1_of t h1
  have hc2 := tcond2_of t (by omega)
  have hc3 := tcond3_of t (by omega)
  have hc4 := tcond4_of t h1
  have hc5 := tcond5_of t h60
  have eg0 : gat0 t.val = some (2 * t.val) := by unfold gat0; rw [if_pos (by omega)]
  have eo0 : out0 t.val = some (2 * t.val - 2) := by unfold out0; rw [if_neg (by omega), if_pos (by omega)]
  have eg1 : gat1 t.val = some (2 * t.val + 1) := by unfold gat1; rw [if_pos (by omega)]
  have eo1 : out1 t.val = some (2 * t.val - 1) := by unfold out1; rw [if_neg (by omega), if_pos (by omega)]
  have hinS : ∀ (off : Fin 1 → Nat) (h : ∀ a, off a + S80.size a ≤ S10000.size a) (hs) (x : S80.Idx),
      (((sIs).slice (Rect.unit (s := S10000) off S80.size h) hs).view.read (Elt F) (isC d L fe fis) x).toNat < 10000 := by
    intro off h hs x
    unfold isC
    rw [View.write_whole_univ, View.read_apply]
    exact hfe _
  have hinD : ∀ (off : Fin 1 → Nat) (h : ∀ a, off a + S80.size a ≤ S10000.size a) (hs) (x : S80.Idx),
      (((sId).slice (Rect.unit (s := S10000) off S80.size h) hs).view.read (Elt F) (idC d L fe fid) x).toNat < 10000 := by
    intro off h hs x
    unfold idC
    rw [View.write_whole_univ, View.read_apply]
    exact hfe _
  obtain ⟨j0, hj0⟩ : ∃ j : Fin 125, j.val = 2 * t.val := ⟨⟨2 * t.val, by omega⟩, rfl⟩
  obtain ⟨j1, hj1⟩ : ∃ j : Fin 125, j.val = 2 * t.val + 1 := ⟨⟨2 * t.val + 1, by omega⟩, rfl⟩
  rw [Inv_eq m d L qz fe fx0 _ _ O W t.val v, eg0, eo0, eg1, eo1, XU_split d L fx0 t.val (by omega) j0 j1 hj0 hj1]
  iintro ⟨#Hmw, HS0, HS1, ⟨Hck0, Hck1, HXU⟩, HXD, %W', %hW', HO⟩
  ihave HS1k := (aside_in (F := F) _) $$ HS1
  ihave Hck1k := (aside_in (F := F) _) $$ Hck1
  unfold Slot
  icases HS0 with ⟨Hzr0, Hzr1, ⟨%offA, %hA, %gS, %gD, %hgA, HF0, HF1, HisA, HidA⟩, ⟨%offX, %hX, %fxo, %po, %hxo, HFP⟩⟩
  unfold GFl SFl k0_t1_body
  sl_exec
  -- the product loop of slot 0
  ihave Ha := (Entails.of_eq (pts_whole (F := F) d L sR0 (Memref.isWhole_whole _) fullShare gS)) $$ HF0_dst
  ihave Hb := (Entails.of_eq (pts_whole (F := F) d L sD0 (Memref.isWhole_whole _) fullShare gD)) $$ HF1_dst
  ihave Hp := (Entails.of_eq (pts_whole (F := F) d L sP0 (Memref.isWhole_whole _) fullShare po)) $$ HFP_src
  iapply (mul_loop0_bind d L fullShare gS gD po _ _)
  isplitl [Ha]; · iexact Ha
  isplitl [Hb]; · iexact Hb
  isplitl [Hp]; · iexact Hp
  iintro %p0 %v0 %hp0 Ha Hb Hp
  -- chunk 2t, spelt as the copy-out's destination
  ihave Hck0' := (Entails.of_eq (congrArg (fun X => ((xW).view.loc (thr d L) ↦[X]{fullShare} fx0 : sProp 𝕄))
      (set_of_off d L j0 (k0_off14 L t) (k0_off14_inb L t) (off14_chunk L t j0 hj0).1 (off14_chunk L t j0 hj0).2).symm)) $$ Hck0
  ihave Hck0'' := (Entails.of_eq (show ((xW).view.loc (thr d L) ↦[(xO0 L t).view.set]{fullShare} fx0 : sProp 𝕄)
      = ((xO0 L t).view.loc (thr d L) ↦[(xO0 L t).view.set]{fullShare} fx0) from rfl)) $$ Hck0'

  sl_exec
  -- slot 0 at trip t + 1: the gathers of step 2t + 2 and the copy-out of step 2t in flight
  have hoffA : k0_off13 t 0 = 80 * (2 * t.val + 2) := by
    rw [k0_off13_eq]; show 160 * t.val + 160 = 80 * (2 * t.val + 2); omega
  have hoffX : k0_off14 L t = ![base L + 80 * (2 * t.val), 0] :=
    off_eq2 _ _ ((off14_chunk L t j0 hj0).1.trans (by rw [hj0])) (off14_chunk L t j0 hj0).2
  have hprod0 := fun r l => prod_rows m d L fe sR0 sD0 gS gD (2 * t.val) (by omega) hgA.2.1 hgA.2.2 p0 hp0 r l
  ihave HS0n := (Entails.of_eq (Slot_ss m d L cc0_scratch8.sem cc0_scratch9.sem cc0_scratch12.sem sR0 sD0 sP0 qA
      (Transfers.shareTokN qz 0) (Transfers.shareTokN qz 1) fe (isC d L fe fis) (idC d L fe fid) (2 * t.val + 2) (2 * t.val)).symm)
    $$ [Hzr0 Hzr1 HF0 HF1 HisA HidA HFP]
  · isplitl [Hzr0]; · iexact Hzr0
    isplitl [Hzr1]; · iexact Hzr1
    isplitl [HF0 HF1 HisA HidA]
    · iexists (k0_off13 t), (k0_off13_inb t hc2), _, _
      isplitr
      pick_goal 2
      · unfold GFl
        isplitl [HF0]; · iexact HF0
        isplitl [HF1]; · iexact HF1
        isplitl [HisA]; · iexact HisA
        iexact HidA
      · ipureintro
        refine ⟨hoffA, ?_, ?_⟩
        · exact grows_src m d L fe hfe sR0 gS fis (2 * t.val + 2) (by omega) (k0_off13 t) hoffA (k0_off13_inb t hc2) _ _ _ _
        · exact grows_dst m d L fe hfe sD0 gD fid (2 * t.val + 2) (by omega) (k0_off13 t) hoffA (k0_off13_inb t hc2) _ _ _ _
    · iexists (k0_off14 L t), (k0_off14_inb L t), _, p0
      isplitr
      pick_goal 2
      · unfold SFl
        iexact HFP
      · ipureintro
        exact ⟨hoffX, window_rows_w m d L fe sP0 p0 (2 * t.val) (by omega) hprod0 (k0_off14 L t) hoffX (k0_off14_inb L t) fx0⟩
  ihave HS0k := (aside_in (F := F) _) $$ HS0n

  -- chunk 2t − 2 is done
  obtain ⟨jd0, hjd0⟩ : ∃ j : Fin 125, j.val = 2 * t.val - 2 := ⟨⟨2 * t.val - 2, by omega⟩, rfl⟩
  obtain ⟨jd1, hjd1⟩ : ∃ j : Fin 125, j.val = 2 * t.val - 1 := ⟨⟨2 * t.val - 1, by omega⟩, rfl⟩
  ihave Hdone0 := (Entails.of_eq (done_chunk m d L fe jd0 _ hjd0 offX hX fxo hxo.1 hxo.2)) $$ HFP_dst
  ihave Hdone0k := (aside_in (F := F) _) $$ Hdone0
  -- slot 1
  ihave HS1 := (aside_out (F := F) _) $$ HS1k
  icases HS1 with ⟨Hzr2, Hzr3, ⟨%offB, %hB, %gS1, %gD1, %hgB, HF2, HF3, HisB, HidB⟩, ⟨%offY, %hY, %fyo, %p1o, %hyo, HFQ⟩⟩
  sl_exec
  ihave Ha1 := (Entails.of_eq (pts_whole (F := F) d L sR1 (Memref.isWhole_whole _) fullShare gS1)) $$ HF2_dst
  ihave Hb1 := (Entails.of_eq (pts_whole (F := F) d L sD1 (Memref.isWhole_whole _) fullShare gD1)) $$ HF3_dst
  ihave Hp1 := (Entails.of_eq (pts_whole (F := F) d L sP1 (Memref.isWhole_whole _) fullShare p1o)) $$ HFQ_src
  iapply (mul_loop1_bind d L t hc3 fullShare gS1 gD1 p1o _ _)
  isplitl [Ha1]; · iexact Ha1
  isplitl [Hb1]; · iexact Hb1
  isplitl [Hp1]; · iexact Hp1
  iintro %p1 %v1 %hp1 Ha1 Hb1 Hp1
  ihave Hck1 := (aside_out (F := F) _) $$ Hck1k
  ihave Hck1' := (Entails.of_eq (congrArg (fun X => ((xW).view.loc (thr d L) ↦[X]{fullShare} fx0 : sProp 𝕄))
      (set_of_off d L j1 (k0_off26 L t) (k0_off26_inb L t hc3) (off26_chunk L t j1 hj1).1 (off26_chunk L t j1 hj1).2).symm)) $$ Hck1
  ihave Hck1'' := (Entails.of_eq (show ((xW).view.loc (thr d L) ↦[(xO1 L t hc3).view.set]{fullShare} fx0 : sProp 𝕄)
      = ((xO1 L t hc3).view.loc (thr d L) ↦[(xO1 L t hc3).view.set]{fullShare} fx0) from rfl)) $$ Hck1'
  sl_exec

  -- slot 1 at trip t + 1: the gathers of step 2t + 3 and the copy-out of step 2t + 1 in flight
  have hoffB : k0_off25 t 0 = 80 * (2 * t.val + 3) := by
    rw [k0_off25_eq]; show 160 * t.val + 240 = 80 * (2 * t.val + 3); omega
  have hoffY : k0_off26 L t = ![base L + 80 * (2 * t.val + 1), 0] :=
    off_eq2 _ _ ((off26_chunk L t j1 hj1).1.trans (by rw [hj1])) (off26_chunk L t j1 hj1).2
  have hprod1 := fun r l => prod_rows m d L fe sR1 sD1 gS1 gD1 (2 * t.val + 1) (by omega) hgB.2.1 hgB.2.2 p1 hp1 r l
  ihave HS1n := (Entails.of_eq (Slot_ss m d L cc0_scratch10.sem cc0_scratch11.sem cc0_scratch13.sem sR1 sD1 sP1 qB
      (Transfers.shareTokN qz 2) (Transfers.shareTokN qz 3) fe (isC d L fe fis) (idC d L fe fid) (2 * t.val + 3) (2 * t.val + 1)).symm)
    $$ [Hzr2 Hzr3 HF2 HF3 HisB HidB HFQ]
  · isplitl [Hzr2]; · iexact Hzr2
    isplitl [Hzr3]; · iexact Hzr3
    isplitl [HF2 HF3 HisB HidB]
    · iexists (k0_off25 t), (k0_off25_inb t hc3 hc5), _, _
      isplitr
      pick_goal 2
      · unfold GFl
        isplitl [HF2]; · iexact HF2
        isplitl [HF3]; · iexact HF3
        isplitl [HisB]; · iexact HisB
        iexact HidB
      · ipureintro
        refine ⟨hoffB, ?_, ?_⟩
        · exact grows_src m d L fe hfe sR1 gS1 fis (2 * t.val + 3) (by omega) (k0_off25 t) hoffB (k0_off25_inb t hc3 hc5) _ _ _ _
        · exact grows_dst m d L fe hfe sD1 gD1 fid (2 * t.val + 3) (by omega) (k0_off25 t) hoffB (k0_off25_inb t hc3 hc5) _ _ _ _
    · iexists (k0_off26 L t), (k0_off26_inb L t hc3), _, p1
      isplitr
      pick_goal 2
      · unfold SFl
        iexact HFQ
      · ipureintro
        exact ⟨hoffY, window_rows_w m d L fe sP1 p1 (2 * t.val + 1) (by omega) hprod1 (k0_off26 L t) hoffY (k0_off26_inb L t hc3) fx0⟩
  ihave Hdone1 := (Entails.of_eq (done_chunk m d L fe jd1 _ hjd1 offY hY fyo hyo.1 hyo.2)) $$ HFQ_dst
  ihave Hdone0 := (aside_out (F := F) _) $$ Hdone0k
  ihave HS0n := (aside_out (F := F) _) $$ HS0k
  sl_step
  have eg0' : gat0 (t.val + 1) = some (2 * t.val + 2) := by unfold gat0; rw [if_pos (by omega)]; exact congrArg some (by omega)
  have eo0' : out0 (t.val + 1) = some (2 * t.val) := by unfold out0; rw [if_neg (by omega), if_pos (by omega)]; exact congrArg some (by omega)
  have eg1' : gat1 (t.val + 1) = some (2 * t.val + 3) := by unfold gat1; rw [if_pos (by omega)]; exact congrArg some (by omega)
  have eo1' : out1 (t.val + 1) = some (2 * t.val + 1) := by unfold out1; rw [if_neg (by omega), if_pos (by omega)]; exact congrArg some (by omega)
  irw [Inv_eq m d L qz fe fx0 _ _ O W (t.val + 1), eg0', eo0', eg1', eo1', XD_join m d L fe t.val h1 (by omega) jd0 jd1 hjd0 hjd1]
  isplitr; · iexact Hmw
  isplitl [HS0n]; · iexact HS0n
  isplitl [HS1n]; · iexact HS1n
  isplitl [HXU]; · iexact HXU
  isplitl [Hdone0 Hdone1 HXD]
  · isplitl [Hdone0]; · iexact Hdone0
    isplitl [Hdone1]; · iexact Hdone1
    iexact HXD
  iexists _
  isplitr
  pick_goal 2
  · iexact HO
  · ipureintro
    intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact hW' p hp

end Tile

end Cert.Proof.KB

end
-- ==== Proof.BitsTileTripEnds.lean ====
/-
  The first and the last trip of a vector subcore's pipelined loop. On the first trip no copy-out is in flight yet, so
  neither half waits for one and no chunk is finished; on the last trip only slot 0 has a step left (step 124), its
  gathers are not re-issued, and slot 1 is passed through untouched.
-/
import proofs.«202806_g74526272520516_cont_9to1_m_1211_39_alg».proof.Proof.BitsTileTrip

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ) [FloatOps F]

section Tile
variable (d : Dev nD) (L : grid0.Coords)

theorem tcond1_not : ∀ t : Fin k0_t1_loop.trips, t.val = 0 → ¬ (k0_cond1 t = 1#1) := by decide +kernel
theorem tcond4_not : ∀ t : Fin k0_t1_loop.trips, t.val = 0 → ¬ (k0_cond4 t = 1#1) := by decide +kernel
theorem tcond2_not : ∀ t : Fin k0_t1_loop.trips, 62 ≤ t.val → ¬ (k0_cond2 t = 1#1) := by decide +kernel
theorem tcond3_not : ∀ t : Fin k0_t1_loop.trips, 62 ≤ t.val → ¬ (k0_cond3 t = 1#1) := by decide +kernel

/-- No chunk is finished on entering the first two trips. -/
theorem XD_low (fe : Buf (Elt F) (eLoc d)) (k : ℕ) (hk : k ≤ 1) : XDone m d L fe k = (BI.emp : sProp 𝕄) := by
  unfold XDone
  have e : (Finset.univ.filter fun j : Fin 125 => j.val + 2 < started k) = ∅ := by
    ext ⟨j, hj⟩
    rw [Finset.mem_filter]
    simp only [Finset.mem_univ, _root_.true_and, started, Finset.notMem_empty, _root_.iff_false]
    omega
  rw [e, bigSep_empty]

/-- A slot with its gathers in flight and no copy-out in flight, spelt out. -/
theorem Slot_sn (semG semD semP : DmaSem sig) (R Dd P : Memref sig .scVector .vmem S80x128 .f32) (qt qz0 qz1 : PosShare TreeShare)
    (fe : Buf (Elt F) (eLoc d)) (isc : Buf (Elt F) ((sIs).view.loc (thr d L))) (idc : Buf (Elt F) ((sId).view.loc (thr d L))) (jg : ℕ) :
    Slot m d L semG semD semP R Dd P qt qz0 qz1 fe isc idc (some jg) none
      = iprop(((zW).view.loc (thr d L) ↦[Finset.univ \ (zSl).view.set]{qz0} m (zLoc d))
    ∗ ((zW).view.loc (thr d L) ↦[Finset.univ \ (zSl).view.set]{qz1} m (zLoc d))
    ∗ (∃ (off : Fin 1 → ℕ) (h : ∀ a, off a + S80.size a ≤ S10000.size a) (gS : Buf (Elt F) ((R).view.loc (thr d L))) (gD : Buf (Elt F) ((Dd).view.loc (thr d L))),
            ⌜off 0 = 80 * jg ∧ GRows m d L R fe 0 jg gS ∧ GRows m d L Dd fe 320000 jg gD⌝
            ∗ GFl m d L semG R sIs qt qz0 isc off h gS ∗ GFl m d L semD Dd sId qt qz1 idc off h gD
            ∗ ((sIs).view.loc (thr d L) ↦[Finset.univ \ ((sIs).slice (Rect.unit (s := S10000) off S80.size h) (fun _ => rfl)).view.set]{qt} isc)
            ∗ ((sId).view.loc (thr d L) ↦[Finset.univ \ ((sId).slice (Rect.unit (s := S10000) off S80.size h) (fun _ => rfl)).view.set]{qt} idc))
    ∗ (semVal (thr d L, SemLoc.dma semP) 0 ∗ ∃ p, (P).view.loc (thr d L) ↦[(P).view.set]{fullShare} p)) := rfl

/-- A slot with no gather in flight and its copy-out in flight, spelt out. -/
theorem Slot_ns (semG semD semP : DmaSem sig) (R Dd P : Memref sig .scVector .vmem S80x128 .f32) (qt qz0 qz1 : PosShare TreeShare)
    (fe : Buf (Elt F) (eLoc d)) (isc : Buf (Elt F) ((sIs).view.loc (thr d L))) (idc : Buf (Elt F) ((sId).view.loc (thr d L))) (jo : ℕ) :
    Slot m d L semG semD semP R Dd P qt qz0 qz1 fe isc idc none (some jo)
      = iprop(((zW).view.loc (thr d L) ↦[Finset.univ \ (zSl).view.set]{qz0} m (zLoc d))
    ∗ ((zW).view.loc (thr d L) ↦[Finset.univ \ (zSl).view.set]{qz1} m (zLoc d))
    ∗ (semVal (thr d L, SemLoc.dma semG) 0 ∗ semVal (thr d L, SemLoc.dma semD) 0
            ∗ ((zW).view.loc (thr d L) ↦[(zSl).view.set]{qz0} m (zLoc d)) ∗ ((zW).view.loc (thr d L) ↦[(zSl).view.set]{qz1} m (zLoc d))
            ∗ (∃ g, (R).view.loc (thr d L) ↦[(R).view.set]{fullShare} g) ∗ (∃ g, (Dd).view.loc (thr d L) ↦[(Dd).view.set]{fullShare} g)
            ∗ ((sIs).view.loc (thr d L) ↦{qt} isc) ∗ ((sId).view.loc (thr d L) ↦{qt} idc))
    ∗ (∃ (off : Fin 2 → ℕ) (h : ∀ a, off a + S80x128.size a ≤ S320000x128.size a) (fx : Buf (Elt F) ((xW).view.loc (thr d L))) (p : Buf (Elt F) ((P).view.loc (thr d L))),
            ⌜off = ![base L + 80 * jo, 0] ∧ ∀ i ∈ ((xW).slice (Rect.unit (s := S320000x128) off S80x128.size h) (fun _ => rfl)).view.set, fx i = Cert.Feature.XF (m (zLoc d)) fe i⌝
            ∗ SFl d L semP P off h fx p)) := rfl

omit [FloatOps F] in
/-- On entering the last trip only chunk 124 is not yet started; after it none is. -/
theorem XU_last (fx0 : Buf (Elt F) (xLoc d)) (j0 : Fin 125) (h0 : j0.val = 124) :
    XUntouched (F := F) d L fx0 62
      = iprop(((xW).view.loc (thr d L) ↦[ckSet d L j0]{fullShare} fx0) ∗ XUntouched d L fx0 63) := by
  unfold XUntouched
  obtain ⟨j0, hj0⟩ := j0
  simp only at h0
  subst h0
  have e : (Finset.univ.filter fun j : Fin 125 => started 62 ≤ j.val)
      = insert (⟨124, hj0⟩ : Fin 125) (Finset.univ.filter fun j : Fin 125 => started 63 ≤ j.val) := by
    ext ⟨j, hj⟩
    rw [Finset.mem_filter, Finset.mem_insert, Finset.mem_filter]
    simp only [Finset.mem_univ, _root_.true_and, Fin.mk.injEq, started]
    omega
  rw [e, SparseCore.bigSep_insert' (by
      rw [Finset.mem_filter]
      simp only [Finset.mem_univ, _root_.true_and, started]; omega)]

/-- The finished chunks after the last trip are chunk 122 and those finished on entering it. -/
theorem XD_last (fe : Buf (Elt F) (eLoc d)) (j0 : Fin 125) (h0 : j0.val = 122) :
    XDone m d L fe 63
      = iprop(((xW).view.loc (thr d L) ↦[ckSet d L j0]{fullShare} Cert.Feature.XF (m (zLoc d)) fe) ∗ XDone m d L fe 62) := by
  unfold XDone
  obtain ⟨j0, hj0⟩ := j0
  simp only at h0
  subst h0
  have e : (Finset.univ.filter fun j : Fin 125 => j.val + 2 < started 63)
      = insert (⟨122, hj0⟩ : Fin 125) (Finset.univ.filter fun j : Fin 125 => j.val + 2 < started 62) := by
    ext ⟨j, hj⟩
    rw [Finset.mem_filter, Finset.mem_insert, Finset.mem_filter]
    simp only [Finset.mem_univ, _root_.true_and, Fin.mk.injEq, started]
    omega
  rw [e, SparseCore.bigSep_insert' (by
      rw [Finset.mem_filter]
      simp only [Finset.mem_univ, _root_.true_and, started]; omega)]

theorem trip_first (qz : PosShare TreeShare) (fe : Buf (Elt F) (eLoc d)) (hfe : ∀ j, (fe j).toNat < 10000) (fx0 : Buf (Elt F) (xLoc d))
    (fis : Buf (Elt F) ((sIs).view.loc (thr d L))) (fid : Buf (Elt F) ((sId).view.loc (thr d L)))
    (O : CellTallies nD τ sig (HIx 1)) (W : Waits sig (HIx 1))
    (t : Fin k0_t1_loop.trips) (h0 : t.val = 0) (v : BitVec 32) :
    Inv m d L qz fe fx0 (isC d L fe fis) (idC d L fe fid) O W t.val v
      ⊢ wp frame (wpE (defs₀ (F := F)) 𝒱₀ (thr d L) none) Set.univ
          (k0_t1_body L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1 t v)
          (fun v' => Inv m d L qz fe fx0 (isC d L fe fis) (idC d L fe fid) O W (t.val + 1) v') := by
  have hc1 := tcond1_not t h0
  have hc2 := tcond2_of t (by omega)
  have hc3 := tcond3_of t (by omega)
  have hc4 := tcond4_not t h0
  have hc5 := tcond5_of t (by omega)
  have eg0 : gat0 t.val = some (2 * t.val) := by unfold gat0; rw [if_pos (by omega)]
  have eo0 : out0 t.val = none := by unfold out0; rw [if_pos h0]
  have eg1 : gat1 t.val = some (2 * t.val + 1) := by unfold gat1; rw [if_pos (by omega)]
  have eo1 : out1 t.val = none := by unfold out1; rw [if_pos h0]
  have hinS : ∀ (off : Fin 1 → Nat) (h : ∀ a, off a + S80.size a ≤ S10000.size a) (hs) (x : S80.Idx),
      (((sIs).slice (Rect.unit (s := S10000) off S80.size h) hs).view.read (Elt F) (isC d L fe fis) x).toNat < 10000 := by
    intro off h hs x
    unfold isC
    rw [View.write_whole_univ, View.read_apply]
    exact hfe _
  have hinD : ∀ (off : Fin 1 → Nat) (h : ∀ a, off a + S80.size a ≤ S10000.size a) (hs) (x : S80.Idx),
      (((sId).slice (Rect.unit (s := S10000) off S80.size h) hs).view.read (Elt F) (idC d L fe fid) x).toNat < 10000 := by
    intro off h hs x
    unfold idC
    rw [View.write_whole_univ, View.read_apply]
    exact hfe _
  obtain ⟨j0, hj0⟩ : ∃ j : Fin 125, j.val = 2 * t.val := ⟨⟨2 * t.val, by omega⟩, rfl⟩
  obtain ⟨j1, hj1⟩ : ∃ j : Fin 125, j.val = 2 * t.val + 1 := ⟨⟨2 * t.val + 1, by omega⟩, rfl⟩
  rw [Inv_eq m d L qz fe fx0 _ _ O W t.val v, eg0, eo0, eg1, eo1, XU_split d L fx0 t.val (by omega) j0 j1 hj0 hj1, XD_low m d L fe t.val (by omega)]
  iintro ⟨#Hmw, HS0, HS1, ⟨Hck0, Hck1, HXU⟩, HXD, %W', %hW', HO⟩
  ihave HS1k := (aside_in (F := F) _) $$ HS1
  ihave Hck1k := (aside_in (F := F) _) $$ Hck1
  unfold Slot
  icases HS0 with ⟨Hzr0, Hzr1, ⟨%offA, %hA, %gS, %gD, %hgA, HF0, HF1, HisA, HidA⟩, ⟨HFP, %po, HFP_src⟩⟩
  unfold GFl SFl k0_t1_body
  sl_exec
  -- the product loop of slot 0
  ihave Ha := (Entails.of_eq (pts_whole (F := F) d L sR0 (Memref.isWhole_whole _) fullShare gS)) $$ HF0_dst
  ihave Hb := (Entails.of_eq (pts_whole (F := F) d L sD0 (Memref.isWhole_whole _) fullShare gD)) $$ HF1_dst
  ihave Hp := (Entails.of_eq (pts_whole (F := F) d L sP0 (Memref.isWhole_whole _) fullShare po)) $$ HFP_src
  iapply (mul_loop0_bind d L fullShare gS gD po _ _)
  isplitl [Ha]; · iexact Ha
  isplitl [Hb]; · iexact Hb
  isplitl [Hp]; · iexact Hp
  iintro %p0 %v0 %hp0 Ha Hb Hp
  -- chunk 2t, spelt as the copy-out's destination
  ihave Hck0' := (Entails.of_eq (congrArg (fun X => ((xW).view.loc (thr d L) ↦[X]{fullShare} fx0 : sProp 𝕄))
      (set_of_off d L j0 (k0_off14 L t) (k0_off14_inb L t) (off14_chunk L t j0 hj0).1 (off14_chunk L t j0 hj0).2).symm)) $$ Hck0
  ihave Hck0'' := (Entails.of_eq (show ((xW).view.loc (thr d L) ↦[(xO0 L t).view.set]{fullShare} fx0 : sProp 𝕄)
      = ((xO0 L t).view.loc (thr d L) ↦[(xO0 L t).view.set]{fullShare} fx0) from rfl)) $$ Hck0'

  sl_exec
  -- slot 0 at trip t + 1: the gathers of step 2t + 2 and the copy-out of step 2t in flight
  have hoffA : k0_off13 t 0 = 80 * (2 * t.val + 2) := by
    rw [k0_off13_eq]; show 160 * t.val + 160 = 80 * (2 * t.val + 2); omega
  have hoffX : k0_off14 L t = ![base L + 80 * (2 * t.val), 0] :=
    off_eq2 _ _ ((off14_chunk L t j0 hj0).1.trans (by rw [hj0])) (off14_chunk L t j0 hj0).2
  have hprod0 := fun r l => prod_rows m d L fe sR0 sD0 gS gD (2 * t.val) (by omega) hgA.2.1 hgA.2.2 p0 hp0 r l
  ihave HS0n := (Entails.of_eq (Slot_ss m d L cc0_scratch8.sem cc0_scratch9.sem cc0_scratch12.sem sR0 sD0 sP0 qA
      (Transfers.shareTokN qz 0) (Transfers.shareTokN qz 1) fe (isC d L fe fis) (idC d L fe fid) (2 * t.val + 2) (2 * t.val)).symm)
    $$ [Hzr0 Hzr1 HF0 HF1 HisA HidA HFP]
  · isplitl [Hzr0]; · iexact Hzr0
    isplitl [Hzr1]; · iexact Hzr1
    isplitl [HF0 HF1 HisA HidA]
    · iexists (k0_off13 t), (k0_off13_inb t hc2), _, _
      isplitr
      pick_goal 2
      · unfold GFl
        isplitl [HF0]; · iexact HF0
        isplitl [HF1]; · iexact HF1
        isplitl [HisA]; · iexact HisA
        iexact HidA
      · ipureintro
        refine ⟨hoffA, ?_, ?_⟩
        · exact grows_src m d L fe hfe sR0 gS fis (2 * t.val + 2) (by omega) (k0_off13 t) hoffA (k0_off13_inb t hc2) _ _ _ _
        · exact grows_dst m d L fe hfe sD0 gD fid (2 * t.val + 2) (by omega) (k0_off13 t) hoffA (k0_off13_inb t hc2) _ _ _ _
    · iexists (k0_off14 L t), (k0_off14_inb L t), _, p0
      isplitr
      pick_goal 2
      · unfold SFl
        iexact HFP
      · ipureintro
        exact ⟨hoffX, window_rows_w m d L fe sP0 p0 (2 * t.val) (by omega) hprod0 (k0_off14 L t) hoffX (k0_off14_inb L t) fx0⟩
  ihave HS0k := (aside_in (F := F) _) $$ HS0n

  -- slot 1
  ihave HS1 := (aside_out (F := F) _) $$ HS1k
  icases HS1 with ⟨Hzr2, Hzr3, ⟨%offB, %hB, %gS1, %gD1, %hgB, HF2, HF3, HisB, HidB⟩, ⟨HFQ, %p1o, HFQ_src⟩⟩
  sl_exec
  ihave Ha1 := (Entails.of_eq (pts_whole (F := F) d L sR1 (Memref.isWhole_whole _) fullShare gS1)) $$ HF2_dst
  ihave Hb1 := (Entails.of_eq (pts_whole (F := F) d L sD1 (Memref.isWhole_whole _) fullShare gD1)) $$ HF3_dst
  ihave Hp1 := (Entails.of_eq (pts_whole (F := F) d L sP1 (Memref.isWhole_whole _) fullShare p1o)) $$ HFQ_src
  iapply (mul_loop1_bind d L t hc3 fullShare gS1 gD1 p1o _ _)
  isplitl [Ha1]; · iexact Ha1
  isplitl [Hb1]; · iexact Hb1
  isplitl [Hp1]; · iexact Hp1
  iintro %p1 %v1 %hp1 Ha1 Hb1 Hp1
  ihave Hck1 := (aside_out (F := F) _) $$ Hck1k
  ihave Hck1' := (Entails.of_eq (congrArg (fun X => ((xW).view.loc (thr d L) ↦[X]{fullShare} fx0 : sProp 𝕄))
      (set_of_off d L j1 (k0_off26 L t) (k0_off26_inb L t hc3) (off26_chunk L t j1 hj1).1 (off26_chunk L t j1 hj1).2).symm)) $$ Hck1
  ihave Hck1'' := (Entails.of_eq (show ((xW).view.loc (thr d L) ↦[(xO1 L t hc3).view.set]{fullShare} fx0 : sProp 𝕄)
      = ((xO1 L t hc3).view.loc (thr d L) ↦[(xO1 L t hc3).view.set]{fullShare} fx0) from rfl)) $$ Hck1'
  sl_exec

  -- slot 1 at trip t + 1: the gathers of step 2t + 3 and the copy-out of step 2t + 1 in flight
  have hoffB : k0_off25 t 0 = 80 * (2 * t.val + 3) := by
    rw [k0_off25_eq]; show 160 * t.val + 240 = 80 * (2 * t.val + 3); omega
  have hoffY : k0_off26 L t = ![base L + 80 * (2 * t.val + 1), 0] :=
    off_eq2 _ _ ((off26_chunk L t j1 hj1).1.trans (by rw [hj1])) (off26_chunk L t j1 hj1).2
  have hprod1 := fun r l => prod_rows m d L fe sR1 sD1 gS1 gD1 (2 * t.val + 1) (by omega) hgB.2.1 hgB.2.2 p1 hp1 r l
  ihave HS1n := (Entails.of_eq (Slot_ss m d L cc0_scratch10.sem cc0_scratch11.sem cc0_scratch13.sem sR1 sD1 sP1 qB
      (Transfers.shareTokN qz 2) (Transfers.shareTokN qz 3) fe (isC d L fe fis) (idC d L fe fid) (2 * t.val + 3) (2 * t.val + 1)).symm)
    $$ [Hzr2 Hzr3 HF2 HF3 HisB HidB HFQ]
  · isplitl [Hzr2]; · iexact Hzr2
    isplitl [Hzr3]; · iexact Hzr3
    isplitl [HF2 HF3 HisB HidB]
    · iexists (k0_off25 t), (k0_off25_inb t hc3 hc5), _, _
      isplitr
      pick_goal 2
      · unfold GFl
        isplitl [HF2]; · iexact HF2
        isplitl [HF3]; · iexact HF3
        isplitl [HisB]; · iexact HisB
        iexact HidB
      · ipureintro
        refine ⟨hoffB, ?_, ?_⟩
        · exact grows_src m d L fe hfe sR1 gS1 fis (2 * t.val + 3) (by omega) (k0_off25 t) hoffB (k0_off25_inb t hc3 hc5) _ _ _ _
        · exact grows_dst m d L fe hfe sD1 gD1 fid (2 * t.val + 3) (by omega) (k0_off25 t) hoffB (k0_off25_inb t hc3 hc5) _ _ _ _
    · iexists (k0_off26 L t), (k0_off26_inb L t hc3), _, p1
      isplitr
      pick_goal 2
      · unfold SFl
        iexact HFQ
      · ipureintro
        exact ⟨hoffY, window_rows_w m d L fe sP1 p1 (2 * t.val + 1) (by omega) hprod1 (k0_off26 L t) hoffY (k0_off26_inb L t hc3) fx0⟩
  ihave HS0n := (aside_out (F := F) _) $$ HS0k
  sl_step
  have eg0' : gat0 (t.val + 1) = some (2 * t.val + 2) := by unfold gat0; rw [if_pos (by omega)]; exact congrArg some (by omega)
  have eo0' : out0 (t.val + 1) = some (2 * t.val) := by unfold out0; rw [if_neg (by omega), if_pos (by omega)]; exact congrArg some (by omega)
  have eg1' : gat1 (t.val + 1) = some (2 * t.val + 3) := by unfold gat1; rw [if_pos (by omega)]; exact congrArg some (by omega)
  have eo1' : out1 (t.val + 1) = some (2 * t.val + 1) := by unfold out1; rw [if_neg (by omega), if_pos (by omega)]; exact congrArg some (by omega)
  irw [Inv_eq m d L qz fe fx0 _ _ O W (t.val + 1), eg0', eo0', eg1', eo1', XD_low m d L fe (t.val + 1) (by omega)]
  isplitr; · iexact Hmw
  isplitl [HS0n]; · iexact HS0n
  isplitl [HS1n]; · iexact HS1n
  isplitl [HXU]; · iexact HXU
  isplitl [HXD]; · iexact HXD
  iexists _
  isplitr
  pick_goal 2
  · iexact HO
  · ipureintro
    intro p hp
    simp only [Finset.mem_insert] at hp
    rcases hp with rfl | rfl | rfl | rfl | hp
    · exact .inr rfl
    · exact .inr rfl
    · exact .inr rfl
    · exact .inr rfl
    · exact hW' p hp

theorem trip_62 (qz : PosShare TreeShare) (fe : Buf (Elt F) (eLoc d)) (hfe : ∀ j, (fe j).toNat < 10000) (fx0 : Buf (Elt F) (xLoc d))
    (fis : Buf (Elt F) ((sIs).view.loc (thr d L))) (fid : Buf (Elt F) ((sId).view.loc (thr d L)))
    (O : CellTallies nD τ sig (HIx 1)) (W : Waits sig (HIx 1))
    (t : Fin k0_t1_loop.trips) (h62 : t.val = 62) (v : BitVec 32) :
    Inv m d L qz fe fx0 (isC d L fe fis) (idC d L fe fid) O W t.val v
      ⊢ wp frame (wpE (defs₀ (F := F)) 𝒱₀ (thr d L) none) Set.univ
          (k0_t1_body L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1 t v)
          (fun v' => Inv m d L qz fe fx0 (isC d L fe fis) (idC d L fe fid) O W (t.val + 1) v') := by
  have hc1 := tcond1_of t (by omega)
  have hc2 := tcond2_not t (by omega)
  have hc3 := tcond3_not t (by omega)
  have eg0 : gat0 t.val = some (2 * t.val) := by unfold gat0; rw [if_pos (by omega)]
  have eo0 : out0 t.val = some (2 * t.val - 2) := by unfold out0; rw [if_neg (by omega), if_pos (by omega)]
  obtain ⟨j0, hj0⟩ : ∃ j : Fin 125, j.val = 2 * t.val := ⟨⟨2 * t.val, by omega⟩, rfl⟩
  have e62 : t.val = 62 := h62
  rw [Inv_eq m d L qz fe fx0 _ _ O W t.val v, eg0, eo0, Slot_ss]
  rw [show XUntouched (F := F) d L fx0 t.val = XUntouched d L fx0 62 by rw [e62], XU_last d L fx0 j0 (by omega),
    show XDone m d L fe t.val = XDone m d L fe 62 by rw [e62]]
  iintro ⟨#Hmw, HS0, HS1, ⟨Hck0, HXU⟩, HXD, %W', %hW', HO⟩
  ihave HS1k := (aside_in (F := F) _) $$ HS1
  icases HS0 with ⟨Hzr0, Hzr1, ⟨%offA, %hA, %gS, %gD, %hgA, HF0, HF1, HisA, HidA⟩, ⟨%offX, %hX, %fxo, %po, %hxo, HFP⟩⟩
  unfold GFl SFl k0_t1_body
  sl_exec
  -- the product loop of slot 0
  ihave Ha := (Entails.of_eq (pts_whole (F := F) d L sR0 (Memref.isWhole_whole _) fullShare gS)) $$ HF0_dst
  ihave Hb := (Entails.of_eq (pts_whole (F := F) d L sD0 (Memref.isWhole_whole _) fullShare gD)) $$ HF1_dst
  ihave Hp := (Entails.of_eq (pts_whole (F := F) d L sP0 (Memref.isWhole_whole _) fullShare po)) $$ HFP_src
  iapply (mul_loop0_bind d L fullShare gS gD po _ _)
  isplitl [Ha]; · iexact Ha
  isplitl [Hb]; · iexact Hb
  isplitl [Hp]; · iexact Hp
  iintro %p0 %v0 %hp0 Ha Hb Hp
  -- chunk 2t, spelt as the copy-out's destination
  ihave Hck0' := (Entails.of_eq (congrArg (fun X => ((xW).view.loc (thr d L) ↦[X]{fullShare} fx0 : sProp 𝕄))
      (set_of_off d L j0 (k0_off14 L t) (k0_off14_inb L t) (off14_chunk L t j0 hj0).1 (off14_chunk L t j0 hj0).2).symm)) $$ Hck0
  ihave Hck0'' := (Entails.of_eq (show ((xW).view.loc (thr d L) ↦[(xO0 L t).view.set]{fullShare} fx0 : sProp 𝕄)
      = ((xO0 L t).view.loc (thr d L) ↦[(xO0 L t).view.set]{fullShare} fx0) from rfl)) $$ Hck0'
  sl_exec
  -- chunk 2t − 2 is done
  obtain ⟨jd0, hjd0⟩ : ∃ j : Fin 125, j.val = 2 * t.val - 2 := ⟨⟨2 * t.val - 2, by omega⟩, rfl⟩
  ihave Hdone0 := (Entails.of_eq (done_chunk m d L fe jd0 _ hjd0 offX hX fxo hxo.1 hxo.2)) $$ HFP_dst
  -- slot 0 after the last trip: no gather in flight, the copy-out of step 2t in flight
  have hoffX : k0_off14 L t = ![base L + 80 * (2 * t.val), 0] :=
    off_eq2 _ _ ((off14_chunk L t j0 hj0).1.trans (by rw [hj0])) (off14_chunk L t j0 hj0).2
  have hprod0 := fun r l => prod_rows m d L fe sR0 sD0 gS gD (2 * t.val) (by omega) hgA.2.1 hgA.2.2 p0 hp0 r l
  ihave Hz0s := ((pointsTo_split_subset (Finset.subset_univ ((zSl).view.set))).1) $$ Hzr0
  icases Hz0s with ⟨Hzin0, Hzr0⟩
  ihave Hz1s := ((pointsTo_split_subset (Finset.subset_univ ((zSl).view.set))).1) $$ Hzr1
  icases Hz1s with ⟨Hzin1, Hzr1⟩
  ihave HS0n := (Entails.of_eq (Slot_ns m d L cc0_scratch8.sem cc0_scratch9.sem cc0_scratch12.sem sR0 sD0 sP0 qA
      (Transfers.shareTokN qz 0) (Transfers.shareTokN qz 1) fe (isC d L fe fis) (idC d L fe fid) (2 * t.val)).symm)
    $$ [Hzr0 Hzr1 Hzin0 Hzin1 HF0 HF1 Ha Hb HisA HidA HFP]
  · isplitl [Hzr0]; · iexact Hzr0
    isplitl [Hzr1]; · iexact Hzr1
    isplitl [HF0 HF1 Hzin0 Hzin1 Ha Hb HisA HidA]
    · isplitl [HF0]; · iexact HF0
      isplitl [HF1]; · iexact HF1
      isplitl [Hzin0]; · iexact Hzin0
      isplitl [Hzin1]; · iexact Hzin1
      isplitl [Ha]
      · iexists gS
        iapply (Entails.of_eq (pts_whole (F := F) d L sR0 (Memref.isWhole_whole _) fullShare gS).symm)
        iexact Ha
      isplitl [Hb]
      · iexists gD
        iapply (Entails.of_eq (pts_whole (F := F) d L sD0 (Memref.isWhole_whole _) fullShare gD).symm)
        iexact Hb
      isplitl [HisA]; · iexact HisA
      iexact HidA
    · iexists (k0_off14 L t), (k0_off14_inb L t), _, p0
      isplitr
      pick_goal 2
      · unfold SFl
        iexact HFP
      · ipureintro
        exact ⟨hoffX, window_rows_w m d L fe sP0 p0 (2 * t.val) (by omega) hprod0 (k0_off14 L t) hoffX (k0_off14_inb L t) fx0⟩
  ihave HS1 := (aside_out (F := F) _) $$ HS1k
  sl_step
  have eg0' : gat0 (t.val + 1) = none := by unfold gat0; rw [if_neg (by omega)]
  have eo0' : out0 (t.val + 1) = some (2 * t.val) := by
    unfold out0; rw [if_neg (by omega), if_neg (by omega)]; exact congrArg some (by omega)
  have eg1' : gat1 (t.val + 1) = gat1 t.val := by unfold gat1; rw [if_neg (by omega), if_neg (by omega)]
  have eo1' : out1 (t.val + 1) = out1 t.val := by
    unfold out1; rw [if_neg (by omega), if_neg (by omega), if_neg (by omega), if_pos (by omega)]; exact congrArg some (by omega)
  irw [Inv_eq m d L qz fe fx0 _ _ O W (t.val + 1), eg0', eo0', eg1', eo1',
    show XDone m d L fe (t.val + 1) = XDone m d L fe 63 by rw [e62], XD_last m d L fe jd0 (by omega),
    show XUntouched (F := F) d L fx0 (t.val + 1) = XUntouched d L fx0 63 by rw [e62]]
  isplitr; · iexact Hmw
  isplitl [HS0n]; · iexact HS0n
  isplitl [HS1]; · iexact HS1
  isplitl [HXU]; · iexact HXU
  isplitl [Hdone0 HXD]
  · isplitl [Hdone0]; · iexact Hdone0
    iexact HXD
  iexists _
  isplitr
  pick_goal 2
  · iexact HO
  · ipureintro
    intro p hp
    simp only [Finset.mem_insert] at hp
    rcases hp with rfl | rfl | rfl | hp
    · exact .inr rfl
    · exact .inr rfl
    · exact .inr rfl
    · exact hW' p hp

end Tile

end Cert.Proof.KB

end
-- ==== Proof.BitsTileTrip61.lean ====
/-
  The trip before the last of a vector subcore's pipelined loop keeps the loop's invariant. Trip 61 runs step 122 in slot 0
  and step 123 in slot 1 as every middle trip does, except that slot 1 has no step two ahead (125 would be past the last
  step, 124): after its product it issues only the copy-out, and its gather cells, its two read shares of z, its two
  gathered buffers and its half of the index scratches rest with it, idle, from then on.
-/
import proofs.«202806_g74526272520516_cont_9to1_m_1211_39_alg».proof.Proof.BitsTileTrip

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ) [FloatOps F]

/-- From trip 61 on there is no step two ahead for slot 1. -/
theorem t61_cond5_not : ∀ t : Fin k0_t1_loop.trips, 61 ≤ t.val → ¬ (k0_cond5 t = 1#1) := by decide +kernel

section Tile
variable (d : Dev nD) (L : grid0.Coords)

/-- A slot with its gathers idle and its copy-out in flight, spelt out. -/
theorem t61_Slot_ns (semG semD semP : DmaSem sig) (R Dd P : Memref sig .scVector .vmem S80x128 .f32) (qt qz0 qz1 : PosShare TreeShare)
    (fe : Buf (Elt F) (eLoc d)) (isc : Buf (Elt F) ((sIs).view.loc (thr d L))) (idc : Buf (Elt F) ((sId).view.loc (thr d L))) (jo : ℕ) :
    Slot m d L semG semD semP R Dd P qt qz0 qz1 fe isc idc none (some jo)
      = iprop(((zW).view.loc (thr d L) ↦[Finset.univ \ (zSl).view.set]{qz0} m (zLoc d))
    ∗ ((zW).view.loc (thr d L) ↦[Finset.univ \ (zSl).view.set]{qz1} m (zLoc d))
    ∗ (semVal (thr d L, SemLoc.dma semG) 0 ∗ semVal (thr d L, SemLoc.dma semD) 0
            ∗ ((zW).view.loc (thr d L) ↦[(zSl).view.set]{qz0} m (zLoc d)) ∗ ((zW).view.loc (thr d L) ↦[(zSl).view.set]{qz1} m (zLoc d))
            ∗ (∃ g, (R).view.loc (thr d L) ↦[(R).view.set]{fullShare} g) ∗ (∃ g, (Dd).view.loc (thr d L) ↦[(Dd).view.set]{fullShare} g)
            ∗ ((sIs).view.loc (thr d L) ↦{qt} isc) ∗ ((sId).view.loc (thr d L) ↦{qt} idc))
    ∗ (∃ (off : Fin 2 → ℕ) (h : ∀ a, off a + S80x128.size a ≤ S320000x128.size a) (fx : Buf (Elt F) ((xW).view.loc (thr d L))) (p : Buf (Elt F) ((P).view.loc (thr d L))),
            ⌜off = ![base L + 80 * jo, 0] ∧ ∀ i ∈ ((xW).slice (Rect.unit (s := S320000x128) off S80x128.size h) (fun _ => rfl)).view.set, fx i = Cert.Feature.XF (m (zLoc d)) fe i⌝
            ∗ SFl d L semP P off h fx p)) := rfl

theorem trip_61 (qz : PosShare TreeShare) (fe : Buf (Elt F) (eLoc d)) (hfe : ∀ j, (fe j).toNat < 10000) (fx0 : Buf (Elt F) (xLoc d))
    (fis : Buf (Elt F) ((sIs).view.loc (thr d L))) (fid : Buf (Elt F) ((sId).view.loc (thr d L)))
    (O : CellTallies nD τ sig (HIx 1)) (W : Waits sig (HIx 1))
    (t : Fin k0_t1_loop.trips) (h61 : t.val = 61) (v : BitVec 32) :
    Inv m d L qz fe fx0 (isC d L fe fis) (idC d L fe fid) O W t.val v
      ⊢ wp frame (wpE (defs₀ (F := F)) 𝒱₀ (thr d L) none) Set.univ
          (k0_t1_body L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1 t v)
          (fun v' => Inv m d L qz fe fx0 (isC d L fe fis) (idC d L fe fid) O W (t.val + 1) v') := by
  have h1 : 1 ≤ t.val := by omega
  have hc1 := tcond1_of t h1
  have hc2 := tcond2_of t (by omega)
  have hc3 := tcond3_of t (by omega)
  have hc4 := tcond4_of t h1
  have hc5 := t61_cond5_not t (by omega)
  have eg0 : gat0 t.val = some (2 * t.val) := by unfold gat0; rw [if_pos (by omega)]
  have eo0 : out0 t.val = some (2 * t.val - 2) := by unfold out0; rw [if_neg (by omega), if_pos (by omega)]
  have eg1 : gat1 t.val = some (2 * t.val + 1) := by unfold gat1; rw [if_pos (by omega)]
  have eo1 : out1 t.val = some (2 * t.val - 1) := by unfold out1; rw [if_neg (by omega), if_pos (by omega)]
  have hinS : ∀ (off : Fin 1 → Nat) (h : ∀ a, off a + S80.size a ≤ S10000.size a) (hs) (x : S80.Idx),
      (((sIs).slice (Rect.unit (s := S10000) off S80.size h) hs).view.read (Elt F) (isC d L fe fis) x).toNat < 10000 := by
    intro off h hs x
    unfold isC
    rw [View.write_whole_univ, View.read_apply]
    exact hfe _
  have hinD : ∀ (off : Fin 1 → Nat) (h : ∀ a, off a + S80.size a ≤ S10000.size a) (hs) (x : S80.Idx),
      (((sId).slice (Rect.unit (s := S10000) off S80.size h) hs).view.read (Elt F) (idC d L fe fid) x).toNat < 10000 := by
    intro off h hs x
    unfold idC
    rw [View.write_whole_univ, View.read_apply]
    exact hfe _
  obtain ⟨j0, hj0⟩ : ∃ j : Fin 125, j.val = 2 * t.val := ⟨⟨2 * t.val, by omega⟩, rfl⟩
  obtain ⟨j1, hj1⟩ : ∃ j : Fin 125, j.val = 2 * t.val + 1 := ⟨⟨2 * t.val + 1, by omega⟩, rfl⟩
  rw [Inv_eq m d L qz fe fx0 _ _ O W t.val v, eg0, eo0, eg1, eo1, XU_split d L fx0 t.val (by omega) j0 j1 hj0 hj1]
  iintro ⟨#Hmw, HS0, HS1, ⟨Hck0, Hck1, HXU⟩, HXD, %W', %hW', HO⟩
  ihave HS1k := (aside_in (F := F) _) $$ HS1
  ihave Hck1k := (aside_in (F := F) _) $$ Hck1
  unfold Slot
  icases HS0 with ⟨Hzr0, Hzr1, ⟨%offA, %hA, %gS, %gD, %hgA, HF0, HF1, HisA, HidA⟩, ⟨%offX, %hX, %fxo, %po, %hxo, HFP⟩⟩
  unfold GFl SFl k0_t1_body
  sl_exec
  -- the product loop of slot 0
  ihave Ha := (Entails.of_eq (pts_whole (F := F) d L sR0 (Memref.isWhole_whole _) fullShare gS)) $$ HF0_dst
  ihave Hb := (Entails.of_eq (pts_whole (F := F) d L sD0 (Memref.isWhole_whole _) fullShare gD)) $$ HF1_dst
  ihave Hp := (Entails.of_eq (pts_whole (F := F) d L sP0 (Memref.isWhole_whole _) fullShare po)) $$ HFP_src
  iapply (mul_loop0_bind d L fullShare gS gD po _ _)
  isplitl [Ha]; · iexact Ha
  isplitl [Hb]; · iexact Hb
  isplitl [Hp]; · iexact Hp
  iintro %p0 %v0 %hp0 Ha Hb Hp
  -- chunk 2t, spelt as the copy-out's destination
  ihave Hck0' := (Entails.of_eq (congrArg (fun X => ((xW).view.loc (thr d L) ↦[X]{fullShare} fx0 : sProp 𝕄))
      (set_of_off d L j0 (k0_off14 L t) (k0_off14_inb L t) (off14_chunk L t j0 hj0).1 (off14_chunk L t j0 hj0).2).symm)) $$ Hck0
  ihave Hck0'' := (Entails.of_eq (show ((xW).view.loc (thr d L) ↦[(xO0 L t).view.set]{fullShare} fx0 : sProp 𝕄)
      = ((xO0 L t).view.loc (thr d L) ↦[(xO0 L t).view.set]{fullShare} fx0) from rfl)) $$ Hck0'

  sl_exec
  -- slot 0 at trip t + 1: the gathers of step 2t + 2 and the copy-out of step 2t in flight
  have hoffA : k0_off13 t 0 = 80 * (2 * t.val + 2) := by
    rw [k0_off13_eq]; show 160 * t.val + 160 = 80 * (2 * t.val + 2); omega
  have hoffX : k0_off14 L t = ![base L + 80 * (2 * t.val), 0] :=
    off_eq2 _ _ ((off14_chunk L t j0 hj0).1.trans (by rw [hj0])) (off14_chunk L t j0 hj0).2
  have hprod0 := fun r l => prod_rows m d L fe sR0 sD0 gS gD (2 * t.val) (by omega) hgA.2.1 hgA.2.2 p0 hp0 r l
  ihave HS0n := (Entails.of_eq (Slot_ss m d L cc0_scratch8.sem cc0_scratch9.sem cc0_scratch12.sem sR0 sD0 sP0 qA
      (Transfers.shareTokN qz 0) (Transfers.shareTokN qz 1) fe (isC d L fe fis) (idC d L fe fid) (2 * t.val + 2) (2 * t.val)).symm)
    $$ [Hzr0 Hzr1 HF0 HF1 HisA HidA HFP]
  · isplitl [Hzr0]; · iexact Hzr0
    isplitl [Hzr1]; · iexact Hzr1
    isplitl [HF0 HF1 HisA HidA]
    · iexists (k0_off13 t), (k0_off13_inb t hc2), _, _
      isplitr
      pick_goal 2
      · unfold GFl
        isplitl [HF0]; · iexact HF0
        isplitl [HF1]; · iexact HF1
        isplitl [HisA]; · iexact HisA
        iexact HidA
      · ipureintro
        refine ⟨hoffA, ?_, ?_⟩
        · exact grows_src m d L fe hfe sR0 gS fis (2 * t.val + 2) (by omega) (k0_off13 t) hoffA (k0_off13_inb t hc2) _ _ _ _
        · exact grows_dst m d L fe hfe sD0 gD fid (2 * t.val + 2) (by omega) (k0_off13 t) hoffA (k0_off13_inb t hc2) _ _ _ _
    · iexists (k0_off14 L t), (k0_off14_inb L t), _, p0
      isplitr
      pick_goal 2
      · unfold SFl
        iexact HFP
      · ipureintro
        exact ⟨hoffX, window_rows_w m d L fe sP0 p0 (2 * t.val) (by omega) hprod0 (k0_off14 L t) hoffX (k0_off14_inb L t) fx0⟩
  ihave HS0k := (aside_in (F := F) _) $$ HS0n

  -- chunk 2t − 2 is done
  obtain ⟨jd0, hjd0⟩ : ∃ j : Fin 125, j.val = 2 * t.val - 2 := ⟨⟨2 * t.val - 2, by omega⟩, rfl⟩
  obtain ⟨jd1, hjd1⟩ : ∃ j : Fin 125, j.val = 2 * t.val - 1 := ⟨⟨2 * t.val - 1, by omega⟩, rfl⟩
  ihave Hdone0 := (Entails.of_eq (done_chunk m d L fe jd0 _ hjd0 offX hX fxo hxo.1 hxo.2)) $$ HFP_dst
  ihave Hdone0k := (aside_in (F := F) _) $$ Hdone0
  -- slot 1
  ihave HS1 := (aside_out (F := F) _) $$ HS1k
  icases HS1 with ⟨Hzr2, Hzr3, ⟨%offB, %hB, %gS1, %gD1, %hgB, HF2, HF3, HisB, HidB⟩, ⟨%offY, %hY, %fyo, %p1o, %hyo, HFQ⟩⟩
  sl_exec
  ihave Ha1 := (Entails.of_eq (pts_whole (F := F) d L sR1 (Memref.isWhole_whole _) fullShare gS1)) $$ HF2_dst
  ihave Hb1 := (Entails.of_eq (pts_whole (F := F) d L sD1 (Memref.isWhole_whole _) fullShare gD1)) $$ HF3_dst
  ihave Hp1 := (Entails.of_eq (pts_whole (F := F) d L sP1 (Memref.isWhole_whole _) fullShare p1o)) $$ HFQ_src
  iapply (mul_loop1_bind d L t hc3 fullShare gS1 gD1 p1o _ _)
  isplitl [Ha1]; · iexact Ha1
  isplitl [Hb1]; · iexact Hb1
  isplitl [Hp1]; · iexact Hp1
  iintro %p1 %v1 %hp1 Ha1 Hb1 Hp1
  ihave Hck1 := (aside_out (F := F) _) $$ Hck1k
  ihave Hck1' := (Entails.of_eq (congrArg (fun X => ((xW).view.loc (thr d L) ↦[X]{fullShare} fx0 : sProp 𝕄))
      (set_of_off d L j1 (k0_off26 L t) (k0_off26_inb L t hc3) (off26_chunk L t j1 hj1).1 (off26_chunk L t j1 hj1).2).symm)) $$ Hck1
  ihave Hck1'' := (Entails.of_eq (show ((xW).view.loc (thr d L) ↦[(xO1 L t hc3).view.set]{fullShare} fx0 : sProp 𝕄)
      = ((xO1 L t hc3).view.loc (thr d L) ↦[(xO1 L t hc3).view.set]{fullShare} fx0) from rfl)) $$ Hck1'
  sl_exec

  -- slot 1 at trip t + 1: its gathers idle, the copy-out of step 2t + 1 in flight
  have hoffY : k0_off26 L t = ![base L + 80 * (2 * t.val + 1), 0] :=
    off_eq2 _ _ ((off26_chunk L t j1 hj1).1.trans (by rw [hj1])) (off26_chunk L t j1 hj1).2
  have hprod1 := fun r l => prod_rows m d L fe sR1 sD1 gS1 gD1 (2 * t.val + 1) (by omega) hgB.2.1 hgB.2.2 p1 hp1 r l
  ihave Hz2 := (pointsTo_split_subset (Finset.subset_univ (zSl).view.set)).1 $$ Hzr2
  icases Hz2 with ⟨Hzin2, Hzr2⟩
  ihave Hz3 := (pointsTo_split_subset (Finset.subset_univ (zSl).view.set)).1 $$ Hzr3
  icases Hz3 with ⟨Hzin3, Hzr3⟩
  ihave HS1n := (Entails.of_eq (t61_Slot_ns m d L cc0_scratch10.sem cc0_scratch11.sem cc0_scratch13.sem sR1 sD1 sP1 qB
      (Transfers.shareTokN qz 2) (Transfers.shareTokN qz 3) fe (isC d L fe fis) (idC d L fe fid) (2 * t.val + 1)).symm)
    $$ [Hzr2 Hzr3 HF2 HF3 Hzin2 Hzin3 Ha1 Hb1 HisB HidB HFQ]
  · isplitl [Hzr2]; · iexact Hzr2
    isplitl [Hzr3]; · iexact Hzr3
    isplitl [HF2 HF3 Hzin2 Hzin3 Ha1 Hb1 HisB HidB]
    · isplitl [HF2]; · iexact HF2
      isplitl [HF3]; · iexact HF3
      isplitl [Hzin2]; · iexact Hzin2
      isplitl [Hzin3]; · iexact Hzin3
      isplitl [Ha1]
      · iexists gS1
        iapply (Entails.of_eq (pts_whole (F := F) d L sR1 (Memref.isWhole_whole _) fullShare gS1).symm)
        iexact Ha1
      isplitl [Hb1]
      · iexists gD1
        iapply (Entails.of_eq (pts_whole (F := F) d L sD1 (Memref.isWhole_whole _) fullShare gD1).symm)
        iexact Hb1
      isplitl [HisB]; · iexact HisB
      iexact HidB
    · iexists (k0_off26 L t), (k0_off26_inb L t hc3), _, p1
      isplitr
      pick_goal 2
      · unfold SFl
        iexact HFQ
      · ipureintro
        exact ⟨hoffY, window_rows_w m d L fe sP1 p1 (2 * t.val + 1) (by omega) hprod1 (k0_off26 L t) hoffY (k0_off26_inb L t hc3) fx0⟩
  ihave Hdone1 := (Entails.of_eq (done_chunk m d L fe jd1 _ hjd1 offY hY fyo hyo.1 hyo.2)) $$ HFQ_dst
  ihave Hdone0 := (aside_out (F := F) _) $$ Hdone0k
  ihave HS0n := (aside_out (F := F) _) $$ HS0k
  sl_step
  have eg0' : gat0 (t.val + 1) = some (2 * t.val + 2) := by unfold gat0; rw [if_pos (by omega)]; exact congrArg some (by omega)
  have eo0' : out0 (t.val + 1) = some (2 * t.val) := by unfold out0; rw [if_neg (by omega), if_pos (by omega)]; exact congrArg some (by omega)
  have eg1' : gat1 (t.val + 1) = none := by unfold gat1; rw [if_neg (by omega)]
  have eo1' : out1 (t.val + 1) = some (2 * t.val + 1) := by unfold out1; rw [if_neg (by omega), if_pos (by omega)]; exact congrArg some (by omega)
  irw [Inv_eq m d L qz fe fx0 _ _ O W (t.val + 1), eg0', eo0', eg1', eo1', XD_join m d L fe t.val h1 (by omega) jd0 jd1 hjd0 hjd1]
  isplitr; · iexact Hmw
  isplitl [HS0n]; · iexact HS0n
  isplitl [HS1n]; · iexact HS1n
  isplitl [HXU]; · iexact HXU
  isplitl [Hdone0 Hdone1 HXD]
  · isplitl [Hdone0]; · iexact Hdone0
    isplitl [Hdone1]; · iexact Hdone1
    iexact HXD
  iexists _
  isplitr
  pick_goal 2
  · iexact HO
  · ipureintro
    intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact hW' p hp

end Tile

end Cert.Proof.KB

end
-- ==== Proof.BitsTileTripAll.lean ====
/-
  Every trip of a vector subcore's pipelined loop keeps the loop's invariant: the first trip, the trips with every
  optional part present (1 ≤ t ≤ 60), trip 61 (slot 1's gathers not re-issued) and the last trip, 62.
-/
import proofs.«202806_g74526272520516_cont_9to1_m_1211_39_alg».proof.Proof.BitsTileTripEnds
import proofs.«202806_g74526272520516_cont_9to1_m_1211_39_alg».proof.Proof.BitsTileTrip61

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ) [FloatOps F]

section Tile
variable (d : Dev nD) (L : grid0.Coords)

theorem trips_outer : k0_t1_loop.trips = 63 := by decide

theorem trip (qz : PosShare TreeShare) (fe : Buf (Elt F) (eLoc d)) (hfe : ∀ j, (fe j).toNat < 10000) (fx0 : Buf (Elt F) (xLoc d))
    (fis : Buf (Elt F) ((sIs).view.loc (thr d L))) (fid : Buf (Elt F) ((sId).view.loc (thr d L)))
    (O : CellTallies nD τ sig (HIx 1)) (W : Waits sig (HIx 1))
    (t : Fin k0_t1_loop.trips)  (v : BitVec 32) :
    Inv m d L qz fe fx0 (isC d L fe fis) (idC d L fe fid) O W t.val v
      ⊢ wp frame (wpE (defs₀ (F := F)) 𝒱₀ (thr d L) none) Set.univ
          (k0_t1_body L zW (Memref.isWhole_whole _) eW (Memref.isWhole_whole _) xW (Memref.isWhole_whole _)
            sIs (Memref.isWhole_whole _) sId (Memref.isWhole_whole _) sR0 (Memref.isWhole_whole _) sD0 (Memref.isWhole_whole _)
            sR1 (Memref.isWhole_whole _) sD1 (Memref.isWhole_whole _) sP0 (Memref.isWhole_whole _) sP1 (Memref.isWhole_whole _)
            cc0_scratch8 cc0_scratch9 cc0_scratch10 cc0_scratch11 cc0_scratch12 cc0_scratch13 cc0_scoped0 cc0_scoped1 t v)
          (fun v' => Inv m d L qz fe fx0 (isC d L fe fis) (idC d L fe fid) O W (t.val + 1) v') := by
  have h63 : t.val < 63 := lt_of_lt_of_eq t.isLt trips_outer
  rcases Nat.eq_zero_or_pos t.val with h0 | h1
  · exact trip_first m d L qz fe hfe fx0 fis fid O W t h0 v
  by_cases h60 : t.val ≤ 60
  · exact trip_mid m d L qz fe hfe fx0 fis fid O W t h1 h60 v
  by_cases h61 : t.val = 61
  · exact trip_61 m d L qz fe hfe fx0 fis fid O W t h61 v
  · exact trip_62 m d L qz fe hfe fx0 fis fid O W t (by omega) v

end Tile

end Cert.Proof.KB

end
-- ==== Proof.BitsTileOwn.lean ====
/-
  A vector subcore's contract in the launch theorem's spelling, from the contract with its own scratch spelt out.

  What the launch hands a vector subcore as "everything scoped to it" is exactly its own buffers, each whole at
  some contents, and its own semaphore cells, each at zero. Among the buffers are the eight scratch buffers of
  the task, among the cells its eight DMA semaphores; taking those sixteen out leaves a remainder the task never
  touches. So the task run from the sixteen (and the arrays) may be framed by the remainder, and at the end the
  sixteen and the remainder make up "everything scoped to it" again.
-/
import proofs.«202806_g74526272520516_cont_9to1_m_1211_39_alg».proof.Proof.BitsTileIface

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Own

variable (d : Dev nD) (L : grid0.Coords)

/-- The cell of one of the subcore's DMA semaphores. -/
abbrev cell (s : DmaSems sig S_) : GSem nD τ sig := (thr d L, SemLoc.dma s.sem)

theorem cell_ne {a b : SemLoc sig} (h : a ≠ b) : ((thr d L, a) : GSem nD τ sig) ≠ (thr d L, b) :=
  fun e => h (congrArg Prod.snd e)

/-- The subcore's own cells but the task's eight. -/
abbrev restCells : Finset (GSem nD τ sig) :=
  (((((((((ownCells (thr d L)).erase (cell d L cc0_scratch8)).erase (cell d L cc0_scratch9)).erase (cell d L cc0_scratch10)).erase (cell d L cc0_scratch11)).erase (cell d L cc0_scratch12)).erase (cell d L cc0_scratch13)).erase (cell d L cc0_scoped0)).erase (cell d L cc0_scoped1))

/-- The subcore's own buffers but the task's eight. -/
abbrev restRefs : Finset (DevRef τ sig) :=
  (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7))

/-- The eight DMA semaphores are among the subcore's own cells: its cells at zero are those eight at zero and the rest. -/
theorem ownSems0_V8 :
    (ownSems0 (thr d L) : sProp 𝕄)
      = iprop(semVal (cell d L cc0_scratch8) 0 ∗ semVal (cell d L cc0_scratch9) 0 ∗ semVal (cell d L cc0_scratch10) 0 ∗ semVal (cell d L cc0_scratch11) 0 ∗ semVal (cell d L cc0_scratch12) 0 ∗ semVal (cell d L cc0_scratch13) 0 ∗ semVal (cell d L cc0_scoped0) 0 ∗ semVal (cell d L cc0_scoped1) 0
          ∗ bigSep (restCells d L) fun g => semVal g 0) := by
  unfold SparseCore.Cfg.ownSems0
  rw [SparseCore.bigSep_erase' ((mem_ownCells (g := cell d L cc0_scratch8)).mpr ⟨rfl, by
        show (SemLoc.dma cc0_scratch8.sem : SemLoc sig).isScoped .scVector = true; decide⟩),
    SparseCore.bigSep_erase' (Finset.mem_erase.mpr ⟨cell_ne d L (show (SemLoc.dma cc0_scratch9.sem : SemLoc sig) ≠ SemLoc.dma cc0_scratch8.sem by decide),
      (mem_ownCells (g := cell d L cc0_scratch9)).mpr ⟨rfl, by
        show (SemLoc.dma cc0_scratch9.sem : SemLoc sig).isScoped .scVector = true; decide⟩⟩),
    SparseCore.bigSep_erase' (Finset.mem_erase.mpr ⟨cell_ne d L (show (SemLoc.dma cc0_scratch10.sem : SemLoc sig) ≠ SemLoc.dma cc0_scratch9.sem by decide),
      Finset.mem_erase.mpr ⟨cell_ne d L (show (SemLoc.dma cc0_scratch10.sem : SemLoc sig) ≠ SemLoc.dma cc0_scratch8.sem by decide),
      (mem_ownCells (g := cell d L cc0_scratch10)).mpr ⟨rfl, by
        show (SemLoc.dma cc0_scratch10.sem : SemLoc sig).isScoped .scVector = true; decide⟩⟩⟩),
    SparseCore.bigSep_erase' (Finset.mem_erase.mpr ⟨cell_ne d L (show (SemLoc.dma cc0_scratch11.sem : SemLoc sig) ≠ SemLoc.dma cc0_scratch10.sem by decide),
      Finset.mem_erase.mpr ⟨cell_ne d L (show (SemLoc.dma cc0_scratch11.sem : SemLoc sig) ≠ SemLoc.dma cc0_scratch9.sem by decide),
      Finset.mem_erase.mpr ⟨cell_ne d L (show (SemLoc.dma cc0_scratch11.sem : SemLoc sig) ≠ SemLoc.dma cc0_scratch8.sem by decide),
      (mem_ownCells (g := cell d L cc0_scratch11)).mpr ⟨rfl, by
        show (SemLoc.dma cc0_scratch11.sem : SemLoc sig).isScoped .scVector = true; decide⟩⟩⟩⟩),
    SparseCore.bigSep_erase' (Finset.mem_erase.mpr ⟨cell_ne d L (show (SemLoc.dma cc0_scratch12.sem : SemLoc sig) ≠ SemLoc.dma cc0_scratch11.sem by decide),
      Finset.mem_erase.mpr ⟨cell_ne d L (show (SemLoc.dma cc0_scratch12.sem : SemLoc sig) ≠ SemLoc.dma cc0_scratch10.sem by decide),
      Finset.mem_erase.mpr ⟨cell_ne d L (show (SemLoc.dma cc0_scratch12.sem : SemLoc sig) ≠ SemLoc.dma cc0_scratch9.sem by decide),
      Finset.mem_erase.mpr ⟨cell_ne d L (show (SemLoc.dma cc0_scratch12.sem : SemLoc sig) ≠ SemLoc.dma cc0_scratch8.sem by decide),
      (mem_ownCells (g := cell d L cc0_scratch12)).mpr ⟨rfl, by
        show (SemLoc.dma cc0_scratch12.sem : SemLoc sig).isScoped .scVector = true; decide⟩⟩⟩⟩⟩),
    SparseCore.bigSep_erase' (Finset.mem_erase.mpr ⟨cell_ne d L (show (SemLoc.dma cc0_scratch13.sem : SemLoc sig) ≠ SemLoc.dma cc0_scratch12.sem by decide),
      Finset.mem_erase.mpr ⟨cell_ne d L (show (SemLoc.dma cc0_scratch13.sem : SemLoc sig) ≠ SemLoc.dma cc0_scratch11.sem by decide),
      Finset.mem_erase.mpr ⟨cell_ne d L (show (SemLoc.dma cc0_scratch13.sem : SemLoc sig) ≠ SemLoc.dma cc0_scratch10.sem by decide),
      Finset.mem_erase.mpr ⟨cell_ne d L (show (SemLoc.dma cc0_scratch13.sem : SemLoc sig) ≠ SemLoc.dma cc0_scratch9.sem by decide),
      Finset.mem_erase.mpr ⟨cell_ne d L (show (SemLoc.dma cc0_scratch13.sem : SemLoc sig) ≠ SemLoc.dma cc0_scratch8.sem by decide),
      (mem_ownCells (g := cell d L cc0_scratch13)).mpr ⟨rfl, by
        show (SemLoc.dma cc0_scratch13.sem : SemLoc sig).isScoped .scVector = true; decide⟩⟩⟩⟩⟩⟩),
    SparseCore.bigSep_erase' (Finset.mem_erase.mpr ⟨cell_ne d L (show (SemLoc.dma cc0_scoped0.sem : SemLoc sig) ≠ SemLoc.dma cc0_scratch13.sem by decide),
      Finset.mem_erase.mpr ⟨cell_ne d L (show (SemLoc.dma cc0_scoped0.sem : SemLoc sig) ≠ SemLoc.dma cc0_scratch12.sem by decide),
      Finset.mem_erase.mpr ⟨cell_ne d L (show (SemLoc.dma cc0_scoped0.sem : SemLoc sig) ≠ SemLoc.dma cc0_scratch11.sem by decide),
      Finset.mem_erase.mpr ⟨cell_ne d L (show (SemLoc.dma cc0_scoped0.sem : SemLoc sig) ≠ SemLoc.dma cc0_scratch10.sem by decide),
      Finset.mem_erase.mpr ⟨cell_ne d L (show (SemLoc.dma cc0_scoped0.sem : SemLoc sig) ≠ SemLoc.dma cc0_scratch9.sem by decide),
      Finset.mem_erase.mpr ⟨cell_ne d L (show (SemLoc.dma cc0_scoped0.sem : SemLoc sig) ≠ SemLoc.dma cc0_scratch8.sem by decide),
      (mem_ownCells (g := cell d L cc0_scoped0)).mpr ⟨rfl, by
        show (SemLoc.dma cc0_scoped0.sem : SemLoc sig).isScoped .scVector = true; decide⟩⟩⟩⟩⟩⟩⟩),
    SparseCore.bigSep_erase' (Finset.mem_erase.mpr ⟨cell_ne d L (show (SemLoc.dma cc0_scoped1.sem : SemLoc sig) ≠ SemLoc.dma cc0_scoped0.sem by decide),
      Finset.mem_erase.mpr ⟨cell_ne d L (show (SemLoc.dma cc0_scoped1.sem : SemLoc sig) ≠ SemLoc.dma cc0_scratch13.sem by decide),
      Finset.mem_erase.mpr ⟨cell_ne d L (show (SemLoc.dma cc0_scoped1.sem : SemLoc sig) ≠ SemLoc.dma cc0_scratch12.sem by decide),
      Finset.mem_erase.mpr ⟨cell_ne d L (show (SemLoc.dma cc0_scoped1.sem : SemLoc sig) ≠ SemLoc.dma cc0_scratch11.sem by decide),
      Finset.mem_erase.mpr ⟨cell_ne d L (show (SemLoc.dma cc0_scoped1.sem : SemLoc sig) ≠ SemLoc.dma cc0_scratch10.sem by decide),
      Finset.mem_erase.mpr ⟨cell_ne d L (show (SemLoc.dma cc0_scoped1.sem : SemLoc sig) ≠ SemLoc.dma cc0_scratch9.sem by decide),
      Finset.mem_erase.mpr ⟨cell_ne d L (show (SemLoc.dma cc0_scoped1.sem : SemLoc sig) ≠ SemLoc.dma cc0_scratch8.sem by decide),
      (mem_ownCells (g := cell d L cc0_scoped1)).mpr ⟨rfl, by
        show (SemLoc.dma cc0_scoped1.sem : SemLoc sig).isScoped .scVector = true; decide⟩⟩⟩⟩⟩⟩⟩⟩)]

/-- The eight scratch buffers are among the subcore's own: its buffers are those eight, at some contents, and the rest. -/
theorem ownBufs_V8 :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide),
      Finset.mem_erase.mpr ⟨fun e => absurd (Proc.devRef_injective _ e) (show (cc0_scratch4 : Ref sig .scVector) ≠ cc0_scratch2 by decide),
      Finset.mem_erase.mpr ⟨fun e => absurd (Proc.devRef_injective _ e) (show (cc0_scratch4 : Ref sig .scVector) ≠ cc0_scratch1 by decide),
      Finset.mem_erase.mpr ⟨fun e => absurd (Proc.devRef_injective _ e) (show (cc0_scratch4 : Ref sig .scVector) ≠ cc0_scratch0 by decide),
      SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide),
      Finset.mem_erase.mpr ⟨fun e => absurd (Proc.devRef_injective _ e) (show (cc0_scratch5 : Ref sig .scVector) ≠ cc0_scratch3 by decide),
      Finset.mem_erase.mpr ⟨fun e => absurd (Proc.devRef_injective _ e) (show (cc0_scratch5 : Ref sig .scVector) ≠ cc0_scratch2 by decide),
      Finset.mem_erase.mpr ⟨fun e => absurd (Proc.devRef_injective _ e) (show (cc0_scratch5 : Ref sig .scVector) ≠ cc0_scratch1 by decide),
      Finset.mem_erase.mpr ⟨fun e => absurd (Proc.devRef_injective _ e) (show (cc0_scratch5 : Ref sig .scVector) ≠ cc0_scratch0 by decide),
      SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide),
      Finset.mem_erase.mpr ⟨fun e => absurd (Proc.devRef_injective _ e) (show (cc0_scratch6 : Ref sig .scVector) ≠ cc0_scratch4 by decide),
      Finset.mem_erase.mpr ⟨fun e => absurd (Proc.devRef_injective _ e) (show (cc0_scratch6 : Ref sig .scVector) ≠ cc0_scratch3 by decide),
      Finset.mem_erase.mpr ⟨fun e => absurd (Proc.devRef_injective _ e) (show (cc0_scratch6 : Ref sig .scVector) ≠ cc0_scratch2 by decide),
      Finset.mem_erase.mpr ⟨fun e => absurd (Proc.devRef_injective _ e) (show (cc0_scratch6 : Ref sig .scVector) ≠ cc0_scratch1 by decide),
      Finset.mem_erase.mpr ⟨fun e => absurd (Proc.devRef_injective _ e) (show (cc0_scratch6 : Ref sig .scVector) ≠ cc0_scratch0 by decide),
      SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide),
      Finset.mem_erase.mpr ⟨fun e => absurd (Proc.devRef_injective _ e) (show (cc0_scratch7 : Ref sig .scVector) ≠ cc0_scratch5 by decide),
      Finset.mem_erase.mpr ⟨fun e => absurd (Proc.devRef_injective _ e) (show (cc0_scratch7 : Ref sig .scVector) ≠ cc0_scratch4 by decide),
      Finset.mem_erase.mpr ⟨fun e => absurd (Proc.devRef_injective _ e) (show (cc0_scratch7 : Ref sig .scVector) ≠ cc0_scratch3 by decide),
      Finset.mem_erase.mpr ⟨fun e => absurd (Proc.devRef_injective _ e) (show (cc0_scratch7 : Ref sig .scVector) ≠ cc0_scratch2 by decide),
      Finset.mem_erase.mpr ⟨fun e => absurd (Proc.devRef_injective _ e) (show (cc0_scratch7 : Ref sig .scVector) ≠ cc0_scratch1 by decide),
      Finset.mem_erase.mpr ⟨fun e => absurd (Proc.devRef_injective _ e) (show (cc0_scratch7 : Ref sig .scVector) ≠ cc0_scratch0 by decide),
      SparseCore.Cfg.mem_ownRefs_of_owner (p := Proc.scVector (cV L) (jV L)) (b := ((Proc.scVector (cV L) (jV L)).devRef cc0_scratch7)) rfl⟩⟩⟩⟩⟩⟩⟩)]

/-- The task's own scratch and semaphores, in the same spelling. -/
theorem tileOwn_eq :
    (tileOwn (F := F) d L : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f)
          ∗ semVal (cell d L cc0_scratch8) 0 ∗ semVal (cell d L cc0_scratch9) 0 ∗ semVal (cell d L cc0_scratch10) 0 ∗ semVal (cell d L cc0_scratch11) 0 ∗ semVal (cell d L cc0_scratch12) 0 ∗ semVal (cell d L cc0_scratch13) 0 ∗ semVal (cell d L cc0_scoped0) 0 ∗ semVal (cell d L cc0_scoped1) 0) := rfl

end Own

variable (m : (ℓ : Loc nD τ sig) → Buf (Elt F) ℓ) [FloatOps F]

/-- The contract in the launch theorem's spelling follows from the contract with the scratch spelt out. -/
theorem contract_of_core (hF : (K (F := F)).Facts) (hcore : TileCore m) : TileContract m := by
  intro _ d L qz fe hfe fx0 O W hO
  rw [(K (F := F)).scopedBufs_V hF d (cV L) (jV L), SparseCore.Cfg.scopedSems0_V (Val := Elt F) d (cV L) (jV L),
    ownSems0_V8, ownBufs_V8]
  -- the sixteen beside the arrays, the remainder aside
  refine (?pre : _ ⊢ iprop((levAts (K (F := F)).L (K (F := F)).lev ∗ tileRes m d L qz fe fx0 ∗ tileOwn d L ∗ owes (thr d L) O W)
      ∗ ((bigSep (restRefs L) fun b => iprop(∃ f, ((d, b) : Loc nD τ sig) ↦{fullShare} f))
        ∗ bigSep (restCells d L) fun g => semVal g 0))).trans ?_
  case pre =>
    rw [tileOwn_eq]
    iintro ⟨Hlv, -, Hres, ⟨Hb0, Hb1, Hb2, Hb3, Hb4, Hb5, Hb6, Hb7, Hbufs⟩, ⟨Hs0, Hs1, Hs2, Hs3, Hs4, Hs5, Hs6, Hs7, Hsems⟩, HO⟩
    isplitr [Hbufs Hsems]
    · isplitl [Hlv]; · iexact Hlv
      isplitl [Hres]; · iexact Hres
      isplitr [HO]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        iexact Hs7
      · iexact HO
    · isplitl [Hbufs]; · iexact Hbufs
      iexact Hsems
  -- the task runs from the sixteen; the remainder frames it; at the end they are put together again
  refine (sep_mono_l (hcore d L qz fe hfe fx0 O W hO)).trans ?_
  refine (wp_frame_r _ _ _).trans (wp_mono _ _ _ fun _ => ?_)
  rw [tileOwn_eq]
  iintro ⟨⟨Hres, ⟨Hb0, Hb1, Hb2, Hb3, Hb4, Hb5, Hb6, Hb7, Hs0, Hs1, Hs2, Hs3, Hs4, Hs5, Hs6, Hs7⟩, HW⟩, Hbufs, Hsems⟩
  isplitl [Hres]; · iexact Hres
  isplitl [Hb0 Hb1 Hb2 Hb3 Hb4 Hb5 Hb6 Hb7 Hbufs]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    iexact Hbufs
  isplitl [Hs0 Hs1 Hs2 Hs3 Hs4 Hs5 Hs6 Hs7 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hsems
  iexact HW

end Cert.Proof.KB

end
-- ==== Proof.BitsTile.lean ====
/-
  The tile's contract, assembled: one trip of the loop keeps the invariant; the task from its start to its end follows from
  one trip; and the tile's own scratch buffers and semaphores are what the launch hands a vector subcore and takes back.
-/
import proofs.«202806_g74526272520516_cont_9to1_m_1211_39_alg».proof.Proof.BitsTileRun
import proofs.«202806_g74526272520516_cont_9to1_m_1211_39_alg».proof.Proof.BitsTileTripAll
import proofs.«202806_g74526272520516_cont_9to1_m_1211_39_alg».proof.Proof.BitsTileOwn

noncomputable section

namespace Cert.Proof.KB

open Cert.Kernel Cert.Kernel.Gen
open Idealize.ShloMosaic

variable {F : FTy → Type}

/-- Every vector subcore's task meets its contract. -/
theorem tile_contract (m : (ℓ : Loc nD τ sig) → Buf (Elt F) ℓ) [FloatOps F] : TileContract m :=
  contract_of_core m facts (tile_core_of_trip m fun d L qz fe hfe fx0 fis fid O W t v => trip m d L qz fe hfe fx0 fis fid O W t v)

end Cert.Proof.KB

end
-- ==== Proof.lean ====
/- The proof of `Cert.Claim` (proofs.«202806_g74526272520516_cont_9to1_m_1211_39_alg».proof.Defs).

   WHAT IS COMPUTED. A graph has 10000 nodes with 128 features each (z) and 320000 edges (edge: a row of sources over a
   row of destinations). The kernel gives one number per edge in two stages. Stage one flattens the edge list and hands
   each of the 32 vector subcores 10000 consecutive edges; a subcore copies its source words and its destination words
   and, in 125 chunks of 80 edges, gathers the two endpoint rows of z of every edge, multiplies them lane by lane and
   writes the products to its band of the feature array:  X(e, k) = z(src e, k) · z(dst e, k).  Stage two runs over X in
   20 blocks of 16000 rows; for a row e it takes the hidden layer  h(e, c) = max (Σ_k X(e, k) · W1(k, c) + b1(c), 0)  of 64
   units, the output unit  Σ_c h(e, c) · W2(c) + b2,  and the logistic function of it. The reference looks the endpoint
   rows up in z — wrapping a negative index and masking an index out of range, neither of which occurs for an index in
   range —, multiplies them, and applies the same two layers, the last step written 1 / (1 + exp (− ·)).

   WHY THEY AGREE. On the extended reals both results are the one function G of the six arguments (Spec.lean). The
   products, the sums and the maxima are taken in the same order on both sides, so no law of arithmetic is used beyond
   unfolding the definitions, and 1 / (1 + exp (− x)) with both ones the float 1 is the logistic function. The kernel's
   side: the feature array of the flattened edge list is the specification's X; each block of stage two stores the body's
   value of its own 16000 rows, the blocks are disjoint and cover the rows, and a block's value at a row is the
   specification's at that row.

   THE INDEX RANGE. The precondition says every endpoint word, read as a signed integer, lies in [0, 9999]. It is used
   twice: a gather whose index names no row of z never completes, so every frame of the kernel needs it; and the
   reference's lookup is the plain row only for an index in range.

   THE SUBCORE'S LOOP is pipelined over two slots, chunk j in slot j mod 2. A step waits for the slot's two gathers,
   waits for the slot's previous write-back (from the second trip on), multiplies, starts the gathers of chunk j + 2 while
   there is one, and starts the write-back of chunk j. Each semaphore carries one transfer at a time and no buffer is read
   or written between a transfer's start and its wait. The invariant says, per slot, which transfers are outstanding and
   that the rows of the band below the current chunk of that slot hold feature rows. The first trip (no write-back to wait
   for), the last full trip (no further gather for the odd slot) and the final trip of one step are cases of the same
   argument. After the loop the two last write-backs are waited for, and the band holds the feature rows of the subcore's
   10000 edges.

   THE LAUNCH hands each subcore a read share of z, its two slices of the flattened edge list and its band; the 32 bands
   partition the rows of X, so after the call X is whole at the feature rows. Stage two is one region of the host
   program, from the six arrays it reads and writes. The three frames are the runs with the values dropped; the kernel as
   printed runs word for word as its idealization does, no frame looking at a float's value. -/
import proofs.«202806_g74526272520516_cont_9to1_m_1211_39_alg».proof.Defs
import proofs.«202806_g74526272520516_cont_9to1_m_1211_39_alg».proof.Proof.AssembleBits
import proofs.«202806_g74526272520516_cont_9to1_m_1211_39_alg».proof.Proof.IdealTile
import proofs.«202806_g74526272520516_cont_9to1_m_1211_39_alg».proof.Proof.BitsTile

noncomputable section

namespace Cert.Proof

/-- The claim: the five conjuncts, from the subcore's contract at the machine's floats and at the extended reals. -/
theorem claim : Cert.Claim :=
  Cert.Proof.Asm.claim_of_contracts (fun m => Cert.Proof.KB.tile_contract m) (fun m => Cert.Proof.KI.tile_contract m)

end Cert.Proof

end
